-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x1 : Shape := ⟨2, ![16384, 1]⟩
abbrev S16384x128 : Shape := ⟨2, ![16384, 128]⟩
abbrev S100000x50 : Shape := ⟨2, ![100000, 50]⟩
abbrev S178x64 : Shape := ⟨2, ![178, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S100000x50 : S_.BroadcastsInDim S100000x50 (![] : Fin 0 → Fin S100000x50.rank)
  reducesTo_S100000x50_S_d0_1 : S100000x50.ReducesTo [0, 1] S_
  bcast_S_S178x64 : S_.BroadcastsInDim S178x64 (![] : Fin 0 → Fin S178x64.rank)
  reducesTo_S178x64_S_d0_1 : S178x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S16384x1 : S_.BroadcastsInDim S16384x1 (![] : Fin 0 → Fin S16384x1.rank)
  reducesTo_S16384x1_S_d0_1 : S16384x1.ReducesTo [0, 1] S_

variable [Facts]

def fn_part2 {F : FTy → Type} [FloatOps F] (main_v28 : IVec S_ 1) (main_v33 : IVec S16384x1 1) : IVec S_ 1 :=
  let main_c_12 : IVec S_ 1 := constantI S_ 1 1#1
  let main_v34 : IVec S_ 1 := (fun x v => Host.reduce IntOp.andi x v reducesTo_S16384x1_S_d0_1 h_S_) main_v33 main_c_12
  let main_v35 : IVec S_ 1 := andi main_v28 main_v34
  main_v35

def fn_part1 {F : FTy → Type} [FloatOps F] (main_arg0 : IVec S16384x1 32) (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S16384x1 32 := broadcastInDim S16384x1 ![] bcast_S_S16384x1 main_c_10
  let main_v30 : IVec S16384x1 1 := cmpi .sge main_arg0 main_v29
  let main_c_11 : IVec S_ 32 := constantI S_ 32 99999#32
  let main_v31 : IVec S16384x1 32 := broadcastInDim S16384x1 ![] bcast_S_S16384x1 main_c_11
  let main_v32 : IVec S16384x1 1 := cmpi .sle main_arg0 main_v31
  let main_v33 : IVec S16384x1 1 := andi main_v30 main_v32
  fn_part2 (F := F) main_v28 main_v33

def fn {F : FTy → Type} [FloatOps F] (main_arg0 : IVec S16384x1 32) (main_arg1 : FVec F S16384x128 .f32) (main_arg2 : FVec F S100000x50 .f32) (main_arg3 : FVec F S178x64 .f32) (main_arg4 : FVec F S64 .f32) (main_arg5 : FVec F S64x1 .f32) (main_arg6 : FVec F S1 .f32) : IVec S_ 1 :=
  let main_v0 : FVec F S16384x128 .f32 := Host.absf main_arg1
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S100000x50 .f32 := Host.absf main_arg2
  let main_cst_0 : FVec F S_ .f32 := constant S_ .f32 0x7F800000#32
  let main_v5 : FVec F S100000x50 .f32 := broadcastInDim S100000x50 ![] bcast_S_S100000x50 main_cst_0
  let main_v6 : IVec S100000x50 1 := cmpf .olt main_v4 main_v5
  let main_c_1 : IVec S_ 1 := constantI S_ 1 1#1
  let main_v7 : IVec S_ 1 := (fun x v => Host.reduce IntOp.andi x v reducesTo_S100000x50_S_d0_1 h_S_) main_v6 main_c_1
  let main_v8 : IVec S_ 1 := andi main_v3 main_v7
  let main_v9 : FVec F S178x64 .f32 := Host.absf main_arg3
  let main_cst_2 : FVec F S_ .f32 := constant S_ .f32 0x7F800000#32
  let main_v10 : FVec F S178x64 .f32 := broadcastInDim S178x64 ![] bcast_S_S178x64 main_cst_2
  let main_v11 : IVec S178x64 1 := cmpf .olt main_v9 main_v10
  let main_c_3 : IVec S_ 1 := constantI S_ 1 1#1
  let main_v12 : IVec S_ 1 := (fun x v => Host.reduce IntOp.andi x v reducesTo_S178x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg5 main_arg6 main_v13 main_v16
-- ==== Kernel.lean ====
abbrev S16384x1 : Shape := ⟨2, ![16384, 1]⟩
abbrev S16384x128 : Shape := ⟨2, ![16384, 128]⟩
abbrev S100000x50 : Shape := ⟨2, ![100000, 50]⟩
abbrev S178x64 : Shape := ⟨2, ![178, 64]⟩
abbrev S64 : Shape := ⟨1, ![64]⟩
abbrev S64x1 : Shape := ⟨2, ![64, 1]⟩
abbrev S1 : Shape := ⟨1, ![1]⟩
abbrev S16384 : Shape := ⟨1, ![16384]⟩
abbrev S50x100000 : Shape := ⟨2, ![50, 100000]⟩
abbrev S50x16384 : Shape := ⟨2, ![50, 16384]⟩
abbrev S100000 : Shape := ⟨1, ![100000]⟩
abbrev S8192 : Shape := ⟨1, ![8192]⟩
abbrev S_ : Shape := ⟨0, ![]⟩
abbrev S1x100000 : Shape := ⟨2, ![1, 100000]⟩
abbrev S16 : Shape := ⟨1, ![16]⟩
abbrev S1x8192 : Shape := ⟨2, ![1, 8192]⟩
abbrev S64x178 : Shape := ⟨2, ![64, 178]⟩
abbrev S64x16384 : Shape := ⟨2, ![64, 16384]⟩
abbrev S8192x128 : Shape := ⟨2, ![8192, 128]⟩
abbrev S64x8192 : Shape := ⟨2, ![64, 8192]⟩
abbrev S64x128 : Shape := ⟨2, ![64, 128]⟩
abbrev S1x64 : Shape := ⟨2, ![1, 64]⟩
abbrev S1x1 : Shape := ⟨2, ![1, 1]⟩
abbrev S1x16384 : Shape := ⟨2, ![1, 16384]⟩
abbrev S50x8192 : Shape := ⟨2, ![50, 8192]⟩
abbrev S64x50 : Shape := ⟨2, ![64, 50]⟩
abbrev S16384x64 : Shape := ⟨2, ![16384, 64]⟩

abbrev nBuf : Table → Nat
  | .hbm => 19
  | .local .tc .vmem => 17
  | .local .scVector .vmem => 3
  | _ => 0

abbrev bufTy : (tb : Table) → Fin (nBuf tb) → BufTy
  | .hbm, ⟨0, _⟩ => ⟨S16384x1, .i32⟩
  | .hbm, ⟨1, _⟩ => ⟨S16384x128, .f32⟩
  | .hbm, ⟨2, _⟩ => ⟨S100000x50, .f32⟩
  | .hbm, ⟨3, _⟩ => ⟨S178x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S16384, .i32⟩
  | .hbm, ⟨8, _⟩ => ⟨S50x100000, .f32⟩
  | .hbm, ⟨9, _⟩ => ⟨S50x16384, .f32⟩
  | .hbm, ⟨10, _⟩ => ⟨S64x178, .f32⟩
  | .hbm, ⟨11, _⟩ => ⟨S64x1, .f32⟩
  | .hbm, ⟨12, _⟩ => ⟨S64x16384, .f32⟩
  | .hbm, ⟨13, _⟩ => ⟨S1x64, .f32⟩
  | .hbm, ⟨14, _⟩ => ⟨S1x1, .f32⟩
  | .hbm, ⟨15, _⟩ => ⟨S64x16384, .f32⟩
  | .hbm, ⟨16, _⟩ => ⟨S1x16384, .f32⟩
  | .hbm, ⟨17, _⟩ => ⟨S16384x64, .f32⟩
  | .hbm, ⟨18, _⟩ => ⟨S16384x1, .f32⟩
  | .local .tc .vmem, ⟨0, _⟩ => ⟨S8192x128, .f32⟩
  | .local .tc .vmem, ⟨1, _⟩ => ⟨S8192x128, .f32⟩
  | .local .tc .vmem, ⟨2, _⟩ => ⟨S64x178, .f32⟩
  | .local .tc .vmem, ⟨3, _⟩ => ⟨S64x1, .f32⟩
  | .local .tc .vmem, ⟨4, _⟩ => ⟨S64x8192, .f32⟩
  | .local .tc .vmem, ⟨5, _⟩ => ⟨S64x8192, .f32⟩
  | .local .tc .vmem, ⟨6, _⟩ => ⟨S50x8192, .f32⟩
  | .local .tc .vmem, ⟨7, _⟩ => ⟨S50x8192, .f32⟩
  | .local .tc .vmem, ⟨8, _⟩ => ⟨S64x8192, .f32⟩
  | .local .tc .vmem, ⟨9, _⟩ => ⟨S64x8192, .f32⟩
  | .local .tc .vmem, ⟨10, _⟩ => ⟨S64x178, .f32⟩
  | .local .tc .vmem, ⟨11, _⟩ => ⟨S1x64, .f32⟩
  | .local .tc .vmem, ⟨12, _⟩ => ⟨S1x1, .f32⟩
  | .local .tc .vmem, ⟨13, _⟩ => ⟨S64x8192, .f32⟩
  | .local .tc .vmem, ⟨14, _⟩ => ⟨S64x8192, .f32⟩
  | .local .tc .vmem, ⟨15, _⟩ => ⟨S1x8192, .f32⟩
  | .local .tc .vmem, ⟨16, _⟩ => ⟨S1x8192, .f32⟩
  | .local .scVector .vmem, ⟨0, _⟩ => ⟨S100000, .f32⟩
  | .local .scVector .vmem, ⟨1, _⟩ => ⟨S8192, .i32⟩
  | .local .scVector .vmem, ⟨2, _⟩ => ⟨S8192, .f32⟩
  | _, _ => ⟨S16384x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v9 : Ref sig .tc := ⟨.hbm, 17, rfl⟩
abbrev main_v10 : Ref sig .tc := ⟨.hbm, 18, rfl⟩
abbrev main_v0_scv : Ref sig .scVector := ⟨.hbm, 7, rfl⟩
abbrev main_v1_scv : Ref sig .scVector := ⟨.hbm, 8, rfl⟩
abbrev main_v2_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg5_1 : Ref sig .tc := ⟨.vmem, 14, rfl⟩
abbrev cc2_stg6_0 : Ref sig .tc := ⟨.vmem, 15, rfl⟩
abbrev cc2_stg6_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc2_sem6_0 : DmaSem sig := 24
abbrev cc2_sem6_1 : DmaSem sig := 25
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c50_i32 : BitVec 32 := 50#32
  let v3 : BitVec 1 := Scalar.cmpi .slt v2 c50_i32
  let v4 : BitVec 32 := Scalar.extui v3
  let c0_i32_0 : BitVec 32 := 0#32
  let v5 : BitVec 1 := Scalar.cmpi .ne v4 c0_i32_0
  v5

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_3 : BitVec 32 := 0#32
  ![v2.toNat, 0]
@[reducible] def k0_t1_loop : Scf.Loop 32 :=
  let c0_i32_8 : BitVec 32 := 0#32
  let c64_i32 : BitVec 32 := 64#32
  let v18 : BitVec 32 := Scalar.addi c0_i32_8 c64_i32
  let c1_i32 : BitVec 32 := 1#32
  ⟨c0_i32_8, v18, c1_i32⟩
def k0_off2 (k0_t1 : Fin k0_t1_loop.trips) : Fin 1 → Nat :=
  let c0_i32_8 : BitVec 32 := 0#32
  let c1_i32 : BitVec 32 := 1#32
  let arg9 : BitVec 32 := Scf.iv c0_i32_8 c1_i32 k0_t1
  let c8_i32 : BitVec 32 := 8#32
  let v20 : BitVec 32 := Scalar.muli arg9 c8_i32
  let c0_i32_15 : BitVec 32 := 0#32
  let v21 : BitVec 32 := Scalar.addi v20 c0_i32_15
  let c16_i32 : BitVec 32 := 16#32
  let v22 : BitVec 32 := Scalar.muli v21 c16_i32
  let v23 : Index := Scalar.indexCast v22
  ![v23.toNat]

def k0_chk1 (i : grid0.Coords) (v24 : IVec S16 32) : Prop :=
  (∀ (k0_h1 : k0_cond1 i = 1#1), ∀ a x, ((![v24] : Fin 1 → IVec S16 32) a x).toNat < S100000.size a)
instance k0_chk1.dec : ∀ (i : grid0.Coords) (v24 : IVec S16 32), Decidable (k0_chk1 i v24) := fun i v24 => decidable_of_iff' _ (Iff.of_eq (k0_chk1.eq_1 i v24))
theorem k0_idx1_inb : ∀ (i : grid0.Coords) (v24 : IVec S16 32) (k0_hw1 : k0_chk1 i v24), ∀ (k0_h1 : k0_cond1 i = 1#1), ∀ a x, ((![v24] : Fin 1 → IVec S16 32) a x).toNat < S100000.size a := fun i v24 k0_hw1 k0_h1 => k0_hw1 k0_h1
def k0_off3 (k0_t1 : Fin k0_t1_loop.trips) (c0_i32_15 : BitVec 32) : Fin 1 → Nat :=
  let c0_i32_8 : BitVec 32 := 0#32
  let c1_i32 : BitVec 32 := 1#32
  let arg9 : BitVec 32 := Scf.iv c0_i32_8 c1_i32 k0_t1
  let c8_i32 : BitVec 32 := 8#32
  let v20 : BitVec 32 := Scalar.muli arg9 c8_i32
  let v21 : BitVec 32 := Scalar.addi v20 c0_i32_15
  let c16_i32 : BitVec 32 := 16#32
  let v22 : BitVec 32 := Scalar.muli v21 c16_i32
  let v26 : Index := Scalar.indexCast v22
  ![v26.toNat]

def k0_chk2 (i : grid0.Coords) (v32 : IVec S16 32) : Prop :=
  (∀ (k0_h1 : k0_cond1 i = 1#1), ∀ a x, ((![v32] : Fin 1 → IVec S16 32) a x).toNat < S100000.size a)
instance k0_chk2.dec : ∀ (i : grid0.Coords) (v32 : IVec S16 32), Decidable (k0_chk2 i v32) := fun i v32 => decidable_of_iff' _ (Iff.of_eq (k0_chk2.eq_1 i v32))
theorem k0_idx2_inb : ∀ (i : grid0.Coords) (v32 : IVec S16 32) (k0_hw2 : k0_chk2 i v32), ∀ (k0_h1 : k0_cond1 i = 1#1), ∀ a x, ((![v32] : Fin 1 → IVec S16 32) a x).toNat < S100000.size a := fun i v32 k0_hw2 k0_h1 => k0_hw2 k0_h1
def k0_off4 (k0_t1 : Fin k0_t1_loop.trips) (c1_i32_17 : BitVec 32) : Fin 1 → Nat :=
  let c0_i32_8 : BitVec 32 := 0#32
  let c1_i32 : BitVec 32 := 1#32
  let arg9 : BitVec 32 := Scf.iv c0_i32_8 c1_i32 k0_t1
  let c8_i32_16 : BitVec 32 := 8#32
  let v28 : BitVec 32 := Scalar.muli arg9 c8_i32_16
  let v29 : BitVec 32 := Scalar.addi v28 c1_i32_17
  let c16_i32_18 : BitVec 32 := 16#32
  let v30 : BitVec 32 := Scalar.muli v29 c16_i32_18
  let v34 : Index := Scalar.indexCast v30
  ![v34.toNat]

def k0_chk3 (i : grid0.Coords) (v40 : IVec S16 32) : Prop :=
  (∀ (k0_h1 : k0_cond1 i = 1#1), ∀ a x, ((![v40] : Fin 1 → IVec S16 32) a x).toNat < S100000.size a)
instance k0_chk3.dec : ∀ (i : grid0.Coords) (v40 : IVec S16 32), Decidable (k0_chk3 i v40) := fun i v40 => decidable_of_iff' _ (Iff.of_eq (k0_chk3.eq_1 i v40))
theorem k0_idx3_inb : ∀ (i : grid0.Coords) (v40 : IVec S16 32) (k0_hw3 : k0_chk3 i v40), ∀ (k0_h1 : k0_cond1 i = 1#1), ∀ a x, ((![v40] : Fin 1 → IVec S16 32) a x).toNat < S100000.size a := fun i v40 k0_hw3 k0_h1 => k0_hw3 k0_h1
def k0_off5 (k0_t1 : Fin k0_t1_loop.trips) (c2_i32_20 : BitVec 32) : Fin 1 → Nat :=
  let c0_i32_8 : BitVec 32 := 0#32
  let c1_i32 : BitVec 32 := 1#32
  let arg9 : BitVec 32 := Scf.iv c0_i32_8 c1_i32 k0_t1
  let c8_i32_19 : BitVec 32 := 8#32
  let v36 : BitVec 32 := Scalar.muli arg9 c8_i32_19
  let v37 : BitVec 32 := Scalar.addi v36 c2_i32_20
  let c16_i32_21 : BitVec 32 := 16#32
  let v38 : BitVec 32 := Scalar.muli v37 c16_i32_21
  let v42 : Index := Scalar.indexCast v38
  ![v42.toNat]

def k0_chk4 (i : grid0.Coords) (v48 : IVec S16 32) : Prop :=
  (∀ (k0_h1 : k0_cond1 i = 1#1), ∀ a x, ((![v48] : Fin 1 → IVec S16 32) a x).toNat < S100000.size a)
instance k0_chk4.dec : ∀ (i : grid0.Coords) (v48 : IVec S16 32), Decidable (k0_chk4 i v48) := fun i v48 => decidable_of_iff' _ (Iff.of_eq (k0_chk4.eq_1 i v48))
theorem k0_idx4_inb : ∀ (i : grid0.Coords) (v48 : IVec S16 32) (k0_hw4 : k0_chk4 i v48), ∀ (k0_h1 : k0_cond1 i = 1#1), ∀ a x, ((![v48] : Fin 1 → IVec S16 32) a x).toNat < S100000.size a := fun i v48 k0_hw4 k0_h1 => k0_hw4 k0_h1
def k0_off6 (k0_t1 : Fin k0_t1_loop.trips) (c3_i32 : BitVec 32) : Fin 1 → Nat :=
  let c0_i32_8 : BitVec 32 := 0#32
  let c1_i32 : BitVec 32 := 1#32
  let arg9 : BitVec 32 := Scf.iv c0_i32_8 c1_i32 k0_t1
  let c8_i32_22 : BitVec 32 := 8#32
  let v44 : BitVec 32 := Scalar.muli arg9 c8_i32_22
  let v45 : BitVec 32 := Scalar.addi v44 c3_i32
  let c16_i32_23 : BitVec 32 := 16#32
  let v46 : BitVec 32 := Scalar.muli v45 c16_i32_23
  let v50 : Index := Scalar.indexCast v46
  ![v50.toNat]

def k0_chk5 (i : grid0.Coords) (v56 : IVec S16 32) : Prop :=
  (∀ (k0_h1 : k0_cond1 i = 1#1), ∀ a x, ((![v56] : Fin 1 → IVec S16 32) a x).toNat < S100000.size a)
instance k0_chk5.dec : ∀ (i : grid0.Coords) (v56 : IVec S16 32), Decidable (k0_chk5 i v56) := fun i v56 => decidable_of_iff' _ (Iff.of_eq (k0_chk5.eq_1 i v56))
theorem k0_idx5_inb : ∀ (i : grid0.Coords) (v56 : IVec S16 32) (k0_hw5 : k0_chk5 i v56), ∀ (k0_h1 : k0_cond1 i = 1#1), ∀ a x, ((![v56] : Fin 1 → IVec S16 32) a x).toNat < S100000.size a := fun i v56 k0_hw5 k0_h1 => k0_hw5 k0_h1
def k0_off7 (k0_t1 : Fin k0_t1_loop.trips) (c4_i32 : BitVec 32) : Fin 1 → Nat :=
  let c0_i32_8 : BitVec 32 := 0#32
  let c1_i32 : BitVec 32 := 1#32
  let arg9 : BitVec 32 := Scf.iv c0_i32_8 c1_i32 k0_t1
  let c8_i32_24 : BitVec 32 := 8#32
  let v52 : BitVec 32 := Scalar.muli arg9 c8_i32_24
  let v53 : BitVec 32 := Scalar.addi v52 c4_i32
  let c16_i32_25 : BitVec 32 := 16#32
  let v54 : BitVec 32 := Scalar.muli v53 c16_i32_25
  let v58 : Index := Scalar.indexCast v54
  ![v58.toNat]

def k0_chk6 (i : grid0.Coords) (v64 : IVec S16 32) : Prop :=
  (∀ (k0_h1 : k0_cond1 i = 1#1), ∀ a x, ((![v64] : Fin 1 → IVec S16 32) a x).toNat < S100000.size a)
instance k0_chk6.dec : ∀ (i : grid0.Coords) (v64 : IVec S16 32), Decidable (k0_chk6 i v64) := fun i v64 => decidable_of_iff' _ (Iff.of_eq (k0_chk6.eq_1 i v64))
theorem k0_idx6_inb : ∀ (i : grid0.Coords) (v64 : IVec S16 32) (k0_hw6 : k0_chk6 i v64), ∀ (k0_h1 : k0_cond1 i = 1#1), ∀ a x, ((![v64] : Fin 1 → IVec S16 32) a x).toNat < S100000.size a := fun i v64 k0_hw6 k0_h1 => k0_hw6 k0_h1
def k0_off8 (k0_t1 : Fin k0_t1_loop.trips) (c5_i32 : BitVec 32) : Fin 1 → Nat :=
  let c0_i32_8 : BitVec 32 := 0#32
  let c1_i32 : BitVec 32 := 1#32
  let arg9 : BitVec 32 := Scf.iv c0_i32_8 c1_i32 k0_t1
  let c8_i32_26 : BitVec 32 := 8#32
  let v60 : BitVec 32 := Scalar.muli arg9 c8_i32_26
  let v61 : BitVec 32 := Scalar.addi v60 c5_i32
  let c16_i32_27 : BitVec 32 := 16#32
  let v62 : BitVec 32 := Scalar.muli v61 c16_i32_27
  let v66 : Index := Scalar.indexCast v62
  ![v66.toNat]

def k0_chk7 (i : grid0.Coords) (v72 : IVec S16 32) : Prop :=
  (∀ (k0_h1 : k0_cond1 i = 1#1), ∀ a x, ((![v72] : Fin 1 → IVec S16 32) a x).toNat < S100000.size a)
instance k0_chk7.dec : ∀ (i : grid0.Coords) (v72 : IVec S16 32), Decidable (k0_chk7 i v72) := fun i v72 => decidable_of_iff' _ (Iff.of_eq (k0_chk7.eq_1 i v72))
theorem k0_idx7_inb : ∀ (i : grid0.Coords) (v72 : IVec S16 32) (k0_hw7 : k0_chk7 i v72), ∀ (k0_h1 : k0_cond1 i = 1#1), ∀ a x, ((![v72] : Fin 1 → IVec S16 32) a x).toNat < S100000.size a := fun i v72 k0_hw7 k0_h1 => k0_hw7 k0_h1
def k0_off9 (k0_t1 : Fin k0_t1_loop.trips) (c6_i32 : BitVec 32) : Fin 1 → Nat :=
  let c0_i32_8 : BitVec 32 := 0#32
  let c1_i32 : BitVec 32 := 1#32
  let arg9 : BitVec 32 := Scf.iv c0_i32_8 c1_i32 k0_t1
  let c8_i32_28 : BitVec 32 := 8#32
  let v68 : BitVec 32 := Scalar.muli arg9 c8_i32_28
  let v69 : BitVec 32 := Scalar.addi v68 c6_i32
  let c16_i32_29 : BitVec 32 := 16#32
  let v70 : BitVec 32 := Scalar.muli v69 c16_i32_29
  let v74 : Index := Scalar.indexCast v70
  ![v74.toNat]

def k0_chk8 (i : grid0.Coords) (v80 : IVec S16 32) : Prop :=
  (∀ (k0_h1 : k0_cond1 i = 1#1), ∀ a x, ((![v80] : Fin 1 → IVec S16 32) a x).toNat < S100000.size a)
instance k0_chk8.dec : ∀ (i : grid0.Coords) (v80 : IVec S16 32), Decidable (k0_chk8 i v80) := fun i v80 => decidable_of_iff' _ (Iff.of_eq (k0_chk8.eq_1 i v80))
theorem k0_idx8_inb : ∀ (i : grid0.Coords) (v80 : IVec S16 32) (k0_hw8 : k0_chk8 i v80), ∀ (k0_h1 : k0_cond1 i = 1#1), ∀ a x, ((![v80] : Fin 1 → IVec S16 32) a x).toNat < S100000.size a := fun i v80 k0_hw8 k0_h1 => k0_hw8 k0_h1
def k0_off10 (k0_t1 : Fin k0_t1_loop.trips) : Fin 1 → Nat :=
  let c0_i32_8 : BitVec 32 := 0#32
  let c1_i32 : BitVec 32 := 1#32
  let arg9 : BitVec 32 := Scf.iv c0_i32_8 c1_i32 k0_t1
  let c8_i32_30 : BitVec 32 := 8#32
  let v76 : BitVec 32 := Scalar.muli arg9 c8_i32_30
  let c7_i32 : BitVec 32 := 7#32
  let v77 : BitVec 32 := Scalar.addi v76 c7_i32
  let c16_i32_31 : BitVec 32 := 16#32
  let v78 : BitVec 32 := Scalar.muli v77 c16_i32_31
  let v82 : Index := Scalar.indexCast v78
  ![v82.toNat]
def k0_off11 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c0_i32_15_r1 : BitVec 32 := 0#32
  ![v2.toNat, 0]
@[reducible] def k0_t2_loop : Scf.Loop 32 :=
  let c0_i32_11 : BitVec 32 := 0#32
  let c64_i32_12 : BitVec 32 := 64#32
  let v19 : BitVec 32 := Scalar.addi c0_i32_11 c64_i32_12
  let c1_i32_13 : BitVec 32 := 1#32
  ⟨c0_i32_11, v19, c1_i32_13⟩
def k0_off12 (k0_t2 : Fin k0_t2_loop.trips) : Fin 1 → Nat :=
  let c0_i32_11 : BitVec 32 := 0#32
  let c1_i32_13 : BitVec 32 := 1#32
  let arg9 : BitVec 32 := Scf.iv c0_i32_11 c1_i32_13 k0_t2
  let c8_i32 : BitVec 32 := 8#32
  let v20 : BitVec 32 := Scalar.muli arg9 c8_i32
  let c0_i32_15 : BitVec 32 := 0#32
  let v21 : BitVec 32 := Scalar.addi v20 c0_i32_15
  let c16_i32 : BitVec 32 := 16#32
  let v22 : BitVec 32 := Scalar.muli v21 c16_i32
  let v23 : Index := Scalar.indexCast v22
  ![v23.toNat]

def k0_chk9 (i : grid0.Coords) (v24 : IVec S16 32) : Prop :=
  (∀ (k0_h1 : k0_cond1 i = 1#1), ∀ a x, ((![v24] : Fin 1 → IVec S16 32) a x).toNat < S100000.size a)
instance k0_chk9.dec : ∀ (i : grid0.Coords) (v24 : IVec S16 32), Decidable (k0_chk9 i v24) := fun i v24 => decidable_of_iff' _ (Iff.of_eq (k0_chk9.eq_1 i v24))
theorem k0_idx9_inb : ∀ (i : grid0.Coords) (v24 : IVec S16 32) (k0_hw9 : k0_chk9 i v24), ∀ (k0_h1 : k0_cond1 i = 1#1), ∀ a x, ((![v24] : Fin 1 → IVec S16 32) a x).toNat < S100000.size a := fun i v24 k0_hw9 k0_h1 => k0_hw9 k0_h1
def k0_off13 (k0_t2 : Fin k0_t2_loop.trips) (c0_i32_15 : BitVec 32) : Fin 1 → Nat :=
  let c0_i32_11 : BitVec 32 := 0#32
  let c1_i32_13 : BitVec 32 := 1#32
  let arg9 : BitVec 32 := Scf.iv c0_i32_11 c1_i32_13 k0_t2
  let c8_i32 : BitVec 32 := 8#32
  let v20 : BitVec 32 := Scalar.muli arg9 c8_i32
  let v21 : BitVec 32 := Scalar.addi v20 c0_i32_15
  let c16_i32 : BitVec 32 := 16#32
  let v22 : BitVec 32 := Scalar.muli v21 c16_i32
  let v26 : Index := Scalar.indexCast v22
  ![v26.toNat]

def k0_chk10 (i : grid0.Coords) (v32 : IVec S16 32) : Prop :=
  (∀ (k0_h1 : k0_cond1 i = 1#1), ∀ a x, ((![v32] : Fin 1 → IVec S16 32) a x).toNat < S100000.size a)
instance k0_chk10.dec : ∀ (i : grid0.Coords) (v32 : IVec S16 32), Decidable (k0_chk10 i v32) := fun i v32 => decidable_of_iff' _ (Iff.of_eq (k0_chk10.eq_1 i v32))
theorem k0_idx10_inb : ∀ (i : grid0.Coords) (v32 : IVec S16 32) (k0_hw10 : k0_chk10 i v32), ∀ (k0_h1 : k0_cond1 i = 1#1), ∀ a x, ((![v32] : Fin 1 → IVec S16 32) a x).toNat < S100000.size a := fun i v32 k0_hw10 k0_h1 => k0_hw10 k0_h1
def k0_off14 (k0_t2 : Fin k0_t2_loop.trips) (c1_i32_17 : BitVec 32) : Fin 1 → Nat :=
  let c0_i32_11 : BitVec 32 := 0#32
  let c1_i32_13 : BitVec 32 := 1#32
  let arg9 : BitVec 32 := Scf.iv c0_i32_11 c1_i32_13 k0_t2
  let c8_i32_16 : BitVec 32 := 8#32
  let v28 : BitVec 32 := Scalar.muli arg9 c8_i32_16
  let v29 : BitVec 32 := Scalar.addi v28 c1_i32_17
  let c16_i32_18 : BitVec 32 := 16#32
  let v30 : BitVec 32 := Scalar.muli v29 c16_i32_18
  let v34 : Index := Scalar.indexCast v30
  ![v34.toNat]

def k0_chk11 (i : grid0.Coords) (v40 : IVec S16 32) : Prop :=
  (∀ (k0_h1 : k0_cond1 i = 1#1), ∀ a x, ((![v40] : Fin 1 → IVec S16 32) a x).toNat < S100000.size a)
instance k0_chk11.dec : ∀ (i : grid0.Coords) (v40 : IVec S16 32), Decidable (k0_chk11 i v40) := fun i v40 => decidable_of_iff' _ (Iff.of_eq (k0_chk11.eq_1 i v40))
theorem k0_idx11_inb : ∀ (i : grid0.Coords) (v40 : IVec S16 32) (k0_hw11 : k0_chk11 i v40), ∀ (k0_h1 : k0_cond1 i = 1#1), ∀ a x, ((![v40] : Fin 1 → IVec S16 32) a x).toNat < S100000.size a := fun i v40 k0_hw11 k0_h1 => k0_hw11 k0_h1
def k0_off15 (k0_t2 : Fin k0_t2_loop.trips) (c2_i32_20 : BitVec 32) : Fin 1 → Nat :=
  let c0_i32_11 : BitVec 32 := 0#32
  let c1_i32_13 : BitVec 32 := 1#32
  let arg9 : BitVec 32 := Scf.iv c0_i32_11 c1_i32_13 k0_t2
  let c8_i32_19 : BitVec 32 := 8#32
  let v36 : BitVec 32 := Scalar.muli arg9 c8_i32_19
  let v37 : BitVec 32 := Scalar.addi v36 c2_i32_20
  let c16_i32_21 : BitVec 32 := 16#32
  let v38 : BitVec 32 := Scalar.muli v37 c16_i32_21
  let v42 : Index := Scalar.indexCast v38
  ![v42.toNat]

def k0_chk12 (i : grid0.Coords) (v48 : IVec S16 32) : Prop :=
  (∀ (k0_h1 : k0_cond1 i = 1#1), ∀ a x, ((![v48] : Fin 1 → IVec S16 32) a x).toNat < S100000.size a)
instance k0_chk12.dec : ∀ (i : grid0.Coords) (v48 : IVec S16 32), Decidable (k0_chk12 i v48) := fun i v48 => decidable_of_iff' _ (Iff.of_eq (k0_chk12.eq_1 i v48))
theorem k0_idx12_inb : ∀ (i : grid0.Coords) (v48 : IVec S16 32) (k0_hw12 : k0_chk12 i v48), ∀ (k0_h1 : k0_cond1 i = 1#1), ∀ a x, ((![v48] : Fin 1 → IVec S16 32) a x).toNat < S100000.size a := fun i v48 k0_hw12 k0_h1 => k0_hw12 k0_h1
def k0_off16 (k0_t2 : Fin k0_t2_loop.trips) (c3_i32 : BitVec 32) : Fin 1 → Nat :=
  let c0_i32_11 : BitVec 32 := 0#32
  let c1_i32_13 : BitVec 32 := 1#32
  let arg9 : BitVec 32 := Scf.iv c0_i32_11 c1_i32_13 k0_t2
  let c8_i32_22 : BitVec 32 := 8#32
  let v44 : BitVec 32 := Scalar.muli arg9 c8_i32_22
  let v45 : BitVec 32 := Scalar.addi v44 c3_i32
  let c16_i32_23 : BitVec 32 := 16#32
  let v46 : BitVec 32 := Scalar.muli v45 c16_i32_23
  let v50 : Index := Scalar.indexCast v46
  ![v50.toNat]

def k0_chk13 (i : grid0.Coords) (v56 : IVec S16 32) : Prop :=
  (∀ (k0_h1 : k0_cond1 i = 1#1), ∀ a x, ((![v56] : Fin 1 → IVec S16 32) a x).toNat < S100000.size a)
instance k0_chk13.dec : ∀ (i : grid0.Coords) (v56 : IVec S16 32), Decidable (k0_chk13 i v56) := fun i v56 => decidable_of_iff' _ (Iff.of_eq (k0_chk13.eq_1 i v56))
theorem k0_idx13_inb : ∀ (i : grid0.Coords) (v56 : IVec S16 32) (k0_hw13 : k0_chk13 i v56), ∀ (k0_h1 : k0_cond1 i = 1#1), ∀ a x, ((![v56] : Fin 1 → IVec S16 32) a x).toNat < S100000.size a := fun i v56 k0_hw13 k0_h1 => k0_hw13 k0_h1
def k0_off17 (k0_t2 : Fin k0_t2_loop.trips) (c4_i32 : BitVec 32) : Fin 1 → Nat :=
  let c0_i32_11 : BitVec 32 := 0#32
  let c1_i32_13 : BitVec 32 := 1#32
  let arg9 : BitVec 32 := Scf.iv c0_i32_11 c1_i32_13 k0_t2
  let c8_i32_24 : BitVec 32 := 8#32
  let v52 : BitVec 32 := Scalar.muli arg9 c8_i32_24
  let v53 : BitVec 32 := Scalar.addi v52 c4_i32
  let c16_i32_25 : BitVec 32 := 16#32
  let v54 : BitVec 32 := Scalar.muli v53 c16_i32_25
  let v58 : Index := Scalar.indexCast v54
  ![v58.toNat]

def k0_chk14 (i : grid0.Coords) (v64 : IVec S16 32) : Prop :=
  (∀ (k0_h1 : k0_cond1 i = 1#1), ∀ a x, ((![v64] : Fin 1 → IVec S16 32) a x).toNat < S100000.size a)
instance k0_chk14.dec : ∀ (i : grid0.Coords) (v64 : IVec S16 32), Decidable (k0_chk14 i v64) := fun i v64 => decidable_of_iff' _ (Iff.of_eq (k0_chk14.eq_1 i v64))
theorem k0_idx14_inb : ∀ (i : grid0.Coords) (v64 : IVec S16 32) (k0_hw14 : k0_chk14 i v64), ∀ (k0_h1 : k0_cond1 i = 1#1), ∀ a x, ((![v64] : Fin 1 → IVec S16 32) a x).toNat < S100000.size a := fun i v64 k0_hw14 k0_h1 => k0_hw14 k0_h1
def k0_off18 (k0_t2 : Fin k0_t2_loop.trips) (c5_i32 : BitVec 32) : Fin 1 → Nat :=
  let c0_i32_11 : BitVec 32 := 0#32
  let c1_i32_13 : BitVec 32 := 1#32
  let arg9 : BitVec 32 := Scf.iv c0_i32_11 c1_i32_13 k0_t2
  let c8_i32_26 : BitVec 32 := 8#32
  let v60 : BitVec 32 := Scalar.muli arg9 c8_i32_26
  let v61 : BitVec 32 := Scalar.addi v60 c5_i32
  let c16_i32_27 : BitVec 32 := 16#32
  let v62 : BitVec 32 := Scalar.muli v61 c16_i32_27
  let v66 : Index := Scalar.indexCast v62
  ![v66.toNat]

def k0_chk15 (i : grid0.Coords) (v72 : IVec S16 32) : Prop :=
  (∀ (k0_h1 : k0_cond1 i = 1#1), ∀ a x, ((![v72] : Fin 1 → IVec S16 32) a x).toNat < S100000.size a)
instance k0_chk15.dec : ∀ (i : grid0.Coords) (v72 : IVec S16 32), Decidable (k0_chk15 i v72) := fun i v72 => decidable_of_iff' _ (Iff.of_eq (k0_chk15.eq_1 i v72))
theorem k0_idx15_inb : ∀ (i : grid0.Coords) (v72 : IVec S16 32) (k0_hw15 : k0_chk15 i v72), ∀ (k0_h1 : k0_cond1 i = 1#1), ∀ a x, ((![v72] : Fin 1 → IVec S16 32) a x).toNat < S100000.size a := fun i v72 k0_hw15 k0_h1 => k0_hw15 k0_h1
def k0_off19 (k0_t2 : Fin k0_t2_loop.trips) (c6_i32 : BitVec 32) : Fin 1 → Nat :=
  let c0_i32_11 : BitVec 32 := 0#32
  let c1_i32_13 : BitVec 32 := 1#32
  let arg9 : BitVec 32 := Scf.iv c0_i32_11 c1_i32_13 k0_t2
  let c8_i32_28 : BitVec 32 := 8#32
  let v68 : BitVec 32 := Scalar.muli arg9 c8_i32_28
  let v69 : BitVec 32 := Scalar.addi v68 c6_i32
  let c16_i32_29 : BitVec 32 := 16#32
  let v70 : BitVec 32 := Scalar.muli v69 c16_i32_29
  let v74 : Index := Scalar.indexCast v70
  ![v74.toNat]

def k0_chk16 (i : grid0.Coords) (v80 : IVec S16 32) : Prop :=
  (∀ (k0_h1 : k0_cond1 i = 1#1), ∀ a x, ((![v80] : Fin 1 → IVec S16 32) a x).toNat < S100000.size a)
instance k0_chk16.dec : ∀ (i : grid0.Coords) (v80 : IVec S16 32), Decidable (k0_chk16 i v80) := fun i v80 => decidable_of_iff' _ (Iff.of_eq (k0_chk16.eq_1 i v80))
theorem k0_idx16_inb : ∀ (i : grid0.Coords) (v80 : IVec S16 32) (k0_hw16 : k0_chk16 i v80), ∀ (k0_h1 : k0_cond1 i = 1#1), ∀ a x, ((![v80] : Fin 1 → IVec S16 32) a x).toNat < S100000.size a := fun i v80 k0_hw16 k0_h1 => k0_hw16 k0_h1
def k0_off20 (k0_t2 : Fin k0_t2_loop.trips) : Fin 1 → Nat :=
  let c0_i32_11 : BitVec 32 := 0#32
  let c1_i32_13 : BitVec 32 := 1#32
  let arg9 : BitVec 32 := Scf.iv c0_i32_11 c1_i32_13 k0_t2
  let c8_i32_30 : BitVec 32 := 8#32
  let v76 : BitVec 32 := Scalar.muli arg9 c8_i32_30
  let c7_i32 : BitVec 32 := 7#32
  let v77 : BitVec 32 := Scalar.addi v76 c7_i32
  let c16_i32_31 : BitVec 32 := 16#32
  let v78 : BitVec 32 := Scalar.muli v77 c16_i32_31
  let v82 : Index := Scalar.indexCast v78
  ![v82.toNat]
def k0_off21 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.addi c0_i32 v1
  let c8192_i32_r3 : BitVec 32 := 8192#32
  ![v2.toNat, 8192]
def k0_cond2 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c50_i32_1 : BitVec 32 := 50#32
  let v7 : BitVec 1 := Scalar.cmpi .slt v6 c50_i32_1
  let v8 : BitVec 32 := Scalar.extui v7
  let c0_i32_2 : BitVec 32 := 0#32
  let v9 : BitVec 1 := Scalar.cmpi .ne v8 c0_i32_2
  v9

def k0_off22 (i : grid0.Coords) : Fin 2 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c0_i32_3 : BitVec 32 := 0#32
  ![v6.toNat, 0]
@[reducible] def k0_t3_loop : Scf.Loop 32 :=
  let c0_i32_8 : BitVec 32 := 0#32
  let c64_i32 : BitVec 32 := 64#32
  let v18 : BitVec 32 := Scalar.addi c0_i32_8 c64_i32
  let c1_i32 : BitVec 32 := 1#32
  ⟨c0_i32_8, v18, c1_i32⟩
def k0_off23 (k0_t3 : Fin k0_t3_loop.trips) : Fin 1 → Nat :=
  let c0_i32_8 : BitVec 32 := 0#32
  let c1_i32 : BitVec 32 := 1#32
  let arg9 : BitVec 32 := Scf.iv c0_i32_8 c1_i32 k0_t3
  let c8_i32 : BitVec 32 := 8#32
  let v20 : BitVec 32 := Scalar.muli arg9 c8_i32
  let c0_i32_15 : BitVec 32 := 0#32
  let v21 : BitVec 32 := Scalar.addi v20 c0_i32_15
  let c16_i32 : BitVec 32 := 16#32
  let v22 : BitVec 32 := Scalar.muli v21 c16_i32
  let v23 : Index := Scalar.indexCast v22
  ![v23.toNat]

def k0_chk17 (i : grid0.Coords) (v24 : IVec S16 32) : Prop :=
  (∀ (k0_h2 : k0_cond2 i = 1#1), ∀ a x, ((![v24] : Fin 1 → IVec S16 32) a x).toNat < S100000.size a)
instance k0_chk17.dec : ∀ (i : grid0.Coords) (v24 : IVec S16 32), Decidable (k0_chk17 i v24) := fun i v24 => decidable_of_iff' _ (Iff.of_eq (k0_chk17.eq_1 i v24))
theorem k0_idx17_inb : ∀ (i : grid0.Coords) (v24 : IVec S16 32) (k0_hw17 : k0_chk17 i v24), ∀ (k0_h2 : k0_cond2 i = 1#1), ∀ a x, ((![v24] : Fin 1 → IVec S16 32) a x).toNat < S100000.size a := fun i v24 k0_hw17 k0_h2 => k0_hw17 k0_h2
def k0_off24 (k0_t3 : Fin k0_t3_loop.trips) (c0_i32_15 : BitVec 32) : Fin 1 → Nat :=
  let c0_i32_8 : BitVec 32 := 0#32
  let c1_i32 : BitVec 32 := 1#32
  let arg9 : BitVec 32 := Scf.iv c0_i32_8 c1_i32 k0_t3
  let c8_i32 : BitVec 32 := 8#32
  let v20 : BitVec 32 := Scalar.muli arg9 c8_i32
  let v21 : BitVec 32 := Scalar.addi v20 c0_i32_15
  let c16_i32 : BitVec 32 := 16#32
  let v22 : BitVec 32 := Scalar.muli v21 c16_i32
  let v26 : Index := Scalar.indexCast v22
  ![v26.toNat]

def k0_chk18 (i : grid0.Coords) (v32 : IVec S16 32) : Prop :=
  (∀ (k0_h2 : k0_cond2 i = 1#1), ∀ a x, ((![v32] : Fin 1 → IVec S16 32) a x).toNat < S100000.size a)
instance k0_chk18.dec : ∀ (i : grid0.Coords) (v32 : IVec S16 32), Decidable (k0_chk18 i v32) := fun i v32 => decidable_of_iff' _ (Iff.of_eq (k0_chk18.eq_1 i v32))
theorem k0_idx18_inb : ∀ (i : grid0.Coords) (v32 : IVec S16 32) (k0_hw18 : k0_chk18 i v32), ∀ (k0_h2 : k0_cond2 i = 1#1), ∀ a x, ((![v32] : Fin 1 → IVec S16 32) a x).toNat < S100000.size a := fun i v32 k0_hw18 k0_h2 => k0_hw18 k0_h2
def k0_off25 (k0_t3 : Fin k0_t3_loop.trips) (c1_i32_17 : BitVec 32) : Fin 1 → Nat :=
  let c0_i32_8 : BitVec 32 := 0#32
  let c1_i32 : BitVec 32 := 1#32
  let arg9 : BitVec 32 := Scf.iv c0_i32_8 c1_i32 k0_t3
  let c8_i32_16 : BitVec 32 := 8#32
  let v28 : BitVec 32 := Scalar.muli arg9 c8_i32_16
  let v29 : BitVec 32 := Scalar.addi v28 c1_i32_17
  let c16_i32_18 : BitVec 32 := 16#32
  let v30 : BitVec 32 := Scalar.muli v29 c16_i32_18
  let v34 : Index := Scalar.indexCast v30
  ![v34.toNat]

def k0_chk19 (i : grid0.Coords) (v40 : IVec S16 32) : Prop :=
  (∀ (k0_h2 : k0_cond2 i = 1#1), ∀ a x, ((![v40] : Fin 1 → IVec S16 32) a x).toNat < S100000.size a)
instance k0_chk19.dec : ∀ (i : grid0.Coords) (v40 : IVec S16 32), Decidable (k0_chk19 i v40) := fun i v40 => decidable_of_iff' _ (Iff.of_eq (k0_chk19.eq_1 i v40))
theorem k0_idx19_inb : ∀ (i : grid0.Coords) (v40 : IVec S16 32) (k0_hw19 : k0_chk19 i v40), ∀ (k0_h2 : k0_cond2 i = 1#1), ∀ a x, ((![v40] : Fin 1 → IVec S16 32) a x).toNat < S100000.size a := fun i v40 k0_hw19 k0_h2 => k0_hw19 k0_h2
def k0_off26 (k0_t3 : Fin k0_t3_loop.trips) (c2_i32_20 : BitVec 32) : Fin 1 → Nat :=
  let c0_i32_8 : BitVec 32 := 0#32
  let c1_i32 : BitVec 32 := 1#32
  let arg9 : BitVec 32 := Scf.iv c0_i32_8 c1_i32 k0_t3
  let c8_i32_19 : BitVec 32 := 8#32
  let v36 : BitVec 32 := Scalar.muli arg9 c8_i32_19
  let v37 : BitVec 32 := Scalar.addi v36 c2_i32_20
  let c16_i32_21 : BitVec 32 := 16#32
  let v38 : BitVec 32 := Scalar.muli v37 c16_i32_21
  let v42 : Index := Scalar.indexCast v38
  ![v42.toNat]

def k0_chk20 (i : grid0.Coords) (v48 : IVec S16 32) : Prop :=
  (∀ (k0_h2 : k0_cond2 i = 1#1), ∀ a x, ((![v48] : Fin 1 → IVec S16 32) a x).toNat < S100000.size a)
instance k0_chk20.dec : ∀ (i : grid0.Coords) (v48 : IVec S16 32), Decidable (k0_chk20 i v48) := fun i v48 => decidable_of_iff' _ (Iff.of_eq (k0_chk20.eq_1 i v48))
theorem k0_idx20_inb : ∀ (i : grid0.Coords) (v48 : IVec S16 32) (k0_hw20 : k0_chk20 i v48), ∀ (k0_h2 : k0_cond2 i = 1#1), ∀ a x, ((![v48] : Fin 1 → IVec S16 32) a x).toNat < S100000.size a := fun i v48 k0_hw20 k0_h2 => k0_hw20 k0_h2
def k0_off27 (k0_t3 : Fin k0_t3_loop.trips) (c3_i32 : BitVec 32) : Fin 1 → Nat :=
  let c0_i32_8 : BitVec 32 := 0#32
  let c1_i32 : BitVec 32 := 1#32
  let arg9 : BitVec 32 := Scf.iv c0_i32_8 c1_i32 k0_t3
  let c8_i32_22 : BitVec 32 := 8#32
  let v44 : BitVec 32 := Scalar.muli arg9 c8_i32_22
  let v45 : BitVec 32 := Scalar.addi v44 c3_i32
  let c16_i32_23 : BitVec 32 := 16#32
  let v46 : BitVec 32 := Scalar.muli v45 c16_i32_23
  let v50 : Index := Scalar.indexCast v46
  ![v50.toNat]

def k0_chk21 (i : grid0.Coords) (v56 : IVec S16 32) : Prop :=
  (∀ (k0_h2 : k0_cond2 i = 1#1), ∀ a x, ((![v56] : Fin 1 → IVec S16 32) a x).toNat < S100000.size a)
instance k0_chk21.dec : ∀ (i : grid0.Coords) (v56 : IVec S16 32), Decidable (k0_chk21 i v56) := fun i v56 => decidable_of_iff' _ (Iff.of_eq (k0_chk21.eq_1 i v56))
theorem k0_idx21_inb : ∀ (i : grid0.Coords) (v56 : IVec S16 32) (k0_hw21 : k0_chk21 i v56), ∀ (k0_h2 : k0_cond2 i = 1#1), ∀ a x, ((![v56] : Fin 1 → IVec S16 32) a x).toNat < S100000.size a := fun i v56 k0_hw21 k0_h2 => k0_hw21 k0_h2
def k0_off28 (k0_t3 : Fin k0_t3_loop.trips) (c4_i32 : BitVec 32) : Fin 1 → Nat :=
  let c0_i32_8 : BitVec 32 := 0#32
  let c1_i32 : BitVec 32 := 1#32
  let arg9 : BitVec 32 := Scf.iv c0_i32_8 c1_i32 k0_t3
  let c8_i32_24 : BitVec 32 := 8#32
  let v52 : BitVec 32 := Scalar.muli arg9 c8_i32_24
  let v53 : BitVec 32 := Scalar.addi v52 c4_i32
  let c16_i32_25 : BitVec 32 := 16#32
  let v54 : BitVec 32 := Scalar.muli v53 c16_i32_25
  let v58 : Index := Scalar.indexCast v54
  ![v58.toNat]

def k0_chk22 (i : grid0.Coords) (v64 : IVec S16 32) : Prop :=
  (∀ (k0_h2 : k0_cond2 i = 1#1), ∀ a x, ((![v64] : Fin 1 → IVec S16 32) a x).toNat < S100000.size a)
instance k0_chk22.dec : ∀ (i : grid0.Coords) (v64 : IVec S16 32), Decidable (k0_chk22 i v64) := fun i v64 => decidable_of_iff' _ (Iff.of_eq (k0_chk22.eq_1 i v64))
theorem k0_idx22_inb : ∀ (i : grid0.Coords) (v64 : IVec S16 32) (k0_hw22 : k0_chk22 i v64), ∀ (k0_h2 : k0_cond2 i = 1#1), ∀ a x, ((![v64] : Fin 1 → IVec S16 32) a x).toNat < S100000.size a := fun i v64 k0_hw22 k0_h2 => k0_hw22 k0_h2
def k0_off29 (k0_t3 : Fin k0_t3_loop.trips) (c5_i32 : BitVec 32) : Fin 1 → Nat :=
  let c0_i32_8 : BitVec 32 := 0#32
  let c1_i32 : BitVec 32 := 1#32
  let arg9 : BitVec 32 := Scf.iv c0_i32_8 c1_i32 k0_t3
  let c8_i32_26 : BitVec 32 := 8#32
  let v60 : BitVec 32 := Scalar.muli arg9 c8_i32_26
  let v61 : BitVec 32 := Scalar.addi v60 c5_i32
  let c16_i32_27 : BitVec 32 := 16#32
  let v62 : BitVec 32 := Scalar.muli v61 c16_i32_27
  let v66 : Index := Scalar.indexCast v62
  ![v66.toNat]

def k0_chk23 (i : grid0.Coords) (v72 : IVec S16 32) : Prop :=
  (∀ (k0_h2 : k0_cond2 i = 1#1), ∀ a x, ((![v72] : Fin 1 → IVec S16 32) a x).toNat < S100000.size a)
instance k0_chk23.dec : ∀ (i : grid0.Coords) (v72 : IVec S16 32), Decidable (k0_chk23 i v72) := fun i v72 => decidable_of_iff' _ (Iff.of_eq (k0_chk23.eq_1 i v72))
theorem k0_idx23_inb : ∀ (i : grid0.Coords) (v72 : IVec S16 32) (k0_hw23 : k0_chk23 i v72), ∀ (k0_h2 : k0_cond2 i = 1#1), ∀ a x, ((![v72] : Fin 1 → IVec S16 32) a x).toNat < S100000.size a := fun i v72 k0_hw23 k0_h2 => k0_hw23 k0_h2
def k0_off30 (k0_t3 : Fin k0_t3_loop.trips) (c6_i32 : BitVec 32) : Fin 1 → Nat :=
  let c0_i32_8 : BitVec 32 := 0#32
  let c1_i32 : BitVec 32 := 1#32
  let arg9 : BitVec 32 := Scf.iv c0_i32_8 c1_i32 k0_t3
  let c8_i32_28 : BitVec 32 := 8#32
  let v68 : BitVec 32 := Scalar.muli arg9 c8_i32_28
  let v69 : BitVec 32 := Scalar.addi v68 c6_i32
  let c16_i32_29 : BitVec 32 := 16#32
  let v70 : BitVec 32 := Scalar.muli v69 c16_i32_29
  let v74 : Index := Scalar.indexCast v70
  ![v74.toNat]

def k0_chk24 (i : grid0.Coords) (v80 : IVec S16 32) : Prop :=
  (∀ (k0_h2 : k0_cond2 i = 1#1), ∀ a x, ((![v80] : Fin 1 → IVec S16 32) a x).toNat < S100000.size a)
instance k0_chk24.dec : ∀ (i : grid0.Coords) (v80 : IVec S16 32), Decidable (k0_chk24 i v80) := fun i v80 => decidable_of_iff' _ (Iff.of_eq (k0_chk24.eq_1 i v80))
theorem k0_idx24_inb : ∀ (i : grid0.Coords) (v80 : IVec S16 32) (k0_hw24 : k0_chk24 i v80), ∀ (k0_h2 : k0_cond2 i = 1#1), ∀ a x, ((![v80] : Fin 1 → IVec S16 32) a x).toNat < S100000.size a := fun i v80 k0_hw24 k0_h2 => k0_hw24 k0_h2
def k0_off31 (k0_t3 : Fin k0_t3_loop.trips) : Fin 1 → Nat :=
  let c0_i32_8 : BitVec 32 := 0#32
  let c1_i32 : BitVec 32 := 1#32
  let arg9 : BitVec 32 := Scf.iv c0_i32_8 c1_i32 k0_t3
  let c8_i32_30 : BitVec 32 := 8#32
  let v76 : BitVec 32 := Scalar.muli arg9 c8_i32_30
  let c7_i32 : BitVec 32 := 7#32
  let v77 : BitVec 32 := Scalar.addi v76 c7_i32
  let c16_i32_31 : BitVec 32 := 16#32
  let v78 : BitVec 32 := Scalar.muli v77 c16_i32_31
  let v82 : Index := Scalar.indexCast v78
  ![v82.toNat]
def k0_off32 (i : grid0.Coords) : Fin 2 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c0_i32_15_r5 : BitVec 32 := 0#32
  ![v6.toNat, 0]
@[reducible] def k0_t4_loop : Scf.Loop 32 :=
  let c0_i32_11 : BitVec 32 := 0#32
  let c64_i32_12 : BitVec 32 := 64#32
  let v19 : BitVec 32 := Scalar.addi c0_i32_11 c64_i32_12
  let c1_i32_13 : BitVec 32 := 1#32
  ⟨c0_i32_11, v19, c1_i32_13⟩
def k0_off33 (k0_t4 : Fin k0_t4_loop.trips) : Fin 1 → Nat :=
  let c0_i32_11 : BitVec 32 := 0#32
  let c1_i32_13 : BitVec 32 := 1#32
  let arg9 : BitVec 32 := Scf.iv c0_i32_11 c1_i32_13 k0_t4
  let c8_i32 : BitVec 32 := 8#32
  let v20 : BitVec 32 := Scalar.muli arg9 c8_i32
  let c0_i32_15 : BitVec 32 := 0#32
  let v21 : BitVec 32 := Scalar.addi v20 c0_i32_15
  let c16_i32 : BitVec 32 := 16#32
  let v22 : BitVec 32 := Scalar.muli v21 c16_i32
  let v23 : Index := Scalar.indexCast v22
  ![v23.toNat]

def k0_chk25 (i : grid0.Coords) (v24 : IVec S16 32) : Prop :=
  (∀ (k0_h2 : k0_cond2 i = 1#1), ∀ a x, ((![v24] : Fin 1 → IVec S16 32) a x).toNat < S100000.size a)
instance k0_chk25.dec : ∀ (i : grid0.Coords) (v24 : IVec S16 32), Decidable (k0_chk25 i v24) := fun i v24 => decidable_of_iff' _ (Iff.of_eq (k0_chk25.eq_1 i v24))
theorem k0_idx25_inb : ∀ (i : grid0.Coords) (v24 : IVec S16 32) (k0_hw25 : k0_chk25 i v24), ∀ (k0_h2 : k0_cond2 i = 1#1), ∀ a x, ((![v24] : Fin 1 → IVec S16 32) a x).toNat < S100000.size a := fun i v24 k0_hw25 k0_h2 => k0_hw25 k0_h2
def k0_off34 (k0_t4 : Fin k0_t4_loop.trips) (c0_i32_15 : BitVec 32) : Fin 1 → Nat :=
  let c0_i32_11 : BitVec 32 := 0#32
  let c1_i32_13 : BitVec 32 := 1#32
  let arg9 : BitVec 32 := Scf.iv c0_i32_11 c1_i32_13 k0_t4
  let c8_i32 : BitVec 32 := 8#32
  let v20 : BitVec 32 := Scalar.muli arg9 c8_i32
  let v21 : BitVec 32 := Scalar.addi v20 c0_i32_15
  let c16_i32 : BitVec 32 := 16#32
  let v22 : BitVec 32 := Scalar.muli v21 c16_i32
  let v26 : Index := Scalar.indexCast v22
  ![v26.toNat]

def k0_chk26 (i : grid0.Coords) (v32 : IVec S16 32) : Prop :=
  (∀ (k0_h2 : k0_cond2 i = 1#1), ∀ a x, ((![v32] : Fin 1 → IVec S16 32) a x).toNat < S100000.size a)
instance k0_chk26.dec : ∀ (i : grid0.Coords) (v32 : IVec S16 32), Decidable (k0_chk26 i v32) := fun i v32 => decidable_of_iff' _ (Iff.of_eq (k0_chk26.eq_1 i v32))
theorem k0_idx26_inb : ∀ (i : grid0.Coords) (v32 : IVec S16 32) (k0_hw26 : k0_chk26 i v32), ∀ (k0_h2 : k0_cond2 i = 1#1), ∀ a x, ((![v32] : Fin 1 → IVec S16 32) a x).toNat < S100000.size a := fun i v32 k0_hw26 k0_h2 => k0_hw26 k0_h2
def k0_off35 (k0_t4 : Fin k0_t4_loop.trips) (c1_i32_17 : BitVec 32) : Fin 1 → Nat :=
  let c0_i32_11 : BitVec 32 := 0#32
  let c1_i32_13 : BitVec 32 := 1#32
  let arg9 : BitVec 32 := Scf.iv c0_i32_11 c1_i32_13 k0_t4
  let c8_i32_16 : BitVec 32 := 8#32
  let v28 : BitVec 32 := Scalar.muli arg9 c8_i32_16
  let v29 : BitVec 32 := Scalar.addi v28 c1_i32_17
  let c16_i32_18 : BitVec 32 := 16#32
  let v30 : BitVec 32 := Scalar.muli v29 c16_i32_18
  let v34 : Index := Scalar.indexCast v30
  ![v34.toNat]

def k0_chk27 (i : grid0.Coords) (v40 : IVec S16 32) : Prop :=
  (∀ (k0_h2 : k0_cond2 i = 1#1), ∀ a x, ((![v40] : Fin 1 → IVec S16 32) a x).toNat < S100000.size a)
instance k0_chk27.dec : ∀ (i : grid0.Coords) (v40 : IVec S16 32), Decidable (k0_chk27 i v40) := fun i v40 => decidable_of_iff' _ (Iff.of_eq (k0_chk27.eq_1 i v40))
theorem k0_idx27_inb : ∀ (i : grid0.Coords) (v40 : IVec S16 32) (k0_hw27 : k0_chk27 i v40), ∀ (k0_h2 : k0_cond2 i = 1#1), ∀ a x, ((![v40] : Fin 1 → IVec S16 32) a x).toNat < S100000.size a := fun i v40 k0_hw27 k0_h2 => k0_hw27 k0_h2
def k0_off36 (k0_t4 : Fin k0_t4_loop.trips) (c2_i32_20 : BitVec 32) : Fin 1 → Nat :=
  let c0_i32_11 : BitVec 32 := 0#32
  let c1_i32_13 : BitVec 32 := 1#32
  let arg9 : BitVec 32 := Scf.iv c0_i32_11 c1_i32_13 k0_t4
  let c8_i32_19 : BitVec 32 := 8#32
  let v36 : BitVec 32 := Scalar.muli arg9 c8_i32_19
  let v37 : BitVec 32 := Scalar.addi v36 c2_i32_20
  let c16_i32_21 : BitVec 32 := 16#32
  let v38 : BitVec 32 := Scalar.muli v37 c16_i32_21
  let v42 : Index := Scalar.indexCast v38
  ![v42.toNat]

def k0_chk28 (i : grid0.Coords) (v48 : IVec S16 32) : Prop :=
  (∀ (k0_h2 : k0_cond2 i = 1#1), ∀ a x, ((![v48] : Fin 1 → IVec S16 32) a x).toNat < S100000.size a)
instance k0_chk28.dec : ∀ (i : grid0.Coords) (v48 : IVec S16 32), Decidable (k0_chk28 i v48) := fun i v48 => decidable_of_iff' _ (Iff.of_eq (k0_chk28.eq_1 i v48))
theorem k0_idx28_inb : ∀ (i : grid0.Coords) (v48 : IVec S16 32) (k0_hw28 : k0_chk28 i v48), ∀ (k0_h2 : k0_cond2 i = 1#1), ∀ a x, ((![v48] : Fin 1 → IVec S16 32) a x).toNat < S100000.size a := fun i v48 k0_hw28 k0_h2 => k0_hw28 k0_h2
def k0_off37 (k0_t4 : Fin k0_t4_loop.trips) (c3_i32 : BitVec 32) : Fin 1 → Nat :=
  let c0_i32_11 : BitVec 32 := 0#32
  let c1_i32_13 : BitVec 32 := 1#32
  let arg9 : BitVec 32 := Scf.iv c0_i32_11 c1_i32_13 k0_t4
  let c8_i32_22 : BitVec 32 := 8#32
  let v44 : BitVec 32 := Scalar.muli arg9 c8_i32_22
  let v45 : BitVec 32 := Scalar.addi v44 c3_i32
  let c16_i32_23 : BitVec 32 := 16#32
  let v46 : BitVec 32 := Scalar.muli v45 c16_i32_23
  let v50 : Index := Scalar.indexCast v46
  ![v50.toNat]

def k0_chk29 (i : grid0.Coords) (v56 : IVec S16 32) : Prop :=
  (∀ (k0_h2 : k0_cond2 i = 1#1), ∀ a x, ((![v56] : Fin 1 → IVec S16 32) a x).toNat < S100000.size a)
instance k0_chk29.dec : ∀ (i : grid0.Coords) (v56 : IVec S16 32), Decidable (k0_chk29 i v56) := fun i v56 => decidable_of_iff' _ (Iff.of_eq (k0_chk29.eq_1 i v56))
theorem k0_idx29_inb : ∀ (i : grid0.Coords) (v56 : IVec S16 32) (k0_hw29 : k0_chk29 i v56), ∀ (k0_h2 : k0_cond2 i = 1#1), ∀ a x, ((![v56] : Fin 1 → IVec S16 32) a x).toNat < S100000.size a := fun i v56 k0_hw29 k0_h2 => k0_hw29 k0_h2
def k0_off38 (k0_t4 : Fin k0_t4_loop.trips) (c4_i32 : BitVec 32) : Fin 1 → Nat :=
  let c0_i32_11 : BitVec 32 := 0#32
  let c1_i32_13 : BitVec 32 := 1#32
  let arg9 : BitVec 32 := Scf.iv c0_i32_11 c1_i32_13 k0_t4
  let c8_i32_24 : BitVec 32 := 8#32
  let v52 : BitVec 32 := Scalar.muli arg9 c8_i32_24
  let v53 : BitVec 32 := Scalar.addi v52 c4_i32
  let c16_i32_25 : BitVec 32 := 16#32
  let v54 : BitVec 32 := Scalar.muli v53 c16_i32_25
  let v58 : Index := Scalar.indexCast v54
  ![v58.toNat]

def k0_chk30 (i : grid0.Coords) (v64 : IVec S16 32) : Prop :=
  (∀ (k0_h2 : k0_cond2 i = 1#1), ∀ a x, ((![v64] : Fin 1 → IVec S16 32) a x).toNat < S100000.size a)
instance k0_chk30.dec : ∀ (i : grid0.Coords) (v64 : IVec S16 32), Decidable (k0_chk30 i v64) := fun i v64 => decidable_of_iff' _ (Iff.of_eq (k0_chk30.eq_1 i v64))
theorem k0_idx30_inb : ∀ (i : grid0.Coords) (v64 : IVec S16 32) (k0_hw30 : k0_chk30 i v64), ∀ (k0_h2 : k0_cond2 i = 1#1), ∀ a x, ((![v64] : Fin 1 → IVec S16 32) a x).toNat < S100000.size a := fun i v64 k0_hw30 k0_h2 => k0_hw30 k0_h2
def k0_off39 (k0_t4 : Fin k0_t4_loop.trips) (c5_i32 : BitVec 32) : Fin 1 → Nat :=
  let c0_i32_11 : BitVec 32 := 0#32
  let c1_i32_13 : BitVec 32 := 1#32
  let arg9 : BitVec 32 := Scf.iv c0_i32_11 c1_i32_13 k0_t4
  let c8_i32_26 : BitVec 32 := 8#32
  let v60 : BitVec 32 := Scalar.muli arg9 c8_i32_26
  let v61 : BitVec 32 := Scalar.addi v60 c5_i32
  let c16_i32_27 : BitVec 32 := 16#32
  let v62 : BitVec 32 := Scalar.muli v61 c16_i32_27
  let v66 : Index := Scalar.indexCast v62
  ![v66.toNat]

def k0_chk31 (i : grid0.Coords) (v72 : IVec S16 32) : Prop :=
  (∀ (k0_h2 : k0_cond2 i = 1#1), ∀ a x, ((![v72] : Fin 1 → IVec S16 32) a x).toNat < S100000.size a)
instance k0_chk31.dec : ∀ (i : grid0.Coords) (v72 : IVec S16 32), Decidable (k0_chk31 i v72) := fun i v72 => decidable_of_iff' _ (Iff.of_eq (k0_chk31.eq_1 i v72))
theorem k0_idx31_inb : ∀ (i : grid0.Coords) (v72 : IVec S16 32) (k0_hw31 : k0_chk31 i v72), ∀ (k0_h2 : k0_cond2 i = 1#1), ∀ a x, ((![v72] : Fin 1 → IVec S16 32) a x).toNat < S100000.size a := fun i v72 k0_hw31 k0_h2 => k0_hw31 k0_h2
def k0_off40 (k0_t4 : Fin k0_t4_loop.trips) (c6_i32 : BitVec 32) : Fin 1 → Nat :=
  let c0_i32_11 : BitVec 32 := 0#32
  let c1_i32_13 : BitVec 32 := 1#32
  let arg9 : BitVec 32 := Scf.iv c0_i32_11 c1_i32_13 k0_t4
  let c8_i32_28 : BitVec 32 := 8#32
  let v68 : BitVec 32 := Scalar.muli arg9 c8_i32_28
  let v69 : BitVec 32 := Scalar.addi v68 c6_i32
  let c16_i32_29 : BitVec 32 := 16#32
  let v70 : BitVec 32 := Scalar.muli v69 c16_i32_29
  let v74 : Index := Scalar.indexCast v70
  ![v74.toNat]

def k0_chk32 (i : grid0.Coords) (v80 : IVec S16 32) : Prop :=
  (∀ (k0_h2 : k0_cond2 i = 1#1), ∀ a x, ((![v80] : Fin 1 → IVec S16 32) a x).toNat < S100000.size a)
instance k0_chk32.dec : ∀ (i : grid0.Coords) (v80 : IVec S16 32), Decidable (k0_chk32 i v80) := fun i v80 => decidable_of_iff' _ (Iff.of_eq (k0_chk32.eq_1 i v80))
theorem k0_idx32_inb : ∀ (i : grid0.Coords) (v80 : IVec S16 32) (k0_hw32 : k0_chk32 i v80), ∀ (k0_h2 : k0_cond2 i = 1#1), ∀ a x, ((![v80] : Fin 1 → IVec S16 32) a x).toNat < S100000.size a := fun i v80 k0_hw32 k0_h2 => k0_hw32 k0_h2
def k0_off41 (k0_t4 : Fin k0_t4_loop.trips) : Fin 1 → Nat :=
  let c0_i32_11 : BitVec 32 := 0#32
  let c1_i32_13 : BitVec 32 := 1#32
  let arg9 : BitVec 32 := Scf.iv c0_i32_11 c1_i32_13 k0_t4
  let c8_i32_30 : BitVec 32 := 8#32
  let v76 : BitVec 32 := Scalar.muli arg9 c8_i32_30
  let c7_i32 : BitVec 32 := 7#32
  let v77 : BitVec 32 := Scalar.addi v76 c7_i32
  let c16_i32_31 : BitVec 32 := 16#32
  let v78 : BitVec 32 := Scalar.muli v77 c16_i32_31
  let v82 : Index := Scalar.indexCast v78
  ![v82.toNat]
def k0_off42 (i : grid0.Coords) : Fin 2 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c32_i32 v1
  let c8192_i32_r7 : BitVec 32 := 8192#32
  ![v6.toNat, 8192]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x178 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S64x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S50x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x8192 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x178 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S64x8192 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x8192 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x1_S16384 : S16384x1.ShapeCasts S16384
  transposes_S100000x50_S50x100000_1_0 : S100000x50.Transposes [1, 0] S50x100000
  squeezes_S1x100000_S100000 : S1x100000.Squeezes S100000
  inb_S16384_S8192_0 : ∀ a, (![0] : Fin 1 → Nat) a + S8192.size a ≤ S16384.size a
  h_S16 : 0 < S16.numel
  h_S100000 : 0 < S100000.numel
  squeezes_S1x8192_S8192 : S1x8192.Squeezes S8192
  inb_S16384_S8192_8192 : ∀ a, (![8192] : Fin 1 → Nat) a + S8192.size a ≤ S16384.size a
  transposes_S178x64_S64x178_1_0 : S178x64.Transposes [1, 0] S64x178
  shapeCasts_S64_S64x1 : S64.ShapeCasts S64x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S64x178_S64x128_0_50 : ∀ a, (![0, 50] : Fin 2 → Nat) a + S64x128.size a ≤ S64x178.size a
  h_S64x128 : 0 < S64x128.numel
  shapeCasts_S64x128_S64x128 : S64x128.ShapeCasts S64x128
  inb_S8192x128_S8192x128_0_0 : ∀ a, (![0, 0] : Fin 2 → Nat) a + S8192x128.size a ≤ S8192x128.size a
  h_S8192x128 : 0 < S8192x128.numel
  broadcasts_S64x1_S64x8192 : S64x1.Broadcasts S64x8192
  inb_S64x8192_S64x8192_0_0 : ∀ a, (![0, 0] : Fin 2 → Nat) a + S64x8192.size a ≤ S64x8192.size a
  h_S64x8192 : 0 < S64x8192.numel
  transposes_S64x1_S1x64_1_0 : S64x1.Transposes [1, 0] S1x64
  shapeCasts_S1_S1x1 : S1.ShapeCasts S1x1
  shapeCasts_S64x8192_S64x8192 : S64x8192.ShapeCasts S64x8192
  inb_S64x178_S64x50_0_0 : ∀ a, (![0, 0] : Fin 2 → Nat) a + S64x50.size a ≤ S64x178.size a
  h_S64x50 : 0 < S64x50.numel
  shapeCasts_S64x50_S64x50 : S64x50.ShapeCasts S64x50
  inb_S50x8192_S50x8192_0_0 : ∀ a, (![0, 0] : Fin 2 → Nat) a + S50x8192.size a ≤ S50x8192.size a
  h_S50x8192 : 0 < S50x8192.numel
  shapeCasts_S50x8192_S50x8192 : S50x8192.ShapeCasts S50x8192
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  transposes_S64x16384_S16384x64_1_0 : S64x16384.Transposes [1, 0] S16384x64
  transposes_S1x16384_S16384x1_1_0 : S1x16384.Transposes [1, 0] S16384x1
  dot_S64x128_S8192x128_S64x8192_1_1_0_0_n_n_wf : DotDims.WF S64x128 S8192x128 S64x8192 [1] [1] [0] [0] [] []
  dot_S64x50_S50x8192_S64x8192_1_0_0_1_n_n_wf : DotDims.WF S64x50 S50x8192 S64x8192 [1] [0] [0] [1] [] []
  dot_S1x64_S64x8192_S1x8192_1_0_0_1_n_n_wf : DotDims.WF S1x64 S64x8192 S1x8192 [1] [0] [0] [1] [] []
  hcc0_scratch3 : 0 + S_.numel ≤ 26
  hcc0_scoped0 : 1 + S_.numel ≤ 26
  hcc0_scoped1 : 2 + S_.numel ≤ 26
  hcc0_scoped2 : 3 + S_.numel ≤ 26
  hcc0_scoped3 : 4 + S_.numel ≤ 26
  hcc0_scoped4 : 5 + S_.numel ≤ 26
  hcc0_scoped5 : 6 + S_.numel ≤ 26
  hcc0_scoped6 : 7 + S_.numel ≤ 26
  hcc0_scoped7 : 8 + S_.numel ≤ 26
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (k0_h1 : k0_cond1 i = 1#1), ∀ a, (k0_off1 i) a + S1x100000.size a ≤ S50x100000.size a
  k0_t1_ok : ∀ i : grid0.Coords, ∀ (k0_h1 : k0_cond1 i = 1#1), k0_t1_loop.OK
  k0_off2_inb : ∀ (i : grid0.Coords) (k0_t1 : Fin k0_t1_loop.trips), ∀ (k0_h1 : k0_cond1 i = 1#1), ∀ a, (k0_off2 k0_t1) a + S16.size a ≤ S8192.size a
  k0_off3_inb : ∀ (i : grid0.Coords) (k0_t1 : Fin k0_t1_loop.trips), ∀ (k0_h1 : k0_cond1 i = 1#1), ∀ (r : Fin 2), ∀ a, (k0_off3 k0_t1 (BitVec.ofNat 32 r.val)) a + S16.size a ≤ S8192.size a
  k0_off4_inb : ∀ (i : grid0.Coords) (k0_t1 : Fin k0_t1_loop.trips), ∀ (k0_h1 : k0_cond1 i = 1#1), ∀ (r : Fin 2), ∀ a, (k0_off4 k0_t1 (BitVec.ofNat 32 (1 + r.val))) a + S16.size a ≤ S8192.size a
  k0_off5_inb : ∀ (i : grid0.Coords) (k0_t1 : Fin k0_t1_loop.trips), ∀ (k0_h1 : k0_cond1 i = 1#1), ∀ (r : Fin 2), ∀ a, (k0_off5 k0_t1 (BitVec.ofNat 32 (2 + r.val))) a + S16.size a ≤ S8192.size a
  k0_off6_inb : ∀ (i : grid0.Coords) (k0_t1 : Fin k0_t1_loop.trips), ∀ (k0_h1 : k0_cond1 i = 1#1), ∀ (r : Fin 2), ∀ a, (k0_off6 k0_t1 (BitVec.ofNat 32 (3 + r.val))) a + S16.size a ≤ S8192.size a
  k0_off7_inb : ∀ (i : grid0.Coords) (k0_t1 : Fin k0_t1_loop.trips), ∀ (k0_h1 : k0_cond1 i = 1#1), ∀ (r : Fin 2), ∀ a, (k0_off7 k0_t1 (BitVec.ofNat 32 (4 + r.val))) a + S16.size a ≤ S8192.size a
  k0_off8_inb : ∀ (i : grid0.Coords) (k0_t1 : Fin k0_t1_loop.trips), ∀ (k0_h1 : k0_cond1 i = 1#1), ∀ (r : Fin 2), ∀ a, (k0_off8 k0_t1 (BitVec.ofNat 32 (5 + r.val))) a + S16.size a ≤ S8192.size a
  k0_off9_inb : ∀ (i : grid0.Coords) (k0_t1 : Fin k0_t1_loop.trips), ∀ (k0_h1 : k0_cond1 i = 1#1), ∀ (r : Fin 2), ∀ a, (k0_off9 k0_t1 (BitVec.ofNat 32 (6 + r.val))) a + S16.size a ≤ S8192.size a
  k0_off10_inb : ∀ (i : grid0.Coords) (k0_t1 : Fin k0_t1_loop.trips), ∀ (k0_h1 : k0_cond1 i = 1#1), ∀ a, (k0_off10 k0_t1) a + S16.size a ≤ S8192.size a
  k0_off11_inb : ∀ i : grid0.Coords, ∀ (k0_h1 : k0_cond1 i = 1#1), ∀ a, (k0_off11 i) a + S1x8192.size a ≤ S50x16384.size a
  k0_t2_ok : ∀ i : grid0.Coords, ∀ (k0_h1 : k0_cond1 i = 1#1), k0_t2_loop.OK
  k0_off12_inb : ∀ (i : grid0.Coords) (k0_t2 : Fin k0_t2_loop.trips), ∀ (k0_h1 : k0_cond1 i = 1#1), ∀ a, (k0_off12 k0_t2) a + S16.size a ≤ S8192.size a
  k0_off13_inb : ∀ (i : grid0.Coords) (k0_t2 : Fin k0_t2_loop.trips), ∀ (k0_h1 : k0_cond1 i = 1#1), ∀ (r : Fin 2), ∀ a, (k0_off13 k0_t2 (BitVec.ofNat 32 r.val)) a + S16.size a ≤ S8192.size a
  k0_off14_inb : ∀ (i : grid0.Coords) (k0_t2 : Fin k0_t2_loop.trips), ∀ (k0_h1 : k0_cond1 i = 1#1), ∀ (r : Fin 2), ∀ a, (k0_off14 k0_t2 (BitVec.ofNat 32 (1 + r.val))) a + S16.size a ≤ S8192.size a
  k0_off15_inb : ∀ (i : grid0.Coords) (k0_t2 : Fin k0_t2_loop.trips), ∀ (k0_h1 : k0_cond1 i = 1#1), ∀ (r : Fin 2), ∀ a, (k0_off15 k0_t2 (BitVec.ofNat 32 (2 + r.val))) a + S16.size a ≤ S8192.size a
  k0_off16_inb : ∀ (i : grid0.Coords) (k0_t2 : Fin k0_t2_loop.trips), ∀ (k0_h1 : k0_cond1 i = 1#1), ∀ (r : Fin 2), ∀ a, (k0_off16 k0_t2 (BitVec.ofNat 32 (3 + r.val))) a + S16.size a ≤ S8192.size a
  k0_off17_inb : ∀ (i : grid0.Coords) (k0_t2 : Fin k0_t2_loop.trips), ∀ (k0_h1 : k0_cond1 i = 1#1), ∀ (r : Fin 2), ∀ a, (k0_off17 k0_t2 (BitVec.ofNat 32 (4 + r.val))) a + S16.size a ≤ S8192.size a
  k0_off18_inb : ∀ (i : grid0.Coords) (k0_t2 : Fin k0_t2_loop.trips), ∀ (k0_h1 : k0_cond1 i = 1#1), ∀ (r : Fin 2), ∀ a, (k0_off18 k0_t2 (BitVec.ofNat 32 (5 + r.val))) a + S16.size a ≤ S8192.size a
  k0_off19_inb : ∀ (i : grid0.Coords) (k0_t2 : Fin k0_t2_loop.trips), ∀ (k0_h1 : k0_cond1 i = 1#1), ∀ (r : Fin 2), ∀ a, (k0_off19 k0_t2 (BitVec.ofNat 32 (6 + r.val))) a + S16.size a ≤ S8192.size a
  k0_off20_inb : ∀ (i : grid0.Coords) (k0_t2 : Fin k0_t2_loop.trips), ∀ (k0_h1 : k0_cond1 i = 1#1), ∀ a, (k0_off20 k0_t2) a + S16.size a ≤ S8192.size a
  k0_off21_inb : ∀ i : grid0.Coords, ∀ (k0_h1 : k0_cond1 i = 1#1), ∀ a, (k0_off21 i) a + S1x8192.size a ≤ S50x16384.size a
  k0_off22_inb : ∀ i : grid0.Coords, ∀ (k0_h2 : k0_cond2 i = 1#1), ∀ a, (k0_off22 i) a + S1x100000.size a ≤ S50x100000.size a
  k0_t3_ok : ∀ i : grid0.Coords, ∀ (k0_h2 : k0_cond2 i = 1#1), k0_t3_loop.OK
  k0_off23_inb : ∀ (i : grid0.Coords) (k0_t3 : Fin k0_t3_loop.trips), ∀ (k0_h2 : k0_cond2 i = 1#1), ∀ a, (k0_off23 k0_t3) a + S16.size a ≤ S8192.size a
  k0_off24_inb : ∀ (i : grid0.Coords) (k0_t3 : Fin k0_t3_loop.trips), ∀ (k0_h2 : k0_cond2 i = 1#1), ∀ (r : Fin 2), ∀ a, (k0_off24 k0_t3 (BitVec.ofNat 32 r.val)) a + S16.size a ≤ S8192.size a
  k0_off25_inb : ∀ (i : grid0.Coords) (k0_t3 : Fin k0_t3_loop.trips), ∀ (k0_h2 : k0_cond2 i = 1#1), ∀ (r : Fin 2), ∀ a, (k0_off25 k0_t3 (BitVec.ofNat 32 (1 + r.val))) a + S16.size a ≤ S8192.size a
  k0_off26_inb : ∀ (i : grid0.Coords) (k0_t3 : Fin k0_t3_loop.trips), ∀ (k0_h2 : k0_cond2 i = 1#1), ∀ (r : Fin 2), ∀ a, (k0_off26 k0_t3 (BitVec.ofNat 32 (2 + r.val))) a + S16.size a ≤ S8192.size a
  k0_off27_inb : ∀ (i : grid0.Coords) (k0_t3 : Fin k0_t3_loop.trips), ∀ (k0_h2 : k0_cond2 i = 1#1), ∀ (r : Fin 2), ∀ a, (k0_off27 k0_t3 (BitVec.ofNat 32 (3 + r.val))) a + S16.size a ≤ S8192.size a
  k0_off28_inb : ∀ (i : grid0.Coords) (k0_t3 : Fin k0_t3_loop.trips), ∀ (k0_h2 : k0_cond2 i = 1#1), ∀ (r : Fin 2), ∀ a, (k0_off28 k0_t3 (BitVec.ofNat 32 (4 + r.val))) a + S16.size a ≤ S8192.size a
  k0_off29_inb : ∀ (i : grid0.Coords) (k0_t3 : Fin k0_t3_loop.trips), ∀ (k0_h2 : k0_cond2 i = 1#1), ∀ (r : Fin 2), ∀ a, (k0_off29 k0_t3 (BitVec.ofNat 32 (5 + r.val))) a + S16.size a ≤ S8192.size a
  k0_off30_inb : ∀ (i : grid0.Coords) (k0_t3 : Fin k0_t3_loop.trips), ∀ (k0_h2 : k0_cond2 i = 1#1), ∀ (r : Fin 2), ∀ a, (k0_off30 k0_t3 (BitVec.ofNat 32 (6 + r.val))) a + S16.size a ≤ S8192.size a
  k0_off31_inb : ∀ (i : grid0.Coords) (k0_t3 : Fin k0_t3_loop.trips), ∀ (k0_h2 : k0_cond2 i = 1#1), ∀ a, (k0_off31 k0_t3) a + S16.size a ≤ S8192.size a
  k0_off32_inb : ∀ i : grid0.Coords, ∀ (k0_h2 : k0_cond2 i = 1#1), ∀ a, (k0_off32 i) a + S1x8192.size a ≤ S50x16384.size a
  k0_t4_ok : ∀ i : grid0.Coords, ∀ (k0_h2 : k0_cond2 i = 1#1), k0_t4_loop.OK
  k0_off33_inb : ∀ (i : grid0.Coords) (k0_t4 : Fin k0_t4_loop.trips), ∀ (k0_h2 : k0_cond2 i = 1#1), ∀ a, (k0_off33 k0_t4) a + S16.size a ≤ S8192.size a
  k0_off34_inb : ∀ (i : grid0.Coords) (k0_t4 : Fin k0_t4_loop.trips), ∀ (k0_h2 : k0_cond2 i = 1#1), ∀ (r : Fin 2), ∀ a, (k0_off34 k0_t4 (BitVec.ofNat 32 r.val)) a + S16.size a ≤ S8192.size a
  k0_off35_inb : ∀ (i : grid0.Coords) (k0_t4 : Fin k0_t4_loop.trips), ∀ (k0_h2 : k0_cond2 i = 1#1), ∀ (r : Fin 2), ∀ a, (k0_off35 k0_t4 (BitVec.ofNat 32 (1 + r.val))) a + S16.size a ≤ S8192.size a
  k0_off36_inb : ∀ (i : grid0.Coords) (k0_t4 : Fin k0_t4_loop.trips), ∀ (k0_h2 : k0_cond2 i = 1#1), ∀ (r : Fin 2), ∀ a, (k0_off36 k0_t4 (BitVec.ofNat 32 (2 + r.val))) a + S16.size a ≤ S8192.size a
  k0_off37_inb : ∀ (i : grid0.Coords) (k0_t4 : Fin k0_t4_loop.trips), ∀ (k0_h2 : k0_cond2 i = 1#1), ∀ (r : Fin 2), ∀ a, (k0_off37 k0_t4 (BitVec.ofNat 32 (3 + r.val))) a + S16.size a ≤ S8192.size a
  k0_off38_inb : ∀ (i : grid0.Coords) (k0_t4 : Fin k0_t4_loop.trips), ∀ (k0_h2 : k0_cond2 i = 1#1), ∀ (r : Fin 2), ∀ a, (k0_off38 k0_t4 (BitVec.ofNat 32 (4 + r.val))) a + S16.size a ≤ S8192.size a
  k0_off39_inb : ∀ (i : grid0.Coords) (k0_t4 : Fin k0_t4_loop.trips), ∀ (k0_h2 : k0_cond2 i = 1#1), ∀ (r : Fin 2), ∀ a, (k0_off39 k0_t4 (BitVec.ofNat 32 (5 + r.val))) a + S16.size a ≤ S8192.size a
  k0_off40_inb : ∀ (i : grid0.Coords) (k0_t4 : Fin k0_t4_loop.trips), ∀ (k0_h2 : k0_cond2 i = 1#1), ∀ (r : Fin 2), ∀ a, (k0_off40 k0_t4 (BitVec.ofNat 32 (6 + r.val))) a + S16.size a ≤ S8192.size a
  k0_off41_inb : ∀ (i : grid0.Coords) (k0_t4 : Fin k0_t4_loop.trips), ∀ (k0_h2 : k0_cond2 i = 1#1), ∀ a, (k0_off41 k0_t4) a + S16.size a ≤ S8192.size a
  k0_off42_inb : ∀ i : grid0.Coords, ∀ (k0_h2 : k0_cond2 i = 1#1), ∀ a, (k0_off42 i) a + S1x8192.size a ≤ S50x16384.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S16384x128.size a
  hwx1_0 : ∀ i : grid1.Coords, EltTy.bits .f32 = 32 ∨ (Rect.block (s := S16384x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x178.size a ≤ S64x178.size a
  hwx1_1 : ∀ i : grid1.Coords, EltTy.bits .f32 = 32 ∨ (Rect.block (s := S64x178) S64x178.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x8192.size a ≤ S64x16384.size a
  hwx1_3 : ∀ i : grid1.Coords, EltTy.bits .f32 = 32 ∨ (Rect.block (s := S64x16384) S64x8192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S50x8192.size a ≤ S50x16384.size a
  hwx2_0 : ∀ i : grid2.Coords, EltTy.bits .f32 = 32 ∨ (Rect.block (s := S50x16384) S50x8192.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x8192.size a ≤ S64x16384.size a
  hwx2_1 : ∀ i : grid2.Coords, EltTy.bits .f32 = 32 ∨ (Rect.block (s := S64x16384) S64x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x178.size a ≤ S64x178.size a
  hwx2_2 : ∀ i : grid2.Coords, EltTy.bits .f32 = 32 ∨ (Rect.block (s := S64x178) S64x178.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x8192.size a ≤ S64x16384.size a
  hwx2_5 : ∀ i : grid2.Coords, EltTy.bits .f32 = 32 ∨ (Rect.block (s := S64x16384) S64x8192.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x8192.size a ≤ S1x16384.size a
  hwx2_6 : ∀ i : grid2.Coords, EltTy.bits .f32 = 32 ∨ (Rect.block (s := S1x16384) S1x8192.size (cc2_transform_6 i) (hinb2_6 i)).WholeWords (EltTy.packing .f32)

variable [Facts₀]

abbrev cc0_scratch3 : DmaSems sig S_ := SemArray.consecutive 0 S_ hcc0_scratch3
abbrev cc0_scoped0 : DmaSems sig S_ := SemArray.consecutive 1 S_ hcc0_scoped0
abbrev cc0_scoped1 : DmaSems sig S_ := SemArray.consecutive 2 S_ hcc0_scoped1
abbrev cc0_scoped2 : DmaSems sig S_ := SemArray.consecutive 3 S_ hcc0_scoped2
abbrev cc0_scoped3 : DmaSems sig S_ := SemArray.consecutive 4 S_ hcc0_scoped3
abbrev cc0_scoped4 : DmaSems sig S_ := SemArray.consecutive 5 S_ hcc0_scoped4
abbrev cc0_scoped5 : DmaSems sig S_ := SemArray.consecutive 6 S_ hcc0_scoped5
abbrev cc0_scoped6 : DmaSems sig S_ := SemArray.consecutive 7 S_ hcc0_scoped6
abbrev cc0_scoped7 : DmaSems sig S_ := SemArray.consecutive 8 S_ hcc0_scoped7
def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S64x50_S50x8192_S64x8192_1_0_0_1_n_n : DotDims S64x50 S50x8192 S64x8192 where
  lhsContracting := [1]
  rhsContracting := [0]
  lhsNonContracting := [0]
  rhsNonContracting := [1]
  lhsBatch := []
  rhsBatch := []
  wf := dot_S64x50_S50x8192_S64x8192_1_0_0_1_n_n_wf
def dot_S1x64_S64x8192_S1x8192_1_0_0_1_n_n : DotDims S1x64 S64x8192 S1x8192 where
  lhsContracting := [1]
  rhsContracting := [0]
  lhsNonContracting := [0]
  rhsNonContracting := [1]
  lhsBatch := []
  rhsBatch := []
  wf := dot_S1x64_S64x8192_S1x8192_1_0_0_1_n_n_wf

abbrev win1_0 : Pipeline.Window sig grid1 :=
  Pipeline.Window.ofSpec (Memref.whole main_arg1) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x178.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S64x8192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S50x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S64x8192.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S64x178.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v7) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v8_0) S64x8192.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v8_1) S1x8192.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16384x1 : Shape := ⟨2, ![16384, 1]⟩
abbrev S16384x128 : Shape := ⟨2, ![16384, 128]⟩
abbrev S100000x50 : Shape := ⟨2, ![100000, 50]⟩
abbrev S178x64 : Shape := ⟨2, ![178, 64]⟩
abbrev S64 : Shape := ⟨1, ![64]⟩
abbrev S64x1 : Shape := ⟨2, ![64, 1]⟩
abbrev S1 : Shape := ⟨1, ![1]⟩
abbrev S16384 : Shape := ⟨1, ![16384]⟩
abbrev S_ : Shape := ⟨0, ![]⟩
abbrev S1x1 : Shape := ⟨2, ![1, 1]⟩
abbrev S16384x50 : Shape := ⟨2, ![16384, 50]⟩
abbrev S16384x178 : Shape := ⟨2, ![16384, 178]⟩
abbrev S16384x64 : Shape := ⟨2, ![16384, 64]⟩
abbrev S1x64 : Shape := ⟨2, ![1, 64]⟩

abbrev nBuf : Space → Nat
  | .hbm => 49
  | .vmem => 0
  | .smem => 0
  | _ => 0

abbrev bufTy : (tb : Table) → Fin (tcTables nBuf tb) → BufTy
  | .hbm, ⟨0, _⟩ => ⟨S16384x1, .i32⟩
  | .hbm, ⟨1, _⟩ => ⟨S16384x128, .f32⟩
  | .hbm, ⟨2, _⟩ => ⟨S100000x50, .f32⟩
  | .hbm, ⟨3, _⟩ => ⟨S178x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S16384, .i32⟩
  | .hbm, ⟨8, _⟩ => ⟨S_, .i32⟩
  | .hbm, ⟨9, _⟩ => ⟨S16384, .i32⟩
  | .hbm, ⟨10, _⟩ => ⟨S16384, .i1⟩
  | .hbm, ⟨11, _⟩ => ⟨S_, .i32⟩
  | .hbm, ⟨12, _⟩ => ⟨S16384, .i32⟩
  | .hbm, ⟨13, _⟩ => ⟨S16384, .i32⟩
  | .hbm, ⟨14, _⟩ => ⟨S16384, .i32⟩
  | .hbm, ⟨15, _⟩ => ⟨S16384x1, .i32⟩
  | .hbm, ⟨16, _⟩ => ⟨S1, .i32⟩
  | .hbm, ⟨17, _⟩ => ⟨S_, .i32⟩
  | .hbm, ⟨18, _⟩ => ⟨S16384x1, .i32⟩
  | .hbm, ⟨19, _⟩ => ⟨S16384x1, .i1⟩
  | .hbm, ⟨20, _⟩ => ⟨S1x1, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i1⟩
  | .hbm, ⟨25, _⟩ => ⟨S16384, .i1⟩
  | .hbm, ⟨26, _⟩ => ⟨S16384x50, .f32⟩
  | .hbm, ⟨27, _⟩ => ⟨S16384x50, .i1⟩
  | .hbm, ⟨28, _⟩ => ⟨S_, .f32⟩
  | .hbm, ⟨29, _⟩ => ⟨S16384x50, .f32⟩
  | .hbm, ⟨30, _⟩ => ⟨S16384x50, .f32⟩
  | .hbm, ⟨31, _⟩ => ⟨S16384x178, .f32⟩
  | .hbm, ⟨32, _⟩ => ⟨S16384x64, .f32⟩
  | .hbm, ⟨33, _⟩ => ⟨S1x64, .f32⟩
  | .hbm, ⟨34, _⟩ => ⟨S16384x64, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S_, .f32⟩
  | .hbm, ⟨39, _⟩ => ⟨S16384x64, .f32⟩
  | .hbm, ⟨40, _⟩ => ⟨S16384x64, .f32⟩
  | .hbm, ⟨41, _⟩ => ⟨S_, .f32⟩
  | .hbm, ⟨42, _⟩ => ⟨S16384x64, .f32⟩
  | .hbm, ⟨43, _⟩ => ⟨S16384x64, .f32⟩
  | .hbm, ⟨44, _⟩ => ⟨S16384x64, .f32⟩
  | .hbm, ⟨45, _⟩ => ⟨S16384x1, .f32⟩
  | .hbm, ⟨46, _⟩ => ⟨S1x1, .f32⟩
  | .hbm, ⟨47, _⟩ => ⟨S16384x1, .f32⟩
  | .hbm, ⟨48, _⟩ => ⟨S16384x1, .f32⟩
  | _, _ => ⟨S16384x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst : Ref sig .tc := ⟨.hbm, 38, rfl⟩
abbrev main_v9 : Ref sig .tc := ⟨.hbm, 39, rfl⟩
abbrev main_v10 : Ref sig .tc := ⟨.hbm, 40, rfl⟩
abbrev main_cst_0 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩

abbrev nD : Nat := 1
abbrev τ : Topo := Topo.v7x

variable {F : FTy → Type} [FloatOps F]

class Facts₀ : Prop where
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x50_0 : S16384.BroadcastsInDim S16384x50 (![0] : Fin 1 → Fin S16384x50.rank)
  bcast_S_S16384x50 : S_.BroadcastsInDim S16384x50 (![] : Fin 0 → Fin S16384x50.rank)
  concatenates_S16384x50_S16384x128_S16384x178_d1 : Shape.Concatenates [S16384x50, S16384x128] S16384x178 1
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  gather_S100000x50_S16384x1_S16384x50_1_0_n_n_0_1_150_wf : GatherDims.WF S100000x50 S16384x1 S16384x50 [1] [0] [] [0] [] 1 ![1, 50]
  dot_S16384x178_S178x64_S16384x64_1_0_0_1_n_n_wf : DotDims.WF S16384x178 S178x64 S16384x64 [1] [0] [0] [1] [] []
  dot_S16384x64_S64x1_S16384x1_1_0_0_1_n_n_wf : DotDims.WF S16384x64 S64x1 S16384x1 [1] [0] [0] [1] [] []

variable [Facts₀]

def gather_S100000x50_S16384x1_S16384x50_1_0_n_n_0_1_150 : GatherDims S100000x50 S16384x1 S16384x50 where
  offsetDims := [1]
  collapsedSliceDims := [0]
  operandBatchingDims := []
  startIndicesBatchingDims := []
  startIndexMap := [0]
  indexVectorDim := 1
  sliceSizes := ![1, 50]
  wf := gather_S100000x50_S16384x1_S16384x50_1_0_n_n_0_1_150_wf
def dot_S16384x178_S178x64_S16384x64_1_0_0_1_n_n : DotDims S16384x178 S178x64 S16384x64 where
  lhsContracting := [1]
  rhsContracting := [0]
  lhsNonContracting := [0]
  rhsNonContracting := [1]
  lhsBatch := []
  rhsBatch := []
  wf := dot_S16384x178_S178x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.KSpec.lean ====
/-
  The arrays the kernel-side program passes from one stage to the next, each as ONE function of the arrays before it,
  index by index, on the extended reals (the category words are 32-bit words).

  The stages: the category column flattened (`idx`); the table and `W2` transposed; the bias as a column; the gathered
  rows of the transposed table, `embT[f, b] = tabT[f, idx[b]]`; the partial pre-activation
  `pT[h, b] = b2c[h, 0] + Σ_k w2t[h, 50 + k] · num[b, k]`; the activation
  `hT[h, b] = a · logistic a` with `a = pT[h, b] + Σ_e w2t[h, e] · embT[e, b]`; the output row
  `outT[0, b] = Σ_h woutT[0, h] · hT[h, b] + boutc[0, 0]`; and the two results, the transposes of `hT` and `outT`.
  A category word is read as a natural number and reduced below the number of table rows, so that every function
  here is total; for a word in range the reduction does nothing.
-/
import Idealize.ShloMosaic.PureOps.Ideal
import Idealize.ShloMosaic.Lib.ValueIdx

noncomputable section

open scoped BigOperators

namespace Cert.KSpec

open Idealize.ShloMosaic Idealize.ShloMosaic.ValueIdx

/-- The category column as a flat vector. -/
def idx (cat : IVec ⟨2, ![16384, 1]⟩ 32) : IVec ⟨1, ![16384]⟩ 32 := fun j => cat (ix2 (j 0) (0 : Fin 1))

/-- The table row (a column of the transposed table) that entry `b` of a flat index vector names. -/
def col (ix : IVec ⟨1, ![16384]⟩ 32) (b : Fin 16384) : Fin 100000 :=
  ⟨(ix (ix1 b)).toNat % 100000, Nat.mod_lt _ (by decide)⟩

/-- The transposed table. -/
def tabT (tab : FVec Ideal ⟨2, ![100000, 50]⟩ .f32) : FVec Ideal ⟨2, ![50, 100000]⟩ .f32 := fun j => tab (ix2 (j 1) (j 0))
/-- `W2` transposed. -/
def w2t (W2 : FVec Ideal ⟨2, ![178, 64]⟩ .f32) : FVec Ideal ⟨2, ![64, 178]⟩ .f32 := fun j => W2 (ix2 (j 1) (j 0))
/-- The bias as a column. -/
def b2c (b2 : FVec Ideal ⟨1, ![64]⟩ .f32) : FVec Ideal ⟨2, ![64, 1]⟩ .f32 := fun j => b2 (ix1 (j 0))
/-- `Wout` transposed. -/
def woutT (Wout : FVec Ideal ⟨2, ![64, 1]⟩ .f32) : FVec Ideal ⟨2, ![1, 64]⟩ .f32 := fun j => Wout (ix2 (j 1) (j 0))
/-- The output bias as a 1×1 array. -/
def boutc (bout : FVec Ideal ⟨1, ![1]⟩ .f32) : FVec Ideal ⟨2, ![1, 1]⟩ .f32 := fun j => bout (ix1 (j 0))

/-- The gathered rows: feature `f` of the table row that entry `b` names. Generic in the element type, because a gather
    only moves words. -/
def embT {α : Type} (ix : IVec ⟨1, ![16384]⟩ 32) (tT : (⟨2, ![50, 100000]⟩ : Shape).Idx → α) :
    (⟨2, ![50, 16384]⟩ : Shape).Idx → α := fun j => tT (ix2 (j 0) (col ix (j 1)))

/-- The partial pre-activation at `(h, b)`: the bias plus the 128 numeric terms. -/
def pTAt (num : FVec Ideal ⟨2, ![16384, 128]⟩ .f32) (wT : FVec Ideal ⟨2, ![64, 178]⟩ .f32)
    (bc : FVec Ideal ⟨2, ![64, 1]⟩ .f32) (h : Fin 64) (b : Fin 16384) : EReal :=
  bc (ix2 h (0 : Fin 1)) + ∑ k : Fin 128, wT (ix2 h (⟨50 + k.val, by omega⟩ : Fin 178)) * num (ix2 b k)
/-- The partial pre-activation as an array. -/
def pT (num : FVec Ideal ⟨2, ![16384, 128]⟩ .f32) (wT : FVec Ideal ⟨2, ![64, 178]⟩ .f32)
    (bc : FVec Ideal ⟨2, ![64, 1]⟩ .f32) : FVec Ideal ⟨2, ![64, 16384]⟩ .f32 := fun j => pTAt num wT bc (j 0) (j 1)

/-- The full pre-activation at `(h, b)`: the partial one plus the 50 table terms. -/
def accAt (eT : FVec Ideal ⟨2, ![50, 16384]⟩ .f32) (p : FVec Ideal ⟨2, ![64, 16384]⟩ .f32)
    (wT : FVec Ideal ⟨2, ![64, 178]⟩ .f32) (h : Fin 64) (b : Fin 16384) : EReal :=
  p (ix2 h b) + ∑ e : Fin 50, wT (ix2 h (⟨e.val, by omega⟩ : Fin 178)) * eT (ix2 e b)
/-- The activation at `(h, b)`. -/
def hTAt (eT : FVec Ideal ⟨2, ![50, 16384]⟩ .f32) (p : FVec Ideal ⟨2, ![64, 16384]⟩ .f32)
    (wT : FVec Ideal ⟨2, ![64, 178]⟩ .f32) (h : Fin 64) (b : Fin 16384) : EReal :=
  accAt eT p wT h b * Ideal.logistic (accAt eT p wT h b)
/-- The activation as an array. -/
def hT (eT : FVec Ideal ⟨2, ![50, 16384]⟩ .f32) (p : FVec Ideal ⟨2, ![64, 16384]⟩ .f32)
    (wT : FVec Ideal ⟨2, ![64, 178]⟩ .f32) : FVec Ideal ⟨2, ![64, 16384]⟩ .f32 := fun j => hTAt eT p wT (j 0) (j 1)

/-- The output row at `(0, b)`. -/
def outTAt (eT : FVec Ideal ⟨2, ![50, 16384]⟩ .f32) (p : FVec Ideal ⟨2, ![64, 16384]⟩ .f32)
    (wT : FVec Ideal ⟨2, ![64, 178]⟩ .f32) (wo : FVec Ideal ⟨2, ![1, 64]⟩ .f32) (bo : FVec Ideal ⟨2, ![1, 1]⟩ .f32)
    (b : Fin 16384) : EReal :=
  (∑ h : Fin 64, wo (ix2 (0 : Fin 1) h) * hTAt eT p wT h b) + bo (ix2 (0 : Fin 1) (0 : Fin 1))
/-- The output row as an array. -/
def outT (eT : FVec Ideal ⟨2, ![50, 16384]⟩ .f32) (p : FVec Ideal ⟨2, ![64, 16384]⟩ .f32)
    (wT : FVec Ideal ⟨2, ![64, 178]⟩ .f32) (wo : FVec Ideal ⟨2, ![1, 64]⟩ .f32) (bo : FVec Ideal ⟨2, ![1, 1]⟩ .f32) :
    FVec Ideal ⟨2, ![1, 16384]⟩ .f32 := fun j => outTAt eT p wT wo bo (j 1)

/-- The first result: the activation transposed back. -/
def resX (hT' : FVec Ideal ⟨2, ![64, 16384]⟩ .f32) : FVec Ideal ⟨2, ![16384, 64]⟩ .f32 := fun j => hT' (ix2 (j 1) (j 0))
/-- The second result: the output row transposed back. -/
def resOut (oT : FVec Ideal ⟨2, ![1, 16384]⟩ .f32) : FVec Ideal ⟨2, ![16384, 1]⟩ .f32 := fun j => oT (ix2 (j 1) (j 0))

end Cert.KSpec

end
-- ==== Proof.TilePay.lean ====
/-
  The SparseCore gather as the launch sees it: which thread is handed what.

  Thirty-two vector subcores (two cores of sixteen) share the work by rows of the transposed table: subcore `s` of core
  `c` is worker `w = 2 s + c` and produces output rows `w` and, when `32 + w < 50`, `32 + w`. Every worker reads the
  whole index vector, so that array travels as thirty-two read shares of one points-to; a row of the transposed table
  and a row of the output belong to exactly one worker and travel whole. A worker hands back its output rows holding
  the gathered values: at column `b` of row `f`, the transposed table's entry `(f, idx b)`.
-/
import proofs.«203298_g75634374082695_cont_9to1_m_1088_20_alg».proof.KernelIdeal
import proofs.«203298_g75634374082695_cont_9to1_m_1088_20_alg».proof.Proof.Gen.KernelIdeal
import proofs.«203298_g75634374082695_cont_9to1_m_1088_20_alg».proof.Proof.KSpec
import Idealize.ShloMosaic.Lib.SparseCore.Launch
import Idealize.ShloMosaic.Lib.Pipeline.Kit
import Idealize.ShloMosaic.Lib.Transfers

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UR 𝕄).LandsIn (upEmb : UEmb _ 𝕄) := by unfold ER; infer_instance

/-! ## The arrays the gather touches -/

abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

abbrev idxV : Memref sig .scVector .hbm S16384 .i32 := Memref.whole main_v0_scv
abbrev tabV : Memref sig .scVector .hbm S50x100000 .f32 := Memref.whole main_v1_scv
abbrev outV : Memref sig .scVector .hbm S50x16384 .f32 := Memref.whole main_v2_scv

theorem hdiv1 : 50 ∣ S50x100000.size 0 := ⟨1, rfl⟩
theorem hdiv2 : 50 ∣ S50x16384.size 0 := ⟨1, rfl⟩
/-- Row `f` of the transposed table, and of the output. -/
abbrev row1 (f : Fin 50) : Rect S50x100000 := Rect.part (s := S50x100000) (a₀ := 0) hdiv1 f
abbrev row2 (f : Fin 50) : Rect S50x16384 := Rect.part (s := S50x16384) (a₀ := 0) hdiv2 f
abbrev rowSet1 (f : Fin 50) : Finset S50x100000.Idx := ((tabV : Memref sig .scVector .hbm S50x100000 .f32).view.slice (row1 f)).set
abbrev rowSet2 (f : Fin 50) : Finset S50x16384.Idx := ((outV : Memref sig .scVector .hbm S50x16384 .f32).view.slice (row2 f)).set

/-- The worker number of subcore `s` of core `c`. -/
def wid (c : Fin 2) (s : Fin 16) : Fin 32 := ⟨2 * s.val + c.val, by omega⟩
/-- The worker's first row. -/
def f0 (c : Fin 2) (s : Fin 16) : Fin 50 := ⟨(wid c s).val, by have := (wid c s).isLt; omega⟩

section Pay

variable (V0 : (d : Dev nD) → Buf (Elt F) (v0Loc d)) (V1 : (d : Dev nD) → Buf (Elt F) (v1Loc d))

/-- The gathered output as one array: entry `(f, b)` is the transposed table's entry `(f, idx b)`. -/
def gathered (d : Dev nD) : Buf (Elt F) (v2Loc d) := KSpec.embT (V0 d) (V1 d)

/-- A worker's read share of the index vector. -/
abbrev idxTok (d : Dev nD) (c : Fin 2) (s : Fin 16) : sProp 𝕄 :=
  v0Loc d ↦[Finset.univ]{shareTok fullShare 32 (wid c s)} V0 d

/-- Row `f` as a worker receives it: the table's row at its contents, the output's row at some contents. -/
abbrev rowIn (d : Dev nD) (f : Fin 50) : sProp 𝕄 :=
  iprop((v1Loc d ↦[rowSet1 f]{fullShare} V1 d) ∗ ∃ g : Buf (Elt F) (v2Loc d), v2Loc d ↦[rowSet2 f]{fullShare} g)
/-- Row `f` as a worker hands it back: the output's row at the gathered values. -/
abbrev rowOut (d : Dev nD) (f : Fin 50) : sProp 𝕄 :=
  iprop((v1Loc d ↦[rowSet1 f]{fullShare} V1 d) ∗ v2Loc d ↦[rowSet2 f]{fullShare} gathered V0 V1 d)

/-- What a worker is handed with its go signal: its read share of the index vector, its first row, and its second row
    when it has one. -/
def tileGo (d : Dev nD) (c : Fin 2) (s : Fin 16) : sProp 𝕄 :=
  iprop(idxTok V0 d c s ∗ rowIn V1 d (f0 c s)
    ∗ if h : 32 + (wid c s).val < 50 then rowIn V1 d ⟨32 + (wid c s).val, h⟩ else iprop(emp))
/-- What it hands back with its taskDone signal. -/
def tileTd (d : Dev nD) (c : Fin 2) (s : Fin 16) : sProp 𝕄 :=
  iprop(idxTok V0 d c s ∗ rowOut V0 V1 d (f0 c s)
    ∗ if h : 32 + (wid c s).val < 50 then rowOut V0 V1 d ⟨32 + (wid c s).val, h⟩ else iprop(emp))

end Pay

end Cert.KernelIdeal.Launch

end
-- ==== Proof.TileIface.lean ====
/-
  One worker's task, as a statement: handed its read share of the index vector and its rows, with its three scratch
  buffers and its DMA semaphores at zero, the gather function runs to the end without a fault and hands the same back,
  the output rows now holding the gathered values. The only fact about the data it needs is that every index names a
  column of the transposed table.
-/
import proofs.«203298_g75634374082695_cont_9to1_m_1088_20_alg».proof.Proof.TilePay

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

/-- The core and the subcore a grid coordinate names, as threads are numbered; -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- and as the rows are dealt. -/
abbrev cL (L : grid0.Coords) : Fin 2 := Fin.cast bound_zero (L 0)
abbrev sL (L : grid0.Coords) : Fin 16 := Fin.cast bound_one (L 1)

/-- The gather function on the arrays, scratch buffers and semaphores the body table passes it. -/
abbrev gatherAt [FloatOps F] (L : grid0.Coords) :=
  cc0__gather_body (F := F) L idxV (Memref.isWhole_whole _) tabV (Memref.isWhole_whole _) outV (Memref.isWhole_whole _)
    (Memref.whole cc0_scratch0) (Memref.isWhole_whole _) (Memref.whole cc0_scratch1) (Memref.isWhole_whole _)
    (Memref.whole cc0_scratch2) (Memref.isWhole_whole _) cc0_scratch3
    cc0_scoped0 cc0_scoped1 cc0_scoped2 cc0_scoped3 cc0_scoped4 cc0_scoped5 cc0_scoped6 cc0_scoped7

/-- One worker's task at a symbolic device and grid coordinate. -/
def TileCore [FloatOps F] (V0 : (d : Dev nD) → Buf (Elt F) (v0Loc d)) (V1 : (d : Dev nD) → Buf (Elt F) (v1Loc d)) : Prop :=
  ∀ (d : Dev nD) (L : grid0.Coords) (O : CellTallies nD τ sig (HIx 1)) (W : Waits sig (HIx 1)), (∀ g, O g none = 0) →
    (∀ b : Fin 16384, ((V0 d : IVec S16384 32) (ix1 b)).toNat < 100000) →
    (iprop(levAts (K (F := F)).L (K (F := F)).lev ∗ emp ∗ tileGo V0 V1 d (cL L) (sL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (gatherAt (F := F) L)
          fun _ => iprop(tileTd V0 V1 d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Launch

end
-- ==== Proof.Launch.lean ====
/-
  The launch of the kernel-side program: what each thread is handed and hands back, the workers' obligation from one
  worker's task, how a core's share is its sixteen workers', and the launch element of the ghost state (the
  handshakes' rounds, the two pipelines' staging cells' rounds, the transfers' counters).
-/
import proofs.«203298_g75634374082695_cont_9to1_m_1088_20_alg».proof.Proof.TileIface
import Idealize.ShloMosaic.Lib.StableHlo.Run
import Idealize.ShloMosaic.Lib.Pipeline.Regions
import Idealize.ShloMosaic.Lib.Tactic

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

section

variable (V0 : (d : Dev nD) → Buf (Elt F) (v0Loc d)) (V1 : (d : Dev nD) → Buf (Elt F) (v1Loc d))

/-! ## What the handshakes carry -/

/-- A core's share of the call's operands is its sixteen workers' shares, and likewise on the way back. -/
def coreSt (d : Dev nD) (c : Fin 2) : sProp 𝕄 := bigSep Finset.univ fun s : Fin 16 => tileGo V0 V1 d c s
def coreDn (d : Dev nD) (c : Fin 2) : sProp 𝕄 := bigSep Finset.univ fun s : Fin 16 => tileTd V0 V1 d c s

instance tileGo_storable (d : Dev nD) (c : Fin 2) (s : Fin 16) : BI.Storable (upEmb : UEmb _ 𝕄) (tileGo V0 V1 d c s) := by
  unfold tileGo; split <;> infer_instance
instance tileTd_storable (d : Dev nD) (c : Fin 2) (s : Fin 16) : BI.Storable (upEmb : UEmb _ 𝕄) (tileTd V0 V1 d c s) := by
  unfold tileTd; split <;> infer_instance
instance coreSt_storable (d : Dev nD) (c : Fin 2) : BI.Storable (upEmb : UEmb _ 𝕄) (coreSt V0 V1 d c) := by
  unfold coreSt; infer_instance
instance coreDn_storable (d : Dev nD) (c : Fin 2) : BI.Storable (upEmb : UEmb _ 𝕄) (coreDn V0 V1 d c) := by
  unfold coreDn; infer_instance

/-- The one call's payloads. No thread owes anything for a protocol of the kernel's own: it only makes local copies. -/
def P : (K (F := F)).Pay (nD := nD) (Val := Elt F) (Name := ℕ) (U := UU) where
  st := fun q d c => match q with | 0 => coreSt V0 V1 d (Fin.cast nCore_zero c)
  dn := fun q d c => match q with | 0 => coreDn V0 V1 d (Fin.cast nCore_zero c)
  go := fun q d c i => match q with | 0 => tileGo V0 V1 d (Fin.cast nCore_zero c) (Fin.cast nSub_zero i)
  td := fun q d c i => match q with | 0 => tileTd V0 V1 d (Fin.cast nCore_zero c) (Fin.cast nSub_zero i)
  x := fun _ _ => iprop(emp)

instance P_storable : (P (F := F) V0 V1).IsStorable where
  st q d c := match q with | 0 => (inferInstance : BI.Storable (upEmb : UEmb _ 𝕄) (coreSt V0 V1 d (Fin.cast nCore_zero c)))
  dn q d c := match q with | 0 => (inferInstance : BI.Storable (upEmb : UEmb _ 𝕄) (coreDn V0 V1 d (Fin.cast nCore_zero c)))
  go q d c i := match q with
    | 0 => (inferInstance : BI.Storable (upEmb : UEmb _ 𝕄) (tileGo V0 V1 d (Fin.cast nCore_zero c) (Fin.cast nSub_zero i)))
  td q d c i := match q with
    | 0 => (inferInstance : BI.Storable (upEmb : UEmb _ 𝕄) (tileTd V0 V1 d (Fin.cast nCore_zero c) (Fin.cast nSub_zero i)))

variable [FloatOps F]

/-! ## The workers' obligation from one worker's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => gatherAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F) V0 V1)
    (hidx : ∀ (d : Dev nD) (b : Fin 16384), ((V0 d : IVec S16384 32) (ix1 b)).toNat < 100000) :
    (K (F := F)).TileObl (D (F := F)) 𝒱 (P V0 V1) v₀ 0 := by
  intro d c i O W hO _ _
  simp only [show (P V0 V1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (hcore d (coordsV ⟨_, hc.1⟩ ⟨_, hc.2⟩) O W hO (hidx d)).trans (wp_mono frame _ _ fun _ => obl_post)

/-! ## A core's share is its workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P V0 V1) 0 := by
  intro d c
  show coreSt V0 V1 d (Fin.cast nCore_zero c) ⊢ |={Set.univ}=> iprop(
      (bigSep Finset.univ fun i : Fin ((K (F := F)).nSub 0) => tileGo V0 V1 d (Fin.cast nCore_zero c) (Fin.cast nSub_zero i))
      ∗ ((bigSep Finset.univ fun i : Fin ((K (F := F)).nSub 0) => tileTd V0 V1 d (Fin.cast nCore_zero c) (Fin.cast nSub_zero i))
          -∗ coreDn V0 V1 d (Fin.cast nCore_zero c)))
  rw [bigSep_tasks (F := F) (fun s => tileGo V0 V1 d (Fin.cast nCore_zero c) s),
    bigSep_tasks (F := F) (fun s => tileTd V0 V1 d (Fin.cast nCore_zero c) s)]
  unfold coreSt coreDn
  iintro H; imodintro
  isplitl [H]; · iexact H
  iintro H; iexact H

end

end Cert.KernelIdeal.Launch

end
-- ==== Proof.CallSplit.lean ====
/-
  Around the gather call: the three arrays it touches, held whole by the TensorCore, become the thirty-two workers'
  shares, and the workers' results become the arrays again.

  Rows are dealt by the rule "worker `w` owns row `w`, and row `32 + w` when that is below 50": the fifty rows are the
  thirty-two first rows and the eighteen second rows. Workers are numbered `2 s + c` over two cores of sixteen
  subcores, a bijection with the numbers below thirty-two. The index vector is not cut: each worker receives one of
  thirty-two read shares of it and a remainder stays behind; joined again they are the whole.
-/
import proofs.«203298_g75634374082695_cont_9to1_m_1088_20_alg».proof.Proof.Launch

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

/-! ## Regrouping: rows by worker, workers by core -/

section Regroup

variable {M : Type} [URA M]

/-- A worker's first row, and the second row of one of the first eighteen workers. -/
def lo (w : Fin 32) : Fin 50 := ⟨w.val, by omega⟩
def hi (v : Fin 18) : Fin 50 := ⟨32 + v.val, by omega⟩

theorem filter_lo : (Finset.univ.filter fun f : Fin 50 => f.val < 32) = Finset.univ.image lo :=
  Finset.ext fun f => by
    simp only [Finset.mem_filter, Finset.mem_univ, true_and, Finset.mem_image]
    exact ⟨fun h => ⟨⟨f.val, h⟩, Fin.ext rfl⟩, fun ⟨w, e⟩ => e ▸ w.isLt⟩
theorem filter_hi : (Finset.univ.filter fun f : Fin 50 => ¬ f.val < 32) = Finset.univ.image hi :=
  Finset.ext fun f => by
    simp only [Finset.mem_filter, Finset.mem_univ, true_and, Finset.mem_image]
    refine ⟨fun h => ⟨⟨f.val - 32, by have := f.isLt; omega⟩, Fin.ext (by show 32 + (f.val - 32) = f.val; omega)⟩, fun ⟨v, e⟩ => ?_⟩
    rw [← e]; show ¬ (32 + v.val < 32); omega
theorem lo_inj : Set.InjOn lo ((Finset.univ : Finset (Fin 32)) : Set (Fin 32)) :=
  fun a _ b _ e => Fin.ext (by have := congrArg Fin.val e; exact this)
theorem hi_inj : Set.InjOn hi ((Finset.univ : Finset (Fin 18)) : Set (Fin 18)) :=
  fun a _ b _ e => Fin.ext (by have := congrArg Fin.val e; change 32 + a.val = 32 + b.val at this; omega)

/-- The fifty rows are the first rows and the second rows. -/
theorem rows_lo_hi (Ψ : Fin 50 → sProp M) :
    bigSep Finset.univ Ψ = iprop((bigSep Finset.univ fun w : Fin 32 => Ψ (lo w)) ∗ bigSep Finset.univ fun v : Fin 18 => Ψ (hi v)) := by
  rw [SparseCore.bigSep_filter_split' Finset.univ (fun f : Fin 50 => f.val < 32), filter_lo, filter_hi,
    SparseCore.bigSep_image_of_injOn lo_inj Ψ, SparseCore.bigSep_image_of_injOn hi_inj Ψ]

def up (v : Fin 18) : Fin 32 := ⟨v.val, by omega⟩
theorem filter_up : (Finset.univ.filter fun w : Fin 32 => w.val < 18) = Finset.univ.image up :=
  Finset.ext fun w => by
    simp only [Finset.mem_filter, Finset.mem_univ, true_and, Finset.mem_image]
    exact ⟨fun h => ⟨⟨w.val, h⟩, Fin.ext rfl⟩, fun ⟨v, e⟩ => e ▸ v.isLt⟩
theorem up_inj : Set.InjOn up ((Finset.univ : Finset (Fin 18)) : Set (Fin 18)) :=
  fun a _ b _ e => Fin.ext (by have := congrArg Fin.val e; exact this)

/-- "The second row of worker `w`, if it has one", over all workers, is the eighteen second rows. -/
theorem second_rows (Ψ : Fin 50 → sProp M) :
    (bigSep Finset.univ fun w : Fin 32 => if h : 32 + w.val < 50 then Ψ ⟨32 + w.val, h⟩ else (iprop(emp) : sProp M))
      = bigSep Finset.univ fun v : Fin 18 => Ψ (hi v) := by
  rw [SparseCore.bigSep_filter_split' Finset.univ (fun w : Fin 32 => w.val < 18)]
  have h1 : bigSep (Finset.univ.filter fun w : Fin 32 => w.val < 18)
        (fun w : Fin 32 => if h : 32 + w.val < 50 then Ψ ⟨32 + w.val, h⟩ else (iprop(emp) : sProp M))
      = bigSep Finset.univ fun v : Fin 18 => Ψ (hi v) := by
    rw [filter_up, SparseCore.bigSep_image_of_injOn up_inj]
    exact bigSep_congr fun v _ => by
      have hv : 32 + (up v).val < 50 := by show 32 + v.val < 50; have := v.isLt; omega
      rw [dif_pos hv]; rfl
  have h2 : bigSep (Finset.univ.filter fun w : Fin 32 => ¬ w.val < 18)
        (fun w : Fin 32 => if h : 32 + w.val < 50 then Ψ ⟨32 + w.val, h⟩ else (iprop(emp) : sProp M))
      = (iprop(emp) : sProp M) := by
    rw [bigSep_congr (fun w hw => dif_neg (by have := (Finset.mem_filter.mp hw).2; omega))]
    exact bigSep_emp_const _
  rw [h1, h2]
  exact BI.equiv_iff.mp ⟨sep_emp.1, sep_emp.2⟩

/-- The fifty rows, dealt to the workers. -/
theorem rows_by_worker (Ψ : Fin 50 → sProp M) :
    bigSep Finset.univ Ψ
      = bigSep Finset.univ fun w : Fin 32 =>
          iprop(Ψ (lo w) ∗ if h : 32 + w.val < 50 then Ψ ⟨32 + w.val, h⟩ else (iprop(emp) : sProp M)) := by
  rw [rows_lo_hi, ← second_rows Ψ, ← bigSep_sep']

theorem wid_inj : Set.InjOn (fun p : Fin 2 × Fin 16 => wid p.1 p.2) ((Finset.univ : Finset (Fin 2 × Fin 16)) : Set (Fin 2 × Fin 16)) := by
  rintro ⟨c, s⟩ _ ⟨c', s'⟩ _ e
  have := congrArg Fin.val e
  change 2 * s.val + c.val = 2 * s'.val + c'.val at this
  have hc := c.isLt; have hc' := c'.isLt
  exact Prod.ext (Fin.ext (show c.val = c'.val by omega)) (Fin.ext (show s.val = s'.val by omega))
theorem wid_surj : (Finset.univ.image fun p : Fin 2 × Fin 16 => wid p.1 p.2) = Finset.univ :=
  Finset.eq_univ_iff_forall.mpr fun w => Finset.mem_image.mpr
    ⟨(⟨w.val % 2, Nat.mod_lt _ (by decide)⟩, ⟨w.val / 2, by have := w.isLt; omega⟩), Finset.mem_univ _,
      Fin.ext (by show 2 * (w.val / 2) + w.val % 2 = w.val; omega)⟩

/-- The workers, core by core and subcore by subcore. -/
theorem workers_by_core (Φ : Fin 32 → sProp M) :
    (bigSep Finset.univ fun c : Fin 2 => bigSep Finset.univ fun s : Fin 16 => Φ (wid c s)) = bigSep Finset.univ Φ := by
  rw [← bigSep_univ_prod (fun p : Fin 2 × Fin 16 => Φ (wid p.1 p.2)),
    ← SparseCore.bigSep_image_of_injOn wid_inj Φ, wid_surj]

end Regroup

end Cert.KernelIdeal.Launch

/-! ## The arrays, row by row -/

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

theorem rowSet1_eq (f : Fin 50) : rowSet1 f = (row1 f).set := by
  show ((View.whole (main_v1_scv : Ref sig .scVector)).slice (row1 f)).set = _
  rw [View.set_slice]; exact Finset.map_refl
theorem rowSet2_eq (f : Fin 50) : rowSet2 f = (row2 f).set := by
  show ((View.whole (main_v2_scv : Ref sig .scVector)).slice (row2 f)).set = _
  rw [View.set_slice]; exact Finset.map_refl
theorem rows_disjoint1 : ∀ i ∈ (Finset.univ : Finset (Fin 50)), ∀ j ∈ (Finset.univ : Finset (Fin 50)), i ≠ j → Disjoint (rowSet1 i) (rowSet1 j) :=
  fun i _ j _ h => by rw [rowSet1_eq, rowSet1_eq]; exact Rect.part_disjoint hdiv1 h
theorem rows_disjoint2 : ∀ i ∈ (Finset.univ : Finset (Fin 50)), ∀ j ∈ (Finset.univ : Finset (Fin 50)), i ≠ j → Disjoint (rowSet2 i) (rowSet2 j) :=
  fun i _ j _ h => by rw [rowSet2_eq, rowSet2_eq]; exact Rect.part_disjoint hdiv2 h
theorem rows_cover1 : (Finset.univ : Finset (Fin 50)).biUnion rowSet1 = Finset.univ :=
  (Finset.biUnion_congr rfl fun i _ => rowSet1_eq i).trans (Rect.biUnion_part hdiv1)
theorem rows_cover2 : (Finset.univ : Finset (Fin 50)).biUnion rowSet2 = Finset.univ :=
  (Finset.biUnion_congr rfl fun i _ => rowSet2_eq i).trans (Rect.biUnion_part hdiv2)

/-- The transposed table, whole, is its fifty rows; so is the output. -/
theorem v1_rows (d : Dev nD) (f : Buf (Elt F) (v1Loc d)) :
    (v1Loc d ↦{fullShare} f : sProp 𝕄) = bigSep Finset.univ fun r : Fin 50 => v1Loc d ↦[rowSet1 r]{fullShare} f := by
  rw [← pointsTo_biUnion Finset.univ (ℓ := v1Loc d) rowSet1 rows_disjoint1, rows_cover1]; try rfl
theorem v2_rows (d : Dev nD) (f : Buf (Elt F) (v2Loc d)) :
    (v2Loc d ↦{fullShare} f : sProp 𝕄) = bigSep Finset.univ fun r : Fin 50 => v2Loc d ↦[rowSet2 r]{fullShare} f := by
  rw [← pointsTo_biUnion Finset.univ (ℓ := v2Loc d) rowSet2 rows_disjoint2, rows_cover2]; try rfl

/-! ## Into the call and out of it -/

section
variable (V0 : (d : Dev nD) → Buf (Elt F) (v0Loc d)) (V1 : (d : Dev nD) → Buf (Elt F) (v1Loc d))

/-- A worker's read share of the index vector, by worker number. -/
abbrev tokW (d : Dev nD) (w : Fin 32) : sProp 𝕄 := v0Loc d ↦[Finset.univ]{shareTok fullShare 32 w} V0 d
/-- What stays with the TensorCore during the call: the rest of the index vector's share. -/
abbrev idxRest (d : Dev nD) : sProp 𝕄 := v0Loc d ↦[Finset.univ]{shareDrop fullShare 32} V0 d

/-- The two cores' shares are the thirty-two read shares and the fifty rows as received. -/
theorem cores_go (d : Dev nD) :
    (bigSep Finset.univ fun c : Fin 2 => coreSt V0 V1 d c)
      = iprop((bigSep Finset.univ fun w : Fin 32 => tokW V0 d w) ∗ bigSep Finset.univ fun r : Fin 50 => rowIn V1 d r) := by
  rw [rows_by_worker (fun r => rowIn V1 d r), ← bigSep_sep']
  exact workers_by_core (fun w : Fin 32 => iprop(tokW V0 d w
    ∗ rowIn V1 d (lo w) ∗ if h : 32 + w.val < 50 then rowIn V1 d ⟨32 + w.val, h⟩ else (iprop(emp) : sProp 𝕄)))

/-- The same for what comes back. -/
theorem cores_td (d : Dev nD) :
    (bigSep Finset.univ fun c : Fin 2 => coreDn V0 V1 d c)
      = iprop((bigSep Finset.univ fun w : Fin 32 => tokW V0 d w) ∗ bigSep Finset.univ fun r : Fin 50 => rowOut V0 V1 d r) := by
  rw [rows_by_worker (fun r => rowOut V0 V1 d r), ← bigSep_sep']
  exact workers_by_core (fun w : Fin 32 => iprop(tokW V0 d w
    ∗ rowOut V0 V1 d (lo w) ∗ if h : 32 + w.val < 50 then rowOut V0 V1 d ⟨32 + w.val, h⟩ else (iprop(emp) : sProp 𝕄)))

/-- Into the call: the index vector, the transposed table and the output, held whole, are the two cores' shares and the
    rest of the index vector's share. -/
theorem call_split (d : Dev nD) (g : Buf (Elt F) (v2Loc d)) :
    iprop((v0Loc d ↦{fullShare} V0 d) ∗ (v1Loc d ↦{fullShare} V1 d) ∗ (v2Loc d ↦{fullShare} g))
      ⊢ iprop(idxRest V0 d ∗ bigSep Finset.univ fun c : Fin 2 => coreSt V0 V1 d c) := by
  have hrows : iprop((v1Loc d ↦{fullShare} V1 d) ∗ (v2Loc d ↦{fullShare} g)) ⊢ bigSep Finset.univ fun r : Fin 50 => rowIn V1 d r := by
    rw [v1_rows, v2_rows, ← bigSep_sep']
    exact bigSep_mono fun r _ => sep_mono .rfl
      (show (v2Loc d ↦[rowSet2 r]{fullShare} g : sProp 𝕄) ⊢ iprop(∃ g' : Buf (Elt F) (v2Loc d), v2Loc d ↦[rowSet2 r]{fullShare} g') from by
        iintro H; iexists g; iexact H)
  rw [cores_go]
  iintro ⟨Hidx, Htab, Hout⟩
  ihave Ht := (Transfers.pointsTo_toks_split (ℓ := v0Loc d) (S := Finset.univ) (f := V0 d) fullShare 32) $$ Hidx
  icases Ht with ⟨Hrest, Htoks⟩
  isplitl [Hrest]; · iexact Hrest
  isplitl [Htoks]; · iexact Htoks
  iapply hrows
  isplitl [Htab] <;> iassumption

/-- Out of the call: the shares come back, the output's rows at the gathered values, and are the three arrays whole
    again, the output at the one gathered array. -/
theorem call_join (d : Dev nD) :
    iprop(idxRest V0 d ∗ bigSep Finset.univ fun c : Fin 2 => coreDn V0 V1 d c)
      ⊢ iprop((v0Loc d ↦{fullShare} V0 d) ∗ (v1Loc d ↦{fullShare} V1 d) ∗ (v2Loc d ↦{fullShare} gathered V0 V1 d)) := by
  have hrows : (bigSep Finset.univ fun r : Fin 50 => rowOut V0 V1 d r)
      ⊢ iprop((v1Loc d ↦{fullShare} V1 d) ∗ (v2Loc d ↦{fullShare} gathered V0 V1 d)) := by
    rw [v1_rows, v2_rows, ← bigSep_sep']
  rw [cores_td]
  iintro ⟨Hrest, Htoks, Hrows⟩
  isplitl [Hrest Htoks]
  · iapply (Transfers.pointsTo_toks_join (ℓ := v0Loc d) (S := Finset.univ) (f := V0 d) fullShare 32)
    isplitl [Hrest] <;> iassumption
  iapply hrows; iexact Hrows

end

end Cert.KernelIdeal.Launch

end
-- ==== Proof.LaunchElem.lean ====
/-
  The launch element of the ghost state, and what it becomes: the handshakes' rounds as the launch theorem wants them,
  and for every device each pipeline's staging cells' round states with their duty tokens, which the proof of the
  TensorCore's program hands to a region when it enters it. The transfers' counters start at the unit and are not
  needed at the launch; no thread is dealt anything for a protocol of the gather's own.
-/
import proofs.«203298_g75634374082695_cont_9to1_m_1088_20_alg».proof.Proof.Launch
import proofs.«203298_g75634374082695_cont_9to1_m_1088_20_alg».proof.Proof.Gen.KernelIdeal.Launch

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm
/-- The pipelines' configurations as the regions' library sees them. -/
abbrev pinned : Fin 2 → Pipeline.Cfg sig Λ₀ := Pipeline.pin (pcfgs (F := F)) adm

/-- What the proof of the TensorCore's program starts from beside what the launch deals it: each pipeline's staging
    cells' round states and duty tokens on its device. -/
def G (d : Dev nD) : sProp 𝕄 :=
  bigSep Finset.univ fun p : Fin 2 =>
    iprop(Pipeline.cellsGhost (pinned (F := F)) (ER (F := F)) p d ∗ Pipeline.toksInit (pinned (F := F)) (ER (F := F)) p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem ownU_split3 (a : UH) (b : UR) (c : Counters) :
    (ownU ((a, (b, c)) : UU) : sProp 𝕄) ⊢ iprop(BI.own (EH (F := F) a) ∗ BI.own (ER (F := F) b)) := by
  have h1 : (ownU ((a, (b, c)) : UU) : sProp 𝕄)
      ⊢ iprop(BI.own (EH (F := F) a)
          ∗ BI.own ((uEmb (nD := nD) (sig := sig) (Ix := HIx 1) (Val := Elt F) (Name := ℕ) (U := UU) (Lvl := ℕ)).toEmb (((1 : UH), ((b, c) : UR × Counters)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, c) : UR × Counters))))
  have h2 : (BI.own ((uEmb (nD := nD) (sig := sig) (Ix := HIx 1) (Val := Elt F) (Name := ℕ) (U := UU) (Lvl := ℕ)).toEmb (((1 : UH), ((b, c) : UR × Counters)) : UU)) : sProp 𝕄)
      ⊢ iprop(BI.own (ER (F := F) b)
          ∗ BI.own ((uEmb (nD := nD) (sig := sig) (Ix := HIx 1) (Val := Elt F) (Name := ℕ) (U := UU) (Lvl := ℕ)).toEmb (((1 : UH), (((1 : UR), c) : UR × Counters)) : UU))) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op c))))
  exact h1.trans (sep_mono .rfl (h2.trans sep_elim_left))

theorem bigSep_emp' {I : Type} (s : Finset I) : (bigSep s fun _ => iprop(emp)) = (iprop(emp) : sProp 𝕄) := bigSep_emp_const s

section
variable (V0 : (d : Dev nD) → Buf (Elt F) (v0Loc d)) (V1 : (d : Dev nD) → Buf (Elt F) (v1Loc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P V0 V1).x q thr) := by
  unfold u₀
  iintro Hu
  ihave H := (ownU_split3 (F := F) _ _ _) $$ Hu
  icases H with ⟨HH, HR⟩
  imod (Pipeline.fund_ghost (nD := nD) (τ := τ) cfgs (ER (F := F)) cellOf_inj) $$ HR with ⟨Hg, Ht⟩
  imodintro
  isplitl [HH]; · iexact HH
  isplitl [Hg Ht]
  · unfold G
    rw [show (bigSep Finset.univ fun d : Dev nD => bigSep Finset.univ fun p : Fin 2 =>
          iprop(Pipeline.cellsGhost (pinned (F := F)) (ER (F := F)) p d ∗ Pipeline.toksInit (pinned (F := F)) (ER (F := F)) p d))
        = iprop((bigSep Finset.univ fun d : Dev nD => bigSep Finset.univ fun p : Fin 2 => Pipeline.cellsGhost (pinned (F := F)) (ER (F := F)) p d)
          ∗ (bigSep Finset.univ fun d : Dev nD => bigSep Finset.univ fun p : Fin 2 => (Pipeline.toksInit (pinned (F := F)) (ER (F := F)) p d : sProp 𝕄)))
      from by rw [← bigSep_sep']; exact bigSep_congr fun d _ => bigSep_sep' _ _ _]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end

end Cert.KernelIdeal.Launch

end
-- ==== Proof.Main.lean ====
/-
  The TensorCore's program, cut where its proof is cut: two host steps (flatten the category column, transpose the
  table); the gather call; and then a stretch that is an ordinary pipeline program — two host steps, the first
  pallas_call, two host steps, the second pallas_call, the two closing transposes — which is run as a list of
  segments. The buffer contents at each boundary are a fold through the program: the launch memory, the host steps'
  results, the gathered array written by the call, each region's outputs.
-/
import proofs.«203298_g75634374082695_cont_9to1_m_1088_20_alg».proof.Proof.CallSplit
import proofs.«203298_g75634374082695_cont_9to1_m_1088_20_alg».proof.Proof.LaunchElem

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held held_split held_sdiff_result wp_hlo_within)

variable {F : FTy → Type}

local notation "𝕄" => MT nD τ sig (HIx 1) (Elt F) ℕ UU ℕ

variable [FloatOps F]

/-! ## The host steps, stretch by stretch -/

/-- Before the gather call: the category column flattened, the table transposed. -/
abbrev opsA : List (HloOp τ sig (Elt F)) :=
  [StableHlo.reshape main_arg0 main_v0 rfl shapeCasts_S16384x1_S16384,
   StableHlo.unary main_arg2 main_v1 ((transpose S50x100000 [1, 0] · transposes_S100000x50_S50x100000_1_0) : (⟨S100000x50, .f32⟩ : BufTy).Contents (Elt F) → (⟨S50x100000, .f32⟩ : BufTy).Contents (Elt F))]
/-- Before the first pallas_call: the weights transposed, the bias as a column. -/
abbrev opsB : List (HloOp τ sig (Elt F)) :=
  [StableHlo.unary main_arg3 main_v3 ((transpose S64x178 [1, 0] · transposes_S178x64_S64x178_1_0) : (⟨S178x64, .f32⟩ : BufTy).Contents (Elt F) → (⟨S64x178, .f32⟩ : BufTy).Contents (Elt F)),
   StableHlo.reshape main_arg4 main_v4 rfl shapeCasts_S64_S64x1]
/-- Before the second: the output weights transposed, the output bias as a 1×1 array. -/
abbrev opsC : List (HloOp τ sig (Elt F)) :=
  [StableHlo.unary main_arg5 main_v6 ((transpose S1x64 [1, 0] · transposes_S64x1_S1x64_1_0) : (⟨S64x1, .f32⟩ : BufTy).Contents (Elt F) → (⟨S1x64, .f32⟩ : BufTy).Contents (Elt F)),
   StableHlo.reshape main_arg6 main_v7 rfl shapeCasts_S1_S1x1]
/-- At the end: the two results transposed back. -/
abbrev opsD : List (HloOp τ sig (Elt F)) :=
  [StableHlo.unary main_v8_0 main_v9 ((transpose S16384x64 [1, 0] · transposes_S64x16384_S16384x64_1_0) : (⟨S64x16384, .f32⟩ : BufTy).Contents (Elt F) → (⟨S16384x64, .f32⟩ : BufTy).Contents (Elt F)),
   StableHlo.unary main_v8_1 main_v10 ((transpose S16384x1 [1, 0] · transposes_S1x16384_S16384x1_1_0) : (⟨S1x16384, .f32⟩ : BufTy).Contents (Elt F) → (⟨S16384x1, .f32⟩ : BufTy).Contents (Elt F))]

/-! ## The regions as segments, abstractly: what the proof of the program needs of them -/

section Tail

variable (pdats : (p : Fin 2) → (c : Dev nD) → Pipeline.Dat τ (Elt F) (HIx 1) ℕ UU ℕ (pinned (F := F) p) c)
  (R0 : Pipeline.RegionSeg (pcfgs (F := F)) adm pdats (none : HIx 1) defs₀ 𝒱₀ (K (F := F)).L (K (F := F)).lev 0)
  (R1 : Pipeline.RegionSeg (pcfgs (F := F)) adm pdats (none : HIx 1) defs₀ 𝒱₀ (K (F := F)).L (K (F := F)).lev 1)
  (HB HC HD : Pipeline.HostSeg (Name := ℕ) (U := UU) (pcfgs (F := F)) defs₀ 𝒱₀ (K (F := F)).L (K (F := F)).lev)

/-- The stretch after the gather call, as segments. -/
abbrev tailSegs : List (Pipeline.Seg (pcfgs (F := F)) adm pdats (none : HIx 1) defs₀ 𝒱₀ (K (F := F)).L (K (F := F)).lev) :=
  [.host HB, .region R0, .host HC, .region R1, .host HD]

/-- The program is: the first two host steps, the gather call, the stretch of segments lifted. -/
theorem main_eq (d : Dev nD) (hB : HB.prog = StableHlo.seq (opsB (F := F))) (hC : HC.prog = StableHlo.seq (opsC (F := F)))
    (hD : HD.prog = StableHlo.seq (opsD (F := F))) :
    main (F := F) d
      = (StableHlo.seq (opsA (F := F)) >>= fun _ => (K (F := F)).run d 0 >>= fun _ =>
          SparseCore.liftProg (Pipeline.Seg.run (tailSegs pdats R0 R1 HB HC HD))) := by
  simp only [main, tailSegs, Pipeline.Seg.run, hB, hC, hD, StableHlo.seq, SparseCore.liftProg, inlProg_op, inlProg_ret,
    inlProg_bind, Prog.lift, Prog.bind_op, Prog.bind_ret, Prog.bind_assoc, Prog.pure_eq_ret, bind_assoc, pure_bind]
  rfl

end Tail

end Cert.KernelIdeal.Launch

end
-- ==== Proof.MainRun.lean ====
/-
  The TensorCore's program, proved up to the stretch of segments: the two opening host steps run over the unscoped
  buffers held whole; at the gather call the index vector, the transposed table and the output leave for the workers
  and come back, the output holding the gathered values; what follows is an ordinary pipeline program, entered with
  the buffers at those contents.
-/
import proofs.«203298_g75634374082695_cont_9to1_m_1088_20_alg».proof.Proof.Main
import Idealize.ShloMosaic.Lib.Pipeline.Frame

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held held_sub_split held_congr)

variable {F : FTy → Type}

local notation "𝕄" => MT nD τ sig (HIx 1) (Elt F) ℕ UU ℕ

variable [FloatOps F]

section
variable (m : (ℓ : Loc nD τ sig) → Buf (Elt F) ℓ) (ρ : Dev nD → PrngReg)

/-! ## The buffer contents up to the call -/

/-- The TensorCore's unscoped buffers. -/
abbrev uc : Finset (DevRef τ sig) := Pipeline.ucRefs τ sig
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
/-- The three arrays the gather call touches. -/
abbrev S3 : Finset (DevRef τ sig) := {r0, r1, r2}

/-- At launch; after the two opening host steps. -/
abbrev W0 (d : Dev nD) : Valuation τ sig (Elt F) := fun b => m (d, b)
abbrev W1 (d : Dev nD) : Valuation τ sig (Elt F) := StableHlo.after (opsA (F := F)) (W0 m d)
/-- The index vector and the transposed table as the call finds them. -/
def V0 (d : Dev nD) : Buf (Elt F) (v0Loc d) := W1 m d r0
def V1 (d : Dev nD) : Buf (Elt F) (v1Loc d) := W1 m d r1
/-- After the call: the output at the gathered values, everything else as before. -/
def W2 (d : Dev nD) : Valuation τ sig (Elt F) := Function.update (W1 m d) r2 (gathered (V0 m) (V1 m) d)

theorem W2_r0 (d : Dev nD) : W2 m d r0 = V0 m d := Function.update_of_ne (show r0 ≠ r2 by decide) _ _
theorem W2_r1 (d : Dev nD) : W2 m d r1 = V1 m d := Function.update_of_ne (show r1 ≠ r2 by decide) _ _
theorem W2_r2 (d : Dev nD) : W2 m d r2 = gathered (V0 m) (V1 m) d := Function.update_self _ _ _
theorem W2_of_ne (d : Dev nD) (b : DevRef τ sig) (h : b ≠ r2) : W2 m d b = W1 m d b := Function.update_of_ne h _ _

omit [FloatOps F] in
theorem held_S3 (d : Dev nD) (W : Valuation τ sig (Elt F)) :
    (held (SparseCore.T d) S3 W : sProp 𝕄) = iprop((v0Loc d ↦{fullShare} W r0) ∗ (v1Loc d ↦{fullShare} W r1) ∗ v2Loc d ↦{fullShare} W r2) := by
  unfold held S3
  rw [SparseCore.bigSep_insert' (by decide), SparseCore.bigSep_insert' (by decide), bigSep_singleton]

/-- An unscoped TensorCore reference is among the buffers held. -/
theorem mem_uc (b : Ref sig .tc) (h : ¬ (Proc.devRef .tc b : DevRef τ sig).isScoped) : (Proc.devRef .tc b : DevRef τ sig) ∈ uc :=
  Finset.mem_filter.mpr ⟨StableHlo.devRef_mem_tcRefs b, h⟩

theorem S3_sub : (S3 : Finset (DevRef τ sig)) ⊆ uc := by
  intro b hb
  simp only [S3, Finset.mem_insert, Finset.mem_singleton] at hb
  rcases hb with rfl | rfl | rfl
  · exact mem_uc main_v0 (by decide)
  · exact mem_uc main_v1 (by decide)
  · exact mem_uc main_v2 (by decide)

theorem opsA_sub : ∀ op ∈ (opsA (F := F)), op.bufs ⊆ uc := by
  intro op hop
  simp only [opsA, List.mem_cons, List.mem_singleton, List.not_mem_nil, or_false] at hop
  rcases hop with rfl | rfl
  · exact Pipeline.sub_ucRefs _ (StableHlo.reshape_bufs_sub ..)
  · exact Pipeline.sub_ucRefs _ (StableHlo.unary_bufs_sub ..)
theorem opsA_fresh : ∀ op ∈ (opsA (F := F)), op.fresh = ∅ := by
  intro op hop
  simp only [opsA, List.mem_cons, List.mem_singleton, List.not_mem_nil, or_false] at hop
  rcases hop with rfl | rfl <;> rfl

end

/-! ## The TensorCore's handshake state after the call, with its debt taken out -/

section
variable (m : (ℓ : Loc nD τ sig) → Buf (Elt F) ℓ) (ρ : Dev nD → PrngReg)

/-- The recorded pairs the TensorCore may hold after the one call: those at level at most eight. -/
def B8 (d : Dev nD) : Set (SemLoc sig × HIx 1) := {p | (K (F := F)).lev (SparseCore.T d, p.1) p.2 ≤ 8}

/-- The TensorCore's handshake state after the call, but what it owes. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom (Q := 1) 1) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt (EH (F := F)) d 1 : sProp 𝕄)
      = iprop((∃ W, ⌜(K (F := F)).WBelow (SparseCore.T d) W (8 * 1)⌝ ∗ owes (SparseCore.T d) ((K (F := F)).Otc d 1) W) ∗ tcRest (F := F) d) := rfl

/-- What travels with the buffers through the segments after the call, beside the TensorCore's (empty) debt: the
    generator register at some state and the rest of the handshake state. -/
def Rr (d : Dev nD) : sProp 𝕄 := iprop((∃ r, prngReg d r) ∗ tcRest (F := F) d)

/-- The TensorCore owing nothing, its recorded pairs within the bound. -/
abbrev owes0 (d : Dev nD) : sProp 𝕄 :=
  Pipeline.owesWithin (Ix := HIx 1) (Name := ℕ) (U := UU) (Lvl := ℕ) d (0 : CellTallies nD τ sig (HIx 1)) (B8 (F := F) d)

/-- The thread state between segments: the unscoped buffers at a valuation, the rider, the empty debt. -/
def Tl (W : Dev nD → Valuation τ sig (Elt F)) (d : Dev nD) : sProp 𝕄 :=
  iprop(held (SparseCore.T d) uc (W d) ∗ Rr (F := F) d ∗ owes0 (F := F) d)

/-- What the TensorCore's program leaves the claim: every unscoped buffer at the last valuation. -/
abbrev FIN (Wend : Dev nD → Valuation τ sig (Elt F)) (d : Dev nD) : sProp 𝕄 := held (SparseCore.T d) uc (Wend d)

theorem st0_eq (d : Dev nD) :
    (bigSep Finset.univ fun c : Fin ((K (F := F)).nCore 0) => (P (V0 m) (V1 m)).st 0 d c)
      = bigSep Finset.univ fun c : Fin 2 => coreSt (V0 m) (V1 m) d c :=
  bigSep_congr fun _ _ => rfl
theorem dn0_eq (d : Dev nD) :
    (bigSep Finset.univ fun c : Fin ((K (F := F)).nCore 0) => (P (V0 m) (V1 m)).dn 0 d c)
      = bigSep Finset.univ fun c : Fin 2 => coreDn (V0 m) (V1 m) d c :=
  bigSep_congr fun _ _ => rfl

/-- The program on device `d`'s TensorCore, given the run of the stretch of segments after the call. -/
theorem hmain (tail : Prog (TpuEff nD τ sig (Elt F) (ΛP (F := F)) .tc) PUnit) (Wend : Dev nD → Valuation τ sig (Elt F))
    (hmain_eq : ∀ d, main (F := F) d
      = (StableHlo.seq (opsA (F := F)) >>= fun _ => (K (F := F)).run d 0 >>= fun _ => SparseCore.liftProg tail))
    (htail : ∀ (d : Dev nD) (Q : PUnit → sProp 𝕄),
      iprop((iprop(boundary (SparseCore.T d) ∗ Tl (F := F) Wend d) -∗ Q ⟨⟩)
          ∗ boundary (SparseCore.T d) ∗ Tl (F := F) (W2 m) d ∗ levAts (K (F := F)).L (K (F := F)).lev ∗ G (F := F) d)
        ⊢ wp frame (wpE (D (F := F)) 𝒱 (SparseCore.T d) none) Set.univ tail Q)
    (κ : GSem nD τ sig → ℕ) (d : Dev nD) :
    iprop((K (F := F)).ctx EH (P (V0 m) (V1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN Wend d) := by
  rw [hmain_eq d]
  unfold SparseCore.Cfg.tcRes
  rw [show (unscopedBufs d (fun b => m ((SparseCore.T d).loc b)) : sProp 𝕄) = held (SparseCore.T d) uc (W0 m d)
    from Pipeline.unscopedBufs_held d (W0 m d)]
  iintro ⟨#Hctx, Hst, ⟨Hb, Hheld, -, Hprng⟩, HG⟩
  -- the two opening host steps
  iapply (StableHlo.wp_seq (defs := (K (F := F)).defs (D (F := F))) 𝒱 none Set.univ d uc _ (opsA (F := F)) opsA_sub opsA_fresh (W0 m d)) $$ [Hb Hheld]
  · isplitl [Hb] <;> iassumption
  iintro ⟨Hb, Hheld⟩
  -- the three arrays out of the buffers held, into the workers' shares
  ihave Hh := (Entails.of_eq (held_sub_split (SparseCore.T d) S3_sub (W1 m d))) $$ Hheld
  icases Hh with ⟨H3, Hrest⟩
  ihave H3' := (Entails.of_eq ((held_S3 (F := F) d (W1 m d)).trans
    (show _ = (iprop((v0Loc d ↦{fullShare} V0 m d) ∗ (v1Loc d ↦{fullShare} V1 m d) ∗ v2Loc d ↦{fullShare} W1 m d r2) : sProp 𝕄) from rfl))) $$ H3
  ihave Hsp := (call_split (V0 m) (V1 m) d (W1 m d r2)) $$ H3'
  icases Hsp with ⟨Hidx, Hcores⟩
  -- the call
  rw [wp_bind]
  iapply ((K (F := F)).wp_run (D (F := F)) 𝒱 (EH := EH) (P := P (V0 m) (V1 m)) κ d 0) $$ [Hst Hcores Hb Hrest Hidx Hprng HG]
  isplitr; · iexact Hctx
  isplitl [Hst]; · iexact Hst
  isplitl [Hcores]; · rw [st0_eq]; iexact Hcores
  iintro ⟨Hst, Hdn⟩
  ihave Hdn' := (Entails.of_eq (dn0_eq m d)) $$ Hdn
  ihave Hj := (call_join (V0 m) (V1 m) d) $$ [Hidx Hdn']
  · isplitl [Hidx] <;> iassumption
  -- the buffers held again, the output at the gathered values
  ihave Hheld2 : held (SparseCore.T d) uc (W2 m d) $$ [Hj Hrest]
  · rw [held_sub_split (SparseCore.T d) S3_sub (W2 m d), held_S3, W2_r0, W2_r1, W2_r2,
      held_congr (SparseCore.T d) (V := W2 m d) (V' := W1 m d) (fun b hb => W2_of_ne m d b (fun e => (Finset.mem_sdiff.mp hb).2 (e ▸ by decide)))]
    isplitl [Hj] <;> iassumption
  -- the TensorCore owes nothing now: its debt out of its handshake state
  ihave Hst' := (Entails.of_eq (show ((K (F := F)).tcSt (EH (F := F)) d ((0 : Fin 1).val + 1) : sProp 𝕄)
      = iprop((∃ W, ⌜(K (F := F)).WBelow (SparseCore.T d) W (8 * 1)⌝ ∗ owes (SparseCore.T d) ((K (F := F)).Otc d 1) W) ∗ tcRest (F := F) d)
    from tcSt_one (F := F) d)) $$ Hst
  icases Hst' with ⟨⟨%W, %hW, HO⟩, Htc⟩
  rw [(K (F := F)).Otc_end d (le_refl 1)]
  -- the stretch of segments
  iapply ((K (F := F)).wp_liftProg (D (F := F)) 𝒱 (SparseCore.T d) Set.univ none tail _)
  iapply (htail d _) $$ [Hb Hheld2 HO Htc Hprng HG]
  isplitr
  · iintro ⟨Hb, HT⟩
    unfold Tl Rr
    icases HT with ⟨Hh, ⟨-, Htc⟩, ⟨%W', %hW', HO⟩⟩
    isplitl [HO Htc]
    · rw [tcSt_one, (K (F := F)).Otc_end d (le_refl 1)]
      isplitl [HO]
      · iexists W'; isplitr
        · ipureintro; exact fun p hp => hW' hp
        · iexact HO
      · iexact Htc
    · iexact Hh
  isplitl [Hb]; · iexact Hb
  isplitl [Hheld2 HO Htc Hprng]
  · unfold Tl Rr
    isplitl [Hheld2]; · iexact Hheld2
    isplitl [Hprng Htc]
    · isplitl [Hprng]; · iexists _; iexact Hprng
      iexact Htc
    iexists W; isplitr
    · ipureintro; exact fun p hp => hW p hp
    · iexact HO
  isplitr; · iapply ((K (F := F)).ctx_levAts κ); iexact Hctx
  iexact HG

end

end Cert.KernelIdeal.Launch

end
-- ==== Proof.RegionBody.lean ====
/-
  The two dense stages of the kernel-side program, each as one step on whole staging blocks.

  Stage one holds a block of 8192 rows of the numeric features, the transposed weight matrix (64 × 178) and the bias
  column (64 × 1), and leaves in its output block (64 × 8192) the bias plus the product of the weight matrix's columns
  50 … 177 with the transposed feature block. Stage two holds a block of gathered table rows (50 × 8192), the matching
  block of stage one's output, the weight matrix, the output weights (1 × 64) and the output bias (1 × 1), and leaves
  two blocks: the activation a · logistic a of the completed pre-activation a (64 × 8192), and the output row
  (1 × 8192).

  Each step reads its inputs through whole rectangles (the weight matrix through the rectangle of the columns it uses),
  computes one pure value per output, and overwrites the whole output block; so what an output block holds afterwards
  is that value, whatever it held before, and the inputs are as they were.
-/
import proofs.«203298_g75634374082695_cont_9to1_m_1088_20_alg».proof.Proof.Gen.KernelIdeal.Launch
import proofs.«203298_g75634374082695_cont_9to1_m_1088_20_alg».proof.Proof.Gen.KernelIdeal.Skeleton
import proofs.«203298_g75634374082695_cont_9to1_m_1088_20_alg».proof.Proof.Gen.KernelIdeal.Points
import Idealize.ShloMosaic.Lib.Pipeline.FrameBody
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Stage one: the partial pre-activation -/

/-- The rectangles stage one reads and writes: the whole bias column, columns 50 … 177 of the weight matrix, the
    whole feature block, the whole output block. -/
abbrev rB2 : Rect S64x1 := Rect.unit (s := S64x1) ![0, 0] S64x1.size inb_S64x1_S64x1_0_0
abbrev rW128 : Rect S64x178 := Rect.unit (s := S64x178) ![0, 50] S64x128.size inb_S64x178_S64x128_0_50
abbrev rNum : Rect S8192x128 := Rect.unit (s := S8192x128) ![0, 0] S8192x128.size inb_S8192x128_S8192x128_0_0
abbrev rAct : Rect S64x8192 := Rect.unit (s := S64x8192) ![0, 0] S64x8192.size inb_S64x8192_S64x8192_0_0

/-- What stage one leaves in its output block, from the feature block `x0`, the weight matrix `x1` and the bias
    column `x2`: its one store, of the bias plus the product. -/
def partialOut (x0 : Vec F S8192x128 .f32) (x1 : Vec F S64x178 .f32) (x2 : Vec F S64x1 .f32) : Vec F S64x8192 .f32 :=
  View.canon [⟨rAct, k1_pay1 (View.ld x2 rB2) (View.ld x1 rW128) (View.ld x0 rNum)⟩]

/-- The store covers the output block. -/
theorem partialCover (p0 : Vec F S64x8192 .f32) (y : S64x8192.Idx) :
    ∃ pc ∈ ([⟨rAct, p0⟩] : List (View.Piece (Elt F) S64x8192 .f32)), y ∈ pc.1.set :=
  View.cover_of_tiled [⟨rAct, p0⟩] S64x8192.size (by rfl) y

set_option maxHeartbeats 1000000 in
/-- Stage one on whole staging blocks: the inputs at `x0`, `x1`, `x2` and the output at anything run to the inputs
    unchanged and the output at `partialOut x0 x1 x2`. -/
theorem sound_partial (𝒱₀ : Variants) (c : Dev nD) (E : Set Name) (i : grid1.Coords)
    (arg1 : Memref sig .tc .vmem S8192x128 .f32) (harg1 : arg1.IsWhole) (arg2 : Memref sig .tc .vmem S64x178 .f32) (harg2 : arg2.IsWhole)
    (arg3 : Memref sig .tc .vmem S64x1 .f32) (harg3 : arg3.IsWhole) (arg4 : Memref sig .tc .vmem S64x8192 .f32) (harg4 : arg4.IsWhole)
    (x0 : Vec F S8192x128 .f32) (x1 : Vec F S64x178 .f32) (x2 : Vec F S64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (partialOut x0 x1 x2)) -∗ K ⟨⟩))
      ⊢ wp frame (wpE (defs₀ (F := F)) 𝒱₀ c none) E (cc1__partial_body i arg1 harg1 arg2 harg2 arg3 harg3 arg4 harg4) K := by
  simp only [cc1__partial_body_eq_skeleton]; unfold cc1__partial_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (partialCover _)

/-! ## Stage two: the activation and the output row -/

/-- The rectangles stage two reads and writes besides the 64 × 8192 block: columns 0 … 49 of the weight matrix, the
    whole block of gathered rows, the whole output weights, the whole output bias, the whole output row. -/
abbrev rW50 : Rect S64x178 := Rect.unit (s := S64x178) ![0, 0] S64x50.size inb_S64x178_S64x50_0_0
abbrev rEmb : Rect S50x8192 := Rect.unit (s := S50x8192) ![0, 0] S50x8192.size inb_S50x8192_S50x8192_0_0
abbrev rWo : Rect S1x64 := Rect.unit (s := S1x64) ![0, 0] S1x64.size inb_S1x64_S1x64_0_0
abbrev rBo : Rect S1x1 := Rect.unit (s := S1x1) ![0, 0] S1x1.size inb_S1x1_S1x1_0_0
abbrev rRow : Rect S1x8192 := Rect.unit (s := S1x8192) ![0, 0] S1x8192.size inb_S1x8192_S1x8192_0_0

/-- What stage two leaves in its first output block, from the gathered rows `x0`, the partial pre-activation `x1` and
    the weight matrix `x2`: its one store there, of a · logistic a. -/
def finalAct (x0 : Vec F S50x8192 .f32) (x1 : Vec F S64x8192 .f32) (x2 : Vec F S64x178 .f32) : Vec F S64x8192 .f32 :=
  View.canon [⟨rAct, k2_pay1 (View.ld x1 rAct) (View.ld x2 rW50) (View.ld x0 rEmb)⟩]

/-- What it leaves in its second output block, from those, the output weights `x3` and the output bias `x4`: its one
    store there, of the output row. -/
def finalRow (x0 : Vec F S50x8192 .f32) (x1 : Vec F S64x8192 .f32) (x2 : Vec F S64x178 .f32) (x3 : Vec F S1x64 .f32) (x4 : Vec F S1x1 .f32) :
    Vec F S1x8192 .f32 :=
  View.canon [⟨rRow, k2_pay2 (View.ld x1 rAct) (View.ld x2 rW50) (View.ld x0 rEmb) (View.ld x3 rWo) (View.ld x4 rBo)⟩]

/-- The store covers the output row. -/
theorem rowCover (p0 : Vec F S1x8192 .f32) (y : S1x8192.Idx) :
    ∃ pc ∈ ([⟨rRow, p0⟩] : List (View.Piece (Elt F) S1x8192 .f32)), y ∈ pc.1.set :=
  View.cover_of_tiled [⟨rRow, p0⟩] S1x8192.size (by rfl) y

set_option maxHeartbeats 1000000 in
/-- Stage two on whole staging blocks: the inputs at `x0` … `x4` and the outputs at anything run to the inputs unchanged
    and the outputs at `finalAct` and `finalRow` of the inputs. -/
theorem sound_final (𝒱₀ : Variants) (c : Dev nD) (E : Set Name) (i : grid2.Coords)
    (arg1 : Memref sig .tc .vmem S50x8192 .f32) (harg1 : arg1.IsWhole) (arg2 : Memref sig .tc .vmem S64x8192 .f32) (harg2 : arg2.IsWhole)
    (arg3 : Memref sig .tc .vmem S64x178 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S64x8192 .f32) (harg6 : arg6.IsWhole)
    (arg7 : Memref sig .tc .vmem S1x8192 .f32) (harg7 : arg7.IsWhole)
    (x0 : Vec F S50x8192 .f32) (x1 : Vec F S64x8192 .f32) (x2 : Vec F S64x178 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (finalAct x0 x1 x2) ∗ owns (c : Thread nD τ) arg7 fullShare (finalRow x0 x1 x2 x3 x4)) -∗ K ⟨⟩))
      ⊢ wp frame (wpE (defs₀ (F := F)) 𝒱₀ c none) E
          (cc2__final_body i arg1 harg1 arg2 harg2 arg3 harg3 arg4 harg4 arg5 harg5 arg6 harg6 arg7 harg7) K := by
  simp only [cc2__final_body_eq_skeleton]; unfold cc2__final_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (partialCover _)
  iexists _; isplitr
  swap; · iexact H6
  ipureintro
  exact View.read_writes_eq_canon _ _ _ (rowCover _)

end Cert.KernelIdeal.Region

end
-- ==== Proof.RegionData.lean ====
/-
  The two dense stages as steps of a pipelined loop over two blocks of 8192 batch columns, and what each leaves in the
  arrays of the program.

  Each stage is stated at the contents `V` its arrays hold when it is entered. At a grid point a window's staging
  block holds the block of its array that the point names — for the weight matrix, the bias column, the output weights
  and the output bias that is the whole array at both points, fetched at the first and left in place —, the stage's
  step overwrites the output block(s) with one pure value of the input blocks, and the loop writes each output block
  back to its place in the output array. Nothing else is touched: after stage one every array is as at entry except
  the partial pre-activation; after stage two except the activation and the output row. The core owes nothing to any
  other core throughout, so the loop's own waits need no evidence beyond that.
-/
import proofs.«203298_g75634374082695_cont_9to1_m_1088_20_alg».proof.Proof.RegionBody
import Idealize.ShloMosaic.Lib.Pipeline.RegionsLoop
import Idealize.ShloMosaic.Lib.Pipeline.FrameSuffix

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- a bound on the pairs the core's waits have recorded when a stage is entered; the stage adds only its loop's own
variable (B : Set (SemLoc sig × Ix))

section Stages

-- the contents of the TensorCore's arrays when a stage is entered
variable (V : (c : Dev nD) → (b : Ref sig .tc) → Buf (Elt F) ((c : Thread nD τ).loc b))

/-! ## Stage one -/

/-- Window `w`'s block at point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging block holds its block at every point, fetched there or not: unfetched, the block's place
    has not moved. -/
theorem before1_0_of {c : Dev nD} (dat : Dat τ (Elt F) Ix Name U Lvl cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Ix Name U Lvl cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Ix Name U Lvl cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Stage one's proof data on core `c`: the arrays as found; after the step at point `t` each input's block as it was and
    the output's at the bias plus the product, of the input blocks there; the invariant the scoped buffers the stage
    does not stage through; nothing owed; full shares. -/
def dat1 (c : Dev nD) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => partialOut (iblk1 V c 0 t) (iblk1 V c 1 t) (iblk1 V c 2 t)
  Φ _ := Pipeline.scopedRest spec1 c
  q _ := fullShare
  owed _ := 0
  recorded _ := B

local notation "D1" => dat1 (Name := Name) (U := U) (Lvl := Lvl) B V

theorem A_eq1 (c : Dev nD) (w : Fin cfg1.W) : (D1 c).A w = V c (Pipeline.arrRef spec1 w) := by
  dsimp only [dat1]

theorem after1_0 (c : Dev nD) (t : Fin cfg1.N) : (D1 c).after 0 t = iblk1 V c 0 t := by dsimp only [dat1]
theorem after1_1 (c : Dev nD) (t : Fin cfg1.N) : (D1 c).after 1 t = iblk1 V c 1 t := by dsimp only [dat1]
theorem after1_2 (c : Dev nD) (t : Fin cfg1.N) : (D1 c).after 2 t = iblk1 V c 2 t := by dsimp only [dat1]
theorem after1_3 (c : Dev nD) (t : Fin cfg1.N) :
    (D1 c).after 3 t = partialOut (iblk1 V c 0 t) (iblk1 V c 1 t) (iblk1 V c 2 t) := by dsimp only [dat1]

theorem before1_0 (c : Dev nD) (t : Fin cfg1.N) (d) : (D1 c).before 0 t d = iblk1 V c 0 t :=
  before1_0_of V (D1 c) (A_eq1 B V c 0) (after1_0 B V c) t d
theorem before1_1 (c : Dev nD) (t : Fin cfg1.N) (d) : (D1 c).before 1 t d = iblk1 V c 1 t :=
  before1_1_of V (D1 c) (A_eq1 B V c 1) (after1_1 B V c) t d
theorem before1_2 (c : Dev nD) (t : Fin cfg1.N) (d) : (D1 c).before 2 t d = iblk1 V c 2 t :=
  before1_2_of V (D1 c) (A_eq1 B V c 2) (after1_2 B V c) t d

/-- What stage one's step is called with at point `t`, the windows one by one, -/
def bodyPre1 (ι : Ix) (c : Dev nD) (t : Fin cfg1.N) : sProp 𝕄 :=
  iprop((D1 c).Φ t.castSucc ∗ (D1 c).owesAt ι t.castSucc
    ∗ (∃ d, owns (c : Thread nD τ) (st1_0 t) fullShare ((D1 c).before 0 t d))
    ∗ (∃ d, owns (c : Thread nD τ) (st1_1 t) fullShare ((D1 c).before 1 t d))
    ∗ (∃ d, owns (c : Thread nD τ) (st1_2 t) fullShare ((D1 c).before 2 t d))
    ∗ (∃ d, owns (c : Thread nD τ) (st1_3 t) fullShare ((D1 c).before 3 t d)))

/-- and what it returns. -/
def bodyPost1 (ι : Ix) (c : Dev nD) (t : Fin cfg1.N) : sProp 𝕄 :=
  iprop((D1 c).Φ t.succ ∗ (D1 c).owesAt ι t.succ
    ∗ owns (c : Thread nD τ) (st1_0 t) fullShare ((D1 c).after 0 t)
    ∗ owns (c : Thread nD τ) (st1_1 t) fullShare ((D1 c).after 1 t)
    ∗ owns (c : Thread nD τ) (st1_2 t) fullShare ((D1 c).after 2 t)
    ∗ owns (c : Thread nD τ) (st1_3 t) fullShare ((D1 c).after 3 t))

/-- The step at any point: the inputs' staging blocks hold their blocks, so `sound_partial` applies; the invariant and
    what the core owes pass through unread. -/
theorem sound_body1 (𝒱₀ : Variants) (ι : Ix) (c : Dev nD) (t : Fin cfg1.N) :
    (bodyPre1 (Name := Name) (U := U) (Lvl := Lvl) B V ι c t : sProp 𝕄)
      ⊢ wp frame (wpE (defs₀ (F := F)) 𝒱₀ c none) Set.univ (bodyAt1 t) (fun _ => bodyPost1 (Name := Name) (U := U) (Lvl := Lvl) B V ι c t) := by
  unfold bodyPre1 bodyPost1 bodyAt1
  simp only [before1_0, before1_1, before1_2]
  rw [show (D1 c).Φ t.succ = (D1 c).Φ t.castSucc from rfl,
    show (D1 c).owesAt ι t.succ = (D1 c).owesAt ι t.castSucc from rfl,
    after1_0, after1_1, after1_2, after1_3]
  iintro ⟨HΦ, Ho, ⟨%d0, H0⟩, ⟨%d1, H1⟩, ⟨%d2, H2⟩, ⟨%d3, H3⟩⟩
  iapply (sound_partial 𝒱₀ c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Stage one's body obligation, at every point. -/
theorem body_obligation1 (𝒱₀ : Variants) (ι : Ix) (c : Dev nD) :
    BodyObligation (D1 c) (defs₀ (F := F)) 𝒱₀ ι Set.univ := fun t => by
  rw [bigSep_W1, bigSep_W1]
  exact sound_body1 B V 𝒱₀ ι c t

/-! ## Stage two -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging block holds its block at every point, fetched there or not. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Stage two's proof data on core `c`: the arrays as found; after the step at point `t` each input's block as it was, the
    first output's at the activation and the second's at the output row, of the input blocks there; the invariant the
    scoped buffers the stage does not stage through; nothing owed; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => finalAct (iblk2 V c 0 t) (iblk2 V c 1 t) (iblk2 V c 2 t)
    | ⟨6, _⟩ => finalRow (iblk2 V c 0 t) (iblk2 V c 1 t) (iblk2 V c 2 t) (iblk2 V c 3 t) (iblk2 V c 4 t)
  Φ _ := Pipeline.scopedRest spec2 c
  q _ := fullShare
  owed _ := 0
  recorded _ := B

local notation "D2" => dat2 (Name := Name) (U := U) (Lvl := Lvl) B V

theorem A_eq2 (c : Dev nD) (w : Fin cfg2.W) : (D2 c).A w = V c (Pipeline.arrRef spec2 w) := by
  dsimp only [dat2]

theorem after2_0 (c : Dev nD) (t : Fin cfg2.N) : (D2 c).after 0 t = iblk2 V c 0 t := by dsimp only [dat2]
theorem after2_1 (c : Dev nD) (t : Fin cfg2.N) : (D2 c).after 1 t = iblk2 V c 1 t := by dsimp only [dat2]
theorem after2_2 (c : Dev nD) (t : Fin cfg2.N) : (D2 c).after 2 t = iblk2 V c 2 t := by dsimp only [dat2]
theorem after2_3 (c : Dev nD) (t : Fin cfg2.N) : (D2 c).after 3 t = iblk2 V c 3 t := by dsimp only [dat2]
theorem after2_4 (c : Dev nD) (t : Fin cfg2.N) : (D2 c).after 4 t = iblk2 V c 4 t := by dsimp only [dat2]
theorem after2_5 (c : Dev nD) (t : Fin cfg2.N) :
    (D2 c).after 5 t = finalAct (iblk2 V c 0 t) (iblk2 V c 1 t) (iblk2 V c 2 t) := by dsimp only [dat2]
theorem after2_6 (c : Dev nD) (t : Fin cfg2.N) :
    (D2 c).after 6 t = finalRow (iblk2 V c 0 t) (iblk2 V c 1 t) (iblk2 V c 2 t) (iblk2 V c 3 t) (iblk2 V c 4 t) := by dsimp only [dat2]

theorem before2_0 (c : Dev nD) (t : Fin cfg2.N) (d) : (D2 c).before 0 t d = iblk2 V c 0 t :=
  before2_0_of V (D2 c) (A_eq2 B V c 0) (after2_0 B V c) t d
theorem before2_1 (c : Dev nD) (t : Fin cfg2.N) (d) : (D2 c).before 1 t d = iblk2 V c 1 t :=
  before2_1_of V (D2 c) (A_eq2 B V c 1) (after2_1 B V c) t d
theorem before2_2 (c : Dev nD) (t : Fin cfg2.N) (d) : (D2 c).before 2 t d = iblk2 V c 2 t :=
  before2_2_of V (D2 c) (A_eq2 B V c 2) (after2_2 B V c) t d
theorem before2_3 (c : Dev nD) (t : Fin cfg2.N) (d) : (D2 c).before 3 t d = iblk2 V c 3 t :=
  before2_3_of V (D2 c) (A_eq2 B V c 3) (after2_3 B V c) t d
theorem before2_4 (c : Dev nD) (t : Fin cfg2.N) (d) : (D2 c).before 4 t d = iblk2 V c 4 t :=
  before2_4_of V (D2 c) (A_eq2 B V c 4) (after2_4 B V c) t d

/-- What stage two's step is called with at point `t`, the windows one by one, -/
def bodyPre2 (ι : Ix) (c : Dev nD) (t : Fin cfg2.N) : sProp 𝕄 :=
  iprop((D2 c).Φ t.castSucc ∗ (D2 c).owesAt ι t.castSucc
    ∗ (∃ d, owns (c : Thread nD τ) (st2_0 t) fullShare ((D2 c).before 0 t d))
    ∗ (∃ d, owns (c : Thread nD τ) (st2_1 t) fullShare ((D2 c).before 1 t d))
    ∗ (∃ d, owns (c : Thread nD τ) (st2_2 t) fullShare ((D2 c).before 2 t d))
    ∗ (∃ d, owns (c : Thread nD τ) (st2_3 t) fullShare ((D2 c).before 3 t d))
    ∗ (∃ d, owns (c : Thread nD τ) (st2_4 t) fullShare ((D2 c).before 4 t d))
    ∗ (∃ d, owns (c : Thread nD τ) (st2_5 t) fullShare ((D2 c).before 5 t d))
    ∗ (∃ d, owns (c : Thread nD τ) (st2_6 t) fullShare ((D2 c).before 6 t d)))

/-- and what it returns. -/
def bodyPost2 (ι : Ix) (c : Dev nD) (t : Fin cfg2.N) : sProp 𝕄 :=
  iprop((D2 c).Φ t.succ ∗ (D2 c).owesAt ι t.succ
    ∗ owns (c : Thread nD τ) (st2_0 t) fullShare ((D2 c).after 0 t)
    ∗ owns (c : Thread nD τ) (st2_1 t) fullShare ((D2 c).after 1 t)
    ∗ owns (c : Thread nD τ) (st2_2 t) fullShare ((D2 c).after 2 t)
    ∗ owns (c : Thread nD τ) (st2_3 t) fullShare ((D2 c).after 3 t)
    ∗ owns (c : Thread nD τ) (st2_4 t) fullShare ((D2 c).after 4 t)
    ∗ owns (c : Thread nD τ) (st2_5 t) fullShare ((D2 c).after 5 t)
    ∗ owns (c : Thread nD τ) (st2_6 t) fullShare ((D2 c).after 6 t))

/-- The step at any point: the inputs' staging blocks hold their blocks, so `sound_final` applies; the invariant and
    what the core owes pass through unread. -/
theorem sound_body2 (𝒱₀ : Variants) (ι : Ix) (c : Dev nD) (t : Fin cfg2.N) :
    (bodyPre2 (Name := Name) (U := U) (Lvl := Lvl) B V ι c t : sProp 𝕄)
      ⊢ wp frame (wpE (defs₀ (F := F)) 𝒱₀ c none) Set.univ (bodyAt2 t) (fun _ => bodyPost2 (Name := Name) (U := U) (Lvl := Lvl) B V ι c t) := by
  unfold bodyPre2 bodyPost2 bodyAt2
  simp only [before2_0, before2_1, before2_2, before2_3, before2_4]
  rw [show (D2 c).Φ t.succ = (D2 c).Φ t.castSucc from rfl,
    show (D2 c).owesAt ι t.succ = (D2 c).owesAt ι t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_final 𝒱₀ c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Stage two's body obligation, at every point. -/
theorem body_obligation2 (𝒱₀ : Variants) (ι : Ix) (c : Dev nD) :
    BodyObligation (D2 c) (defs₀ (F := F)) 𝒱₀ ι Set.univ := fun t => by
  rw [bigSep_W2, bigSep_W2]
  exact sound_body2 B V 𝒱₀ ι c t

end Stages

/-! ## The stages as steps of the program

Between two steps of the program the TensorCore holds every one of its arrays whole, at some valuation, beside a rider
that no stage touches and what it owes: nothing, its recorded wait pairs within a bound. A stage takes its windows'
arrays out of that, runs its loop, and puts them back: the inputs as they were, each output at what the loop's
write-backs leave. The loop's own waits are on the staging semaphores; when those pairs lie within the bound, the stage
leaves the core owing nothing within the same bound. -/

section Records

/-- No stage has a prefetched table. -/
abbrev adm : (p : Fin 2) → (pcfgs (F := F) p).Adm := fun p => (cfgs p).toPCfg_adm

-- per core, a bound on the recorded wait pairs; the arrays' valuations at the entry of stage one and of stage two
variable (Bd : Dev nD → Set (SemLoc sig × Ix))
variable (Wa Wb : Dev nD → Valuation τ sig (Elt F))

/-- The valuations read at the TensorCore's references. -/
abbrev Va : (c : Dev nD) → (b : Ref sig .tc) → Buf (Elt F) ((c : Thread nD τ).loc b) := fun c b => Wa c b
abbrev Vb : (c : Dev nD) → (b : Ref sig .tc) → Buf (Elt F) ((c : Thread nD τ).loc b) := fun c b => Wb c b

/-- Both stages' proof data, each at the contents its stage is entered with. -/
def pdats : (p : Fin 2) → (c : Dev nD) → Dat τ (Elt F) Ix Name U Lvl (Pipeline.pin (pcfgs (F := F)) adm p) c
  | ⟨0, _⟩ => fun c => dat1 (Bd c) (Va Wa) c
  | ⟨1, _⟩ => fun c => dat2 (Bd c) (Vb Wb) c

local notation "PD" => pdats (Name := Name) (U := U) (Lvl := Lvl) Bd Wa Wb
local notation "DA" => fun c => dat1 (Name := Name) (U := U) (Lvl := Lvl) (Bd c) (Va Wa) c
local notation "DB" => fun c => dat2 (Name := Name) (U := U) (Lvl := Lvl) (Bd c) (Vb Wb) c

/-- The valuation after stage one: its arrays at what the loop leaves (the inputs as entered, the partial
    pre-activation's write-backs folded), every other array as entered. -/
def Wout1 (c : Dev nD) : Valuation τ sig (Elt F) :=
  Pipeline.withArrays spec1 c (Wa c) fun w => (dat1 (Name := Name) (U := U) (Lvl := Lvl) (Bd c) (Va Wa) c).arrAt w cfg1.N
theorem Wout1_arr (c : Dev nD) (w : Fin cfg1.W) :
    Wout1 (Name := Name) (U := U) (Lvl := Lvl) Bd Wa c (Proc.devRef .tc (Pipeline.arrRef spec1 w))
      = (dat1 (Name := Name) (U := U) (Lvl := Lvl) (Bd c) (Va Wa) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 (Name := Name) (U := U) (Lvl := Lvl) Bd Wa c (Proc.devRef .tc b) = Wa c (Proc.devRef .tc b) := by
  unfold Wout1; exact Pipeline.withArrays_of_ne spec1 c _ _ b hb
/-- The same read at the TensorCore's references. -/
abbrev Vout1 : (c : Dev nD) → (b : Ref sig .tc) → Buf (Elt F) ((c : Thread nD τ).loc b) :=
  fun c b => Wout1 (Name := Name) (U := U) (Lvl := Lvl) Bd Wa c b

/-- The valuation after stage two: the activation's and the output row's write-backs folded, every other array as
    entered. -/
def Wout2 (c : Dev nD) : Valuation τ sig (Elt F) :=
  Pipeline.withArrays spec2 c (Wb c) fun w => (dat2 (Name := Name) (U := U) (Lvl := Lvl) (Bd c) (Vb Wb) c).arrAt w cfg2.N
theorem Wout2_arr (c : Dev nD) (w : Fin cfg2.W) :
    Wout2 (Name := Name) (U := U) (Lvl := Lvl) Bd Wb c (Proc.devRef .tc (Pipeline.arrRef spec2 w))
      = (dat2 (Name := Name) (U := U) (Lvl := Lvl) (Bd c) (Vb Wb) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 (Name := Name) (U := U) (Lvl := Lvl) Bd Wb c (Proc.devRef .tc b) = Wb c (Proc.devRef .tc b) := by
  unfold Wout2; exact Pipeline.withArrays_of_ne spec2 c _ _ b hb
abbrev Vout2 : (c : Dev nD) → (b : Ref sig .tc) → Buf (Elt F) ((c : Thread nD τ).loc b) :=
  fun c b => Wout2 (Name := Name) (U := U) (Lvl := Lvl) Bd Wb c b

variable (𝒱₀ : Variants) (ι : Ix) (L : GSem nD τ sig → Finset Ix) (lv : GSem nD τ sig → Ix → Lvl)

set_option backward.isDefEq.respectTransparency.types false in
/-- STAGE ONE as a step (`Rr` is what rides along untouched): entered holding every array at `Wa`, beside the rider, owing nothing with recorded pairs within
    the bound; left holding every array at `Wout1`, beside the same rider, owing nothing within the same bound. -/
def reg0 (Rr : Dev nD → sProp 𝕄) (hB : ∀ c, cfg1.waitPairs ι ⊆ Bd c) : Pipeline.RegionSeg (pcfgs (F := F)) adm PD ι defs₀ 𝒱₀ L lv 0 where
  win := launch1.win.to₀
  block_pos := launch1.block_pos
  stage_whole := launch1.stage_whole
  K := PEmpty
  osem k := k.elim
  ho := Pipeline.OwnSemFacts.none _
  hbody c := (body_obligation1 (Bd c) (Va Wa) 𝒱₀ ι c).loose
  hwaits := Pipeline.hwaits_of_owed_zero _ _ _ _ L lv 0 fun _ _ => rfl
  pre c := iprop(StableHlo.held (c : Thread nD τ) (Pipeline.ucRefs τ sig) (Wa c) ∗ Rr c ∗ Pipeline.owesWithin c 0 (Bd c))
  post c := iprop(StableHlo.held (c : Thread nD τ) (Pipeline.ucRefs τ sig) (Wout1 (Name := Name) (U := U) (Lvl := Lvl) Bd Wa c) ∗ Rr c
    ∗ Pipeline.owesWithin c 0 (Bd c))
  X c := iprop(emp)
  Y c := iprop(emp)
  Z c := iprop(Pipeline.unscopedRest spec1 c (Va Wa c) ∗ Rr c)
  hentry c := by
    rw [Pipeline.ownSems0_none]
    have hsplit := Pipeline.arrays_of_unscopedBufs (p := 0) (pcfgs (F := F)) adm PD launch1.win launch1.arr_whole c
      ((PD 0 c).share_full fun _ => rfl) (Va Wa c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := Bd c) (t := cfg1.waitPairs ι))); iexact HO
    isplitr; · iempintro
    isplitl [Hrest]; · iexact Hrest
    iexact HR
  hin c := by
    rw [show (PD 0 c).Φ 0 = Pipeline.scopedRest spec1 c from rfl]
    iintro ⟨-, -, Hr⟩; iexact Hr
  hout c := by
    rw [Pipeline.ownSems0_none, show (PD 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch1.win launch1.arr_whole c PD ((PD 0 c).share_full fun _ => rfl)
      (Va Wa c) (Vout1 (Name := Name) (U := U) (Lvl := Lvl) Bd Wa c) ((PD 0 c).arrAt · cfg1.N)
      (fun w => (Wout1_arr Bd Wa c w).symm)
      (fun b hb => Wout1_of_ne Bd Wa c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    iapply (Pipeline.owesWithin_mono c 0 (Set.union_subset (Set.Subset.refl (Bd c)) (hB c))); iexact HO

set_option backward.isDefEq.respectTransparency.types false in
/-- STAGE TWO as a step: entered holding every array at `Wb`, left holding every array at `Wout2`; rider and bound as for
    stage one. -/
def reg1 (Rr : Dev nD → sProp 𝕄) (hB : ∀ c, cfg2.waitPairs ι ⊆ Bd c) : Pipeline.RegionSeg (pcfgs (F := F)) adm PD ι defs₀ 𝒱₀ L lv 1 where
  win := launch2.win.to₀
  block_pos := launch2.block_pos
  stage_whole := launch2.stage_whole
  K := PEmpty
  osem k := k.elim
  ho := Pipeline.OwnSemFacts.none _
  hbody c := (body_obligation2 (Bd c) (Vb Wb) 𝒱₀ ι c).loose
  hwaits := Pipeline.hwaits_of_owed_zero _ _ _ _ L lv 1 fun _ _ => rfl
  pre c := iprop(StableHlo.held (c : Thread nD τ) (Pipeline.ucRefs τ sig) (Wb c) ∗ Rr c ∗ Pipeline.owesWithin c 0 (Bd c))
  post c := iprop(StableHlo.held (c : Thread nD τ) (Pipeline.ucRefs τ sig) (Wout2 (Name := Name) (U := U) (Lvl := Lvl) Bd Wb c) ∗ Rr c
    ∗ Pipeline.owesWithin c 0 (Bd c))
  X c := iprop(emp)
  Y c := iprop(emp)
  Z c := iprop(Pipeline.unscopedRest spec2 c (Vb Wb c) ∗ Rr c)
  hentry c := by
    rw [Pipeline.ownSems0_none]
    have hsplit := Pipeline.arrays_of_unscopedBufs (p := 1) (pcfgs (F := F)) adm PD launch2.win launch2.arr_whole c
      ((PD 1 c).share_full fun _ => rfl) (Vb Wb c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := Bd c) (t := cfg2.waitPairs ι))); iexact HO
    isplitr; · iempintro
    isplitl [Hrest]; · iexact Hrest
    iexact HR
  hin c := by
    rw [show (PD 1 c).Φ 0 = Pipeline.scopedRest spec2 c from rfl]
    iintro ⟨-, -, Hr⟩; iexact Hr
  hout c := by
    rw [Pipeline.ownSems0_none, show (PD 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl)
      launch2.win launch2.arr_whole c PD ((PD 1 c).share_full fun _ => rfl)
      (Vb Wb c) (Vout2 (Name := Name) (U := U) (Lvl := Lvl) Bd Wb c) ((PD 1 c).arrAt · cfg2.N)
      (fun w => (Wout2_arr Bd Wb c w).symm)
      (fun b hb => Wout2_of_ne Bd Wb c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    iapply (Pipeline.owesWithin_mono c 0 (Set.union_subset (Set.Subset.refl (Bd c)) (hB c))); iexact HO

end Records

end Cert.KernelIdeal.Region

end
-- ==== Proof.Tail.lean ====
/-
  The stretch after the gather call, run as segments: two host steps, the first pallas_call's region, two host steps,
  the second region, the two closing transposes. Between segments the TensorCore holds its unscoped buffers at the
  current contents, owes nothing, and carries the generator register and the rest of its handshake state along. A
  region's waits on its staging semaphores are recorded at the index that carries no level, so the bound on the
  recorded pairs survives both regions.
-/
import proofs.«203298_g75634374082695_cont_9to1_m_1088_20_alg».proof.Proof.MainRun
import proofs.«203298_g75634374082695_cont_9to1_m_1088_20_alg».proof.Proof.RegionData

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held)

variable {F : FTy → Type}

local notation "𝕄" => MT nD τ sig (HIx 1) (Elt F) ℕ UU ℕ

variable [FloatOps F]

theorem sub_of_two {a b : HloOp τ sig (Elt F)} (ha : a.bufs ⊆ StableHlo.tcRefs τ sig) (hb : b.bufs ⊆ StableHlo.tcRefs τ sig) :
    ∀ op ∈ [a, b], op.bufs ⊆ uc := by
  intro op hop
  simp only [List.mem_cons, List.mem_singleton, List.not_mem_nil, or_false] at hop
  rcases hop with rfl | rfl
  · exact Pipeline.sub_ucRefs _ ha
  · exact Pipeline.sub_ucRefs _ hb
theorem fresh_of_two {a b : HloOp τ sig (Elt F)} (ha : a.fresh = ∅) (hb : b.fresh = ∅) : ∀ op ∈ [a, b], op.fresh = ∅ := by
  intro op hop
  simp only [List.mem_cons, List.mem_singleton, List.not_mem_nil, or_false] at hop
  rcases hop with rfl | rfl
  · exact ha
  · exact hb

theorem opsB_sub : ∀ op ∈ (opsB (F := F)), op.bufs ⊆ uc := sub_of_two (StableHlo.unary_bufs_sub ..) (StableHlo.reshape_bufs_sub ..)
theorem opsC_sub : ∀ op ∈ (opsC (F := F)), op.bufs ⊆ uc := sub_of_two (StableHlo.unary_bufs_sub ..) (StableHlo.reshape_bufs_sub ..)
theorem opsD_sub : ∀ op ∈ (opsD (F := F)), op.bufs ⊆ uc := sub_of_two (StableHlo.unary_bufs_sub ..) (StableHlo.unary_bufs_sub ..)
theorem opsB_fresh : ∀ op ∈ (opsB (F := F)), op.fresh = ∅ := fresh_of_two rfl rfl
theorem opsC_fresh : ∀ op ∈ (opsC (F := F)), op.fresh = ∅ := fresh_of_two rfl rfl
theorem opsD_fresh : ∀ op ∈ (opsD (F := F)), op.fresh = ∅ := fresh_of_two rfl rfl

/-- A region's staging semaphores, at the index that carries no level, are within the bound. -/
theorem hB1 (c : Dev nD) : cfg1.waitPairs (none : HIx 1) ⊆ B8 (F := F) c := by
  rintro p ⟨w, s, rfl⟩; exact Nat.zero_le 8
theorem hB2 (c : Dev nD) : cfg2.waitPairs (none : HIx 1) ⊆ B8 (F := F) c := by
  rintro p ⟨w, s, rfl⟩; exact Nat.zero_le 8

section
variable (m : (ℓ : Loc nD τ sig) → Buf (Elt F) ℓ)

/-! ## The buffer contents after the call, boundary by boundary -/

abbrev W3 (c : Dev nD) : Valuation τ sig (Elt F) := StableHlo.after (opsB (F := F)) (W2 m c)
abbrev W4 (c : Dev nD) : Valuation τ sig (Elt F) :=
  Region.Wout1 (Ix := HIx 1) (Name := ℕ) (U := UU) (Lvl := ℕ) (B8 (F := F)) (W3 m) c
abbrev W5 (c : Dev nD) : Valuation τ sig (Elt F) := StableHlo.after (opsC (F := F)) (W4 m c)
abbrev W6 (c : Dev nD) : Valuation τ sig (Elt F) :=
  Region.Wout2 (Ix := HIx 1) (Name := ℕ) (U := UU) (Lvl := ℕ) (B8 (F := F)) (W5 m) c
abbrev W7 (c : Dev nD) : Valuation τ sig (Elt F) := StableHlo.after (opsD (F := F)) (W6 m c)

/-- Both regions' proof data, each at its entry contents. -/
abbrev PD := Region.pdats (Ix := HIx 1) (Name := ℕ) (U := UU) (Lvl := ℕ) (B8 (F := F)) (W3 m) (W5 m)

/-- What rides beside the buffers through a host stretch. -/
abbrev Rfull (c : Dev nD) : sProp 𝕄 := iprop(Rr (F := F) c ∗ owes0 (F := F) c)

abbrev HB := Pipeline.HostSeg.ofOps (Name := ℕ) (U := UU) (pcfgs (F := F)) defs₀ 𝒱₀ (K (F := F)).L (K (F := F)).lev uc (opsB (F := F)) opsB_sub opsB_fresh (W2 m) (Rfull (F := F))
abbrev HC := Pipeline.HostSeg.ofOps (Name := ℕ) (U := UU) (pcfgs (F := F)) defs₀ 𝒱₀ (K (F := F)).L (K (F := F)).lev uc (opsC (F := F)) opsC_sub opsC_fresh (W4 m) (Rfull (F := F))
abbrev HD := Pipeline.HostSeg.ofOps (Name := ℕ) (U := UU) (pcfgs (F := F)) defs₀ 𝒱₀ (K (F := F)).L (K (F := F)).lev uc (opsD (F := F)) opsD_sub opsD_fresh (W6 m) (Rfull (F := F))
abbrev RG0 := Region.reg0 (Ix := HIx 1) (Name := ℕ) (U := UU) (Lvl := ℕ) (B8 (F := F)) (W3 m) (W5 m) 𝒱₀ (none : HIx 1) (K (F := F)).L (K (F := F)).lev (Rr (F := F)) (hB1 (F := F))
abbrev RG1 := Region.reg1 (Ix := HIx 1) (Name := ℕ) (U := UU) (Lvl := ℕ) (B8 (F := F)) (W3 m) (W5 m) 𝒱₀ (none : HIx 1) (K (F := F)).L (K (F := F)).lev (Rr (F := F)) (hB2 (F := F))

/-- The stretch after the call. -/
abbrev theTail := tailSegs (PD m) (RG0 m) (RG1 m) (HB m) (HC m) (HD m)

/-- The program is the opening host steps, the call, and this stretch lifted. -/
theorem main_is (d : Dev nD) :
    main (F := F) d = (StableHlo.seq (opsA (F := F)) >>= fun _ => (K (F := F)).run d 0 >>= fun _ =>
      SparseCore.liftProg (Pipeline.Seg.run (theTail m))) :=
  main_eq (PD m) (RG0 m) (RG1 m) (HB m) (HC m) (HD m) d rfl rfl rfl

end

section
variable (m : (ℓ : Loc nD τ sig) → Buf (Elt F) ℓ)

theorem tail_nodup : (Pipeline.Seg.pipes (theTail m)).Nodup := by
  simp only [theTail, tailSegs, Pipeline.Seg.pipes_host, Pipeline.Seg.pipes_region, Pipeline.Seg.pipes_nil]; decide

/-- The segments chain: each is entered from what the one before it left. -/
theorem tail_chains : Pipeline.Seg.Chains (Tl (F := F) (W2 m)) (theTail m) (Tl (F := F) (W7 m)) :=
  ⟨fun _ => .rfl, fun _ => .rfl, fun _ => .rfl, fun _ => .rfl, fun _ => .rfl, fun _ => .rfl⟩

/-- The stretch after the call, run: from the buffers as the call left them to the buffers after the closing transposes. -/
theorem htail [∀ e, Nonempty (Elt F e)] (d : Dev nD) (Q : PUnit → sProp 𝕄) :
    iprop((iprop(boundary (SparseCore.T d) ∗ Tl (F := F) (W7 m) d) -∗ Q ⟨⟩)
        ∗ boundary (SparseCore.T d) ∗ Tl (F := F) (W2 m) d ∗ levAts (K (F := F)).L (K (F := F)).lev ∗ G (F := F) d)
      ⊢ wp frame (wpE (D (F := F)) 𝒱 (SparseCore.T d) none) Set.univ (Pipeline.Seg.run (theTail m)) Q :=
  Pipeline.wp_segs (pcfgs (F := F)) Region.adm (PD m) (none : HIx 1) cellOf_inj (ER (F := F)) defs₀ 𝒱₀ (K (F := F)).L (K (F := F)).lev d
    (theTail m) Finset.univ (Tl (F := F) (W2 m)) (Tl (F := F) (W7 m)) (tail_nodup m) (fun p _ => Finset.mem_univ p) (tail_chains m)

end

end Cert.KernelIdeal.Launch

end
-- ==== Proof.RunMain.lean ====
/-
  The kernel-side program's run: the launch theorem applied to one worker's task, the core split, the launch element,
  the TensorCore's program and the stretch of segments. Every weakly fair execution of all the device's threads
  terminates without a fault, and every final memory holds, at each unscoped buffer of the TensorCore, the contents the
  fold through the program names.
-/
import proofs.«203298_g75634374082695_cont_9to1_m_1088_20_alg».proof.Proof.Tail

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held)

variable {F : FTy → Type}

local notation "𝕄" => MT nD τ sig (HIx 1) (Elt F) ℕ UU ℕ

variable [FloatOps F]

section
variable (m : (ℓ : Loc nD τ sig) → Buf (Elt F) ℓ) (ρ : Dev nD → PrngReg)

/-- What a final state is read for: each unscoped buffer of each TensorCore at the last valuation. -/
def fq (d : Dev nD) (s' : Phys nD τ sig (Elt F)) : Prop := ∀ b ∈ uc, s'.mem.mem (d, b) = W7 m d b

theorem hfin (d : Dev nD) (s' : Phys nD τ sig (Elt F)) : iprop(FIN (W7 m) d ∗ SI s') ⊢ (⌜fq m d s'⌝ : sProp 𝕄) := by
  have hread : (iprop(FIN (W7 m) d ∗ SI s') : sProp 𝕄) ⊢ iprop(⌜∀ b ∈ uc, s'.mem.mem ((d, b) : Loc nD τ sig) = W7 m d b⌝ ∗ SI s') :=
    pointsTo_read_all uc (fun b => ((d, b) : Loc nD τ sig)) (W7 m d) s'
  refine hread.trans ?_
  iintro ⟨%h, -⟩
  ipureintro; exact h

def QC : PUnit × MemSt nD τ sig (Elt F) → Prop := fun r => ∀ c : Dev nD, ∀ b ∈ uc, r.2.mem (c, b) = W7 m c b

/-- The run, given one worker's task and that every index names a column of the transposed table. -/
theorem run_main [∀ e, Nonempty (Elt F e)] (hcore : TileCore (F := F) (V0 m) (V1 m))
    (hidx : ∀ (d : Dev nD) (b : Fin 16384), ((V0 m d : IVec S16384 32) (ix1 b)).toNat < 100000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (V0 m) (V1 m)) kfacts v₀
    (fun q hq => match q with | 0 => nomatch hq)
    (fun q _ => match q with | 0 => tileObl (V0 m) (V1 m) hcore hidx)
    (fun q _ => match q with | 0 => SparseCore.Cfg.VecSplit.of_plain (vecSplit (V0 m) (V1 m)))
    m ρ main (G (F := F)) (FIN (W7 m)) (u₀ (F := F)) (sep_elim_left.trans (hu₀ (V0 m) (V1 m)))
    (hmain m ρ (Pipeline.Seg.run (theTail m)) (W7 m) (main_is m) (htail m))
    (fq m) (hfin m) (QC m) (fun _ h => h)

end

end Cert.KernelIdeal.Launch

end
-- ==== Proof.HostSteps.lean ====
/-
  The kernel-side program's host steps, read at an index.

  The program's eight host steps are layout operations only: a column flattened to a vector (and a vector or
  a one-element array given a unit axis), and matrices transposed. Each stretch of two steps leaves every
  buffer it does not write as it was; and what it writes is, index by index, the operand at the matching
  index: a reshape keeps the row-major position, a transpose at `(j, i)` reads the operand at `(i, j)`.
-/
import proofs.«203298_g75634374082695_cont_9to1_m_1088_20_alg».proof.Proof.Main
import proofs.«203298_g75634374082695_cont_9to1_m_1088_20_alg».proof.Proof.KSpec
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostSteps

open Cert.KernelIdeal Cert.KernelIdeal.Launch Idealize.ShloMosaic Idealize.ShloMosaic.ValueIdx
  Idealize.ShloMosaic.StableHlo

/-! ## What a stretch does not write is unchanged (any float values) -/

section Unchanged
variable {F : FTy → Type} [FloatOps F] (W : Valuation τ sig (Elt F)) {b : Ref sig .tc}

theorem opsA_other (h0 : b ≠ main_v0) (h1 : b ≠ main_v1) :
    after (opsA (F := F)) W (Proc.devRef .tc b) = W (Proc.devRef .tc b) := by
  simp only [after_cons, after_nil]
  exact (unary_result_ne _ _ _ _ _ _ h1).trans (reshape_result_ne _ _ _ _ _ _ _ h0)

theorem opsB_other (h3 : b ≠ main_v3) (h4 : b ≠ main_v4) :
    after (opsB (F := F)) W (Proc.devRef .tc b) = W (Proc.devRef .tc b) := by
  simp only [after_cons, after_nil]
  exact (reshape_result_ne _ _ _ _ _ _ _ h4).trans (unary_result_ne _ _ _ _ _ _ h3)

theorem opsC_other (h6 : b ≠ main_v6) (h7 : b ≠ main_v7) :
    after (opsC (F := F)) W (Proc.devRef .tc b) = W (Proc.devRef .tc b) := by
  simp only [after_cons, after_nil]
  exact (reshape_result_ne _ _ _ _ _ _ _ h7).trans (unary_result_ne _ _ _ _ _ _ h6)

theorem opsD_other (h9 : b ≠ main_v9) (h10 : b ≠ main_v10) :
    after (opsD (F := F)) W (Proc.devRef .tc b) = W (Proc.devRef .tc b) := by
  simp only [after_cons, after_nil]
  exact (unary_result_ne _ _ _ _ _ _ h10).trans (unary_result_ne _ _ _ _ _ _ h9)

end Unchanged

/-! ## Layout operations at an index -/

section Layout
variable {α : Type}

/-- A column `[n, 1]` flattened to `[n]` reads, at `b`, the column at `(b, 0)`. -/
theorem flatten_apply {n : ℕ} (x : (⟨2, ![n, 1]⟩ : Shape).Idx → α) (h : (⟨2, ![n, 1]⟩ : Shape).ShapeCasts ⟨1, ![n]⟩)
    (b : Fin n) : shapeCast ⟨1, ![n]⟩ x h (ix1 b) = x (ix2 b (0 : Fin 1)) :=
  shapeCast_apply x h _ _ (by
    rw [Shape.rowMajor_val_two, Shape.rowMajor_val_one]
    show b.val * 1 + 0 = b.val
    omega)

/-- A vector `[n]` given a trailing unit axis reads, at `(b, o)`, the vector at `b`. -/
theorem column_apply {n : ℕ} (x : (⟨1, ![n]⟩ : Shape).Idx → α) (h : (⟨1, ![n]⟩ : Shape).ShapeCasts ⟨2, ![n, 1]⟩)
    (b : Fin n) (o : Fin 1) : shapeCast ⟨2, ![n, 1]⟩ x h (ix2 b o) = x (ix1 b) :=
  shapeCast_apply x h _ _ (by
    have ho : o.val = 0 := by omega
    rw [Shape.rowMajor_val_two, Shape.rowMajor_val_one]
    show b.val = b.val * 1 + o.val
    omega)

end Layout

/-! ## What each stretch writes -/

/-- The flattened category column (32-bit words: the same for any float values). -/
theorem opsA_v0 {F : FTy → Type} [FloatOps F] (W : Valuation τ sig (Elt F)) :
    after (opsA (F := F)) W (Proc.devRef .tc main_v0) = Cert.KSpec.idx (W (Proc.devRef .tc main_arg0)) := by
  after_results
  funext j
  obtain ⟨b, rfl⟩ : ∃ b : Fin 16384, j = ix1 b := ⟨j 0, eq_ix1 j⟩
  exact flatten_apply _ _ b

section Written
variable (W : Valuation τ sig (Elt Ideal))

theorem opsA_v1 :
    after (opsA (F := Ideal)) W (Proc.devRef .tc main_v1) = Cert.KSpec.tabT (W (Proc.devRef .tc main_arg2)) := by
  after_results
  funext j
  obtain ⟨f, r, rfl⟩ : ∃ (f : Fin 50) (r : Fin 100000), j = ix2 f r := ⟨j 0, j 1, eq_ix2 j⟩
  exact transpose_ix2_apply _ _ f r

theorem opsB_v3 :
    after (opsB (F := Ideal)) W (Proc.devRef .tc main_v3) = Cert.KSpec.w2t (W (Proc.devRef .tc main_arg3)) := by
  after_results
  funext j
  obtain ⟨h, k, rfl⟩ : ∃ (h : Fin 64) (k : Fin 178), j = ix2 h k := ⟨j 0, j 1, eq_ix2 j⟩
  exact transpose_ix2_apply _ _ h k

theorem opsB_v4 :
    after (opsB (F := Ideal)) W (Proc.devRef .tc main_v4) = Cert.KSpec.b2c (W (Proc.devRef .tc main_arg4)) := by
  after_results
  funext j
  obtain ⟨h, o, rfl⟩ : ∃ (h : Fin 64) (o : Fin 1), j = ix2 h o := ⟨j 0, j 1, eq_ix2 j⟩
  exact column_apply _ _ h o

theorem opsC_v6 :
    after (opsC (F := Ideal)) W (Proc.devRef .tc main_v6) = Cert.KSpec.woutT (W (Proc.devRef .tc main_arg5)) := by
  after_results
  funext j
  obtain ⟨o, h, rfl⟩ : ∃ (o : Fin 1) (h : Fin 64), j = ix2 o h := ⟨j 0, j 1, eq_ix2 j⟩
  exact transpose_ix2_apply _ _ o h

theorem opsC_v7 :
    after (opsC (F := Ideal)) W (Proc.devRef .tc main_v7) = Cert.KSpec.boutc (W (Proc.devRef .tc main_arg6)) := by
  after_results
  funext j
  obtain ⟨u, o, rfl⟩ : ∃ (u : Fin 1) (o : Fin 1), j = ix2 u o := ⟨j 0, j 1, eq_ix2 j⟩
  exact column_apply _ _ u o

theorem opsD_v9 :
    after (opsD (F := Ideal)) W (Proc.devRef .tc main_v9) = Cert.KSpec.resX (W (Proc.devRef .tc main_v8_0)) := by
  after_results
  funext j
  obtain ⟨b, h, rfl⟩ : ∃ (b : Fin 16384) (h : Fin 64), j = ix2 b h := ⟨j 0, j 1, eq_ix2 j⟩
  exact transpose_ix2_apply _ _ b h

theorem opsD_v10 :
    after (opsD (F := Ideal)) W (Proc.devRef .tc main_v10) = Cert.KSpec.resOut (W (Proc.devRef .tc main_v8_1)) := by
  after_results
  funext j
  obtain ⟨b, o, rfl⟩ : ∃ (b : Fin 16384) (o : Fin 1), j = ix2 b o := ⟨j 0, j 1, eq_ix2 j⟩
  exact transpose_ix2_apply _ _ b o

end Written

end Cert.KernelIdeal.HostSteps

end
-- ==== Proof.ArgsKept.lean ====
/-
  The arguments end as launched. No host step writes an argument, the gather call writes only its output array, and a
  pallas_call changes only its output windows' arrays: so the fold of buffer contents through the program, read at an
  argument, walks back to the launch memory. One argument (the numeric features) is an input window of the first
  pallas_call, which hands an input window's array back as it was entered.
-/
import proofs.«203298_g75634374082695_cont_9to1_m_1088_20_alg».proof.Proof.Tail
import proofs.«203298_g75634374082695_cont_9to1_m_1088_20_alg».proof.Proof.HostSteps

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type} [FloatOps F]

section
variable (m : (ℓ : Loc nD τ sig) → Buf (Elt F) ℓ)

/-- From the end back to the first region's exit, at a buffer that the closing transposes, the second region's output
    windows and the host steps before it do not write. -/
theorem W7_eq_W4 (c : Dev nD) (b : Ref sig .tc) (h9 : b ≠ main_v9) (h10 : b ≠ main_v10)
    (hb2 : ∀ w, Pipeline.arrRef spec2 w ≠ b) (h6 : b ≠ main_v6) (h7 : b ≠ main_v7) :
    W7 m c (Proc.devRef .tc b) = W4 m c (Proc.devRef .tc b) :=
  calc W7 m c (Proc.devRef .tc b)
    _ = W6 m c (Proc.devRef .tc b) := HostSteps.opsD_other (W6 m c) h9 h10
    _ = W5 m c (Proc.devRef .tc b) := Region.Wout2_of_ne (B8 (F := F)) (W5 m) c b hb2
    _ = W4 m c (Proc.devRef .tc b) := HostSteps.opsC_other (W4 m c) h6 h7

/-- From the first region's entry back to the launch, at a buffer that the host steps before it, the gather call and
    the opening host steps do not write. -/
theorem W3_eq_m (c : Dev nD) (b : Ref sig .tc) (h3 : b ≠ main_v3) (h4 : b ≠ main_v4)
    (h2 : (Proc.devRef .tc b : DevRef τ sig) ≠ r2) (h0 : b ≠ main_v0) (h1 : b ≠ main_v1) :
    W3 m c (Proc.devRef .tc b) = m (c, Proc.devRef .tc b) :=
  calc W3 m c (Proc.devRef .tc b)
    _ = W2 m c (Proc.devRef .tc b) := HostSteps.opsB_other (W2 m c) h3 h4
    _ = W1 m c (Proc.devRef .tc b) := W2_of_ne m c _ h2
    _ = W0 m c (Proc.devRef .tc b) := HostSteps.opsA_other (W0 m c) h0 h1
    _ = m (c, Proc.devRef .tc b) := rfl

/-- A buffer no step and no region's window touches ends as launched. -/
theorem W7_untouched (c : Dev nD) (b : Ref sig .tc) (h9 : b ≠ main_v9) (h10 : b ≠ main_v10)
    (hb2 : ∀ w, Pipeline.arrRef spec2 w ≠ b) (h6 : b ≠ main_v6) (h7 : b ≠ main_v7)
    (hb1 : ∀ w, Pipeline.arrRef spec1 w ≠ b) (h3 : b ≠ main_v3) (h4 : b ≠ main_v4)
    (h2 : (Proc.devRef .tc b : DevRef τ sig) ≠ r2) (h0 : b ≠ main_v0) (h1 : b ≠ main_v1) :
    W7 m c (Proc.devRef .tc b) = m (c, Proc.devRef .tc b) :=
  (W7_eq_W4 m c b h9 h10 hb2 h6 h7).trans
    ((Region.Wout1_of_ne (B8 (F := F)) (W3 m) c b hb1).trans (W3_eq_m m c b h3 h4 h2 h0 h1))

theorem W7_arg0 (c : Dev nD) : W7 m c (Proc.devRef .tc main_arg0) = m (c, Proc.devRef .tc main_arg0) :=
  W7_untouched m c main_arg0 (by decide) (by decide) (by decide) (by decide) (by decide) (by decide) (by decide) (by decide) (by decide) (by decide) (by decide)
theorem W7_arg2 (c : Dev nD) : W7 m c (Proc.devRef .tc main_arg2) = m (c, Proc.devRef .tc main_arg2) :=
  W7_untouched m c main_arg2 (by decide) (by decide) (by decide) (by decide) (by decide) (by decide) (by decide) (by decide) (by decide) (by decide) (by decide)
theorem W7_arg3 (c : Dev nD) : W7 m c (Proc.devRef .tc main_arg3) = m (c, Proc.devRef .tc main_arg3) :=
  W7_untouched m c main_arg3 (by decide) (by decide) (by decide) (by decide) (by decide) (by decide) (by decide) (by decide) (by decide) (by decide) (by decide)
theorem W7_arg4 (c : Dev nD) : W7 m c (Proc.devRef .tc main_arg4) = m (c, Proc.devRef .tc main_arg4) :=
  W7_untouched m c main_arg4 (by decide) (by decide) (by decide) (by decide) (by decide) (by decide) (by decide) (by decide) (by decide) (by decide) (by decide)
theorem W7_arg5 (c : Dev nD) : W7 m c (Proc.devRef .tc main_arg5) = m (c, Proc.devRef .tc main_arg5) :=
  W7_untouched m c main_arg5 (by decide) (by decide) (by decide) (by decide) (by decide) (by decide) (by decide) (by decide) (by decide) (by decide) (by decide)
theorem W7_arg6 (c : Dev nD) : W7 m c (Proc.devRef .tc main_arg6) = m (c, Proc.devRef .tc main_arg6) :=
  W7_untouched m c main_arg6 (by decide) (by decide) (by decide) (by decide) (by decide) (by decide) (by decide) (by decide) (by decide) (by decide) (by decide)

/-- The numeric features: an input window of the first region, handed back as entered. -/
theorem W7_arg1 (c : Dev nD) : W7 m c (Proc.devRef .tc main_arg1) = m (c, Proc.devRef .tc main_arg1) :=
  calc W7 m c (Proc.devRef .tc main_arg1)
    _ = W4 m c (Proc.devRef .tc main_arg1) := W7_eq_W4 m c main_arg1 (by decide) (by decide) (by decide) (by decide) (by decide)
    _ = (Region.dat1 (Ix := HIx 1) (Name := ℕ) (U := UU) (Lvl := ℕ) (B8 (F := F) c) (Region.Va (W3 m)) c).arrAt 0 cfg1.N :=
        Region.Wout1_arr (Ix := HIx 1) (Name := ℕ) (U := UU) (Lvl := ℕ) (B8 (F := F)) (W3 m) c 0
    _ = W3 m c (Proc.devRef .tc main_arg1) :=
        ((Region.dat1 (Ix := HIx 1) (Name := ℕ) (U := UU) (Lvl := ℕ) (B8 (F := F) c) (Region.Va (W3 m)) c).arrAt_in 0 rfl _).trans
          (Region.A_eq1 (Ix := HIx 1) (Name := ℕ) (U := UU) (Lvl := ℕ) (B8 (F := F) c) (Region.Va (W3 m)) c 0)
    _ = m (c, Proc.devRef .tc main_arg1) := W3_eq_m m c main_arg1 (by decide) (by decide) (by decide) (by decide) (by decide)

end

end Cert.KernelIdeal.Launch

end
-- ==== Proof.PreFacts.lean ====
/-
  What the input-domain precondition says about the category words, for any float values.

  The predicate is a conjunction of seven `all`s, and-ed left to right; the last says of every category word
  `w` that `0 ≤ w` and `w ≤ 99999` as signed 32-bit integers. A word with both properties has its sign bit clear,
  so read as a natural number it is below the number of table rows, 100000.
-/
import proofs.«203298_g75634374082695_cont_9to1_m_1088_20_alg».proof.Pre_input_domain
import Idealize.ShloMosaic.Lib.ReduceAll
import Idealize.ShloMosaic.Lib.ValueIdx

namespace Cert.PreFacts

open Idealize.ShloMosaic Idealize.ShloMosaic.ValueIdx

/-- The scalar shape has one index. -/
instance : Subsingleton Cert.Pre_input_domain.S_.Idx := ⟨fun _ _ => funext fun d => d.elim0⟩

/-- A 32-bit word in `0 … 99999` signed is below 100000 unsigned. -/
theorem toNat_lt_of_signed_range (w : BitVec 32) (h0 : IntOp.cmpi .sge w 0#32 = 1#1)
    (h1 : IntOp.cmpi .sle w 99999#32 = 1#1) : w.toNat < 100000 := by
  rw [IntOp.cmpi_sge] at h0
  rw [IntOp.cmpi_sle] at h1
  have e0 : (0#32 : BitVec 32).toInt = 0 := by decide
  have e1 : (99999#32 : BitVec 32).toInt = 99999 := by decide
  rw [e0] at h0
  rw [e1] at h1
  have h32 := w.isLt
  unfold BitVec.toInt at h0 h1
  split at h0 <;> omega

/-- Under the precondition every category word, read as a natural number, is below the number of table rows. -/
theorem cat_lt {F : FTy → Type} [FloatOps F] [hP : Cert.Pre_input_domain.Facts]
    (a0 : IVec Cert.Pre_input_domain.S16384x1 32) (a1 : FVec F Cert.Pre_input_domain.S16384x128 .f32)
    (a2 : FVec F Cert.Pre_input_domain.S100000x50 .f32) (a3 : FVec F Cert.Pre_input_domain.S178x64 .f32)
    (a4 : FVec F Cert.Pre_input_domain.S64 .f32) (a5 : FVec F Cert.Pre_input_domain.S64x1 .f32)
    (a6 : FVec F Cert.Pre_input_domain.S1 .f32)
    (h : Cert.Pre_input_domain.fn (F := F) a0 a1 a2 a3 a4 a5 a6 = fun _ => 1#1) :
    ∀ b : Fin 16384, (a0 (ix2 b (0 : Fin 1))).toNat < 100000 := by
  intro b
  have e := congrFun h ix0
  dsimp only [Cert.Pre_input_domain.fn, Cert.Pre_input_domain.fn_part1, Cert.Pre_input_domain.fn_part2] at e
  obtain ⟨-, e2⟩ := IntOp.andi_eq_one.1 e
  have e3 := Host.reduce_andi_all _ _ _ _ _ e2 (ix2 b (0 : Fin 1))
  obtain ⟨h0, h1⟩ := IntOp.andi_eq_one.1 e3
  exact toNat_lt_of_signed_range _ h0 h1

end Cert.PreFacts
-- ==== Proof.Frames.lean ====
/-
  The kernel-side program's run with everything the claims read: under the precondition, every weakly fair execution
  terminates without a fault, the two results hold what the fold of buffer contents through the program names, and the
  seven arguments are as launched. The precondition enters once: every category word is below the number of table
  rows, so every entry of the flattened index vector names a column of the transposed table.
-/
import proofs.«203298_g75634374082695_cont_9to1_m_1088_20_alg».proof.Proof.RunMain
import proofs.«203298_g75634374082695_cont_9to1_m_1088_20_alg».proof.Proof.ArgsKept
import proofs.«203298_g75634374082695_cont_9to1_m_1088_20_alg».proof.Proof.PreFacts
import proofs.«203298_g75634374082695_cont_9to1_m_1088_20_alg».proof.Pre_input_domain
import proofs.«203298_g75634374082695_cont_9to1_m_1088_20_alg».proof.Proof.Gen.Pre_input_domain

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type} [FloatOps F]

section
variable (m : (ℓ : Loc nD τ sig) → Buf (Elt F) ℓ) (ρ : Dev nD → PrngReg)

/-- The precondition at this program's argument buffers, on every device. -/
def PreAt : Prop :=
  ∀ c : Dev nD,
    (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) = (fun _ => 1#1)

/-- Under the precondition every category word is below the number of table rows. -/
theorem cat_lt_of_pre (h : PreAt m) (c : Dev nD) (b : Fin 16384) :
    ((m ((c.tc : Thread nD τ).loc main_arg0) : IVec ⟨2, ![16384, 1]⟩ 32) (ix2 b (0 : Fin 1))).toNat < 100000 :=
  Cert.PreFacts.cat_lt (F := F) _ _ _ _ _ _ _ (h c) b

/-- So every entry of the index vector the gather call finds names a column of the transposed table. -/
theorem hidx_of_pre (h : PreAt m) (d : Dev nD) (b : Fin 16384) : ((V0 m d : IVec S16384 32) (ix1 b)).toNat < 100000 := by
  have hv : V0 m d = KSpec.idx (W0 m d (Proc.devRef .tc main_arg0)) := HostSteps.opsA_v0 (W0 m d)
  rw [hv]
  exact cat_lt_of_pre m h d b

/-- The run with its strongest post. -/
theorem frame_run [∀ e, Nonempty (Elt F e)] (hpre : PreAt m) (hcore : TileCore (F := F) (V0 m) (V1 m)) :
    θ_run (Cert.KernelIdeal.defs (F := F)) (Cert.KernelIdeal.threads (F := F)) ⟨m, fun _ => 0, ρ⟩ (fun r => ∀ c : Dev nD,
      r.2.mem ((c.tc : Thread nD τ).loc main_v9) = W7 m c (Proc.devRef .tc main_v9)
      ∧ r.2.mem ((c.tc : Thread nD τ).loc main_v10) = W7 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.KernelIdeal.defs (F := F)) _ _).mono (fun r h c =>
    ⟨h c _ (mem_uc main_v9 (by decide)), h c _ (mem_uc main_v10 (by decide)),
      (h c _ (mem_uc main_arg0 (by decide))).trans (W7_arg0 m c), (h c _ (mem_uc main_arg1 (by decide))).trans (W7_arg1 m c),
      (h c _ (mem_uc main_arg2 (by decide))).trans (W7_arg2 m c), (h c _ (mem_uc main_arg3 (by decide))).trans (W7_arg3 m c),
      (h c _ (mem_uc main_arg4 (by decide))).trans (W7_arg4 m c), (h c _ (mem_uc main_arg5 (by decide))).trans (W7_arg5 m c),
      (h c _ (mem_uc main_arg6 (by decide))).trans (W7_arg6 m c)⟩)
    (run_main m ρ hcore (hidx_of_pre m hpre))

end

end Cert.KernelIdeal.Launch

end
-- ==== Proof.TilePayBits.lean ====
/-
  The SparseCore gather as the launch sees it: which thread is handed what.

  Thirty-two vector subcores (two cores of sixteen) share the work by rows of the transposed table: subcore `s` of core
  `c` is worker `w = 2 s + c` and produces output rows `w` and, when `32 + w < 50`, `32 + w`. Every worker reads the
  whole index vector, so that array travels as thirty-two read shares of one points-to; a row of the transposed table
  and a row of the output belong to exactly one worker and travel whole. A worker hands back its output rows holding
  the gathered values: at column `b` of row `f`, the transposed table's entry `(f, idx b)`.
-/
import proofs.«203298_g75634374082695_cont_9to1_m_1088_20_alg».proof.Kernel
import proofs.«203298_g75634374082695_cont_9to1_m_1088_20_alg».proof.Proof.Gen.Kernel
import proofs.«203298_g75634374082695_cont_9to1_m_1088_20_alg».proof.Proof.KSpec
import Idealize.ShloMosaic.Lib.SparseCore.Launch
import Idealize.ShloMosaic.Lib.Pipeline.Kit
import Idealize.ShloMosaic.Lib.Transfers

noncomputable section

namespace Cert.Kernel.Launch

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem kfacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' staging cells' rounds, the transfers' counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def ER : Emb UR (MT nD τ sig (HIx 1) (Elt F) ℕ UU ℕ) :=
  ((Emb.inl : Emb UR (UR × Counters)).trans (Emb.inr : Emb (UR × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance ER_landsIn : (ER : Emb UR 𝕄).LandsIn (upEmb : UEmb _ 𝕄) := by unfold ER; infer_instance

/-! ## The arrays the gather touches -/

abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2

abbrev idxV : Memref sig .scVector .hbm S16384 .i32 := Memref.whole main_v0_scv
abbrev tabV : Memref sig .scVector .hbm S50x100000 .f32 := Memref.whole main_v1_scv
abbrev outV : Memref sig .scVector .hbm S50x16384 .f32 := Memref.whole main_v2_scv

theorem hdiv1 : 50 ∣ S50x100000.size 0 := ⟨1, rfl⟩
theorem hdiv2 : 50 ∣ S50x16384.size 0 := ⟨1, rfl⟩
/-- Row `f` of the transposed table, and of the output. -/
abbrev row1 (f : Fin 50) : Rect S50x100000 := Rect.part (s := S50x100000) (a₀ := 0) hdiv1 f
abbrev row2 (f : Fin 50) : Rect S50x16384 := Rect.part (s := S50x16384) (a₀ := 0) hdiv2 f
abbrev rowSet1 (f : Fin 50) : Finset S50x100000.Idx := ((tabV : Memref sig .scVector .hbm S50x100000 .f32).view.slice (row1 f)).set
abbrev rowSet2 (f : Fin 50) : Finset S50x16384.Idx := ((outV : Memref sig .scVector .hbm S50x16384 .f32).view.slice (row2 f)).set

/-- The worker number of subcore `s` of core `c`. -/
def wid (c : Fin 2) (s : Fin 16) : Fin 32 := ⟨2 * s.val + c.val, by omega⟩
/-- The worker's first row. -/
def f0 (c : Fin 2) (s : Fin 16) : Fin 50 := ⟨(wid c s).val, by have := (wid c s).isLt; omega⟩

section Pay

variable (V0 : (d : Dev nD) → Buf (Elt F) (v0Loc d)) (V1 : (d : Dev nD) → Buf (Elt F) (v1Loc d))

/-- The gathered output as one array: entry `(f, b)` is the transposed table's entry `(f, idx b)`. -/
def gathered (d : Dev nD) : Buf (Elt F) (v2Loc d) := KSpec.embT (V0 d) (V1 d)

/-- A worker's read share of the index vector. -/
abbrev idxTok (d : Dev nD) (c : Fin 2) (s : Fin 16) : sProp 𝕄 :=
  v0Loc d ↦[Finset.univ]{shareTok fullShare 32 (wid c s)} V0 d

/-- Row `f` as a worker receives it: the table's row at its contents, the output's row at some contents. -/
abbrev rowIn (d : Dev nD) (f : Fin 50) : sProp 𝕄 :=
  iprop((v1Loc d ↦[rowSet1 f]{fullShare} V1 d) ∗ ∃ g : Buf (Elt F) (v2Loc d), v2Loc d ↦[rowSet2 f]{fullShare} g)
/-- Row `f` as a worker hands it back: the output's row at the gathered values. -/
abbrev rowOut (d : Dev nD) (f : Fin 50) : sProp 𝕄 :=
  iprop((v1Loc d ↦[rowSet1 f]{fullShare} V1 d) ∗ v2Loc d ↦[rowSet2 f]{fullShare} gathered V0 V1 d)

/-- What a worker is handed with its go signal: its read share of the index vector, its first row, and its second row
    when it has one. -/
def tileGo (d : Dev nD) (c : Fin 2) (s : Fin 16) : sProp 𝕄 :=
  iprop(idxTok V0 d c s ∗ rowIn V1 d (f0 c s)
    ∗ if h : 32 + (wid c s).val < 50 then rowIn V1 d ⟨32 + (wid c s).val, h⟩ else iprop(emp))
/-- What it hands back with its taskDone signal. -/
def tileTd (d : Dev nD) (c : Fin 2) (s : Fin 16) : sProp 𝕄 :=
  iprop(idxTok V0 d c s ∗ rowOut V0 V1 d (f0 c s)
    ∗ if h : 32 + (wid c s).val < 50 then rowOut V0 V1 d ⟨32 + (wid c s).val, h⟩ else iprop(emp))

end Pay

end Cert.Kernel.Launch

end
-- ==== Proof.TileIfaceBits.lean ====
/-
  One worker's task, as a statement: handed its read share of the index vector and its rows, with its three scratch
  buffers and its DMA semaphores at zero, the gather function runs to the end without a fault and hands the same back,
  the output rows now holding the gathered values. The only fact about the data it needs is that every index names a
  column of the transposed table.
-/
import proofs.«203298_g75634374082695_cont_9to1_m_1088_20_alg».proof.Proof.TilePayBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

/-- The core and the subcore a grid coordinate names, as threads are numbered; -/
abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- and as the rows are dealt. -/
abbrev cL (L : grid0.Coords) : Fin 2 := Fin.cast bound_zero (L 0)
abbrev sL (L : grid0.Coords) : Fin 16 := Fin.cast bound_one (L 1)

/-- The gather function on the arrays, scratch buffers and semaphores the body table passes it. -/
abbrev gatherAt [FloatOps F] (L : grid0.Coords) :=
  cc0__gather_body (F := F) L idxV (Memref.isWhole_whole _) tabV (Memref.isWhole_whole _) outV (Memref.isWhole_whole _)
    (Memref.whole cc0_scratch0) (Memref.isWhole_whole _) (Memref.whole cc0_scratch1) (Memref.isWhole_whole _)
    (Memref.whole cc0_scratch2) (Memref.isWhole_whole _) cc0_scratch3
    cc0_scoped0 cc0_scoped1 cc0_scoped2 cc0_scoped3 cc0_scoped4 cc0_scoped5 cc0_scoped6 cc0_scoped7

/-- One worker's task at a symbolic device and grid coordinate. -/
def TileCore [FloatOps F] (V0 : (d : Dev nD) → Buf (Elt F) (v0Loc d)) (V1 : (d : Dev nD) → Buf (Elt F) (v1Loc d)) : Prop :=
  ∀ (d : Dev nD) (L : grid0.Coords) (O : CellTallies nD τ sig (HIx 1)) (W : Waits sig (HIx 1)), (∀ g, O g none = 0) →
    (∀ b : Fin 16384, ((V0 d : IVec S16384 32) (ix1 b)).toNat < 100000) →
    (iprop(levAts (K (F := F)).L (K (F := F)).lev ∗ emp ∗ tileGo V0 V1 d (cL L) (sL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (gatherAt (F := F) L)
          fun _ => iprop(tileTd V0 V1 d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Launch

end
-- ==== Proof.LaunchBits.lean ====
/-
  The launch of the kernel-side program: what each thread is handed and hands back, the workers' obligation from one
  worker's task, how a core's share is its sixteen workers', and the launch element of the ghost state (the
  handshakes' rounds, the two pipelines' staging cells' rounds, the transfers' counters).
-/
import proofs.«203298_g75634374082695_cont_9to1_m_1088_20_alg».proof.Proof.TileIfaceBits
import Idealize.ShloMosaic.Lib.StableHlo.Run
import Idealize.ShloMosaic.Lib.Pipeline.Regions
import Idealize.ShloMosaic.Lib.Tactic

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

section

variable (V0 : (d : Dev nD) → Buf (Elt F) (v0Loc d)) (V1 : (d : Dev nD) → Buf (Elt F) (v1Loc d))

/-! ## What the handshakes carry -/

/-- A core's share of the call's operands is its sixteen workers' shares, and likewise on the way back. -/
def coreSt (d : Dev nD) (c : Fin 2) : sProp 𝕄 := bigSep Finset.univ fun s : Fin 16 => tileGo V0 V1 d c s
def coreDn (d : Dev nD) (c : Fin 2) : sProp 𝕄 := bigSep Finset.univ fun s : Fin 16 => tileTd V0 V1 d c s

instance tileGo_storable (d : Dev nD) (c : Fin 2) (s : Fin 16) : BI.Storable (upEmb : UEmb _ 𝕄) (tileGo V0 V1 d c s) := by
  unfold tileGo; split <;> infer_instance
instance tileTd_storable (d : Dev nD) (c : Fin 2) (s : Fin 16) : BI.Storable (upEmb : UEmb _ 𝕄) (tileTd V0 V1 d c s) := by
  unfold tileTd; split <;> infer_instance
instance coreSt_storable (d : Dev nD) (c : Fin 2) : BI.Storable (upEmb : UEmb _ 𝕄) (coreSt V0 V1 d c) := by
  unfold coreSt; infer_instance
instance coreDn_storable (d : Dev nD) (c : Fin 2) : BI.Storable (upEmb : UEmb _ 𝕄) (coreDn V0 V1 d c) := by
  unfold coreDn; infer_instance

/-- The one call's payloads. No thread owes anything for a protocol of the kernel's own: it only makes local copies. -/
def P : (K (F := F)).Pay (nD := nD) (Val := Elt F) (Name := ℕ) (U := UU) where
  st := fun q d c => match q with | 0 => coreSt V0 V1 d (Fin.cast nCore_zero c)
  dn := fun q d c => match q with | 0 => coreDn V0 V1 d (Fin.cast nCore_zero c)
  go := fun q d c i => match q with | 0 => tileGo V0 V1 d (Fin.cast nCore_zero c) (Fin.cast nSub_zero i)
  td := fun q d c i => match q with | 0 => tileTd V0 V1 d (Fin.cast nCore_zero c) (Fin.cast nSub_zero i)
  x := fun _ _ => iprop(emp)

instance P_storable : (P (F := F) V0 V1).IsStorable where
  st q d c := match q with | 0 => (inferInstance : BI.Storable (upEmb : UEmb _ 𝕄) (coreSt V0 V1 d (Fin.cast nCore_zero c)))
  dn q d c := match q with | 0 => (inferInstance : BI.Storable (upEmb : UEmb _ 𝕄) (coreDn V0 V1 d (Fin.cast nCore_zero c)))
  go q d c i := match q with
    | 0 => (inferInstance : BI.Storable (upEmb : UEmb _ 𝕄) (tileGo V0 V1 d (Fin.cast nCore_zero c) (Fin.cast nSub_zero i)))
  td q d c i := match q with
    | 0 => (inferInstance : BI.Storable (upEmb : UEmb _ 𝕄) (tileTd V0 V1 d (Fin.cast nCore_zero c) (Fin.cast nSub_zero i)))

variable [FloatOps F]

/-! ## The workers' obligation from one worker's task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => gatherAt (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hcore : TileCore (F := F) V0 V1)
    (hidx : ∀ (d : Dev nD) (b : Fin 16384), ((V0 d : IVec S16384 32) (ix1 b)).toNat < 100000) :
    (K (F := F)).TileObl (D (F := F)) 𝒱 (P V0 V1) v₀ 0 := by
  intro d c i O W hO _ _
  simp only [show (P V0 V1).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, _root_.and_self, ↓reduceDIte]
  exact (hcore d (coordsV ⟨_, hc.1⟩ ⟨_, hc.2⟩) O W hO (hidx d)).trans (wp_mono frame _ _ fun _ => obl_post)

/-! ## A core's share is its workers' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P V0 V1) 0 := by
  intro d c
  show coreSt V0 V1 d (Fin.cast nCore_zero c) ⊢ |={Set.univ}=> iprop(
      (bigSep Finset.univ fun i : Fin ((K (F := F)).nSub 0) => tileGo V0 V1 d (Fin.cast nCore_zero c) (Fin.cast nSub_zero i))
      ∗ ((bigSep Finset.univ fun i : Fin ((K (F := F)).nSub 0) => tileTd V0 V1 d (Fin.cast nCore_zero c) (Fin.cast nSub_zero i))
          -∗ coreDn V0 V1 d (Fin.cast nCore_zero c)))
  rw [bigSep_tasks (F := F) (fun s => tileGo V0 V1 d (Fin.cast nCore_zero c) s),
    bigSep_tasks (F := F) (fun s => tileTd V0 V1 d (Fin.cast nCore_zero c) s)]
  unfold coreSt coreDn
  iintro H; imodintro
  isplitl [H]; · iexact H
  iintro H; iexact H

end

end Cert.Kernel.Launch

end
-- ==== Proof.CallSplitBits.lean ====
/-
  Around the gather call: the three arrays it touches, held whole by the TensorCore, become the thirty-two workers'
  shares, and the workers' results become the arrays again.

  Rows are dealt by the rule "worker `w` owns row `w`, and row `32 + w` when that is below 50": the fifty rows are the
  thirty-two first rows and the eighteen second rows. Workers are numbered `2 s + c` over two cores of sixteen
  subcores, a bijection with the numbers below thirty-two. The index vector is not cut: each worker receives one of
  thirty-two read shares of it and a remainder stays behind; joined again they are the whole.
-/
import proofs.«203298_g75634374082695_cont_9to1_m_1088_20_alg».proof.Proof.LaunchBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

/-! ## Regrouping: rows by worker, workers by core -/

section Regroup

variable {M : Type} [URA M]

/-- A worker's first row, and the second row of one of the first eighteen workers. -/
def lo (w : Fin 32) : Fin 50 := ⟨w.val, by omega⟩
def hi (v : Fin 18) : Fin 50 := ⟨32 + v.val, by omega⟩

theorem filter_lo : (Finset.univ.filter fun f : Fin 50 => f.val < 32) = Finset.univ.image lo :=
  Finset.ext fun f => by
    simp only [Finset.mem_filter, Finset.mem_univ, true_and, Finset.mem_image]
    exact ⟨fun h => ⟨⟨f.val, h⟩, Fin.ext rfl⟩, fun ⟨w, e⟩ => e ▸ w.isLt⟩
theorem filter_hi : (Finset.univ.filter fun f : Fin 50 => ¬ f.val < 32) = Finset.univ.image hi :=
  Finset.ext fun f => by
    simp only [Finset.mem_filter, Finset.mem_univ, true_and, Finset.mem_image]
    refine ⟨fun h => ⟨⟨f.val - 32, by have := f.isLt; omega⟩, Fin.ext (by show 32 + (f.val - 32) = f.val; omega)⟩, fun ⟨v, e⟩ => ?_⟩
    rw [← e]; show ¬ (32 + v.val < 32); omega
theorem lo_inj : Set.InjOn lo ((Finset.univ : Finset (Fin 32)) : Set (Fin 32)) :=
  fun a _ b _ e => Fin.ext (by have := congrArg Fin.val e; exact this)
theorem hi_inj : Set.InjOn hi ((Finset.univ : Finset (Fin 18)) : Set (Fin 18)) :=
  fun a _ b _ e => Fin.ext (by have := congrArg Fin.val e; change 32 + a.val = 32 + b.val at this; omega)

/-- The fifty rows are the first rows and the second rows. -/
theorem rows_lo_hi (Ψ : Fin 50 → sProp M) :
    bigSep Finset.univ Ψ = iprop((bigSep Finset.univ fun w : Fin 32 => Ψ (lo w)) ∗ bigSep Finset.univ fun v : Fin 18 => Ψ (hi v)) := by
  rw [SparseCore.bigSep_filter_split' Finset.univ (fun f : Fin 50 => f.val < 32), filter_lo, filter_hi,
    SparseCore.bigSep_image_of_injOn lo_inj Ψ, SparseCore.bigSep_image_of_injOn hi_inj Ψ]

def up (v : Fin 18) : Fin 32 := ⟨v.val, by omega⟩
theorem filter_up : (Finset.univ.filter fun w : Fin 32 => w.val < 18) = Finset.univ.image up :=
  Finset.ext fun w => by
    simp only [Finset.mem_filter, Finset.mem_univ, true_and, Finset.mem_image]
    exact ⟨fun h => ⟨⟨w.val, h⟩, Fin.ext rfl⟩, fun ⟨v, e⟩ => e ▸ v.isLt⟩
theorem up_inj : Set.InjOn up ((Finset.univ : Finset (Fin 18)) : Set (Fin 18)) :=
  fun a _ b _ e => Fin.ext (by have := congrArg Fin.val e; exact this)

/-- "The second row of worker `w`, if it has one", over all workers, is the eighteen second rows. -/
theorem second_rows (Ψ : Fin 50 → sProp M) :
    (bigSep Finset.univ fun w : Fin 32 => if h : 32 + w.val < 50 then Ψ ⟨32 + w.val, h⟩ else (iprop(emp) : sProp M))
      = bigSep Finset.univ fun v : Fin 18 => Ψ (hi v) := by
  rw [SparseCore.bigSep_filter_split' Finset.univ (fun w : Fin 32 => w.val < 18)]
  have h1 : bigSep (Finset.univ.filter fun w : Fin 32 => w.val < 18)
        (fun w : Fin 32 => if h : 32 + w.val < 50 then Ψ ⟨32 + w.val, h⟩ else (iprop(emp) : sProp M))
      = bigSep Finset.univ fun v : Fin 18 => Ψ (hi v) := by
    rw [filter_up, SparseCore.bigSep_image_of_injOn up_inj]
    exact bigSep_congr fun v _ => by
      have hv : 32 + (up v).val < 50 := by show 32 + v.val < 50; have := v.isLt; omega
      rw [dif_pos hv]; rfl
  have h2 : bigSep (Finset.univ.filter fun w : Fin 32 => ¬ w.val < 18)
        (fun w : Fin 32 => if h : 32 + w.val < 50 then Ψ ⟨32 + w.val, h⟩ else (iprop(emp) : sProp M))
      = (iprop(emp) : sProp M) := by
    rw [bigSep_congr (fun w hw => dif_neg (by have := (Finset.mem_filter.mp hw).2; omega))]
    exact bigSep_emp_const _
  rw [h1, h2]
  exact BI.equiv_iff.mp ⟨sep_emp.1, sep_emp.2⟩

/-- The fifty rows, dealt to the workers. -/
theorem rows_by_worker (Ψ : Fin 50 → sProp M) :
    bigSep Finset.univ Ψ
      = bigSep Finset.univ fun w : Fin 32 =>
          iprop(Ψ (lo w) ∗ if h : 32 + w.val < 50 then Ψ ⟨32 + w.val, h⟩ else (iprop(emp) : sProp M)) := by
  rw [rows_lo_hi, ← second_rows Ψ, ← bigSep_sep']

theorem wid_inj : Set.InjOn (fun p : Fin 2 × Fin 16 => wid p.1 p.2) ((Finset.univ : Finset (Fin 2 × Fin 16)) : Set (Fin 2 × Fin 16)) := by
  rintro ⟨c, s⟩ _ ⟨c', s'⟩ _ e
  have := congrArg Fin.val e
  change 2 * s.val + c.val = 2 * s'.val + c'.val at this
  have hc := c.isLt; have hc' := c'.isLt
  exact Prod.ext (Fin.ext (show c.val = c'.val by omega)) (Fin.ext (show s.val = s'.val by omega))
theorem wid_surj : (Finset.univ.image fun p : Fin 2 × Fin 16 => wid p.1 p.2) = Finset.univ :=
  Finset.eq_univ_iff_forall.mpr fun w => Finset.mem_image.mpr
    ⟨(⟨w.val % 2, Nat.mod_lt _ (by decide)⟩, ⟨w.val / 2, by have := w.isLt; omega⟩), Finset.mem_univ _,
      Fin.ext (by show 2 * (w.val / 2) + w.val % 2 = w.val; omega)⟩

/-- The workers, core by core and subcore by subcore. -/
theorem workers_by_core (Φ : Fin 32 → sProp M) :
    (bigSep Finset.univ fun c : Fin 2 => bigSep Finset.univ fun s : Fin 16 => Φ (wid c s)) = bigSep Finset.univ Φ := by
  rw [← bigSep_univ_prod (fun p : Fin 2 × Fin 16 => Φ (wid p.1 p.2)),
    ← SparseCore.bigSep_image_of_injOn wid_inj Φ, wid_surj]

end Regroup

end Cert.Kernel.Launch

/-! ## The arrays, row by row -/

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

theorem rowSet1_eq (f : Fin 50) : rowSet1 f = (row1 f).set := by
  show ((View.whole (main_v1_scv : Ref sig .scVector)).slice (row1 f)).set = _
  rw [View.set_slice]; exact Finset.map_refl
theorem rowSet2_eq (f : Fin 50) : rowSet2 f = (row2 f).set := by
  show ((View.whole (main_v2_scv : Ref sig .scVector)).slice (row2 f)).set = _
  rw [View.set_slice]; exact Finset.map_refl
theorem rows_disjoint1 : ∀ i ∈ (Finset.univ : Finset (Fin 50)), ∀ j ∈ (Finset.univ : Finset (Fin 50)), i ≠ j → Disjoint (rowSet1 i) (rowSet1 j) :=
  fun i _ j _ h => by rw [rowSet1_eq, rowSet1_eq]; exact Rect.part_disjoint hdiv1 h
theorem rows_disjoint2 : ∀ i ∈ (Finset.univ : Finset (Fin 50)), ∀ j ∈ (Finset.univ : Finset (Fin 50)), i ≠ j → Disjoint (rowSet2 i) (rowSet2 j) :=
  fun i _ j _ h => by rw [rowSet2_eq, rowSet2_eq]; exact Rect.part_disjoint hdiv2 h
theorem rows_cover1 : (Finset.univ : Finset (Fin 50)).biUnion rowSet1 = Finset.univ :=
  (Finset.biUnion_congr rfl fun i _ => rowSet1_eq i).trans (Rect.biUnion_part hdiv1)
theorem rows_cover2 : (Finset.univ : Finset (Fin 50)).biUnion rowSet2 = Finset.univ :=
  (Finset.biUnion_congr rfl fun i _ => rowSet2_eq i).trans (Rect.biUnion_part hdiv2)

/-- The transposed table, whole, is its fifty rows; so is the output. -/
theorem v1_rows (d : Dev nD) (f : Buf (Elt F) (v1Loc d)) :
    (v1Loc d ↦{fullShare} f : sProp 𝕄) = bigSep Finset.univ fun r : Fin 50 => v1Loc d ↦[rowSet1 r]{fullShare} f := by
  rw [← pointsTo_biUnion Finset.univ (ℓ := v1Loc d) rowSet1 rows_disjoint1, rows_cover1]; try rfl
theorem v2_rows (d : Dev nD) (f : Buf (Elt F) (v2Loc d)) :
    (v2Loc d ↦{fullShare} f : sProp 𝕄) = bigSep Finset.univ fun r : Fin 50 => v2Loc d ↦[rowSet2 r]{fullShare} f := by
  rw [← pointsTo_biUnion Finset.univ (ℓ := v2Loc d) rowSet2 rows_disjoint2, rows_cover2]; try rfl

/-! ## Into the call and out of it -/

section
variable (V0 : (d : Dev nD) → Buf (Elt F) (v0Loc d)) (V1 : (d : Dev nD) → Buf (Elt F) (v1Loc d))

/-- A worker's read share of the index vector, by worker number. -/
abbrev tokW (d : Dev nD) (w : Fin 32) : sProp 𝕄 := v0Loc d ↦[Finset.univ]{shareTok fullShare 32 w} V0 d
/-- What stays with the TensorCore during the call: the rest of the index vector's share. -/
abbrev idxRest (d : Dev nD) : sProp 𝕄 := v0Loc d ↦[Finset.univ]{shareDrop fullShare 32} V0 d

/-- The two cores' shares are the thirty-two read shares and the fifty rows as received. -/
theorem cores_go (d : Dev nD) :
    (bigSep Finset.univ fun c : Fin 2 => coreSt V0 V1 d c)
      = iprop((bigSep Finset.univ fun w : Fin 32 => tokW V0 d w) ∗ bigSep Finset.univ fun r : Fin 50 => rowIn V1 d r) := by
  rw [rows_by_worker (fun r => rowIn V1 d r), ← bigSep_sep']
  exact workers_by_core (fun w : Fin 32 => iprop(tokW V0 d w
    ∗ rowIn V1 d (lo w) ∗ if h : 32 + w.val < 50 then rowIn V1 d ⟨32 + w.val, h⟩ else (iprop(emp) : sProp 𝕄)))

/-- The same for what comes back. -/
theorem cores_td (d : Dev nD) :
    (bigSep Finset.univ fun c : Fin 2 => coreDn V0 V1 d c)
      = iprop((bigSep Finset.univ fun w : Fin 32 => tokW V0 d w) ∗ bigSep Finset.univ fun r : Fin 50 => rowOut V0 V1 d r) := by
  rw [rows_by_worker (fun r => rowOut V0 V1 d r), ← bigSep_sep']
  exact workers_by_core (fun w : Fin 32 => iprop(tokW V0 d w
    ∗ rowOut V0 V1 d (lo w) ∗ if h : 32 + w.val < 50 then rowOut V0 V1 d ⟨32 + w.val, h⟩ else (iprop(emp) : sProp 𝕄)))

/-- Into the call: the index vector, the transposed table and the output, held whole, are the two cores' shares and the
    rest of the index vector's share. -/
theorem call_split (d : Dev nD) (g : Buf (Elt F) (v2Loc d)) :
    iprop((v0Loc d ↦{fullShare} V0 d) ∗ (v1Loc d ↦{fullShare} V1 d) ∗ (v2Loc d ↦{fullShare} g))
      ⊢ iprop(idxRest V0 d ∗ bigSep Finset.univ fun c : Fin 2 => coreSt V0 V1 d c) := by
  have hrows : iprop((v1Loc d ↦{fullShare} V1 d) ∗ (v2Loc d ↦{fullShare} g)) ⊢ bigSep Finset.univ fun r : Fin 50 => rowIn V1 d r := by
    rw [v1_rows, v2_rows, ← bigSep_sep']
    exact bigSep_mono fun r _ => sep_mono .rfl
      (show (v2Loc d ↦[rowSet2 r]{fullShare} g : sProp 𝕄) ⊢ iprop(∃ g' : Buf (Elt F) (v2Loc d), v2Loc d ↦[rowSet2 r]{fullShare} g') from by
        iintro H; iexists g; iexact H)
  rw [cores_go]
  iintro ⟨Hidx, Htab, Hout⟩
  ihave Ht := (Transfers.pointsTo_toks_split (ℓ := v0Loc d) (S := Finset.univ) (f := V0 d) fullShare 32) $$ Hidx
  icases Ht with ⟨Hrest, Htoks⟩
  isplitl [Hrest]; · iexact Hrest
  isplitl [Htoks]; · iexact Htoks
  iapply hrows
  isplitl [Htab] <;> iassumption

/-- Out of the call: the shares come back, the output's rows at the gathered values, and are the three arrays whole
    again, the output at the one gathered array. -/
theorem call_join (d : Dev nD) :
    iprop(idxRest V0 d ∗ bigSep Finset.univ fun c : Fin 2 => coreDn V0 V1 d c)
      ⊢ iprop((v0Loc d ↦{fullShare} V0 d) ∗ (v1Loc d ↦{fullShare} V1 d) ∗ (v2Loc d ↦{fullShare} gathered V0 V1 d)) := by
  have hrows : (bigSep Finset.univ fun r : Fin 50 => rowOut V0 V1 d r)
      ⊢ iprop((v1Loc d ↦{fullShare} V1 d) ∗ (v2Loc d ↦{fullShare} gathered V0 V1 d)) := by
    rw [v1_rows, v2_rows, ← bigSep_sep']
  rw [cores_td]
  iintro ⟨Hrest, Htoks, Hrows⟩
  isplitl [Hrest Htoks]
  · iapply (Transfers.pointsTo_toks_join (ℓ := v0Loc d) (S := Finset.univ) (f := V0 d) fullShare 32)
    isplitl [Hrest] <;> iassumption
  iapply hrows; iexact Hrows

end

end Cert.Kernel.Launch

end
-- ==== Proof.LaunchElemBits.lean ====
/-
  The launch element of the ghost state, and what it becomes: the handshakes' rounds as the launch theorem wants them,
  and for every device each pipeline's staging cells' round states with their duty tokens, which the proof of the
  TensorCore's program hands to a region when it enters it. The transfers' counters start at the unit and are not
  needed at the launch; no thread is dealt anything for a protocol of the gather's own.
-/
import proofs.«203298_g75634374082695_cont_9to1_m_1088_20_alg».proof.Proof.LaunchBits
import proofs.«203298_g75634374082695_cont_9to1_m_1088_20_alg».proof.Proof.Gen.Kernel.Launch

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type}

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm
/-- The pipelines' configurations as the regions' library sees them. -/
abbrev pinned : Fin 2 → Pipeline.Cfg sig Λ₀ := Pipeline.pin (pcfgs (F := F)) adm

/-- What the proof of the TensorCore's program starts from beside what the launch deals it: each pipeline's staging
    cells' round states and duty tokens on its device. -/
def G (d : Dev nD) : sProp 𝕄 :=
  bigSep Finset.univ fun p : Fin 2 =>
    iprop(Pipeline.cellsGhost (pinned (F := F)) (ER (F := F)) p d ∗ Pipeline.toksInit (pinned (F := F)) (ER (F := F)) p d)

/-- The launch element. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

theorem ownU_split3 (a : UH) (b : UR) (c : Counters) :
    (ownU ((a, (b, c)) : UU) : sProp 𝕄) ⊢ iprop(BI.own (EH (F := F) a) ∗ BI.own (ER (F := F) b)) := by
  have h1 : (ownU ((a, (b, c)) : UU) : sProp 𝕄)
      ⊢ iprop(BI.own (EH (F := F) a)
          ∗ BI.own ((uEmb (nD := nD) (sig := sig) (Ix := HIx 1) (Val := Elt F) (Name := ℕ) (U := UU) (Lvl := ℕ)).toEmb (((1 : UH), ((b, c) : UR × Counters)) : UU))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op ((b, c) : UR × Counters))))
  have h2 : (BI.own ((uEmb (nD := nD) (sig := sig) (Ix := HIx 1) (Val := Elt F) (Name := ℕ) (U := UU) (Lvl := ℕ)).toEmb (((1 : UH), ((b, c) : UR × Counters)) : UU)) : sProp 𝕄)
      ⊢ iprop(BI.own (ER (F := F) b)
          ∗ BI.own ((uEmb (nD := nD) (sig := sig) (Ix := HIx 1) (Val := Elt F) (Name := ℕ) (U := UU) (Lvl := ℕ)).toEmb (((1 : UH), (((1 : UR), c) : UR × Counters)) : UU))) :=
    BI.own_op_elim ((uEmb (nD := nD) (sig := sig) (Ix := HIx 1) (Val := Elt F) (Name := ℕ) (U := UU) (Lvl := ℕ)).toEmb.op_of_mem
      (Prod.mk_mem_op (URA.mem_one_op (1 : UH)) (Prod.mk_mem_op (URA.mem_op_one b) (URA.mem_one_op c))))
  exact h1.trans (sep_mono .rfl (h2.trans sep_elim_left))

theorem bigSep_emp' {I : Type} (s : Finset I) : (bigSep s fun _ => iprop(emp)) = (iprop(emp) : sProp 𝕄) := bigSep_emp_const s

section
variable (V0 : (d : Dev nD) → Buf (Elt F) (v0Loc d)) (V1 : (d : Dev nD) → Buf (Elt F) (v1Loc d))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P V0 V1).x q thr) := by
  unfold u₀
  iintro Hu
  ihave H := (ownU_split3 (F := F) _ _ _) $$ Hu
  icases H with ⟨HH, HR⟩
  imod (Pipeline.fund_ghost (nD := nD) (τ := τ) cfgs (ER (F := F)) cellOf_inj) $$ HR with ⟨Hg, Ht⟩
  imodintro
  isplitl [HH]; · iexact HH
  isplitl [Hg Ht]
  · unfold G
    rw [show (bigSep Finset.univ fun d : Dev nD => bigSep Finset.univ fun p : Fin 2 =>
          iprop(Pipeline.cellsGhost (pinned (F := F)) (ER (F := F)) p d ∗ Pipeline.toksInit (pinned (F := F)) (ER (F := F)) p d))
        = iprop((bigSep Finset.univ fun d : Dev nD => bigSep Finset.univ fun p : Fin 2 => Pipeline.cellsGhost (pinned (F := F)) (ER (F := F)) p d)
          ∗ (bigSep Finset.univ fun d : Dev nD => bigSep Finset.univ fun p : Fin 2 => (Pipeline.toksInit (pinned (F := F)) (ER (F := F)) p d : sProp 𝕄)))
      from by rw [← bigSep_sep']; exact bigSep_congr fun d _ => bigSep_sep' _ _ _]
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end

end Cert.Kernel.Launch

end
-- ==== Proof.MainBits.lean ====
/-
  The TensorCore's program, cut where its proof is cut: two host steps (flatten the category column, transpose the
  table); the gather call; and then a stretch that is an ordinary pipeline program — two host steps, the first
  pallas_call, two host steps, the second pallas_call, the two closing transposes — which is run as a list of
  segments. The buffer contents at each boundary are a fold through the program: the launch memory, the host steps'
  results, the gathered array written by the call, each region's outputs.
-/
import proofs.«203298_g75634374082695_cont_9to1_m_1088_20_alg».proof.Proof.CallSplitBits
import proofs.«203298_g75634374082695_cont_9to1_m_1088_20_alg».proof.Proof.LaunchElemBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held held_split held_sdiff_result wp_hlo_within)

variable {F : FTy → Type}

local notation "𝕄" => MT nD τ sig (HIx 1) (Elt F) ℕ UU ℕ

variable [FloatOps F]

/-! ## The host steps, stretch by stretch -/

/-- Before the gather call: the category column flattened, the table transposed. -/
abbrev opsA : List (HloOp τ sig (Elt F)) :=
  [StableHlo.reshape main_arg0 main_v0 rfl shapeCasts_S16384x1_S16384,
   StableHlo.unary main_arg2 main_v1 ((transpose S50x100000 [1, 0] · transposes_S100000x50_S50x100000_1_0) : (⟨S100000x50, .f32⟩ : BufTy).Contents (Elt F) → (⟨S50x100000, .f32⟩ : BufTy).Contents (Elt F))]
/-- Before the first pallas_call: the weights transposed, the bias as a column. -/
abbrev opsB : List (HloOp τ sig (Elt F)) :=
  [StableHlo.unary main_arg3 main_v3 ((transpose S64x178 [1, 0] · transposes_S178x64_S64x178_1_0) : (⟨S178x64, .f32⟩ : BufTy).Contents (Elt F) → (⟨S64x178, .f32⟩ : BufTy).Contents (Elt F)),
   StableHlo.reshape main_arg4 main_v4 rfl shapeCasts_S64_S64x1]
/-- Before the second: the output weights transposed, the output bias as a 1×1 array. -/
abbrev opsC : List (HloOp τ sig (Elt F)) :=
  [StableHlo.unary main_arg5 main_v6 ((transpose S1x64 [1, 0] · transposes_S64x1_S1x64_1_0) : (⟨S64x1, .f32⟩ : BufTy).Contents (Elt F) → (⟨S1x64, .f32⟩ : BufTy).Contents (Elt F)),
   StableHlo.reshape main_arg6 main_v7 rfl shapeCasts_S1_S1x1]
/-- At the end: the two results transposed back. -/
abbrev opsD : List (HloOp τ sig (Elt F)) :=
  [StableHlo.unary main_v8_0 main_v9 ((transpose S16384x64 [1, 0] · transposes_S64x16384_S16384x64_1_0) : (⟨S64x16384, .f32⟩ : BufTy).Contents (Elt F) → (⟨S16384x64, .f32⟩ : BufTy).Contents (Elt F)),
   StableHlo.unary main_v8_1 main_v10 ((transpose S16384x1 [1, 0] · transposes_S1x16384_S16384x1_1_0) : (⟨S1x16384, .f32⟩ : BufTy).Contents (Elt F) → (⟨S16384x1, .f32⟩ : BufTy).Contents (Elt F))]

/-! ## The regions as segments, abstractly: what the proof of the program needs of them -/

section Tail

variable (pdats : (p : Fin 2) → (c : Dev nD) → Pipeline.Dat τ (Elt F) (HIx 1) ℕ UU ℕ (pinned (F := F) p) c)
  (R0 : Pipeline.RegionSeg (pcfgs (F := F)) adm pdats (none : HIx 1) defs₀ 𝒱₀ (K (F := F)).L (K (F := F)).lev 0)
  (R1 : Pipeline.RegionSeg (pcfgs (F := F)) adm pdats (none : HIx 1) defs₀ 𝒱₀ (K (F := F)).L (K (F := F)).lev 1)
  (HB HC HD : Pipeline.HostSeg (Name := ℕ) (U := UU) (pcfgs (F := F)) defs₀ 𝒱₀ (K (F := F)).L (K (F := F)).lev)

/-- The stretch after the gather call, as segments. -/
abbrev tailSegs : List (Pipeline.Seg (pcfgs (F := F)) adm pdats (none : HIx 1) defs₀ 𝒱₀ (K (F := F)).L (K (F := F)).lev) :=
  [.host HB, .region R0, .host HC, .region R1, .host HD]

/-- The program is: the first two host steps, the gather call, the stretch of segments lifted. -/
theorem main_eq (d : Dev nD) (hB : HB.prog = StableHlo.seq (opsB (F := F))) (hC : HC.prog = StableHlo.seq (opsC (F := F)))
    (hD : HD.prog = StableHlo.seq (opsD (F := F))) :
    main (F := F) d
      = (StableHlo.seq (opsA (F := F)) >>= fun _ => (K (F := F)).run d 0 >>= fun _ =>
          SparseCore.liftProg (Pipeline.Seg.run (tailSegs pdats R0 R1 HB HC HD))) := by
  simp only [main, tailSegs, Pipeline.Seg.run, hB, hC, hD, StableHlo.seq, SparseCore.liftProg, inlProg_op, inlProg_ret,
    inlProg_bind, Prog.lift, Prog.bind_op, Prog.bind_ret, Prog.bind_assoc, Prog.pure_eq_ret, bind_assoc, pure_bind]
  rfl

end Tail

end Cert.Kernel.Launch

end
-- ==== Proof.MainRunBits.lean ====
/-
  The TensorCore's program, proved up to the stretch of segments: the two opening host steps run over the unscoped
  buffers held whole; at the gather call the index vector, the transposed table and the output leave for the workers
  and come back, the output holding the gathered values; what follows is an ordinary pipeline program, entered with
  the buffers at those contents.
-/
import proofs.«203298_g75634374082695_cont_9to1_m_1088_20_alg».proof.Proof.MainBits
import Idealize.ShloMosaic.Lib.Pipeline.Frame

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held held_sub_split held_congr)

variable {F : FTy → Type}

local notation "𝕄" => MT nD τ sig (HIx 1) (Elt F) ℕ UU ℕ

variable [FloatOps F]

section
variable (m : (ℓ : Loc nD τ sig) → Buf (Elt F) ℓ) (ρ : Dev nD → PrngReg)

/-! ## The buffer contents up to the call -/

/-- The TensorCore's unscoped buffers. -/
abbrev uc : Finset (DevRef τ sig) := Pipeline.ucRefs τ sig
abbrev r0 : DevRef τ sig := Proc.devRef .tc (main_v0 : Ref sig .tc)
abbrev r1 : DevRef τ sig := Proc.devRef .tc (main_v1 : Ref sig .tc)
abbrev r2 : DevRef τ sig := Proc.devRef .tc (main_v2 : Ref sig .tc)
/-- The three arrays the gather call touches. -/
abbrev S3 : Finset (DevRef τ sig) := {r0, r1, r2}

/-- At launch; after the two opening host steps. -/
abbrev W0 (d : Dev nD) : Valuation τ sig (Elt F) := fun b => m (d, b)
abbrev W1 (d : Dev nD) : Valuation τ sig (Elt F) := StableHlo.after (opsA (F := F)) (W0 m d)
/-- The index vector and the transposed table as the call finds them. -/
def V0 (d : Dev nD) : Buf (Elt F) (v0Loc d) := W1 m d r0
def V1 (d : Dev nD) : Buf (Elt F) (v1Loc d) := W1 m d r1
/-- After the call: the output at the gathered values, everything else as before. -/
def W2 (d : Dev nD) : Valuation τ sig (Elt F) := Function.update (W1 m d) r2 (gathered (V0 m) (V1 m) d)

theorem W2_r0 (d : Dev nD) : W2 m d r0 = V0 m d := Function.update_of_ne (show r0 ≠ r2 by decide) _ _
theorem W2_r1 (d : Dev nD) : W2 m d r1 = V1 m d := Function.update_of_ne (show r1 ≠ r2 by decide) _ _
theorem W2_r2 (d : Dev nD) : W2 m d r2 = gathered (V0 m) (V1 m) d := Function.update_self _ _ _
theorem W2_of_ne (d : Dev nD) (b : DevRef τ sig) (h : b ≠ r2) : W2 m d b = W1 m d b := Function.update_of_ne h _ _

omit [FloatOps F] in
theorem held_S3 (d : Dev nD) (W : Valuation τ sig (Elt F)) :
    (held (SparseCore.T d) S3 W : sProp 𝕄) = iprop((v0Loc d ↦{fullShare} W r0) ∗ (v1Loc d ↦{fullShare} W r1) ∗ v2Loc d ↦{fullShare} W r2) := by
  unfold held S3
  rw [SparseCore.bigSep_insert' (by decide), SparseCore.bigSep_insert' (by decide), bigSep_singleton]

/-- An unscoped TensorCore reference is among the buffers held. -/
theorem mem_uc (b : Ref sig .tc) (h : ¬ (Proc.devRef .tc b : DevRef τ sig).isScoped) : (Proc.devRef .tc b : DevRef τ sig) ∈ uc :=
  Finset.mem_filter.mpr ⟨StableHlo.devRef_mem_tcRefs b, h⟩

theorem S3_sub : (S3 : Finset (DevRef τ sig)) ⊆ uc := by
  intro b hb
  simp only [S3, Finset.mem_insert, Finset.mem_singleton] at hb
  rcases hb with rfl | rfl | rfl
  · exact mem_uc main_v0 (by decide)
  · exact mem_uc main_v1 (by decide)
  · exact mem_uc main_v2 (by decide)

theorem opsA_sub : ∀ op ∈ (opsA (F := F)), op.bufs ⊆ uc := by
  intro op hop
  simp only [opsA, List.mem_cons, List.mem_singleton, List.not_mem_nil, or_false] at hop
  rcases hop with rfl | rfl
  · exact Pipeline.sub_ucRefs _ (StableHlo.reshape_bufs_sub ..)
  · exact Pipeline.sub_ucRefs _ (StableHlo.unary_bufs_sub ..)
theorem opsA_fresh : ∀ op ∈ (opsA (F := F)), op.fresh = ∅ := by
  intro op hop
  simp only [opsA, List.mem_cons, List.mem_singleton, List.not_mem_nil, or_false] at hop
  rcases hop with rfl | rfl <;> rfl

end

/-! ## The TensorCore's handshake state after the call, with its debt taken out -/

section
variable (m : (ℓ : Loc nD τ sig) → Buf (Elt F) ℓ) (ρ : Dev nD → PrngReg)

/-- The recorded pairs the TensorCore may hold after the one call: those at level at most eight. -/
def B8 (d : Dev nD) : Set (SemLoc sig × HIx 1) := {p | (K (F := F)).lev (SparseCore.T d, p.1) p.2 ≤ 8}

/-- The TensorCore's handshake state after the call, but what it owes. -/
def tcRest (d : Dev nD) : sProp 𝕄 :=
  iprop(atPos (EH (F := F)) ((K (F := F)).doneCell d) 1 ∅ 0 ∗ reached (EH (F := F)) ((K (F := F)).doneCell d) 1
    ∗ (bigSep Finset.univ fun c : Fin τ.nSC => reached (EH (F := F)) ((K (F := F)).startCell d c) ((K (F := F)).sRank c 1))
    ∗ bigSep (SparseCore.Cfg.callsFrom (Q := 1) 1) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_one (d : Dev nD) :
    ((K (F := F)).tcSt (EH (F := F)) d 1 : sProp 𝕄)
      = iprop((∃ W, ⌜(K (F := F)).WBelow (SparseCore.T d) W (8 * 1)⌝ ∗ owes (SparseCore.T d) ((K (F := F)).Otc d 1) W) ∗ tcRest (F := F) d) := rfl

/-- What travels with the buffers through the segments after the call, beside the TensorCore's (empty) debt: the
    generator register at some state and the rest of the handshake state. -/
def Rr (d : Dev nD) : sProp 𝕄 := iprop((∃ r, prngReg d r) ∗ tcRest (F := F) d)

/-- The TensorCore owing nothing, its recorded pairs within the bound. -/
abbrev owes0 (d : Dev nD) : sProp 𝕄 :=
  Pipeline.owesWithin (Ix := HIx 1) (Name := ℕ) (U := UU) (Lvl := ℕ) d (0 : CellTallies nD τ sig (HIx 1)) (B8 (F := F) d)

/-- The thread state between segments: the unscoped buffers at a valuation, the rider, the empty debt. -/
def Tl (W : Dev nD → Valuation τ sig (Elt F)) (d : Dev nD) : sProp 𝕄 :=
  iprop(held (SparseCore.T d) uc (W d) ∗ Rr (F := F) d ∗ owes0 (F := F) d)

/-- What the TensorCore's program leaves the claim: every unscoped buffer at the last valuation. -/
abbrev FIN (Wend : Dev nD → Valuation τ sig (Elt F)) (d : Dev nD) : sProp 𝕄 := held (SparseCore.T d) uc (Wend d)

theorem st0_eq (d : Dev nD) :
    (bigSep Finset.univ fun c : Fin ((K (F := F)).nCore 0) => (P (V0 m) (V1 m)).st 0 d c)
      = bigSep Finset.univ fun c : Fin 2 => coreSt (V0 m) (V1 m) d c :=
  bigSep_congr fun _ _ => rfl
theorem dn0_eq (d : Dev nD) :
    (bigSep Finset.univ fun c : Fin ((K (F := F)).nCore 0) => (P (V0 m) (V1 m)).dn 0 d c)
      = bigSep Finset.univ fun c : Fin 2 => coreDn (V0 m) (V1 m) d c :=
  bigSep_congr fun _ _ => rfl

/-- The program on device `d`'s TensorCore, given the run of the stretch of segments after the call. -/
theorem hmain (tail : Prog (TpuEff nD τ sig (Elt F) (ΛP (F := F)) .tc) PUnit) (Wend : Dev nD → Valuation τ sig (Elt F))
    (hmain_eq : ∀ d, main (F := F) d
      = (StableHlo.seq (opsA (F := F)) >>= fun _ => (K (F := F)).run d 0 >>= fun _ => SparseCore.liftProg tail))
    (htail : ∀ (d : Dev nD) (Q : PUnit → sProp 𝕄),
      iprop((iprop(boundary (SparseCore.T d) ∗ Tl (F := F) Wend d) -∗ Q ⟨⟩)
          ∗ boundary (SparseCore.T d) ∗ Tl (F := F) (W2 m) d ∗ levAts (K (F := F)).L (K (F := F)).lev ∗ G (F := F) d)
        ⊢ wp frame (wpE (D (F := F)) 𝒱 (SparseCore.T d) none) Set.univ tail Q)
    (κ : GSem nD τ sig → ℕ) (d : Dev nD) :
    iprop((K (F := F)).ctx EH (P (V0 m) (V1 m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN Wend d) := by
  rw [hmain_eq d]
  unfold SparseCore.Cfg.tcRes
  rw [show (unscopedBufs d (fun b => m ((SparseCore.T d).loc b)) : sProp 𝕄) = held (SparseCore.T d) uc (W0 m d)
    from Pipeline.unscopedBufs_held d (W0 m d)]
  iintro ⟨#Hctx, Hst, ⟨Hb, Hheld, -, Hprng⟩, HG⟩
  -- the two opening host steps
  iapply (StableHlo.wp_seq (defs := (K (F := F)).defs (D (F := F))) 𝒱 none Set.univ d uc _ (opsA (F := F)) opsA_sub opsA_fresh (W0 m d)) $$ [Hb Hheld]
  · isplitl [Hb] <;> iassumption
  iintro ⟨Hb, Hheld⟩
  -- the three arrays out of the buffers held, into the workers' shares
  ihave Hh := (Entails.of_eq (held_sub_split (SparseCore.T d) S3_sub (W1 m d))) $$ Hheld
  icases Hh with ⟨H3, Hrest⟩
  ihave H3' := (Entails.of_eq ((held_S3 (F := F) d (W1 m d)).trans
    (show _ = (iprop((v0Loc d ↦{fullShare} V0 m d) ∗ (v1Loc d ↦{fullShare} V1 m d) ∗ v2Loc d ↦{fullShare} W1 m d r2) : sProp 𝕄) from rfl))) $$ H3
  ihave Hsp := (call_split (V0 m) (V1 m) d (W1 m d r2)) $$ H3'
  icases Hsp with ⟨Hidx, Hcores⟩
  -- the call
  rw [wp_bind]
  iapply ((K (F := F)).wp_run (D (F := F)) 𝒱 (EH := EH) (P := P (V0 m) (V1 m)) κ d 0) $$ [Hst Hcores Hb Hrest Hidx Hprng HG]
  isplitr; · iexact Hctx
  isplitl [Hst]; · iexact Hst
  isplitl [Hcores]; · rw [st0_eq]; iexact Hcores
  iintro ⟨Hst, Hdn⟩
  ihave Hdn' := (Entails.of_eq (dn0_eq m d)) $$ Hdn
  ihave Hj := (call_join (V0 m) (V1 m) d) $$ [Hidx Hdn']
  · isplitl [Hidx] <;> iassumption
  -- the buffers held again, the output at the gathered values
  ihave Hheld2 : held (SparseCore.T d) uc (W2 m d) $$ [Hj Hrest]
  · rw [held_sub_split (SparseCore.T d) S3_sub (W2 m d), held_S3, W2_r0, W2_r1, W2_r2,
      held_congr (SparseCore.T d) (V := W2 m d) (V' := W1 m d) (fun b hb => W2_of_ne m d b (fun e => (Finset.mem_sdiff.mp hb).2 (e ▸ by decide)))]
    isplitl [Hj] <;> iassumption
  -- the TensorCore owes nothing now: its debt out of its handshake state
  ihave Hst' := (Entails.of_eq (show ((K (F := F)).tcSt (EH (F := F)) d ((0 : Fin 1).val + 1) : sProp 𝕄)
      = iprop((∃ W, ⌜(K (F := F)).WBelow (SparseCore.T d) W (8 * 1)⌝ ∗ owes (SparseCore.T d) ((K (F := F)).Otc d 1) W) ∗ tcRest (F := F) d)
    from tcSt_one (F := F) d)) $$ Hst
  icases Hst' with ⟨⟨%W, %hW, HO⟩, Htc⟩
  rw [(K (F := F)).Otc_end d (le_refl 1)]
  -- the stretch of segments
  iapply ((K (F := F)).wp_liftProg (D (F := F)) 𝒱 (SparseCore.T d) Set.univ none tail _)
  iapply (htail d _) $$ [Hb Hheld2 HO Htc Hprng HG]
  isplitr
  · iintro ⟨Hb, HT⟩
    unfold Tl Rr
    icases HT with ⟨Hh, ⟨-, Htc⟩, ⟨%W', %hW', HO⟩⟩
    isplitl [HO Htc]
    · rw [tcSt_one, (K (F := F)).Otc_end d (le_refl 1)]
      isplitl [HO]
      · iexists W'; isplitr
        · ipureintro; exact fun p hp => hW' hp
        · iexact HO
      · iexact Htc
    · iexact Hh
  isplitl [Hb]; · iexact Hb
  isplitl [Hheld2 HO Htc Hprng]
  · unfold Tl Rr
    isplitl [Hheld2]; · iexact Hheld2
    isplitl [Hprng Htc]
    · isplitl [Hprng]; · iexists _; iexact Hprng
      iexact Htc
    iexists W; isplitr
    · ipureintro; exact fun p hp => hW p hp
    · iexact HO
  isplitr; · iapply ((K (F := F)).ctx_levAts κ); iexact Hctx
  iexact HG

end

end Cert.Kernel.Launch

end
-- ==== Proof.RegionBodyBits.lean ====
/-
  The two dense stages of the kernel-side program, each as one step on whole staging blocks.

  Stage one holds a block of 8192 rows of the numeric features, the transposed weight matrix (64 × 178) and the bias
  column (64 × 1), and leaves in its output block (64 × 8192) the bias plus the product of the weight matrix's columns
  50 … 177 with the transposed feature block. Stage two holds a block of gathered table rows (50 × 8192), the matching
  block of stage one's output, the weight matrix, the output weights (1 × 64) and the output bias (1 × 1), and leaves
  two blocks: the activation a · logistic a of the completed pre-activation a (64 × 8192), and the output row
  (1 × 8192).

  Each step reads its inputs through whole rectangles (the weight matrix through the rectangle of the columns it uses),
  computes one pure value per output, and overwrites the whole output block; so what an output block holds afterwards
  is that value, whatever it held before, and the inputs are as they were.
-/
import proofs.«203298_g75634374082695_cont_9to1_m_1088_20_alg».proof.Proof.Gen.Kernel.Launch
import proofs.«203298_g75634374082695_cont_9to1_m_1088_20_alg».proof.Proof.Gen.Kernel.Skeleton
import proofs.«203298_g75634374082695_cont_9to1_m_1088_20_alg».proof.Proof.Gen.Kernel.Points
import Idealize.ShloMosaic.Lib.Pipeline.FrameBody
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

/-! ## Stage one: the partial pre-activation -/

/-- The rectangles stage one reads and writes: the whole bias column, columns 50 … 177 of the weight matrix, the
    whole feature block, the whole output block. -/
abbrev rB2 : Rect S64x1 := Rect.unit (s := S64x1) ![0, 0] S64x1.size inb_S64x1_S64x1_0_0
abbrev rW128 : Rect S64x178 := Rect.unit (s := S64x178) ![0, 50] S64x128.size inb_S64x178_S64x128_0_50
abbrev rNum : Rect S8192x128 := Rect.unit (s := S8192x128) ![0, 0] S8192x128.size inb_S8192x128_S8192x128_0_0
abbrev rAct : Rect S64x8192 := Rect.unit (s := S64x8192) ![0, 0] S64x8192.size inb_S64x8192_S64x8192_0_0

/-- What stage one leaves in its output block, from the feature block `x0`, the weight matrix `x1` and the bias
    column `x2`: its one store, of the bias plus the product. -/
def partialOut (x0 : Vec F S8192x128 .f32) (x1 : Vec F S64x178 .f32) (x2 : Vec F S64x1 .f32) : Vec F S64x8192 .f32 :=
  View.canon [⟨rAct, k1_pay1 (View.ld x2 rB2) (View.ld x1 rW128) (View.ld x0 rNum)⟩]

/-- The store covers the output block. -/
theorem partialCover (p0 : Vec F S64x8192 .f32) (y : S64x8192.Idx) :
    ∃ pc ∈ ([⟨rAct, p0⟩] : List (View.Piece (Elt F) S64x8192 .f32)), y ∈ pc.1.set :=
  View.cover_of_tiled [⟨rAct, p0⟩] S64x8192.size (by rfl) y

set_option maxHeartbeats 1000000 in
/-- Stage one on whole staging blocks: the inputs at `x0`, `x1`, `x2` and the output at anything run to the inputs
    unchanged and the output at `partialOut x0 x1 x2`. -/
theorem sound_partial (𝒱₀ : Variants) (c : Dev nD) (E : Set Name) (i : grid1.Coords)
    (arg1 : Memref sig .tc .vmem S8192x128 .f32) (harg1 : arg1.IsWhole) (arg2 : Memref sig .tc .vmem S64x178 .f32) (harg2 : arg2.IsWhole)
    (arg3 : Memref sig .tc .vmem S64x1 .f32) (harg3 : arg3.IsWhole) (arg4 : Memref sig .tc .vmem S64x8192 .f32) (harg4 : arg4.IsWhole)
    (x0 : Vec F S8192x128 .f32) (x1 : Vec F S64x178 .f32) (x2 : Vec F S64x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (partialOut x0 x1 x2)) -∗ K ⟨⟩))
      ⊢ wp frame (wpE (defs₀ (F := F)) 𝒱₀ c none) E (cc1__partial_body i arg1 harg1 arg2 harg2 arg3 harg3 arg4 harg4) K := by
  simp only [cc1__partial_body_eq_skeleton]; unfold cc1__partial_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (partialCover _)

/-! ## Stage two: the activation and the output row -/

/-- The rectangles stage two reads and writes besides the 64 × 8192 block: columns 0 … 49 of the weight matrix, the
    whole block of gathered rows, the whole output weights, the whole output bias, the whole output row. -/
abbrev rW50 : Rect S64x178 := Rect.unit (s := S64x178) ![0, 0] S64x50.size inb_S64x178_S64x50_0_0
abbrev rEmb : Rect S50x8192 := Rect.unit (s := S50x8192) ![0, 0] S50x8192.size inb_S50x8192_S50x8192_0_0
abbrev rWo : Rect S1x64 := Rect.unit (s := S1x64) ![0, 0] S1x64.size inb_S1x64_S1x64_0_0
abbrev rBo : Rect S1x1 := Rect.unit (s := S1x1) ![0, 0] S1x1.size inb_S1x1_S1x1_0_0
abbrev rRow : Rect S1x8192 := Rect.unit (s := S1x8192) ![0, 0] S1x8192.size inb_S1x8192_S1x8192_0_0

/-- What stage two leaves in its first output block, from the gathered rows `x0`, the partial pre-activation `x1` and
    the weight matrix `x2`: its one store there, of a · logistic a. -/
def finalAct (x0 : Vec F S50x8192 .f32) (x1 : Vec F S64x8192 .f32) (x2 : Vec F S64x178 .f32) : Vec F S64x8192 .f32 :=
  View.canon [⟨rAct, k2_pay1 (View.ld x1 rAct) (View.ld x2 rW50) (View.ld x0 rEmb)⟩]

/-- What it leaves in its second output block, from those, the output weights `x3` and the output bias `x4`: its one
    store there, of the output row. -/
def finalRow (x0 : Vec F S50x8192 .f32) (x1 : Vec F S64x8192 .f32) (x2 : Vec F S64x178 .f32) (x3 : Vec F S1x64 .f32) (x4 : Vec F S1x1 .f32) :
    Vec F S1x8192 .f32 :=
  View.canon [⟨rRow, k2_pay2 (View.ld x1 rAct) (View.ld x2 rW50) (View.ld x0 rEmb) (View.ld x3 rWo) (View.ld x4 rBo)⟩]

/-- The store covers the output row. -/
theorem rowCover (p0 : Vec F S1x8192 .f32) (y : S1x8192.Idx) :
    ∃ pc ∈ ([⟨rRow, p0⟩] : List (View.Piece (Elt F) S1x8192 .f32)), y ∈ pc.1.set :=
  View.cover_of_tiled [⟨rRow, p0⟩] S1x8192.size (by rfl) y

set_option maxHeartbeats 1000000 in
/-- Stage two on whole staging blocks: the inputs at `x0` … `x4` and the outputs at anything run to the inputs unchanged
    and the outputs at `finalAct` and `finalRow` of the inputs. -/
theorem sound_final (𝒱₀ : Variants) (c : Dev nD) (E : Set Name) (i : grid2.Coords)
    (arg1 : Memref sig .tc .vmem S50x8192 .f32) (harg1 : arg1.IsWhole) (arg2 : Memref sig .tc .vmem S64x8192 .f32) (harg2 : arg2.IsWhole)
    (arg3 : Memref sig .tc .vmem S64x178 .f32) (harg3 : arg3.IsWhole) (arg4 : Memref sig .tc .vmem S1x64 .f32) (harg4 : arg4.IsWhole)
    (arg5 : Memref sig .tc .vmem S1x1 .f32) (harg5 : arg5.IsWhole) (arg6 : Memref sig .tc .vmem S64x8192 .f32) (harg6 : arg6.IsWhole)
    (arg7 : Memref sig .tc .vmem S1x8192 .f32) (harg7 : arg7.IsWhole)
    (x0 : Vec F S50x8192 .f32) (x1 : Vec F S64x8192 .f32) (x2 : Vec F S64x178 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (finalAct x0 x1 x2) ∗ owns (c : Thread nD τ) arg7 fullShare (finalRow x0 x1 x2 x3 x4)) -∗ K ⟨⟩))
      ⊢ wp frame (wpE (defs₀ (F := F)) 𝒱₀ c none) E
          (cc2__final_body i arg1 harg1 arg2 harg2 arg3 harg3 arg4 harg4 arg5 harg5 arg6 harg6 arg7 harg7) K := by
  simp only [cc2__final_body_eq_skeleton]; unfold cc2__final_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (partialCover _)
  iexists _; isplitr
  swap; · iexact H6
  ipureintro
  exact View.read_writes_eq_canon _ _ _ (rowCover _)

end Cert.Kernel.Region

end
-- ==== Proof.RegionDataBits.lean ====
/-
  The two dense stages as steps of a pipelined loop over two blocks of 8192 batch columns, and what each leaves in the
  arrays of the program.

  Each stage is stated at the contents `V` its arrays hold when it is entered. At a grid point a window's staging
  block holds the block of its array that the point names — for the weight matrix, the bias column, the output weights
  and the output bias that is the whole array at both points, fetched at the first and left in place —, the stage's
  step overwrites the output block(s) with one pure value of the input blocks, and the loop writes each output block
  back to its place in the output array. Nothing else is touched: after stage one every array is as at entry except
  the partial pre-activation; after stage two except the activation and the output row. The core owes nothing to any
  other core throughout, so the loop's own waits need no evidence beyond that.
-/
import proofs.«203298_g75634374082695_cont_9to1_m_1088_20_alg».proof.Proof.RegionBodyBits
import Idealize.ShloMosaic.Lib.Pipeline.RegionsLoop
import Idealize.ShloMosaic.Lib.Pipeline.FrameSuffix

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]
variable {Ix : Type} [DecidableEq Ix] {Name : Type} [DecidableEq Name] {U : Type} [URA U] {Lvl : Type} [Preorder Lvl]

local notation "𝕄" => MT nD τ sig Ix (Elt F) Name U Lvl

-- a bound on the pairs the core's waits have recorded when a stage is entered; the stage adds only its loop's own
variable (B : Set (SemLoc sig × Ix))

section Stages

-- the contents of the TensorCore's arrays when a stage is entered
variable (V : (c : Dev nD) → (b : Ref sig .tc) → Buf (Elt F) ((c : Thread nD τ).loc b))

/-! ## Stage one -/

/-- Window `w`'s block at point `t`, read off its array as the stage finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging block holds its block at every point, fetched there or not: unfetched, the block's place
    has not moved. -/
theorem before1_0_of {c : Dev nD} (dat : Dat τ (Elt F) Ix Name U Lvl cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Ix Name U Lvl cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Ix Name U Lvl cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Stage one's proof data on core `c`: the arrays as found; after the step at point `t` each input's block as it was and
    the output's at the bias plus the product, of the input blocks there; the invariant the scoped buffers the stage
    does not stage through; nothing owed; full shares. -/
def dat1 (c : Dev nD) : Dat τ (Elt F) Ix Name U Lvl cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => partialOut (iblk1 V c 0 t) (iblk1 V c 1 t) (iblk1 V c 2 t)
  Φ _ := Pipeline.scopedRest spec1 c
  q _ := fullShare
  owed _ := 0
  recorded _ := B

local notation "D1" => dat1 (Name := Name) (U := U) (Lvl := Lvl) B V

theorem A_eq1 (c : Dev nD) (w : Fin cfg1.W) : (D1 c).A w = V c (Pipeline.arrRef spec1 w) := by
  dsimp only [dat1]

theorem after1_0 (c : Dev nD) (t : Fin cfg1.N) : (D1 c).after 0 t = iblk1 V c 0 t := by dsimp only [dat1]
theorem after1_1 (c : Dev nD) (t : Fin cfg1.N) : (D1 c).after 1 t = iblk1 V c 1 t := by dsimp only [dat1]
theorem after1_2 (c : Dev nD) (t : Fin cfg1.N) : (D1 c).after 2 t = iblk1 V c 2 t := by dsimp only [dat1]
theorem after1_3 (c : Dev nD) (t : Fin cfg1.N) :
    (D1 c).after 3 t = partialOut (iblk1 V c 0 t) (iblk1 V c 1 t) (iblk1 V c 2 t) := by dsimp only [dat1]

theorem before1_0 (c : Dev nD) (t : Fin cfg1.N) (d) : (D1 c).before 0 t d = iblk1 V c 0 t :=
  before1_0_of V (D1 c) (A_eq1 B V c 0) (after1_0 B V c) t d
theorem before1_1 (c : Dev nD) (t : Fin cfg1.N) (d) : (D1 c).before 1 t d = iblk1 V c 1 t :=
  before1_1_of V (D1 c) (A_eq1 B V c 1) (after1_1 B V c) t d
theorem before1_2 (c : Dev nD) (t : Fin cfg1.N) (d) : (D1 c).before 2 t d = iblk1 V c 2 t :=
  before1_2_of V (D1 c) (A_eq1 B V c 2) (after1_2 B V c) t d

/-- What stage one's step is called with at point `t`, the windows one by one, -/
def bodyPre1 (ι : Ix) (c : Dev nD) (t : Fin cfg1.N) : sProp 𝕄 :=
  iprop((D1 c).Φ t.castSucc ∗ (D1 c).owesAt ι t.castSucc
    ∗ (∃ d, owns (c : Thread nD τ) (st1_0 t) fullShare ((D1 c).before 0 t d))
    ∗ (∃ d, owns (c : Thread nD τ) (st1_1 t) fullShare ((D1 c).before 1 t d))
    ∗ (∃ d, owns (c : Thread nD τ) (st1_2 t) fullShare ((D1 c).before 2 t d))
    ∗ (∃ d, owns (c : Thread nD τ) (st1_3 t) fullShare ((D1 c).before 3 t d)))

/-- and what it returns. -/
def bodyPost1 (ι : Ix) (c : Dev nD) (t : Fin cfg1.N) : sProp 𝕄 :=
  iprop((D1 c).Φ t.succ ∗ (D1 c).owesAt ι t.succ
    ∗ owns (c : Thread nD τ) (st1_0 t) fullShare ((D1 c).after 0 t)
    ∗ owns (c : Thread nD τ) (st1_1 t) fullShare ((D1 c).after 1 t)
    ∗ owns (c : Thread nD τ) (st1_2 t) fullShare ((D1 c).after 2 t)
    ∗ owns (c : Thread nD τ) (st1_3 t) fullShare ((D1 c).after 3 t))

/-- The step at any point: the inputs' staging blocks hold their blocks, so `sound_partial` applies; the invariant and
    what the core owes pass through unread. -/
theorem sound_body1 (𝒱₀ : Variants) (ι : Ix) (c : Dev nD) (t : Fin cfg1.N) :
    (bodyPre1 (Name := Name) (U := U) (Lvl := Lvl) B V ι c t : sProp 𝕄)
      ⊢ wp frame (wpE (defs₀ (F := F)) 𝒱₀ c none) Set.univ (bodyAt1 t) (fun _ => bodyPost1 (Name := Name) (U := U) (Lvl := Lvl) B V ι c t) := by
  unfold bodyPre1 bodyPost1 bodyAt1
  simp only [before1_0, before1_1, before1_2]
  rw [show (D1 c).Φ t.succ = (D1 c).Φ t.castSucc from rfl,
    show (D1 c).owesAt ι t.succ = (D1 c).owesAt ι t.castSucc from rfl,
    after1_0, after1_1, after1_2, after1_3]
  iintro ⟨HΦ, Ho, ⟨%d0, H0⟩, ⟨%d1, H1⟩, ⟨%d2, H2⟩, ⟨%d3, H3⟩⟩
  iapply (sound_partial 𝒱₀ c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- Stage one's body obligation, at every point. -/
theorem body_obligation1 (𝒱₀ : Variants) (ι : Ix) (c : Dev nD) :
    BodyObligation (D1 c) (defs₀ (F := F)) 𝒱₀ ι Set.univ := fun t => by
  rw [bigSep_W1, bigSep_W1]
  exact sound_body1 B V 𝒱₀ ι c t

/-! ## Stage two -/

/-- Window `w`'s block at point `t`, read off its array as the stage finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging block holds its block at every point, fetched there or not. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Stage two's proof data on core `c`: the arrays as found; after the step at point `t` each input's block as it was, the
    first output's at the activation and the second's at the output row, of the input blocks there; the invariant the
    scoped buffers the stage does not stage through; nothing owed; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => finalAct (iblk2 V c 0 t) (iblk2 V c 1 t) (iblk2 V c 2 t)
    | ⟨6, _⟩ => finalRow (iblk2 V c 0 t) (iblk2 V c 1 t) (iblk2 V c 2 t) (iblk2 V c 3 t) (iblk2 V c 4 t)
  Φ _ := Pipeline.scopedRest spec2 c
  q _ := fullShare
  owed _ := 0
  recorded _ := B

local notation "D2" => dat2 (Name := Name) (U := U) (Lvl := Lvl) B V

theorem A_eq2 (c : Dev nD) (w : Fin cfg2.W) : (D2 c).A w = V c (Pipeline.arrRef spec2 w) := by
  dsimp only [dat2]

theorem after2_0 (c : Dev nD) (t : Fin cfg2.N) : (D2 c).after 0 t = iblk2 V c 0 t := by dsimp only [dat2]
theorem after2_1 (c : Dev nD) (t : Fin cfg2.N) : (D2 c).after 1 t = iblk2 V c 1 t := by dsimp only [dat2]
theorem after2_2 (c : Dev nD) (t : Fin cfg2.N) : (D2 c).after 2 t = iblk2 V c 2 t := by dsimp only [dat2]
theorem after2_3 (c : Dev nD) (t : Fin cfg2.N) : (D2 c).after 3 t = iblk2 V c 3 t := by dsimp only [dat2]
theorem after2_4 (c : Dev nD) (t : Fin cfg2.N) : (D2 c).after 4 t = iblk2 V c 4 t := by dsimp only [dat2]
theorem after2_5 (c : Dev nD) (t : Fin cfg2.N) :
    (D2 c).after 5 t = finalAct (iblk2 V c 0 t) (iblk2 V c 1 t) (iblk2 V c 2 t) := by dsimp only [dat2]
theorem after2_6 (c : Dev nD) (t : Fin cfg2.N) :
    (D2 c).after 6 t = finalRow (iblk2 V c 0 t) (iblk2 V c 1 t) (iblk2 V c 2 t) (iblk2 V c 3 t) (iblk2 V c 4 t) := by dsimp only [dat2]

theorem before2_0 (c : Dev nD) (t : Fin cfg2.N) (d) : (D2 c).before 0 t d = iblk2 V c 0 t :=
  before2_0_of V (D2 c) (A_eq2 B V c 0) (after2_0 B V c) t d
theorem before2_1 (c : Dev nD) (t : Fin cfg2.N) (d) : (D2 c).before 1 t d = iblk2 V c 1 t :=
  before2_1_of V (D2 c) (A_eq2 B V c 1) (after2_1 B V c) t d
theorem before2_2 (c : Dev nD) (t : Fin cfg2.N) (d) : (D2 c).before 2 t d = iblk2 V c 2 t :=
  before2_2_of V (D2 c) (A_eq2 B V c 2) (after2_2 B V c) t d
theorem before2_3 (c : Dev nD) (t : Fin cfg2.N) (d) : (D2 c).before 3 t d = iblk2 V c 3 t :=
  before2_3_of V (D2 c) (A_eq2 B V c 3) (after2_3 B V c) t d
theorem before2_4 (c : Dev nD) (t : Fin cfg2.N) (d) : (D2 c).before 4 t d = iblk2 V c 4 t :=
  before2_4_of V (D2 c) (A_eq2 B V c 4) (after2_4 B V c) t d

/-- What stage two's step is called with at point `t`, the windows one by one, -/
def bodyPre2 (ι : Ix) (c : Dev nD) (t : Fin cfg2.N) : sProp 𝕄 :=
  iprop((D2 c).Φ t.castSucc ∗ (D2 c).owesAt ι t.castSucc
    ∗ (∃ d, owns (c : Thread nD τ) (st2_0 t) fullShare ((D2 c).before 0 t d))
    ∗ (∃ d, owns (c : Thread nD τ) (st2_1 t) fullShare ((D2 c).before 1 t d))
    ∗ (∃ d, owns (c : Thread nD τ) (st2_2 t) fullShare ((D2 c).before 2 t d))
    ∗ (∃ d, owns (c : Thread nD τ) (st2_3 t) fullShare ((D2 c).before 3 t d))
    ∗ (∃ d, owns (c : Thread nD τ) (st2_4 t) fullShare ((D2 c).before 4 t d))
    ∗ (∃ d, owns (c : Thread nD τ) (st2_5 t) fullShare ((D2 c).before 5 t d))
    ∗ (∃ d, owns (c : Thread nD τ) (st2_6 t) fullShare ((D2 c).before 6 t d)))

/-- and what it returns. -/
def bodyPost2 (ι : Ix) (c : Dev nD) (t : Fin cfg2.N) : sProp 𝕄 :=
  iprop((D2 c).Φ t.succ ∗ (D2 c).owesAt ι t.succ
    ∗ owns (c : Thread nD τ) (st2_0 t) fullShare ((D2 c).after 0 t)
    ∗ owns (c : Thread nD τ) (st2_1 t) fullShare ((D2 c).after 1 t)
    ∗ owns (c : Thread nD τ) (st2_2 t) fullShare ((D2 c).after 2 t)
    ∗ owns (c : Thread nD τ) (st2_3 t) fullShare ((D2 c).after 3 t)
    ∗ owns (c : Thread nD τ) (st2_4 t) fullShare ((D2 c).after 4 t)
    ∗ owns (c : Thread nD τ) (st2_5 t) fullShare ((D2 c).after 5 t)
    ∗ owns (c : Thread nD τ) (st2_6 t) fullShare ((D2 c).after 6 t))

/-- The step at any point: the inputs' staging blocks hold their blocks, so `sound_final` applies; the invariant and
    what the core owes pass through unread. -/
theorem sound_body2 (𝒱₀ : Variants) (ι : Ix) (c : Dev nD) (t : Fin cfg2.N) :
    (bodyPre2 (Name := Name) (U := U) (Lvl := Lvl) B V ι c t : sProp 𝕄)
      ⊢ wp frame (wpE (defs₀ (F := F)) 𝒱₀ c none) Set.univ (bodyAt2 t) (fun _ => bodyPost2 (Name := Name) (U := U) (Lvl := Lvl) B V ι c t) := by
  unfold bodyPre2 bodyPost2 bodyAt2
  simp only [before2_0, before2_1, before2_2, before2_3, before2_4]
  rw [show (D2 c).Φ t.succ = (D2 c).Φ t.castSucc from rfl,
    show (D2 c).owesAt ι t.succ = (D2 c).owesAt ι t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_final 𝒱₀ c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Stage two's body obligation, at every point. -/
theorem body_obligation2 (𝒱₀ : Variants) (ι : Ix) (c : Dev nD) :
    BodyObligation (D2 c) (defs₀ (F := F)) 𝒱₀ ι Set.univ := fun t => by
  rw [bigSep_W2, bigSep_W2]
  exact sound_body2 B V 𝒱₀ ι c t

end Stages

/-! ## The stages as steps of the program

Between two steps of the program the TensorCore holds every one of its arrays whole, at some valuation, beside a rider
that no stage touches and what it owes: nothing, its recorded wait pairs within a bound. A stage takes its windows'
arrays out of that, runs its loop, and puts them back: the inputs as they were, each output at what the loop's
write-backs leave. The loop's own waits are on the staging semaphores; when those pairs lie within the bound, the stage
leaves the core owing nothing within the same bound. -/

section Records

/-- No stage has a prefetched table. -/
abbrev adm : (p : Fin 2) → (pcfgs (F := F) p).Adm := fun p => (cfgs p).toPCfg_adm

-- per core, a bound on the recorded wait pairs; the arrays' valuations at the entry of stage one and of stage two
variable (Bd : Dev nD → Set (SemLoc sig × Ix))
variable (Wa Wb : Dev nD → Valuation τ sig (Elt F))

/-- The valuations read at the TensorCore's references. -/
abbrev Va : (c : Dev nD) → (b : Ref sig .tc) → Buf (Elt F) ((c : Thread nD τ).loc b) := fun c b => Wa c b
abbrev Vb : (c : Dev nD) → (b : Ref sig .tc) → Buf (Elt F) ((c : Thread nD τ).loc b) := fun c b => Wb c b

/-- Both stages' proof data, each at the contents its stage is entered with. -/
def pdats : (p : Fin 2) → (c : Dev nD) → Dat τ (Elt F) Ix Name U Lvl (Pipeline.pin (pcfgs (F := F)) adm p) c
  | ⟨0, _⟩ => fun c => dat1 (Bd c) (Va Wa) c
  | ⟨1, _⟩ => fun c => dat2 (Bd c) (Vb Wb) c

local notation "PD" => pdats (Name := Name) (U := U) (Lvl := Lvl) Bd Wa Wb
local notation "DA" => fun c => dat1 (Name := Name) (U := U) (Lvl := Lvl) (Bd c) (Va Wa) c
local notation "DB" => fun c => dat2 (Name := Name) (U := U) (Lvl := Lvl) (Bd c) (Vb Wb) c

/-- The valuation after stage one: its arrays at what the loop leaves (the inputs as entered, the partial
    pre-activation's write-backs folded), every other array as entered. -/
def Wout1 (c : Dev nD) : Valuation τ sig (Elt F) :=
  Pipeline.withArrays spec1 c (Wa c) fun w => (dat1 (Name := Name) (U := U) (Lvl := Lvl) (Bd c) (Va Wa) c).arrAt w cfg1.N
theorem Wout1_arr (c : Dev nD) (w : Fin cfg1.W) :
    Wout1 (Name := Name) (U := U) (Lvl := Lvl) Bd Wa c (Proc.devRef .tc (Pipeline.arrRef spec1 w))
      = (dat1 (Name := Name) (U := U) (Lvl := Lvl) (Bd c) (Va Wa) c).arrAt w cfg1.N := by
  unfold Wout1; exact Pipeline.withArrays_arr spec1 launch1.win.arr_inj c _ _ w
theorem Wout1_of_ne (c : Dev nD) (b : Ref sig .tc) (hb : ∀ w, Pipeline.arrRef spec1 w ≠ b) :
    Wout1 (Name := Name) (U := U) (Lvl := Lvl) Bd Wa c (Proc.devRef .tc b) = Wa c (Proc.devRef .tc b) := by
  unfold Wout1; exact Pipeline.withArrays_of_ne spec1 c _ _ b hb
/-- The same read at the TensorCore's references. -/
abbrev Vout1 : (c : Dev nD) → (b : Ref sig .tc) → Buf (Elt F) ((c : Thread nD τ).loc b) :=
  fun c b => Wout1 (Name := Name) (U := U) (Lvl := Lvl) Bd Wa c b

/-- The valuation after stage two: the activation's and the output row's write-backs folded, every other array as
    entered. -/
def Wout2 (c : Dev nD) : Valuation τ sig (Elt F) :=
  Pipeline.withArrays spec2 c (Wb c) fun w => (dat2 (Name := Name) (U := U) (Lvl := Lvl) (Bd c) (Vb Wb) c).arrAt w cfg2.N
theorem Wout2_arr (c : Dev nD) (w : Fin cfg2.W) :
    Wout2 (Name := Name) (U := U) (Lvl := Lvl) Bd Wb c (Proc.devRef .tc (Pipeline.arrRef spec2 w))
      = (dat2 (Name := Name) (U := U) (Lvl := Lvl) (Bd c) (Vb Wb) c).arrAt w cfg2.N := by
  unfold Wout2; exact Pipeline.withArrays_arr spec2 launch2.win.arr_inj c _ _ w
theorem Wout2_of_ne (c : Dev nD) (b : Ref sig .tc) (hb : ∀ w, Pipeline.arrRef spec2 w ≠ b) :
    Wout2 (Name := Name) (U := U) (Lvl := Lvl) Bd Wb c (Proc.devRef .tc b) = Wb c (Proc.devRef .tc b) := by
  unfold Wout2; exact Pipeline.withArrays_of_ne spec2 c _ _ b hb
abbrev Vout2 : (c : Dev nD) → (b : Ref sig .tc) → Buf (Elt F) ((c : Thread nD τ).loc b) :=
  fun c b => Wout2 (Name := Name) (U := U) (Lvl := Lvl) Bd Wb c b

variable (𝒱₀ : Variants) (ι : Ix) (L : GSem nD τ sig → Finset Ix) (lv : GSem nD τ sig → Ix → Lvl)

set_option backward.isDefEq.respectTransparency.types false in
/-- STAGE ONE as a step (`Rr` is what rides along untouched): entered holding every array at `Wa`, beside the rider, owing nothing with recorded pairs within
    the bound; left holding every array at `Wout1`, beside the same rider, owing nothing within the same bound. -/
def reg0 (Rr : Dev nD → sProp 𝕄) (hB : ∀ c, cfg1.waitPairs ι ⊆ Bd c) : Pipeline.RegionSeg (pcfgs (F := F)) adm PD ι defs₀ 𝒱₀ L lv 0 where
  win := launch1.win.to₀
  block_pos := launch1.block_pos
  stage_whole := launch1.stage_whole
  K := PEmpty
  osem k := k.elim
  ho := Pipeline.OwnSemFacts.none _
  hbody c := (body_obligation1 (Bd c) (Va Wa) 𝒱₀ ι c).loose
  hwaits := Pipeline.hwaits_of_owed_zero _ _ _ _ L lv 0 fun _ _ => rfl
  pre c := iprop(StableHlo.held (c : Thread nD τ) (Pipeline.ucRefs τ sig) (Wa c) ∗ Rr c ∗ Pipeline.owesWithin c 0 (Bd c))
  post c := iprop(StableHlo.held (c : Thread nD τ) (Pipeline.ucRefs τ sig) (Wout1 (Name := Name) (U := U) (Lvl := Lvl) Bd Wa c) ∗ Rr c
    ∗ Pipeline.owesWithin c 0 (Bd c))
  X c := iprop(emp)
  Y c := iprop(emp)
  Z c := iprop(Pipeline.unscopedRest spec1 c (Va Wa c) ∗ Rr c)
  hentry c := by
    rw [Pipeline.ownSems0_none]
    have hsplit := Pipeline.arrays_of_unscopedBufs (p := 0) (pcfgs (F := F)) adm PD launch1.win launch1.arr_whole c
      ((PD 0 c).share_full fun _ => rfl) (Va Wa c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := Bd c) (t := cfg1.waitPairs ι))); iexact HO
    isplitr; · iempintro
    isplitl [Hrest]; · iexact Hrest
    iexact HR
  hin c := by
    rw [show (PD 0 c).Φ 0 = Pipeline.scopedRest spec1 c from rfl]
    iintro ⟨-, -, Hr⟩; iexact Hr
  hout c := by
    rw [Pipeline.ownSems0_none, show (PD 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := Ix) (Name := Name) (U := U) (Lvl := Lvl)
      launch1.win launch1.arr_whole c PD ((PD 0 c).share_full fun _ => rfl)
      (Va Wa c) (Vout1 (Name := Name) (U := U) (Lvl := Lvl) Bd Wa c) ((PD 0 c).arrAt · cfg1.N)
      (fun w => (Wout1_arr Bd Wa c w).symm)
      (fun b hb => Wout1_of_ne Bd Wa c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    iapply (Pipeline.owesWithin_mono c 0 (Set.union_subset (Set.Subset.refl (Bd c)) (hB c))); iexact HO

set_option backward.isDefEq.respectTransparency.types false in
/-- STAGE TWO as a step: entered holding every array at `Wb`, left holding every array at `Wout2`; rider and bound as for
    stage one. -/
def reg1 (Rr : Dev nD → sProp 𝕄) (hB : ∀ c, cfg2.waitPairs ι ⊆ Bd c) : Pipeline.RegionSeg (pcfgs (F := F)) adm PD ι defs₀ 𝒱₀ L lv 1 where
  win := launch2.win.to₀
  block_pos := launch2.block_pos
  stage_whole := launch2.stage_whole
  K := PEmpty
  osem k := k.elim
  ho := Pipeline.OwnSemFacts.none _
  hbody c := (body_obligation2 (Bd c) (Vb Wb) 𝒱₀ ι c).loose
  hwaits := Pipeline.hwaits_of_owed_zero _ _ _ _ L lv 1 fun _ _ => rfl
  pre c := iprop(StableHlo.held (c : Thread nD τ) (Pipeline.ucRefs τ sig) (Wb c) ∗ Rr c ∗ Pipeline.owesWithin c 0 (Bd c))
  post c := iprop(StableHlo.held (c : Thread nD τ) (Pipeline.ucRefs τ sig) (Wout2 (Name := Name) (U := U) (Lvl := Lvl) Bd Wb c) ∗ Rr c
    ∗ Pipeline.owesWithin c 0 (Bd c))
  X c := iprop(emp)
  Y c := iprop(emp)
  Z c := iprop(Pipeline.unscopedRest spec2 c (Vb Wb c) ∗ Rr c)
  hentry c := by
    rw [Pipeline.ownSems0_none]
    have hsplit := Pipeline.arrays_of_unscopedBufs (p := 1) (pcfgs (F := F)) adm PD launch2.win launch2.arr_whole c
      ((PD 1 c).share_full fun _ => rfl) (Vb Wb c) fun _ => rfl
    rw [Pipeline.unscopedBufs_held] at hsplit
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c 0 (Set.subset_union_left (s := Bd c) (t := cfg2.waitPairs ι))); iexact HO
    isplitr; · iempintro
    isplitl [Hrest]; · iexact Hrest
    iexact HR
  hin c := by
    rw [show (PD 1 c).Φ 0 = Pipeline.scopedRest spec2 c from rfl]
    iintro ⟨-, -, Hr⟩; iexact Hr
  hout c := by
    rw [Pipeline.ownSems0_none, show (PD 1 c).Φ (Fin.last _) = Pipeline.scopedRest spec2 c from rfl]
    iintro Hr
    isplitr; · iempintro
    isplitr; · iempintro
    iexact Hr
  hexit c := by
    have hjoin := Pipeline.unscopedBufs_of_arrays (p := 1) (pcfgs (F := F)) adm (Ix := Ix) (Name := Name) (U := U) (Lvl := Lvl)
      launch2.win launch2.arr_whole c PD ((PD 1 c).share_full fun _ => rfl)
      (Vb Wb c) (Vout2 (Name := Name) (U := U) (Lvl := Lvl) Bd Wb c) ((PD 1 c).arrAt · cfg2.N)
      (fun w => (Wout2_arr Bd Wb c w).symm)
      (fun b hb => Wout2_of_ne Bd Wb c b fun w e => hb (Finset.mem_image.mpr ⟨w, Finset.mem_univ _, e⟩))
    rw [Pipeline.unscopedBufs_held] at hjoin
    iintro ⟨Ha, HO, -, Hrest, HR⟩
    imodintro
    isplitl [Ha Hrest]
    · iapply hjoin; isplitl [Ha] <;> iassumption
    isplitl [HR]; · iexact HR
    iapply (Pipeline.owesWithin_mono c 0 (Set.union_subset (Set.Subset.refl (Bd c)) (hB c))); iexact HO

end Records

end Cert.Kernel.Region

end
-- ==== Proof.TailBits.lean ====
/-
  The stretch after the gather call, run as segments: two host steps, the first pallas_call's region, two host steps,
  the second region, the two closing transposes. Between segments the TensorCore holds its unscoped buffers at the
  current contents, owes nothing, and carries the generator register and the rest of its handshake state along. A
  region's waits on its staging semaphores are recorded at the index that carries no level, so the bound on the
  recorded pairs survives both regions.
-/
import proofs.«203298_g75634374082695_cont_9to1_m_1088_20_alg».proof.Proof.MainRunBits
import proofs.«203298_g75634374082695_cont_9to1_m_1088_20_alg».proof.Proof.RegionDataBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held)

variable {F : FTy → Type}

local notation "𝕄" => MT nD τ sig (HIx 1) (Elt F) ℕ UU ℕ

variable [FloatOps F]

theorem sub_of_two {a b : HloOp τ sig (Elt F)} (ha : a.bufs ⊆ StableHlo.tcRefs τ sig) (hb : b.bufs ⊆ StableHlo.tcRefs τ sig) :
    ∀ op ∈ [a, b], op.bufs ⊆ uc := by
  intro op hop
  simp only [List.mem_cons, List.mem_singleton, List.not_mem_nil, or_false] at hop
  rcases hop with rfl | rfl
  · exact Pipeline.sub_ucRefs _ ha
  · exact Pipeline.sub_ucRefs _ hb
theorem fresh_of_two {a b : HloOp τ sig (Elt F)} (ha : a.fresh = ∅) (hb : b.fresh = ∅) : ∀ op ∈ [a, b], op.fresh = ∅ := by
  intro op hop
  simp only [List.mem_cons, List.mem_singleton, List.not_mem_nil, or_false] at hop
  rcases hop with rfl | rfl
  · exact ha
  · exact hb

theorem opsB_sub : ∀ op ∈ (opsB (F := F)), op.bufs ⊆ uc := sub_of_two (StableHlo.unary_bufs_sub ..) (StableHlo.reshape_bufs_sub ..)
theorem opsC_sub : ∀ op ∈ (opsC (F := F)), op.bufs ⊆ uc := sub_of_two (StableHlo.unary_bufs_sub ..) (StableHlo.reshape_bufs_sub ..)
theorem opsD_sub : ∀ op ∈ (opsD (F := F)), op.bufs ⊆ uc := sub_of_two (StableHlo.unary_bufs_sub ..) (StableHlo.unary_bufs_sub ..)
theorem opsB_fresh : ∀ op ∈ (opsB (F := F)), op.fresh = ∅ := fresh_of_two rfl rfl
theorem opsC_fresh : ∀ op ∈ (opsC (F := F)), op.fresh = ∅ := fresh_of_two rfl rfl
theorem opsD_fresh : ∀ op ∈ (opsD (F := F)), op.fresh = ∅ := fresh_of_two rfl rfl

/-- A region's staging semaphores, at the index that carries no level, are within the bound. -/
theorem hB1 (c : Dev nD) : cfg1.waitPairs (none : HIx 1) ⊆ B8 (F := F) c := by
  rintro p ⟨w, s, rfl⟩; exact Nat.zero_le 8
theorem hB2 (c : Dev nD) : cfg2.waitPairs (none : HIx 1) ⊆ B8 (F := F) c := by
  rintro p ⟨w, s, rfl⟩; exact Nat.zero_le 8

section
variable (m : (ℓ : Loc nD τ sig) → Buf (Elt F) ℓ)

/-! ## The buffer contents after the call, boundary by boundary -/

abbrev W3 (c : Dev nD) : Valuation τ sig (Elt F) := StableHlo.after (opsB (F := F)) (W2 m c)
abbrev W4 (c : Dev nD) : Valuation τ sig (Elt F) :=
  Region.Wout1 (Ix := HIx 1) (Name := ℕ) (U := UU) (Lvl := ℕ) (B8 (F := F)) (W3 m) c
abbrev W5 (c : Dev nD) : Valuation τ sig (Elt F) := StableHlo.after (opsC (F := F)) (W4 m c)
abbrev W6 (c : Dev nD) : Valuation τ sig (Elt F) :=
  Region.Wout2 (Ix := HIx 1) (Name := ℕ) (U := UU) (Lvl := ℕ) (B8 (F := F)) (W5 m) c
abbrev W7 (c : Dev nD) : Valuation τ sig (Elt F) := StableHlo.after (opsD (F := F)) (W6 m c)

/-- Both regions' proof data, each at its entry contents. -/
abbrev PD := Region.pdats (Ix := HIx 1) (Name := ℕ) (U := UU) (Lvl := ℕ) (B8 (F := F)) (W3 m) (W5 m)

/-- What rides beside the buffers through a host stretch. -/
abbrev Rfull (c : Dev nD) : sProp 𝕄 := iprop(Rr (F := F) c ∗ owes0 (F := F) c)

abbrev HB := Pipeline.HostSeg.ofOps (Name := ℕ) (U := UU) (pcfgs (F := F)) defs₀ 𝒱₀ (K (F := F)).L (K (F := F)).lev uc (opsB (F := F)) opsB_sub opsB_fresh (W2 m) (Rfull (F := F))
abbrev HC := Pipeline.HostSeg.ofOps (Name := ℕ) (U := UU) (pcfgs (F := F)) defs₀ 𝒱₀ (K (F := F)).L (K (F := F)).lev uc (opsC (F := F)) opsC_sub opsC_fresh (W4 m) (Rfull (F := F))
abbrev HD := Pipeline.HostSeg.ofOps (Name := ℕ) (U := UU) (pcfgs (F := F)) defs₀ 𝒱₀ (K (F := F)).L (K (F := F)).lev uc (opsD (F := F)) opsD_sub opsD_fresh (W6 m) (Rfull (F := F))
abbrev RG0 := Region.reg0 (Ix := HIx 1) (Name := ℕ) (U := UU) (Lvl := ℕ) (B8 (F := F)) (W3 m) (W5 m) 𝒱₀ (none : HIx 1) (K (F := F)).L (K (F := F)).lev (Rr (F := F)) (hB1 (F := F))
abbrev RG1 := Region.reg1 (Ix := HIx 1) (Name := ℕ) (U := UU) (Lvl := ℕ) (B8 (F := F)) (W3 m) (W5 m) 𝒱₀ (none : HIx 1) (K (F := F)).L (K (F := F)).lev (Rr (F := F)) (hB2 (F := F))

/-- The stretch after the call. -/
abbrev theTail := tailSegs (PD m) (RG0 m) (RG1 m) (HB m) (HC m) (HD m)

/-- The program is the opening host steps, the call, and this stretch lifted. -/
theorem main_is (d : Dev nD) :
    main (F := F) d = (StableHlo.seq (opsA (F := F)) >>= fun _ => (K (F := F)).run d 0 >>= fun _ =>
      SparseCore.liftProg (Pipeline.Seg.run (theTail m))) :=
  main_eq (PD m) (RG0 m) (RG1 m) (HB m) (HC m) (HD m) d rfl rfl rfl

end

section
variable (m : (ℓ : Loc nD τ sig) → Buf (Elt F) ℓ)

theorem tail_nodup : (Pipeline.Seg.pipes (theTail m)).Nodup := by
  simp only [theTail, tailSegs, Pipeline.Seg.pipes_host, Pipeline.Seg.pipes_region, Pipeline.Seg.pipes_nil]; decide

/-- The segments chain: each is entered from what the one before it left. -/
theorem tail_chains : Pipeline.Seg.Chains (Tl (F := F) (W2 m)) (theTail m) (Tl (F := F) (W7 m)) :=
  ⟨fun _ => .rfl, fun _ => .rfl, fun _ => .rfl, fun _ => .rfl, fun _ => .rfl, fun _ => .rfl⟩

/-- The stretch after the call, run: from the buffers as the call left them to the buffers after the closing transposes. -/
theorem htail [∀ e, Nonempty (Elt F e)] (d : Dev nD) (Q : PUnit → sProp 𝕄) :
    iprop((iprop(boundary (SparseCore.T d) ∗ Tl (F := F) (W7 m) d) -∗ Q ⟨⟩)
        ∗ boundary (SparseCore.T d) ∗ Tl (F := F) (W2 m) d ∗ levAts (K (F := F)).L (K (F := F)).lev ∗ G (F := F) d)
      ⊢ wp frame (wpE (D (F := F)) 𝒱 (SparseCore.T d) none) Set.univ (Pipeline.Seg.run (theTail m)) Q :=
  Pipeline.wp_segs (pcfgs (F := F)) Region.adm (PD m) (none : HIx 1) cellOf_inj (ER (F := F)) defs₀ 𝒱₀ (K (F := F)).L (K (F := F)).lev d
    (theTail m) Finset.univ (Tl (F := F) (W2 m)) (Tl (F := F) (W7 m)) (tail_nodup m) (fun p _ => Finset.mem_univ p) (tail_chains m)

end

end Cert.Kernel.Launch

end
-- ==== Proof.RunMainBits.lean ====
/-
  The kernel-side program's run: the launch theorem applied to one worker's task, the core split, the launch element,
  the TensorCore's program and the stretch of segments. Every weakly fair execution of all the device's threads
  terminates without a fault, and every final memory holds, at each unscoped buffer of the TensorCore, the contents the
  fold through the program names.
-/
import proofs.«203298_g75634374082695_cont_9to1_m_1088_20_alg».proof.Proof.TailBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)
open Idealize.ShloMosaic.StableHlo (held)

variable {F : FTy → Type}

local notation "𝕄" => MT nD τ sig (HIx 1) (Elt F) ℕ UU ℕ

variable [FloatOps F]

section
variable (m : (ℓ : Loc nD τ sig) → Buf (Elt F) ℓ) (ρ : Dev nD → PrngReg)

/-- What a final state is read for: each unscoped buffer of each TensorCore at the last valuation. -/
def fq (d : Dev nD) (s' : Phys nD τ sig (Elt F)) : Prop := ∀ b ∈ uc, s'.mem.mem (d, b) = W7 m d b

theorem hfin (d : Dev nD) (s' : Phys nD τ sig (Elt F)) : iprop(FIN (W7 m) d ∗ SI s') ⊢ (⌜fq m d s'⌝ : sProp 𝕄) := by
  have hread : (iprop(FIN (W7 m) d ∗ SI s') : sProp 𝕄) ⊢ iprop(⌜∀ b ∈ uc, s'.mem.mem ((d, b) : Loc nD τ sig) = W7 m d b⌝ ∗ SI s') :=
    pointsTo_read_all uc (fun b => ((d, b) : Loc nD τ sig)) (W7 m d) s'
  refine hread.trans ?_
  iintro ⟨%h, -⟩
  ipureintro; exact h

def QC : PUnit × MemSt nD τ sig (Elt F) → Prop := fun r => ∀ c : Dev nD, ∀ b ∈ uc, r.2.mem (c, b) = W7 m c b

/-- The run, given one worker's task and that every index names a column of the transposed table. -/
theorem run_main [∀ e, Nonempty (Elt F e)] (hcore : TileCore (F := F) (V0 m) (V1 m))
    (hidx : ∀ (d : Dev nD) (b : Fin 16384), ((V0 m d : IVec S16384 32) (ix1 b)).toNat < 100000) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (V0 m) (V1 m)) kfacts v₀
    (fun q hq => match q with | 0 => nomatch hq)
    (fun q _ => match q with | 0 => tileObl (V0 m) (V1 m) hcore hidx)
    (fun q _ => match q with | 0 => SparseCore.Cfg.VecSplit.of_plain (vecSplit (V0 m) (V1 m)))
    m ρ main (G (F := F)) (FIN (W7 m)) (u₀ (F := F)) (sep_elim_left.trans (hu₀ (V0 m) (V1 m)))
    (hmain m ρ (Pipeline.Seg.run (theTail m)) (W7 m) (main_is m) (htail m))
    (fq m) (hfin m) (QC m) (fun _ h => h)

end

end Cert.Kernel.Launch

end
-- ==== Proof.HostStepsBits.lean ====
/-
  The kernel-side program's host steps, read at an index.

  The program's eight host steps are layout operations only: a column flattened to a vector (and a vector or
  a one-element array given a unit axis), and matrices transposed. Each stretch of two steps leaves every
  buffer it does not write as it was; and what it writes is, index by index, the operand at the matching
  index: a reshape keeps the row-major position, a transpose at `(j, i)` reads the operand at `(i, j)`.
-/
import proofs.«203298_g75634374082695_cont_9to1_m_1088_20_alg».proof.Proof.MainBits
import proofs.«203298_g75634374082695_cont_9to1_m_1088_20_alg».proof.Proof.KSpec
import Idealize.ShloMosaic.Lib.StableHlo.Run
import Idealize.ShloMosaic.Lib.ValueIdx
import Idealize.ShloMosaic.Lib.ValueLayout
import Idealize.ShloMosaic.Lib.Pipeline.Value

noncomputable section

namespace Cert.Kernel.HostSteps

open Cert.Kernel Cert.Kernel.Launch Idealize.ShloMosaic Idealize.ShloMosaic.ValueIdx
  Idealize.ShloMosaic.StableHlo

/-! ## What a stretch does not write is unchanged (any float values) -/

section Unchanged
variable {F : FTy → Type} [FloatOps F] (W : Valuation τ sig (Elt F)) {b : Ref sig .tc}

theorem opsA_other (h0 : b ≠ main_v0) (h1 : b ≠ main_v1) :
    after (opsA (F := F)) W (Proc.devRef .tc b) = W (Proc.devRef .tc b) := by
  simp only [after_cons, after_nil]
  exact (unary_result_ne _ _ _ _ _ _ h1).trans (reshape_result_ne _ _ _ _ _ _ _ h0)

theorem opsB_other (h3 : b ≠ main_v3) (h4 : b ≠ main_v4) :
    after (opsB (F := F)) W (Proc.devRef .tc b) = W (Proc.devRef .tc b) := by
  simp only [after_cons, after_nil]
  exact (reshape_result_ne _ _ _ _ _ _ _ h4).trans (unary_result_ne _ _ _ _ _ _ h3)

theorem opsC_other (h6 : b ≠ main_v6) (h7 : b ≠ main_v7) :
    after (opsC (F := F)) W (Proc.devRef .tc b) = W (Proc.devRef .tc b) := by
  simp only [after_cons, after_nil]
  exact (reshape_result_ne _ _ _ _ _ _ _ h7).trans (unary_result_ne _ _ _ _ _ _ h6)

theorem opsD_other (h9 : b ≠ main_v9) (h10 : b ≠ main_v10) :
    after (opsD (F := F)) W (Proc.devRef .tc b) = W (Proc.devRef .tc b) := by
  simp only [after_cons, after_nil]
  exact (unary_result_ne _ _ _ _ _ _ h10).trans (unary_result_ne _ _ _ _ _ _ h9)

end Unchanged

/-! ## Layout operations at an index -/

section Layout
variable {α : Type}

/-- A column `[n, 1]` flattened to `[n]` reads, at `b`, the column at `(b, 0)`. -/
theorem flatten_apply {n : ℕ} (x : (⟨2, ![n, 1]⟩ : Shape).Idx → α) (h : (⟨2, ![n, 1]⟩ : Shape).ShapeCasts ⟨1, ![n]⟩)
    (b : Fin n) : shapeCast ⟨1, ![n]⟩ x h (ix1 b) = x (ix2 b (0 : Fin 1)) :=
  shapeCast_apply x h _ _ (by
    rw [Shape.rowMajor_val_two, Shape.rowMajor_val_one]
    show b.val * 1 + 0 = b.val
    omega)

/-- A vector `[n]` given a trailing unit axis reads, at `(b, o)`, the vector at `b`. -/
theorem column_apply {n : ℕ} (x : (⟨1, ![n]⟩ : Shape).Idx → α) (h : (⟨1, ![n]⟩ : Shape).ShapeCasts ⟨2, ![n, 1]⟩)
    (b : Fin n) (o : Fin 1) : shapeCast ⟨2, ![n, 1]⟩ x h (ix2 b o) = x (ix1 b) :=
  shapeCast_apply x h _ _ (by
    have ho : o.val = 0 := by omega
    rw [Shape.rowMajor_val_two, Shape.rowMajor_val_one]
    show b.val = b.val * 1 + o.val
    omega)

end Layout

/-! ## What each stretch writes -/

/-- The flattened category column (32-bit words: the same for any float values). -/
theorem opsA_v0 {F : FTy → Type} [FloatOps F] (W : Valuation τ sig (Elt F)) :
    after (opsA (F := F)) W (Proc.devRef .tc main_v0) = Cert.KSpec.idx (W (Proc.devRef .tc main_arg0)) := by
  after_results
  funext j
  obtain ⟨b, rfl⟩ : ∃ b : Fin 16384, j = ix1 b := ⟨j 0, eq_ix1 j⟩
  exact flatten_apply _ _ b

section Written
variable (W : Valuation τ sig (Elt Ideal))

theorem opsA_v1 :
    after (opsA (F := Ideal)) W (Proc.devRef .tc main_v1) = Cert.KSpec.tabT (W (Proc.devRef .tc main_arg2)) := by
  after_results
  funext j
  obtain ⟨f, r, rfl⟩ : ∃ (f : Fin 50) (r : Fin 100000), j = ix2 f r := ⟨j 0, j 1, eq_ix2 j⟩
  exact transpose_ix2_apply _ _ f r

theorem opsB_v3 :
    after (opsB (F := Ideal)) W (Proc.devRef .tc main_v3) = Cert.KSpec.w2t (W (Proc.devRef .tc main_arg3)) := by
  after_results
  funext j
  obtain ⟨h, k, rfl⟩ : ∃ (h : Fin 64) (k : Fin 178), j = ix2 h k := ⟨j 0, j 1, eq_ix2 j⟩
  exact transpose_ix2_apply _ _ h k

theorem opsB_v4 :
    after (opsB (F := Ideal)) W (Proc.devRef .tc main_v4) = Cert.KSpec.b2c (W (Proc.devRef .tc main_arg4)) := by
  after_results
  funext j
  obtain ⟨h, o, rfl⟩ : ∃ (h : Fin 64) (o : Fin 1), j = ix2 h o := ⟨j 0, j 1, eq_ix2 j⟩
  exact column_apply _ _ h o

theorem opsC_v6 :
    after (opsC (F := Ideal)) W (Proc.devRef .tc main_v6) = Cert.KSpec.woutT (W (Proc.devRef .tc main_arg5)) := by
  after_results
  funext j
  obtain ⟨o, h, rfl⟩ : ∃ (o : Fin 1) (h : Fin 64), j = ix2 o h := ⟨j 0, j 1, eq_ix2 j⟩
  exact transpose_ix2_apply _ _ o h

theorem opsC_v7 :
    after (opsC (F := Ideal)) W (Proc.devRef .tc main_v7) = Cert.KSpec.boutc (W (Proc.devRef .tc main_arg6)) := by
  after_results
  funext j
  obtain ⟨u, o, rfl⟩ : ∃ (u : Fin 1) (o : Fin 1), j = ix2 u o := ⟨j 0, j 1, eq_ix2 j⟩
  exact column_apply _ _ u o

theorem opsD_v9 :
    after (opsD (F := Ideal)) W (Proc.devRef .tc main_v9) = Cert.KSpec.resX (W (Proc.devRef .tc main_v8_0)) := by
  after_results
  funext j
  obtain ⟨b, h, rfl⟩ : ∃ (b : Fin 16384) (h : Fin 64), j = ix2 b h := ⟨j 0, j 1, eq_ix2 j⟩
  exact transpose_ix2_apply _ _ b h

theorem opsD_v10 :
    after (opsD (F := Ideal)) W (Proc.devRef .tc main_v10) = Cert.KSpec.resOut (W (Proc.devRef .tc main_v8_1)) := by
  after_results
  funext j
  obtain ⟨b, o, rfl⟩ : ∃ (b : Fin 16384) (o : Fin 1), j = ix2 b o := ⟨j 0, j 1, eq_ix2 j⟩
  exact transpose_ix2_apply _ _ b o

end Written

end Cert.Kernel.HostSteps

end
-- ==== Proof.ArgsKeptBits.lean ====
/-
  The arguments end as launched. No host step writes an argument, the gather call writes only its output array, and a
  pallas_call changes only its output windows' arrays: so the fold of buffer contents through the program, read at an
  argument, walks back to the launch memory. One argument (the numeric features) is an input window of the first
  pallas_call, which hands an input window's array back as it was entered.
-/
import proofs.«203298_g75634374082695_cont_9to1_m_1088_20_alg».proof.Proof.TailBits
import proofs.«203298_g75634374082695_cont_9to1_m_1088_20_alg».proof.Proof.HostStepsBits

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type} [FloatOps F]

section
variable (m : (ℓ : Loc nD τ sig) → Buf (Elt F) ℓ)

/-- From the end back to the first region's exit, at a buffer that the closing transposes, the second region's output
    windows and the host steps before it do not write. -/
theorem W7_eq_W4 (c : Dev nD) (b : Ref sig .tc) (h9 : b ≠ main_v9) (h10 : b ≠ main_v10)
    (hb2 : ∀ w, Pipeline.arrRef spec2 w ≠ b) (h6 : b ≠ main_v6) (h7 : b ≠ main_v7) :
    W7 m c (Proc.devRef .tc b) = W4 m c (Proc.devRef .tc b) :=
  calc W7 m c (Proc.devRef .tc b)
    _ = W6 m c (Proc.devRef .tc b) := HostSteps.opsD_other (W6 m c) h9 h10
    _ = W5 m c (Proc.devRef .tc b) := Region.Wout2_of_ne (B8 (F := F)) (W5 m) c b hb2
    _ = W4 m c (Proc.devRef .tc b) := HostSteps.opsC_other (W4 m c) h6 h7

/-- From the first region's entry back to the launch, at a buffer that the host steps before it, the gather call and
    the opening host steps do not write. -/
theorem W3_eq_m (c : Dev nD) (b : Ref sig .tc) (h3 : b ≠ main_v3) (h4 : b ≠ main_v4)
    (h2 : (Proc.devRef .tc b : DevRef τ sig) ≠ r2) (h0 : b ≠ main_v0) (h1 : b ≠ main_v1) :
    W3 m c (Proc.devRef .tc b) = m (c, Proc.devRef .tc b) :=
  calc W3 m c (Proc.devRef .tc b)
    _ = W2 m c (Proc.devRef .tc b) := HostSteps.opsB_other (W2 m c) h3 h4
    _ = W1 m c (Proc.devRef .tc b) := W2_of_ne m c _ h2
    _ = W0 m c (Proc.devRef .tc b) := HostSteps.opsA_other (W0 m c) h0 h1
    _ = m (c, Proc.devRef .tc b) := rfl

/-- A buffer no step and no region's window touches ends as launched. -/
theorem W7_untouched (c : Dev nD) (b : Ref sig .tc) (h9 : b ≠ main_v9) (h10 : b ≠ main_v10)
    (hb2 : ∀ w, Pipeline.arrRef spec2 w ≠ b) (h6 : b ≠ main_v6) (h7 : b ≠ main_v7)
    (hb1 : ∀ w, Pipeline.arrRef spec1 w ≠ b) (h3 : b ≠ main_v3) (h4 : b ≠ main_v4)
    (h2 : (Proc.devRef .tc b : DevRef τ sig) ≠ r2) (h0 : b ≠ main_v0) (h1 : b ≠ main_v1) :
    W7 m c (Proc.devRef .tc b) = m (c, Proc.devRef .tc b) :=
  (W7_eq_W4 m c b h9 h10 hb2 h6 h7).trans
    ((Region.Wout1_of_ne (B8 (F := F)) (W3 m) c b hb1).trans (W3_eq_m m c b h3 h4 h2 h0 h1))

theorem W7_arg0 (c : Dev nD) : W7 m c (Proc.devRef .tc main_arg0) = m (c, Proc.devRef .tc main_arg0) :=
  W7_untouched m c main_arg0 (by decide) (by decide) (by decide) (by decide) (by decide) (by decide) (by decide) (by decide) (by decide) (by decide) (by decide)
theorem W7_arg2 (c : Dev nD) : W7 m c (Proc.devRef .tc main_arg2) = m (c, Proc.devRef .tc main_arg2) :=
  W7_untouched m c main_arg2 (by decide) (by decide) (by decide) (by decide) (by decide) (by decide) (by decide) (by decide) (by decide) (by decide) (by decide)
theorem W7_arg3 (c : Dev nD) : W7 m c (Proc.devRef .tc main_arg3) = m (c, Proc.devRef .tc main_arg3) :=
  W7_untouched m c main_arg3 (by decide) (by decide) (by decide) (by decide) (by decide) (by decide) (by decide) (by decide) (by decide) (by decide) (by decide)
theorem W7_arg4 (c : Dev nD) : W7 m c (Proc.devRef .tc main_arg4) = m (c, Proc.devRef .tc main_arg4) :=
  W7_untouched m c main_arg4 (by decide) (by decide) (by decide) (by decide) (by decide) (by decide) (by decide) (by decide) (by decide) (by decide) (by decide)
theorem W7_arg5 (c : Dev nD) : W7 m c (Proc.devRef .tc main_arg5) = m (c, Proc.devRef .tc main_arg5) :=
  W7_untouched m c main_arg5 (by decide) (by decide) (by decide) (by decide) (by decide) (by decide) (by decide) (by decide) (by decide) (by decide) (by decide)
theorem W7_arg6 (c : Dev nD) : W7 m c (Proc.devRef .tc main_arg6) = m (c, Proc.devRef .tc main_arg6) :=
  W7_untouched m c main_arg6 (by decide) (by decide) (by decide) (by decide) (by decide) (by decide) (by decide) (by decide) (by decide) (by decide) (by decide)

/-- The numeric features: an input window of the first region, handed back as entered. -/
theorem W7_arg1 (c : Dev nD) : W7 m c (Proc.devRef .tc main_arg1) = m (c, Proc.devRef .tc main_arg1) :=
  calc W7 m c (Proc.devRef .tc main_arg1)
    _ = W4 m c (Proc.devRef .tc main_arg1) := W7_eq_W4 m c main_arg1 (by decide) (by decide) (by decide) (by decide) (by decide)
    _ = (Region.dat1 (Ix := HIx 1) (Name := ℕ) (U := UU) (Lvl := ℕ) (B8 (F := F) c) (Region.Va (W3 m)) c).arrAt 0 cfg1.N :=
        Region.Wout1_arr (Ix := HIx 1) (Name := ℕ) (U := UU) (Lvl := ℕ) (B8 (F := F)) (W3 m) c 0
    _ = W3 m c (Proc.devRef .tc main_arg1) :=
        ((Region.dat1 (Ix := HIx 1) (Name := ℕ) (U := UU) (Lvl := ℕ) (B8 (F := F) c) (Region.Va (W3 m)) c).arrAt_in 0 rfl _).trans
          (Region.A_eq1 (Ix := HIx 1) (Name := ℕ) (U := UU) (Lvl := ℕ) (B8 (F := F) c) (Region.Va (W3 m)) c 0)
    _ = m (c, Proc.devRef .tc main_arg1) := W3_eq_m m c main_arg1 (by decide) (by decide) (by decide) (by decide) (by decide)

end

end Cert.Kernel.Launch

end
-- ==== Proof.FramesBits.lean ====
/-
  The kernel-side program's run with everything the claims read: under the precondition, every weakly fair execution
  terminates without a fault, the two results hold what the fold of buffer contents through the program names, and the
  seven arguments are as launched. The precondition enters once: every category word is below the number of table
  rows, so every entry of the flattened index vector names a column of the transposed table.
-/
import proofs.«203298_g75634374082695_cont_9to1_m_1088_20_alg».proof.Proof.RunMainBits
import proofs.«203298_g75634374082695_cont_9to1_m_1088_20_alg».proof.Proof.ArgsKeptBits
import proofs.«203298_g75634374082695_cont_9to1_m_1088_20_alg».proof.Proof.PreFacts
import proofs.«203298_g75634374082695_cont_9to1_m_1088_20_alg».proof.Pre_input_domain
import proofs.«203298_g75634374082695_cont_9to1_m_1088_20_alg».proof.Proof.Gen.Pre_input_domain

noncomputable section

namespace Cert.Kernel.Launch

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

variable {F : FTy → Type} [FloatOps F]

section
variable (m : (ℓ : Loc nD τ sig) → Buf (Elt F) ℓ) (ρ : Dev nD → PrngReg)

/-- The precondition at this program's argument buffers, on every device. -/
def PreAt : Prop :=
  ∀ c : Dev nD,
    (Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))) = (fun _ => 1#1)

/-- Under the precondition every category word is below the number of table rows. -/
theorem cat_lt_of_pre (h : PreAt m) (c : Dev nD) (b : Fin 16384) :
    ((m ((c.tc : Thread nD τ).loc main_arg0) : IVec ⟨2, ![16384, 1]⟩ 32) (ix2 b (0 : Fin 1))).toNat < 100000 :=
  Cert.PreFacts.cat_lt (F := F) _ _ _ _ _ _ _ (h c) b

/-- So every entry of the index vector the gather call finds names a column of the transposed table. -/
theorem hidx_of_pre (h : PreAt m) (d : Dev nD) (b : Fin 16384) : ((V0 m d : IVec S16384 32) (ix1 b)).toNat < 100000 := by
  have hv : V0 m d = KSpec.idx (W0 m d (Proc.devRef .tc main_arg0)) := HostSteps.opsA_v0 (W0 m d)
  rw [hv]
  exact cat_lt_of_pre m h d b

/-- The run with its strongest post. -/
theorem frame_run [∀ e, Nonempty (Elt F e)] (hpre : PreAt m) (hcore : TileCore (F := F) (V0 m) (V1 m)) :
    θ_run (Cert.Kernel.defs (F := F)) (Cert.Kernel.threads (F := F)) ⟨m, fun _ => 0, ρ⟩ (fun r => ∀ c : Dev nD,
      r.2.mem ((c.tc : Thread nD τ).loc main_v9) = W7 m c (Proc.devRef .tc main_v9)
      ∧ r.2.mem ((c.tc : Thread nD τ).loc main_v10) = W7 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run (Cert.Kernel.defs (F := F)) _ _).mono (fun r h c =>
    ⟨h c _ (mem_uc main_v9 (by decide)), h c _ (mem_uc main_v10 (by decide)),
      (h c _ (mem_uc main_arg0 (by decide))).trans (W7_arg0 m c), (h c _ (mem_uc main_arg1 (by decide))).trans (W7_arg1 m c),
      (h c _ (mem_uc main_arg2 (by decide))).trans (W7_arg2 m c), (h c _ (mem_uc main_arg3 (by decide))).trans (W7_arg3 m c),
      (h c _ (mem_uc main_arg4 (by decide))).trans (W7_arg4 m c), (h c _ (mem_uc main_arg5 (by decide))).trans (W7_arg5 m c),
      (h c _ (mem_uc main_arg6 (by decide))).trans (W7_arg6 m c)⟩)
    (run_main m ρ hcore (hidx_of_pre m hpre))

end

end Cert.Kernel.Launch

end
-- ==== Proof.Spec.lean ====
/-
  The function both programs compute, stated once over the argument arrays, index by index, on the extended reals.

  For a batch row `b` the category word `cat[b, 0]` names a row of the embedding table; that row (50 numbers) is put
  in front of the row `num[b, ·]` (128 numbers), the 178 numbers are contracted with the columns of `W2`, the bias
  `b2` is added, and the result `z` goes through `z ↦ z · logistic z`; the second result contracts those 64 numbers
  with `Wout` and adds `bout`.

  Two groupings of the same sums are needed: the one above (one contraction of length 178, bias last, the data on the
  left of each product), and the one that first adds the bias to the 128 numeric terms and then adds the 50 table terms,
  with the weight on the left of each product. They agree on all extended reals, infinite values included: only
  commutativity and associativity of `+` and `·` are used, never distributivity or cancellation.
-/
import Idealize.ShloMosaic.PureOps.Ideal
import Idealize.ShloMosaic.Lib.ValueIdx

noncomputable section

open scoped BigOperators

namespace Cert.Spec

open Idealize.ShloMosaic Idealize.ShloMosaic.ValueIdx

/-- The table row a category word names: the word read as a natural number (reduced below the number of rows, so
    that the function is total; for a word in range this is the word itself, `row_val`). -/
def row (cat : IVec ⟨2, ![16384, 1]⟩ 32) (b : Fin 16384) : Fin 100000 :=
  ⟨(cat (ix2 b (0 : Fin 1))).toNat % 100000, Nat.mod_lt _ (by decide)⟩

theorem row_val (cat : IVec ⟨2, ![16384, 1]⟩ 32) (b : Fin 16384) (h : (cat (ix2 b (0 : Fin 1))).toNat < 100000) :
    (row cat b).val = (cat (ix2 b (0 : Fin 1))).toNat := Nat.mod_eq_of_lt h

section
variable (cat : IVec ⟨2, ![16384, 1]⟩ 32) (num : FVec Ideal ⟨2, ![16384, 128]⟩ .f32)
  (tab : FVec Ideal ⟨2, ![100000, 50]⟩ .f32) (W2 : FVec Ideal ⟨2, ![178, 64]⟩ .f32) (b2 : FVec Ideal ⟨1, ![64]⟩ .f32)
  (Wout : FVec Ideal ⟨2, ![64, 1]⟩ .f32) (bout : FVec Ideal ⟨1, ![1]⟩ .f32)

/-- Row `b` of the concatenation: the named table row, then the numeric features. -/
def xcat (b : Fin 16384) (j : Fin 178) : EReal :=
  if h : j.val < 50 then tab (ix2 (row cat b) (⟨j.val, h⟩ : Fin 50))
  else num (ix2 b (⟨j.val - 50, by omega⟩ : Fin 128))

/-- The pre-activation: the 178 numbers against column `h` of `W2`, plus the bias. -/
def z (b : Fin 16384) (h : Fin 64) : EReal :=
  (∑ j : Fin 178, xcat cat num tab b j * W2 (ix2 j h)) + b2 (ix1 h)

/-- The first result at `(b, h)`. -/
def xAt (b : Fin 16384) (h : Fin 64) : EReal :=
  z cat num tab W2 b2 b h * Ideal.logistic (z cat num tab W2 b2 b h)

/-- The second result at `(b, 0)`. -/
def outAt (b : Fin 16384) : EReal :=
  (∑ h : Fin 64, xAt cat num tab W2 b2 b h * Wout (ix2 h (0 : Fin 1))) + bout (ix1 (0 : Fin 1))

/-- The first result as an array. -/
def X : FVec Ideal ⟨2, ![16384, 64]⟩ .f32 := fun j => xAt cat num tab W2 b2 (j 0) (j 1)
/-- The second result as an array. -/
def Out : FVec Ideal ⟨2, ![16384, 1]⟩ .f32 := fun j => outAt cat num tab W2 b2 Wout bout (j 0)

theorem X_ix2 (b : Fin 16384) (h : Fin 64) : X cat num tab W2 b2 (ix2 b h) = xAt cat num tab W2 b2 b h := rfl
theorem Out_ix2 (b : Fin 16384) (o : Fin 1) :
    Out cat num tab W2 b2 Wout bout (ix2 b o) = outAt cat num tab W2 b2 Wout bout b := rfl

/-- The contraction of length 178 is the 50 table terms plus the 128 numeric terms. -/
theorem sum_split (b : Fin 16384) (h : Fin 64) :
    (∑ j : Fin 178, xcat cat num tab b j * W2 (ix2 j h))
      = (∑ e : Fin 50, tab (ix2 (row cat b) e) * W2 (ix2 (⟨e.val, by omega⟩ : Fin 178) h))
        + ∑ k : Fin 128, num (ix2 b k) * W2 (ix2 (⟨50 + k.val, by omega⟩ : Fin 178) h) := by
  have hs := Fin.sum_univ_add (a := 50) (b := 128)
    (fun j : Fin (50 + 128) => xcat cat num tab b j * W2 (ix2 (j : Fin 178) h))
  have hA : (∑ e : Fin 50, xcat cat num tab b (Fin.castAdd 128 e : Fin (50 + 128)) * W2 (ix2 ((Fin.castAdd 128 e : Fin (50 + 128)) : Fin 178) h))
      = ∑ e : Fin 50, tab (ix2 (row cat b) e) * W2 (ix2 (⟨e.val, by omega⟩ : Fin 178) h) := by
    refine Finset.sum_congr rfl fun e _ => ?_
    have he : (Fin.castAdd 128 e : Fin (50 + 128)).val < 50 := e.isLt
    unfold xcat
    rw [dif_pos he]
    rfl
  have hB : (∑ k : Fin 128, xcat cat num tab b (Fin.natAdd 50 k : Fin (50 + 128)) * W2 (ix2 ((Fin.natAdd 50 k : Fin (50 + 128)) : Fin 178) h))
      = ∑ k : Fin 128, num (ix2 b k) * W2 (ix2 (⟨50 + k.val, by omega⟩ : Fin 178) h) := by
    refine Finset.sum_congr rfl fun k _ => ?_
    have hk : ¬ (Fin.natAdd 50 k : Fin (50 + 128)).val < 50 := by
      show ¬ (50 + k.val < 50); omega
    unfold xcat
    rw [dif_neg hk]
    have hidx : (⟨(Fin.natAdd 50 k : Fin (50 + 128)).val - 50, by
        show 50 + k.val - 50 < 128; omega⟩ : Fin 128) = k := Fin.ext (by show 50 + k.val - 50 = k.val; omega)
    rw [hidx]
    rfl
  exact hs.trans (by rw [hA, hB])

/-- The pre-activation in the other grouping: bias and numeric terms first, then the table terms, weights on the left. -/
theorem z_regroup (b : Fin 16384) (h : Fin 64) :
    z cat num tab W2 b2 b h
      = (b2 (ix1 h) + ∑ k : Fin 128, W2 (ix2 (⟨50 + k.val, by omega⟩ : Fin 178) h) * num (ix2 b k))
        + ∑ e : Fin 50, W2 (ix2 (⟨e.val, by omega⟩ : Fin 178) h) * tab (ix2 (row cat b) e) := by
  unfold z
  rw [sum_split]
  have h1 : (∑ e : Fin 50, tab (ix2 (row cat b) e) * W2 (ix2 (⟨e.val, by omega⟩ : Fin 178) h))
      = ∑ e : Fin 50, W2 (ix2 (⟨e.val, by omega⟩ : Fin 178) h) * tab (ix2 (row cat b) e) :=
    Finset.sum_congr rfl fun _ _ => mul_comm _ _
  have h2 : (∑ k : Fin 128, num (ix2 b k) * W2 (ix2 (⟨50 + k.val, by omega⟩ : Fin 178) h))
      = ∑ k : Fin 128, W2 (ix2 (⟨50 + k.val, by omega⟩ : Fin 178) h) * num (ix2 b k) :=
    Finset.sum_congr rfl fun _ _ => mul_comm _ _
  rw [h1, h2]
  abel

/-- The second result with the weight on the left of each product. -/
theorem outAt_comm (b : Fin 16384) :
    outAt cat num tab W2 b2 Wout bout b
      = (∑ h : Fin 64, Wout (ix2 h (0 : Fin 1)) * xAt cat num tab W2 b2 b h) + bout (ix1 (0 : Fin 1)) := by
  unfold outAt
  congr 1
  exact Finset.sum_congr rfl fun _ _ => mul_comm _ _

end

end Cert.Spec

end
-- ==== Proof.Bridge.lean ====
/-
  The kernel-side stages, composed, are the specification.

  Composing the stages — flatten the category column, transpose the table and the weights, gather, add the bias and the
  numeric terms, add the table terms, apply `a ↦ a · logistic a`, contract with the output weights, transpose back —
  gives at `(b, h)` the pre-activation in the grouping "bias and numeric terms first, then the table terms, weights on
  the left", which is the specification's pre-activation regrouped; the activation and the output row then agree term
  by term, the output row up to the order of the two factors in each product.
-/
import proofs.«203298_g75634374082695_cont_9to1_m_1088_20_alg».proof.Proof.Spec
import proofs.«203298_g75634374082695_cont_9to1_m_1088_20_alg».proof.Proof.KSpec

noncomputable section

open scoped BigOperators

namespace Cert.Bridge

open Idealize.ShloMosaic Idealize.ShloMosaic.ValueIdx

section
variable (cat : IVec ⟨2, ![16384, 1]⟩ 32) (num : FVec Ideal ⟨2, ![16384, 128]⟩ .f32)
  (tab : FVec Ideal ⟨2, ![100000, 50]⟩ .f32) (W2 : FVec Ideal ⟨2, ![178, 64]⟩ .f32) (b2 : FVec Ideal ⟨1, ![64]⟩ .f32)
  (Wout : FVec Ideal ⟨2, ![64, 1]⟩ .f32) (bout : FVec Ideal ⟨1, ![1]⟩ .f32)

/-- The gathered rows of the transposed table, from the arguments. -/
abbrev eT : FVec Ideal ⟨2, ![50, 16384]⟩ .f32 := KSpec.embT (KSpec.idx cat) (KSpec.tabT tab)
/-- The partial pre-activation, from the arguments. -/
abbrev p : FVec Ideal ⟨2, ![64, 16384]⟩ .f32 := KSpec.pT num (KSpec.w2t W2) (KSpec.b2c b2)

/-- The column of the transposed table an entry of the flattened category column names is the row the category word
    names. -/
theorem col_idx (b : Fin 16384) : KSpec.col (KSpec.idx cat) b = Spec.row cat b := rfl

/-- The kernel-side pre-activation at `(h, b)` is the specification's at `(b, h)`. -/
theorem accAt_eq (b : Fin 16384) (h : Fin 64) :
    KSpec.accAt (eT cat tab) (p num W2 b2) (KSpec.w2t W2) h b = Spec.z cat num tab W2 b2 b h := by
  rw [Spec.z_regroup]
  rfl

/-- The activation. -/
theorem hTAt_eq (b : Fin 16384) (h : Fin 64) :
    KSpec.hTAt (eT cat tab) (p num W2 b2) (KSpec.w2t W2) h b = Spec.xAt cat num tab W2 b2 b h := by
  unfold KSpec.hTAt Spec.xAt
  rw [accAt_eq]

/-- The output row. -/
theorem outTAt_eq (b : Fin 16384) :
    KSpec.outTAt (eT cat tab) (p num W2 b2) (KSpec.w2t W2) (KSpec.woutT Wout) (KSpec.boutc bout) b
      = Spec.outAt cat num tab W2 b2 Wout bout b := by
  rw [Spec.outAt_comm]
  unfold KSpec.outTAt
  congr 1
  exact Finset.sum_congr rfl fun h _ => by rw [hTAt_eq]; rfl

/-- The first result: the activation transposed back is the specification's first array. -/
theorem resX_eq :
    KSpec.resX (KSpec.hT (eT cat tab) (p num W2 b2) (KSpec.w2t W2)) = Spec.X cat num tab W2 b2 := by
  funext j
  obtain ⟨b, h, rfl⟩ : ∃ (b : Fin 16384) (h : Fin 64), j = ix2 b h := ⟨j 0, j 1, eq_ix2 j⟩
  exact hTAt_eq cat num tab W2 b2 b h

/-- The second result: the output row transposed back is the specification's second array. -/
theorem resOut_eq :
    KSpec.resOut (KSpec.outT (eT cat tab) (p num W2 b2) (KSpec.w2t W2) (KSpec.woutT Wout) (KSpec.boutc bout))
      = Spec.Out cat num tab W2 b2 Wout bout := by
  funext j
  obtain ⟨b, o, rfl⟩ : ∃ (b : Fin 16384) (o : Fin 1), j = ix2 b o := ⟨j 0, j 1, eq_ix2 j⟩
  exact outTAt_eq cat num tab W2 b2 Wout bout b

end

end Cert.Bridge

end
-- ==== Proof.RegionPay.lean ====
/-
  The values the two dense stages compute, read entry by entry on the extended reals.

  Stage one's value at (h, b) is the bias column's entry h plus the sum over the 128 loaded weight columns k of
  weight (h, k) times feature (b, k): a product with the feature block's rows as the second factor's rows, so both
  factors are read along their second coordinate. Stage two's first value at (h, b) is a · logistic a for
  a = partial (h, b) + Σ_e weight (h, e) · gathered (e, b); its second value at (0, b) is Σ_h outweight (0, h) · (first
  value at (h, b)) plus the 1 × 1 bias. A product into a zero accumulator is just the sum; a column or a single entry
  broadcast along the batch axis is read at its own coordinates.
-/
import proofs.«203298_g75634374082695_cont_9to1_m_1088_20_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Region

open Idealize.ShloMosaic Idealize.ShloMosaic.ValueIdx
open Cert.KernelIdeal.Gen

/-! ## The three products at an entry -/

/-- Weights (64 × 128) against feature rows (8192 × 128), both contracted along their second coordinate. -/
theorem matmul_partial_apply (A : FVec Ideal S64x128 .f32) (X : FVec Ideal S8192x128 .f32) (h : Fin 64) (b : Fin 8192) :
    matmul dot_S64x128_S8192x128_S64x8192_1_1_0_0_n_n none A X (constant S64x8192 .f32 0x00000000#32) (ix2 h b)
      = ∑ k : Fin 128, A (ix2 h k) * X (ix2 b k) := by
  show FloatOps.matmul _ none A X (constant S64x8192 .f32 0x00000000#32) (ix2 h b) = _
  rw [Ideal.matmul_constant_zero_apply, ← Equiv.sum_comp (contrEquiv1 dot_S64x128_S8192x128_S64x8192_1_1_0_0_n_n 128 rfl rfl).symm]
  refine Finset.sum_congr rfl fun k _ => ?_
  have ck := contrEquiv1_symm_val dot_S64x128_S8192x128_S64x8192_1_1_0_0_n_n 128 rfl rfl k
  have l : (dot_S64x128_S8192x128_S64x8192_1_1_0_0_n_n).lhsIdx (ix2 h b) ((contrEquiv1 _ 128 rfl rfl).symm k) = ix2 h k := by
    funext ax; apply Fin.ext
    match ax with
    | ⟨0, _⟩ => simp [DotDims.lhsIdx, dot_S64x128_S8192x128_S64x8192_1_1_0_0_n_n] <;> rfl
    | ⟨1, _⟩ => simp [DotDims.lhsIdx, dot_S64x128_S8192x128_S64x8192_1_1_0_0_n_n] <;> exact ck
  have r : (dot_S64x128_S8192x128_S64x8192_1_1_0_0_n_n).rhsIdx (ix2 h b) ((contrEquiv1 _ 128 rfl rfl).symm k) = ix2 b k := by
    funext ax; apply Fin.ext
    match ax with
    | ⟨0, _⟩ => simp [DotDims.rhsIdx, dot_S64x128_S8192x128_S64x8192_1_1_0_0_n_n] <;> rfl
    | ⟨1, _⟩ => simp [DotDims.rhsIdx, dot_S64x128_S8192x128_S64x8192_1_1_0_0_n_n] <;> exact ck
  rw [l, r]

/-- Weights (64 × 50) against gathered rows (50 × 8192): the plain matrix product. -/
theorem matmul_final_apply (A : FVec Ideal S64x50 .f32) (X : FVec Ideal S50x8192 .f32) (h : Fin 64) (b : Fin 8192) :
    matmul dot_S64x50_S50x8192_S64x8192_1_0_0_1_n_n none A X (constant S64x8192 .f32 0x00000000#32) (ix2 h b)
      = ∑ e : Fin 50, A (ix2 h e) * X (ix2 e b) := by
  show FloatOps.matmul _ none A X (constant S64x8192 .f32 0x00000000#32) (ix2 h b) = _
  rw [Ideal.matmul_constant_zero_apply, ← Equiv.sum_comp (contrEquiv1 dot_S64x50_S50x8192_S64x8192_1_0_0_1_n_n 50 rfl rfl).symm]
  refine Finset.sum_congr rfl fun k _ => ?_
  have ck := contrEquiv1_symm_val dot_S64x50_S50x8192_S64x8192_1_0_0_1_n_n 50 rfl rfl k
  have l : (dot_S64x50_S50x8192_S64x8192_1_0_0_1_n_n).lhsIdx (ix2 h b) ((contrEquiv1 _ 50 rfl rfl).symm k) = ix2 h k := by
    funext ax; apply Fin.ext
    match ax with
    | ⟨0, _⟩ => simp [DotDims.lhsIdx, dot_S64x50_S50x8192_S64x8192_1_0_0_1_n_n] <;> rfl
    | ⟨1, _⟩ => simp [DotDims.lhsIdx, dot_S64x50_S50x8192_S64x8192_1_0_0_1_n_n] <;> exact ck
  have r : (dot_S64x50_S50x8192_S64x8192_1_0_0_1_n_n).rhsIdx (ix2 h b) ((contrEquiv1 _ 50 rfl rfl).symm k) = ix2 k b := by
    funext ax; apply Fin.ext
    match ax with
    | ⟨0, _⟩ => simp [DotDims.rhsIdx, dot_S64x50_S50x8192_S64x8192_1_0_0_1_n_n] <;> exact ck
    | ⟨1, _⟩ => simp [DotDims.rhsIdx, dot_S64x50_S50x8192_S64x8192_1_0_0_1_n_n] <;> rfl
  rw [l, r]

/-- Output weights (1 × 64) against the activation (64 × 8192): the plain matrix product. -/
theorem matmul_row_apply (A : FVec Ideal S1x64 .f32) (X : FVec Ideal S64x8192 .f32) (o : Fin 1) (b : Fin 8192) :
    matmul dot_S1x64_S64x8192_S1x8192_1_0_0_1_n_n none A X (constant S1x8192 .f32 0x00000000#32) (ix2 o b)
      = ∑ h : Fin 64, A (ix2 o h) * X (ix2 h b) := by
  show FloatOps.matmul _ none A X (constant S1x8192 .f32 0x00000000#32) (ix2 o b) = _
  rw [Ideal.matmul_constant_zero_apply, ← Equiv.sum_comp (contrEquiv1 dot_S1x64_S64x8192_S1x8192_1_0_0_1_n_n 64 rfl rfl).symm]
  refine Finset.sum_congr rfl fun k _ => ?_
  have ck := contrEquiv1_symm_val dot_S1x64_S64x8192_S1x8192_1_0_0_1_n_n 64 rfl rfl k
  have l : (dot_S1x64_S64x8192_S1x8192_1_0_0_1_n_n).lhsIdx (ix2 o b) ((contrEquiv1 _ 64 rfl rfl).symm k) = ix2 o k := by
    funext ax; apply Fin.ext
    match ax with
    | ⟨0, _⟩ => simp [DotDims.lhsIdx, dot_S1x64_S64x8192_S1x8192_1_0_0_1_n_n] <;> rfl
    | ⟨1, _⟩ => simp [DotDims.lhsIdx, dot_S1x64_S64x8192_S1x8192_1_0_0_1_n_n] <;> exact ck
  have r : (dot_S1x64_S64x8192_S1x8192_1_0_0_1_n_n).rhsIdx (ix2 o b) ((contrEquiv1 _ 64 rfl rfl).symm k) = ix2 k b := by
    funext ax; apply Fin.ext
    match ax with
    | ⟨0, _⟩ => simp [DotDims.rhsIdx, dot_S1x64_S64x8192_S1x8192_1_0_0_1_n_n] <;> exact ck
    | ⟨1, _⟩ => simp [DotDims.rhsIdx, dot_S1x64_S64x8192_S1x8192_1_0_0_1_n_n] <;> rfl
  rw [l, r]

/-! ## The two broadcasts along the batch axis -/

/-- A column (64 × 1) broadcast to 64 × 8192 reads the column's entry of the same row. -/
theorem broadcast_col_apply (x : FVec Ideal S64x1 .f32) (h : Fin 64) (b : Fin 8192) :
    broadcastTo S64x8192 x broadcasts_S64x1_S64x8192 (ix2 h b) = x (ix2 h (0 : Fin 1)) :=
  broadcastTo_apply x broadcasts_S64x1_S64x8192 (ix2 h b) (ix2 h (0 : Fin 1)) fun a => by
    match a with
    | ⟨0, _⟩ => rfl
    | ⟨1, _⟩ => rfl

/-- A single entry (1 × 1) broadcast to 1 × 8192 reads that entry. -/
theorem broadcast_one_apply (x : FVec Ideal S1x1 .f32) (o : Fin 1) (b : Fin 8192) :
    broadcastTo S1x8192 x broadcasts_S1x1_S1x8192 (ix2 o b) = x (ix2 (0 : Fin 1) (0 : Fin 1)) :=
  broadcastTo_apply x broadcasts_S1x1_S1x8192 (ix2 o b) (ix2 (0 : Fin 1) (0 : Fin 1)) fun a => by
    match a with
    | ⟨0, _⟩ => rfl
    | ⟨1, _⟩ => rfl

/-! ## The stages' values at an entry -/

/-- Stage one's value: the bias entry plus the 128 products. -/
theorem partial_pay_apply (v0 : FVec Ideal S64x1 .f32) (v2 : FVec Ideal S64x128 .f32) (v4 : FVec Ideal S8192x128 .f32)
    (h : Fin 64) (b : Fin 8192) :
    k1_pay1 (F := Ideal) v0 v2 v4 (ix2 h b) = v0 (ix2 h (0 : Fin 1)) + ∑ k : Fin 128, v2 (ix2 h k) * v4 (ix2 b k) := by
  unfold k1_pay1
  show (broadcastTo S64x8192 (shapeCast S64x1 v0 shapeCasts_S64x1_S64x1) broadcasts_S64x1_S64x8192 : FVec Ideal S64x8192 .f32) (ix2 h b)
      + (matmul dot_S64x128_S8192x128_S64x8192_1_1_0_0_n_n none (shapeCast S64x128 v2 shapeCasts_S64x128_S64x128 : FVec Ideal S64x128 .f32) v4
          (constant S64x8192 .f32 0x00000000#32) : FVec Ideal S64x8192 .f32) (ix2 h b) = _
  rw [shapeCast_self, shapeCast_self, broadcast_col_apply, matmul_partial_apply]

/-- The completed pre-activation at an entry. -/
def accOf (v0 : FVec Ideal S64x8192 .f32) (v2 : FVec Ideal S64x50 .f32) (v4 : FVec Ideal S50x8192 .f32) (h : Fin 64) (b : Fin 8192) : EReal :=
  v0 (ix2 h b) + ∑ e : Fin 50, v2 (ix2 h e) * v4 (ix2 e b)

/-- The completed pre-activation, as the stage spells it, at an entry. -/
theorem acc_apply (v0 : FVec Ideal S64x8192 .f32) (v2 : FVec Ideal S64x50 .f32) (v4 : FVec Ideal S50x8192 .f32) (h : Fin 64) (b : Fin 8192) :
    (addf (shapeCast S64x8192 v0 shapeCasts_S64x8192_S64x8192 : FVec Ideal S64x8192 .f32)
      (matmul dot_S64x50_S50x8192_S64x8192_1_0_0_1_n_n none (shapeCast S64x50 v2 shapeCasts_S64x50_S64x50 : FVec Ideal S64x50 .f32)
        (shapeCast S50x8192 v4 shapeCasts_S50x8192_S50x8192 : FVec Ideal S50x8192 .f32)
        (constant S64x8192 .f32 0x00000000#32) : FVec Ideal S64x8192 .f32) : FVec Ideal S64x8192 .f32) (ix2 h b) = accOf v0 v2 v4 h b := by
  rw [addf_apply, shapeCast_self, shapeCast_self, shapeCast_self, matmul_final_apply]
  rfl

/-- Stage two's first value: a · logistic a. -/
theorem final_act_apply (v0 : FVec Ideal S64x8192 .f32) (v2 : FVec Ideal S64x50 .f32) (v4 : FVec Ideal S50x8192 .f32)
    (h : Fin 64) (b : Fin 8192) :
    k2_pay1 (F := Ideal) v0 v2 v4 (ix2 h b) = accOf v0 v2 v4 h b * Ideal.logistic (accOf v0 v2 v4 h b) := by
  unfold k2_pay1
  refine Eq.trans (b := (addf (shapeCast S64x8192 v0 shapeCasts_S64x8192_S64x8192 : FVec Ideal S64x8192 .f32)
      (matmul dot_S64x50_S50x8192_S64x8192_1_0_0_1_n_n none (shapeCast S64x50 v2 shapeCasts_S64x50_S64x50 : FVec Ideal S64x50 .f32)
        (shapeCast S50x8192 v4 shapeCasts_S50x8192_S50x8192 : FVec Ideal S50x8192 .f32)
        (constant S64x8192 .f32 0x00000000#32) : FVec Ideal S64x8192 .f32) : FVec Ideal S64x8192 .f32) (ix2 h b)
      * Ideal.logistic ((addf (shapeCast S64x8192 v0 shapeCasts_S64x8192_S64x8192 : FVec Ideal S64x8192 .f32)
      (matmul dot_S64x50_S50x8192_S64x8192_1_0_0_1_n_n none (shapeCast S64x50 v2 shapeCasts_S64x50_S64x50 : FVec Ideal S64x50 .f32)
        (shapeCast S50x8192 v4 shapeCasts_S50x8192_S50x8192 : FVec Ideal S50x8192 .f32)
        (constant S64x8192 .f32 0x00000000#32) : FVec Ideal S64x8192 .f32) : FVec Ideal S64x8192 .f32) (ix2 h b))) rfl ?_
  rw [acc_apply]

/-- Stage two's second value: the 64 products plus the bias entry. -/
theorem final_row_apply (v0 : FVec Ideal S64x8192 .f32) (v2 : FVec Ideal S64x50 .f32) (v4 : FVec Ideal S50x8192 .f32)
    (v11 : FVec Ideal S1x64 .f32) (v14 : FVec Ideal S1x1 .f32) (o : Fin 1) (b : Fin 8192) :
    k2_pay2 (F := Ideal) v0 v2 v4 v11 v14 (ix2 o b)
      = (∑ h : Fin 64, v11 (ix2 o h) * k2_pay1 (F := Ideal) v0 v2 v4 (ix2 h b)) + v14 (ix2 (0 : Fin 1) (0 : Fin 1)) := by
  unfold k2_pay2
  show (matmul dot_S1x64_S64x8192_S1x8192_1_0_0_1_n_n none (shapeCast S1x64 v11 shapeCasts_S1x64_S1x64 : FVec Ideal S1x64 .f32) (k2_pay1 v0 v2 v4 : FVec Ideal S64x8192 .f32)
          (constant S1x8192 .f32 0x00000000#32) : FVec Ideal S1x8192 .f32) (ix2 o b)
      + (broadcastTo S1x8192 (shapeCast S1x1 v14 shapeCasts_S1x1_S1x1 : FVec Ideal S1x1 .f32) broadcasts_S1x1_S1x8192 : FVec Ideal S1x8192 .f32) (ix2 o b) = _
  rw [shapeCast_self, shapeCast_self, broadcast_one_apply, matmul_row_apply]

end Cert.KernelIdeal.Region

end
-- ==== Proof.RegionValue.lean ====
/-
  What the two dense stages leave in the arrays, as functions of the arrays they found.

  A stage's output array is written block by block: grid point t writes columns 8192·t … 8192·t + 8191. Column b of
  the output therefore comes from point b / 8192, and the value written there depends only on column b of the
  batch-indexed inputs (the feature rows, the gathered rows, the partial pre-activation) and on the whole of the small
  inputs (weights and biases), which every point sees unchanged. So each output array is one function of the input
  arrays, entry by entry: the partial pre-activation, the activation, the output row.
-/
import proofs.«203298_g75634374082695_cont_9to1_m_1088_20_alg».proof.Proof.RegionData
import proofs.«203298_g75634374082695_cont_9to1_m_1088_20_alg».proof.Proof.RegionPay
import proofs.«203298_g75634374082695_cont_9to1_m_1088_20_alg».proof.Proof.KSpec
import Idealize.ShloMosaic.Lib.Pipeline.Value

set_option maxRecDepth 16384

noncomputable section

open scoped BigOperators

namespace Cert.KernelIdeal.Region

open Idealize.ShloMosaic Idealize.ShloMosaic.TcCoe Idealize.ShloMosaic.ValueIdx
open Idealize.SL Idealize.SL.RA Idealize.SL.Sem
open Idealize.ShloMosaic.Pipeline (Dat)
open Cert.KernelIdeal.Gen

variable {Ix : Type} [DecidableEq Ix] {Name : Type} [DecidableEq Name] {U : Type} [URA U] {Lvl : Type} [Preorder Lvl]
variable (B : Set (SemLoc sig × Ix))
variable (V : (c : Dev nD) → (b : Ref sig .tc) → Buf (Elt Ideal) ((c : Thread nD τ).loc b))

theorem zero2 : (![0, 0] : Fin 2 → Nat) = fun _ => 0 := funext fun a => by fin_cases a <;> rfl

/-- Two indices of a matrix with equal coordinates are equal. -/
theorem idx2_ext {n0 n1 : Nat} (i j : (⟨2, ![n0, n1]⟩ : Shape).Idx) (h0 : (i 0).val = (j 0).val) (h1 : (i 1).val = (j 1).val) : i = j := by
  funext a; apply Fin.ext
  match a with
  | ⟨0, _⟩ => exact h0
  | ⟨1, _⟩ => exact h1

/-! ## Stage one: the partial pre-activation -/

/-- Where stage one's blocks sit: the feature block moves along the batch with the output block; the weight matrix and
    the bias column stay; the output has one block row and two block columns. -/
theorem idx_facts1 : ∀ t : Fin cfg1.N,
      win1_0.index t (0 : Fin 2) = win1_3.index t (1 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) ≤ 1 :=
  (by decide +kernel : ∀ t : Fin grid1.N, _)

/-- Every block column of the output is some point's. -/
theorem idx_onto1 : ∀ q : Fin 2, ∃ t : Fin cfg1.N, win1_3.index t = ![0, q.val] :=
  (by decide +kernel : ∀ q : Fin 2, ∃ t : Fin grid1.N, win1_3.index t = ![0, q.val])

/-- What point `t` writes back is block `t` of the partial pre-activation of the arrays as the stage finds them. -/
theorem flushed_partial (c : Dev nD) (t : Fin cfg1.N) :
    (dat1 (F := Ideal) (Name := Name) (U := U) (Lvl := Lvl) B V c).flushed 3 t
      = ((cfg1.win 3).blk t).view.read (Elt Ideal) (Cert.KSpec.pT (V c main_arg1) (V c main_v3) (V c main_v4)) := by
  show (cfg1.win 3).cut (grid1.coords t) ((dat1 (F := Ideal) (Name := Name) (U := U) (Lvl := Lvl) B V c).after 3 t) = _
  rw [after1_3]
  unfold partialOut
  rw [View.canon_unit_zero zero2]
  obtain ⟨e0, e1, e2, e3, e4, e5, e6, e7⟩ := idx_facts1 t
  funext j
  obtain ⟨h, b, rfl⟩ : ∃ (h : Fin 64) (b : Fin 8192), j = ix2 h b := ⟨j 0, j 1, eq_ix2 j⟩
  show k1_pay1 (F := Ideal) (View.ld (iblk1 V c 2 t) rB2) (View.ld (iblk1 V c 1 t) rW128) (View.ld (iblk1 V c 0 t) rNum) (ix2 h b)
      = Cert.KSpec.pT (V c main_arg1) (V c main_v3) (V c main_v4) (((cfg1.win 3).blk t).view.emb (ix2 h b))
  refine (partial_pay_apply _ _ _ h b).trans ?_
  have hb : b.val < 8192 := b.isLt
  have hh : h.val < 64 := h.isLt
  -- the output entry's two coordinates in the array
  have J0 : ((((cfg1.win 3).blk t).view.emb (ix2 h b)) 0).val = h.val := by
    show win1_3.index t (0 : Fin 2) * 64 + 1 * h.val = h.val; omega
  have J1 : ((((cfg1.win 3).blk t).view.emb (ix2 h b)) 1).val = win1_3.index t (1 : Fin 2) * 8192 + b.val := by
    show win1_3.index t (1 : Fin 2) * 8192 + 1 * b.val = _; omega
  show _ = Cert.KSpec.pTAt (V c main_arg1) (V c main_v3) (V c main_v4) ((((cfg1.win 3).blk t).view.emb (ix2 h b)) 0) ((((cfg1.win 3).blk t).view.emb (ix2 h b)) 1)
  unfold Cert.KSpec.pTAt
  refine congrArg₂ (· + ·) ?_ (Finset.sum_congr rfl fun k _ => congrArg₂ (· * ·) ?_ ?_)
  · show V c main_v4 (((cfg1.win 2).blk t).view.emb (rB2.idx (ix2 h (0 : Fin 1)))) = _
    refine congrArg (V c main_v4) (idx2_ext _ _ ?_ ?_)
    · show win1_2.index t (0 : Fin 2) * 64 + 1 * (0 + 1 * h.val) = _
      rw [J0]; omega
    · show win1_2.index t (1 : Fin 2) * 1 + 1 * (0 + 1 * 0) = 0
      omega
  · have hk : k.val < 128 := k.isLt
    show V c main_v3 (((cfg1.win 1).blk t).view.emb (rW128.idx (ix2 h k))) = _
    refine congrArg (V c main_v3) (idx2_ext _ _ ?_ ?_)
    · show win1_1.index t (0 : Fin 2) * 64 + 1 * (0 + 1 * h.val) = _
      rw [J0]; omega
    · show win1_1.index t (1 : Fin 2) * 178 + 1 * (50 + 1 * k.val) = 50 + k.val
      omega
  · have hk : k.val < 128 := k.isLt
    show V c main_arg1 (((cfg1.win 0).blk t).view.emb (rNum.idx (ix2 b k))) = _
    refine congrArg (V c main_arg1) (idx2_ext _ _ ?_ ?_)
    · show win1_0.index t (0 : Fin 2) * 8192 + 1 * (0 + 1 * b.val) = _
      rw [J1]; omega
    · show win1_0.index t (1 : Fin 2) * 128 + 1 * (0 + 1 * k.val) = k.val
      omega

/-- An entry of the output array is in point `t`'s block iff each coordinate is in the block's range on its axis. -/
theorem mem_blk1 (t : Fin cfg1.N) (i : S64x16384.Idx) :
    i ∈ ((cfg1.win 3).blk t).view.set ↔ ∀ a : Fin 2, win1_3.index t a * S64x8192.size a ≤ (i a).val ∧ (i a).val < win1_3.index t a * S64x8192.size a + S64x8192.size a := by
  show i ∈ ((View.whole main_v5).slice (win1_3.rect t)).set ↔ _
  rw [View.set_slice_whole, Rect.mem_set_unit]
  exact Iff.rfl

/-- Every entry of the output array is covered: column `b` by point `b / 8192`. -/
theorem cover1 (i : S64x16384.Idx) : ∃ t : Fin cfg1.N, (cfg1.win 3).flush t = true ∧ i ∈ ((cfg1.win 3).blk t).view.set := by
  have hi0 : (i 0).val < 64 := (i 0).isLt
  have hi1 : (i 1).val < 16384 := (i 1).isLt
  obtain ⟨t, ht⟩ := idx_onto1 ⟨(i 1).val / 8192, by omega⟩
  have q0 : win1_3.index t (0 : Fin 2) = 0 := congrFun ht 0
  have q1 : win1_3.index t (1 : Fin 2) = (i 1).val / 8192 := congrFun ht 1
  refine ⟨t, flush1_3 t, ?_⟩
  rw [mem_blk1]
  intro a
  match a with
  | ⟨0, _⟩ => show win1_3.index t (0 : Fin 2) * 64 ≤ (i 0).val ∧ (i 0).val < win1_3.index t (0 : Fin 2) * 64 + 64; omega
  | ⟨1, _⟩ => show win1_3.index t (1 : Fin 2) * 8192 ≤ (i 1).val ∧ (i 1).val < win1_3.index t (1 : Fin 2) * 8192 + 8192; omega

/-- THE PARTIAL PRE-ACTIVATION after stage one: the bias plus the 128 numeric terms, of the arrays as the stage found them. -/
theorem final_partial (c : Dev nD) :
    (dat1 (F := Ideal) (Name := Name) (U := U) (Lvl := Lvl) B V c).arrAt 3 cfg1.N
      = Cert.KSpec.pT (V c main_arg1) (V c main_v3) (V c main_v4) :=
  (dat1 (F := Ideal) (Name := Name) (U := U) (Lvl := Lvl) B V c).arrAt_eq_of_cover 3 _ (fun t _ => flushed_partial B V c t) cover1

/-! ## Stage two: the activation and the output row -/

/-- Where stage two's blocks sit: the gathered rows, the partial pre-activation and both outputs move along the batch
    together; the weight matrix, the output weights and the output bias stay. -/
theorem idx_facts2 : ∀ t : Fin cfg2.N,
      win2_0.index t (0 : Fin 2) = 0 ∧ win2_0.index t (1 : Fin 2) = win2_5.index t (1 : Fin 2)
    ∧ win2_1.index t (0 : Fin 2) = 0 ∧ win2_1.index t (1 : Fin 2) = win2_5.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) ≤ 1
    ∧ win2_6.index t (0 : Fin 2) = 0 ∧ win2_6.index t (1 : Fin 2) = win2_5.index t (1 : Fin 2) :=
  (by decide +kernel : ∀ t : Fin grid2.N, _)

/-- Every block column of the outputs is some point's. -/
theorem idx_onto2 : ∀ q : Fin 2, ∃ t : Fin cfg2.N, win2_5.index t = ![0, q.val] :=
  (by decide +kernel : ∀ q : Fin 2, ∃ t : Fin grid2.N, win2_5.index t = ![0, q.val])

/-- The activation the step computes at entry (h, b) of point `t`'s blocks is the activation of the arrays at row `h`
    and the batch column that entry names. -/
theorem act_block (c : Dev nD) (t : Fin cfg2.N) (h : Fin 64) (b : Fin 8192) (h' : Fin 64) (b' : Fin 16384)
    (hh : h'.val = h.val) (hb' : b'.val = win2_5.index t (1 : Fin 2) * 8192 + b.val) :
    k2_pay1 (F := Ideal) (View.ld (iblk2 V c 1 t) rAct) (View.ld (iblk2 V c 2 t) rW50) (View.ld (iblk2 V c 0 t) rEmb) (ix2 h b)
      = Cert.KSpec.hTAt (V c main_v2) (V c main_v5) (V c main_v3) h' b' := by
  obtain rfl : h' = h := Fin.ext hh
  obtain ⟨e0, e1, e2, e3, e4, e5, e6, e7, e8, e9, e10, e11, e12, e13⟩ := idx_facts2 t
  have hb : b.val < 8192 := b.isLt
  have hh2 : h'.val < 64 := h'.isLt
  refine (final_act_apply _ _ _ h' b).trans ?_
  unfold Cert.KSpec.hTAt
  have hacc : accOf (View.ld (iblk2 V c 1 t) rAct) (View.ld (iblk2 V c 2 t) rW50) (View.ld (iblk2 V c 0 t) rEmb) h' b
      = Cert.KSpec.accAt (V c main_v2) (V c main_v5) (V c main_v3) h' b' := by
    unfold accOf Cert.KSpec.accAt
    refine congrArg₂ (· + ·) ?_ (Finset.sum_congr rfl fun e _ => congrArg₂ (· * ·) ?_ ?_)
    · show V c main_v5 (((cfg2.win 1).blk t).view.emb (rAct.idx (ix2 h' b))) = _
      refine congrArg (V c main_v5) (idx2_ext _ _ ?_ ?_)
      · show win2_1.index t (0 : Fin 2) * 64 + 1 * (0 + 1 * h'.val) = h'.val
        omega
      · show win2_1.index t (1 : Fin 2) * 8192 + 1 * (0 + 1 * b.val) = b'.val
        omega
    · have he : e.val < 50 := e.isLt
      show V c main_v3 (((cfg2.win 2).blk t).view.emb (rW50.idx (ix2 h' e))) = _
      refine congrArg (V c main_v3) (idx2_ext _ _ ?_ ?_)
      · show win2_2.index t (0 : Fin 2) * 64 + 1 * (0 + 1 * h'.val) = h'.val
        omega
      · show win2_2.index t (1 : Fin 2) * 178 + 1 * (0 + 1 * e.val) = e.val
        omega
    · have he : e.val < 50 := e.isLt
      show V c main_v2 (((cfg2.win 0).blk t).view.emb (rEmb.idx (ix2 e b))) = _
      refine congrArg (V c main_v2) (idx2_ext _ _ ?_ ?_)
      · show win2_0.index t (0 : Fin 2) * 50 + 1 * (0 + 1 * e.val) = e.val
        omega
      · show win2_0.index t (1 : Fin 2) * 8192 + 1 * (0 + 1 * b.val) = b'.val
        omega
  rw [hacc]

/-- What point `t` writes back to the activation is block `t` of the activation of the arrays as the stage finds them. -/
theorem flushed_act (c : Dev nD) (t : Fin cfg2.N) :
    (dat2 (F := Ideal) (Name := Name) (U := U) (Lvl := Lvl) B V c).flushed 5 t
      = ((cfg2.win 5).blk t).view.read (Elt Ideal) (Cert.KSpec.hT (V c main_v2) (V c main_v5) (V c main_v3)) := by
  show (cfg2.win 5).cut (grid2.coords t) ((dat2 (F := Ideal) (Name := Name) (U := U) (Lvl := Lvl) B V c).after 5 t) = _
  rw [after2_5]
  unfold finalAct
  rw [View.canon_unit_zero zero2]
  funext j
  obtain ⟨h, b, rfl⟩ : ∃ (h : Fin 64) (b : Fin 8192), j = ix2 h b := ⟨j 0, j 1, eq_ix2 j⟩
  obtain ⟨e0, e1, e2, e3, e4, e5, e6, e7, e8, e9, e10, e11, e12, e13⟩ := idx_facts2 t
  show k2_pay1 (F := Ideal) (View.ld (iblk2 V c 1 t) rAct) (View.ld (iblk2 V c 2 t) rW50) (View.ld (iblk2 V c 0 t) rEmb) (ix2 h b)
      = Cert.KSpec.hTAt (V c main_v2) (V c main_v5) (V c main_v3) ((((cfg2.win 5).blk t).view.emb (ix2 h b)) 0) ((((cfg2.win 5).blk t).view.emb (ix2 h b)) 1)
  refine act_block V c t h b _ _ ?_ ?_
  · show win2_5.index t (0 : Fin 2) * 64 + 1 * h.val = h.val
    omega
  · show win2_5.index t (1 : Fin 2) * 8192 + 1 * b.val = _
    omega

/-- What point `t` writes back to the output row is block `t` of the output row of the arrays as the stage finds them. -/
theorem flushed_row (c : Dev nD) (t : Fin cfg2.N) :
    (dat2 (F := Ideal) (Name := Name) (U := U) (Lvl := Lvl) B V c).flushed 6 t
      = ((cfg2.win 6).blk t).view.read (Elt Ideal)
          (Cert.KSpec.outT (V c main_v2) (V c main_v5) (V c main_v3) (V c main_v6) (V c main_v7)) := by
  show (cfg2.win 6).cut (grid2.coords t) ((dat2 (F := Ideal) (Name := Name) (U := U) (Lvl := Lvl) B V c).after 6 t) = _
  rw [after2_6]
  unfold finalRow
  rw [View.canon_unit_zero zero2]
  funext j
  obtain ⟨o, b, rfl⟩ : ∃ (o : Fin 1) (b : Fin 8192), j = ix2 o b := ⟨j 0, j 1, eq_ix2 j⟩
  obtain ⟨e0, e1, e2, e3, e4, e5, e6, e7, e8, e9, e10, e11, e12, e13⟩ := idx_facts2 t
  have ho : o.val = 0 := by have := o.isLt; omega
  have hb : b.val < 8192 := b.isLt
  show k2_pay2 (F := Ideal) (View.ld (iblk2 V c 1 t) rAct) (View.ld (iblk2 V c 2 t) rW50) (View.ld (iblk2 V c 0 t) rEmb)
        (View.ld (iblk2 V c 3 t) rWo) (View.ld (iblk2 V c 4 t) rBo) (ix2 o b)
      = Cert.KSpec.outTAt (V c main_v2) (V c main_v5) (V c main_v3) (V c main_v6) (V c main_v7) ((((cfg2.win 6).blk t).view.emb (ix2 o b)) 1)
  refine (final_row_apply _ _ _ _ _ o b).trans ?_
  unfold Cert.KSpec.outTAt
  have J1 : ((((cfg2.win 6).blk t).view.emb (ix2 o b)) 1).val = win2_5.index t (1 : Fin 2) * 8192 + b.val := by
    show win2_6.index t (1 : Fin 2) * 8192 + 1 * b.val = _; omega
  refine congrArg₂ (· + ·) (Finset.sum_congr rfl fun h _ => congrArg₂ (· * ·) ?_ ?_) ?_
  · have hh : h.val < 64 := h.isLt
    show V c main_v6 (((cfg2.win 3).blk t).view.emb (rWo.idx (ix2 o h))) = _
    refine congrArg (V c main_v6) (idx2_ext _ _ ?_ ?_)
    · show win2_3.index t (0 : Fin 2) * 1 + 1 * (0 + 1 * o.val) = 0
      omega
    · show win2_3.index t (1 : Fin 2) * 64 + 1 * (0 + 1 * h.val) = h.val
      omega
  · exact act_block V c t h b h _ rfl J1
  · show V c main_v7 (((cfg2.win 4).blk t).view.emb (rBo.idx (ix2 (0 : Fin 1) (0 : Fin 1)))) = _
    refine congrArg (V c main_v7) (idx2_ext _ _ ?_ ?_)
    · show win2_4.index t (0 : Fin 2) * 1 + 1 * (0 + 1 * 0) = 0
      omega
    · show win2_4.index t (1 : Fin 2) * 1 + 1 * (0 + 1 * 0) = 0
      omega

theorem mem_blk2_5 (t : Fin cfg2.N) (i : S64x16384.Idx) :
    i ∈ ((cfg2.win 5).blk t).view.set ↔ ∀ a : Fin 2, win2_5.index t a * S64x8192.size a ≤ (i a).val ∧ (i a).val < win2_5.index t a * S64x8192.size a + S64x8192.size a := by
  show i ∈ ((View.whole main_v8_0).slice (win2_5.rect t)).set ↔ _
  rw [View.set_slice_whole, Rect.mem_set_unit]
  exact Iff.rfl

theorem mem_blk2_6 (t : Fin cfg2.N) (i : S1x16384.Idx) :
    i ∈ ((cfg2.win 6).blk t).view.set ↔ ∀ a : Fin 2, win2_6.index t a * S1x8192.size a ≤ (i a).val ∧ (i a).val < win2_6.index t a * S1x8192.size a + S1x8192.size a := by
  show i ∈ ((View.whole main_v8_1).slice (win2_6.rect t)).set ↔ _
  rw [View.set_slice_whole, Rect.mem_set_unit]
  exact Iff.rfl

/-- Every entry of the activation is covered: column `b` by point `b / 8192`. -/
theorem cover2_5 (i : S64x16384.Idx) : ∃ t : Fin cfg2.N, (cfg2.win 5).flush t = true ∧ i ∈ ((cfg2.win 5).blk t).view.set := by
  have hi0 : (i 0).val < 64 := (i 0).isLt
  have hi1 : (i 1).val < 16384 := (i 1).isLt
  obtain ⟨t, ht⟩ := idx_onto2 ⟨(i 1).val / 8192, by omega⟩
  have q0 : win2_5.index t (0 : Fin 2) = 0 := congrFun ht 0
  have q1 : win2_5.index t (1 : Fin 2) = (i 1).val / 8192 := congrFun ht 1
  refine ⟨t, flush2_5 t, ?_⟩
  rw [mem_blk2_5]
  intro a
  match a with
  | ⟨0, _⟩ => show win2_5.index t (0 : Fin 2) * 64 ≤ (i 0).val ∧ (i 0).val < win2_5.index t (0 : Fin 2) * 64 + 64; omega
  | ⟨1, _⟩ => show win2_5.index t (1 : Fin 2) * 8192 ≤ (i 1).val ∧ (i 1).val < win2_5.index t (1 : Fin 2) * 8192 + 8192; omega

/-- Every entry of the output row is covered likewise. -/
theorem cover2_6 (i : S1x16384.Idx) : ∃ t : Fin cfg2.N, (cfg2.win 6).flush t = true ∧ i ∈ ((cfg2.win 6).blk t).view.set := by
  have hi0 : (i 0).val < 1 := (i 0).isLt
  have hi1 : (i 1).val < 16384 := (i 1).isLt
  obtain ⟨t, ht⟩ := idx_onto2 ⟨(i 1).val / 8192, by omega⟩
  have q1 : win2_5.index t (1 : Fin 2) = (i 1).val / 8192 := congrFun ht 1
  obtain ⟨e0, e1, e2, e3, e4, e5, e6, e7, e8, e9, e10, e11, e12, e13⟩ := idx_facts2 t
  refine ⟨t, flush2_6 t, ?_⟩
  rw [mem_blk2_6]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 8192 ≤ (i 1).val ∧ (i 1).val < win2_6.index t (1 : Fin 2) * 8192 + 8192; omega

/-- THE ACTIVATION after stage two: a · logistic a of the completed pre-activation, of the arrays as the stage found them. -/
theorem final_act (c : Dev nD) :
    (dat2 (F := Ideal) (Name := Name) (U := U) (Lvl := Lvl) B V c).arrAt 5 cfg2.N
      = Cert.KSpec.hT (V c main_v2) (V c main_v5) (V c main_v3) :=
  (dat2 (F := Ideal) (Name := Name) (U := U) (Lvl := Lvl) B V c).arrAt_eq_of_cover 5 _ (fun t _ => flushed_act B V c t) cover2_5

/-- THE OUTPUT ROW after stage two: the 64 products of the output weights with the activation plus the bias. -/
theorem final_row (c : Dev nD) :
    (dat2 (F := Ideal) (Name := Name) (U := U) (Lvl := Lvl) B V c).arrAt 6 cfg2.N
      = Cert.KSpec.outT (V c main_v2) (V c main_v5) (V c main_v3) (V c main_v6) (V c main_v7) :=
  (dat2 (F := Ideal) (Name := Name) (U := U) (Lvl := Lvl) B V c).arrAt_eq_of_cover 6 _ (fun t _ => flushed_row B V c t) cover2_6

/-! ## The valuations a stage leaves, read at its outputs -/

section Valuations

variable (Bd : Dev nD → Set (SemLoc sig × Ix)) (W : Dev nD → Valuation τ sig (Elt Ideal))

/-- After stage one the partial pre-activation's array holds `pT` of the feature array, the transposed weights and the
    bias column as the stage found them. -/
theorem Wout1_main_v5 (c : Dev nD) :
    Wout1 (F := Ideal) (Name := Name) (U := U) (Lvl := Lvl) Bd W c (Proc.devRef .tc main_v5)
      = Cert.KSpec.pT (Va W c main_arg1) (Va W c main_v3) (Va W c main_v4) :=
  (Wout1_arr Bd W c 3).trans (final_partial (Bd c) (Va W) c)

/-- After stage two the activation's array holds `hT` of the gathered rows, the partial pre-activation and the
    transposed weights as the stage found them, -/
theorem Wout2_main_v8_0 (c : Dev nD) :
    Wout2 (F := Ideal) (Name := Name) (U := U) (Lvl := Lvl) Bd W c (Proc.devRef .tc main_v8_0)
      = Cert.KSpec.hT (Vb W c main_v2) (Vb W c main_v5) (Vb W c main_v3) :=
  (Wout2_arr Bd W c 5).trans (final_act (Bd c) (Vb W) c)

/-- and the output row's array holds `outT` of those, the transposed output weights and the output bias. -/
theorem Wout2_main_v8_1 (c : Dev nD) :
    Wout2 (F := Ideal) (Name := Name) (U := U) (Lvl := Lvl) Bd W c (Proc.devRef .tc main_v8_1)
      = Cert.KSpec.outT (Vb W c main_v2) (Vb W c main_v5) (Vb W c main_v3) (Vb W c main_v6) (Vb W c main_v7) :=
  (Wout2_arr Bd W c 6).trans (final_row (Bd c) (Vb W) c)

end Valuations

end Cert.KernelIdeal.Region

end
-- ==== Proof.ValueChain.lean ====
/-
  The two results, read back to the arguments. The fold of buffer contents through the kernel-side program, read at the
  two result buffers, is: the closing transposes of the second pallas_call's two outputs; those are the activation and
  the output row of the gathered table rows, the first pallas_call's output and the transposed weights; the gathered
  rows are the transposed table at the flattened category column; and so on back to the seven arguments. Composed,
  that is the specification's two arrays.
-/
import proofs.«203298_g75634374082695_cont_9to1_m_1088_20_alg».proof.Proof.ArgsKept
import proofs.«203298_g75634374082695_cont_9to1_m_1088_20_alg».proof.Proof.Bridge
import proofs.«203298_g75634374082695_cont_9to1_m_1088_20_alg».proof.Proof.RegionValue

noncomputable section

namespace Cert.KernelIdeal.Launch

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix1 ix2)

section
variable (m : (ℓ : Loc nD τ sig) → Buf (Elt Ideal) ℓ)

variable (c : Dev nD)

/-- The arguments at launch. -/
abbrev a0 := m (c, Proc.devRef .tc main_arg0)
abbrev a1 := m (c, Proc.devRef .tc main_arg1)
abbrev a2 := m (c, Proc.devRef .tc main_arg2)
abbrev a3 := m (c, Proc.devRef .tc main_arg3)
abbrev a4 := m (c, Proc.devRef .tc main_arg4)
abbrev a5 := m (c, Proc.devRef .tc main_arg5)
abbrev a6 := m (c, Proc.devRef .tc main_arg6)

/-! ### Up to the call -/

theorem W1_v0 : W1 m c r0 = KSpec.idx (a0 m c) := HostSteps.opsA_v0 (W0 m c)
theorem W1_v1 : W1 m c r1 = KSpec.tabT (a2 m c) := HostSteps.opsA_v1 (W0 m c)
theorem W2_v2 : W2 m c r2 = KSpec.embT (KSpec.idx (a0 m c)) (KSpec.tabT (a2 m c)) := by
  rw [W2_r2]; unfold gathered V0 V1; rw [W1_v0, W1_v1]

/-- A buffer the opening host steps and the call do not write is as launched when the call returns. -/
theorem W2_eq_m (b : Ref sig .tc) (h2 : (Proc.devRef .tc b : DevRef τ sig) ≠ r2) (h0 : b ≠ main_v0) (h1 : b ≠ main_v1) :
    W2 m c (Proc.devRef .tc b) = m (c, Proc.devRef .tc b) :=
  (W2_of_ne m c _ h2).trans (HostSteps.opsA_other (W0 m c) h0 h1)

/-! ### At the first pallas_call's entry -/

theorem W3_v3 : W3 m c (Proc.devRef .tc main_v3) = KSpec.w2t (a3 m c) := by
  rw [show W3 m c (Proc.devRef .tc main_v3) = KSpec.w2t (W2 m c (Proc.devRef .tc main_arg3)) from HostSteps.opsB_v3 (W2 m c),
    W2_eq_m m c main_arg3 (by decide) (by decide) (by decide)]
theorem W3_v4 : W3 m c (Proc.devRef .tc main_v4) = KSpec.b2c (a4 m c) := by
  rw [show W3 m c (Proc.devRef .tc main_v4) = KSpec.b2c (W2 m c (Proc.devRef .tc main_arg4)) from HostSteps.opsB_v4 (W2 m c),
    W2_eq_m m c main_arg4 (by decide) (by decide) (by decide)]
theorem W3_arg1 : W3 m c (Proc.devRef .tc main_arg1) = a1 m c := W3_eq_m m c main_arg1 (by decide) (by decide) (by decide) (by decide) (by decide)
theorem W3_v2 : W3 m c (Proc.devRef .tc main_v2) = KSpec.embT (KSpec.idx (a0 m c)) (KSpec.tabT (a2 m c)) :=
  (HostSteps.opsB_other (W2 m c) (b := main_v2) (by decide) (by decide)).trans (W2_v2 m c)

/-! ### At its exit -/

theorem W4_v5 : W4 m c (Proc.devRef .tc main_v5) = KSpec.pT (a1 m c) (KSpec.w2t (a3 m c)) (KSpec.b2c (a4 m c)) := by
  rw [show W4 m c (Proc.devRef .tc main_v5)
      = (Region.dat1 (Ix := HIx 1) (Name := ℕ) (U := UU) (Lvl := ℕ) (B8 (F := Ideal) c) (Region.Va (W3 m)) c).arrAt 3 cfg1.N
    from Region.Wout1_arr (Ix := HIx 1) (Name := ℕ) (U := UU) (Lvl := ℕ) (B8 (F := Ideal)) (W3 m) c 3, Region.final_partial]
  show KSpec.pT (W3 m c (Proc.devRef .tc main_arg1)) (W3 m c (Proc.devRef .tc main_v3)) (W3 m c (Proc.devRef .tc main_v4)) = _
  rw [W3_arg1, W3_v3, W3_v4]
theorem W4_v2 : W4 m c (Proc.devRef .tc main_v2) = KSpec.embT (KSpec.idx (a0 m c)) (KSpec.tabT (a2 m c)) :=
  (Region.Wout1_of_ne (B8 (F := Ideal)) (W3 m) c main_v2 (by decide)).trans (W3_v2 m c)
/-- The transposed weights are an input window of the first region: handed back as entered. -/
theorem W4_v3 : W4 m c (Proc.devRef .tc main_v3) = KSpec.w2t (a3 m c) :=
  calc W4 m c (Proc.devRef .tc main_v3)
    _ = (Region.dat1 (Ix := HIx 1) (Name := ℕ) (U := UU) (Lvl := ℕ) (B8 (F := Ideal) c) (Region.Va (W3 m)) c).arrAt 1 cfg1.N :=
        Region.Wout1_arr (Ix := HIx 1) (Name := ℕ) (U := UU) (Lvl := ℕ) (B8 (F := Ideal)) (W3 m) c 1
    _ = W3 m c (Proc.devRef .tc main_v3) :=
        ((Region.dat1 (Ix := HIx 1) (Name := ℕ) (U := UU) (Lvl := ℕ) (B8 (F := Ideal) c) (Region.Va (W3 m)) c).arrAt_in 1 rfl _).trans
          (Region.A_eq1 (Ix := HIx 1) (Name := ℕ) (U := UU) (Lvl := ℕ) (B8 (F := Ideal) c) (Region.Va (W3 m)) c 1)
    _ = KSpec.w2t (a3 m c) := W3_v3 m c
theorem W4_arg (b : Ref sig .tc) (hb1 : ∀ w, Pipeline.arrRef spec1 w ≠ b) (h3 : b ≠ main_v3) (h4 : b ≠ main_v4)
    (h2 : (Proc.devRef .tc b : DevRef τ sig) ≠ r2) (h0 : b ≠ main_v0) (h1 : b ≠ main_v1) :
    W4 m c (Proc.devRef .tc b) = m (c, Proc.devRef .tc b) :=
  (Region.Wout1_of_ne (B8 (F := Ideal)) (W3 m) c b hb1).trans (W3_eq_m m c b h3 h4 h2 h0 h1)

/-! ### At the second pallas_call's entry -/

theorem W5_v2 : W5 m c (Proc.devRef .tc main_v2) = KSpec.embT (KSpec.idx (a0 m c)) (KSpec.tabT (a2 m c)) :=
  (HostSteps.opsC_other (W4 m c) (b := main_v2) (by decide) (by decide)).trans (W4_v2 m c)
theorem W5_v5 : W5 m c (Proc.devRef .tc main_v5) = KSpec.pT (a1 m c) (KSpec.w2t (a3 m c)) (KSpec.b2c (a4 m c)) :=
  (HostSteps.opsC_other (W4 m c) (b := main_v5) (by decide) (by decide)).trans (W4_v5 m c)
theorem W5_v3 : W5 m c (Proc.devRef .tc main_v3) = KSpec.w2t (a3 m c) :=
  (HostSteps.opsC_other (W4 m c) (b := main_v3) (by decide) (by decide)).trans (W4_v3 m c)
theorem W5_v6 : W5 m c (Proc.devRef .tc main_v6) = KSpec.woutT (a5 m c) := by
  rw [show W5 m c (Proc.devRef .tc main_v6) = KSpec.woutT (W4 m c (Proc.devRef .tc main_arg5)) from HostSteps.opsC_v6 (W4 m c),
    W4_arg m c main_arg5 (by decide) (by decide) (by decide) (by decide) (by decide) (by decide)]
theorem W5_v7 : W5 m c (Proc.devRef .tc main_v7) = KSpec.boutc (a6 m c) := by
  rw [show W5 m c (Proc.devRef .tc main_v7) = KSpec.boutc (W4 m c (Proc.devRef .tc main_arg6)) from HostSteps.opsC_v7 (W4 m c),
    W4_arg m c main_arg6 (by decide) (by decide) (by decide) (by decide) (by decide) (by decide)]

/-! ### At its exit, and at the end -/

theorem W6_v8_0 :
    W6 m c (Proc.devRef .tc main_v8_0)
      = KSpec.hT (KSpec.embT (KSpec.idx (a0 m c)) (KSpec.tabT (a2 m c))) (KSpec.pT (a1 m c) (KSpec.w2t (a3 m c)) (KSpec.b2c (a4 m c))) (KSpec.w2t (a3 m c)) := by
  rw [show W6 m c (Proc.devRef .tc main_v8_0)
      = (Region.dat2 (Ix := HIx 1) (Name := ℕ) (U := UU) (Lvl := ℕ) (B8 (F := Ideal) c) (Region.Vb (W5 m)) c).arrAt 5 cfg2.N
    from Region.Wout2_arr (Ix := HIx 1) (Name := ℕ) (U := UU) (Lvl := ℕ) (B8 (F := Ideal)) (W5 m) c 5, Region.final_act]
  show KSpec.hT (W5 m c (Proc.devRef .tc main_v2)) (W5 m c (Proc.devRef .tc main_v5)) (W5 m c (Proc.devRef .tc main_v3)) = _
  rw [W5_v2, W5_v5 m c, W5_v3]
theorem W6_v8_1 :
    W6 m c (Proc.devRef .tc main_v8_1)
      = KSpec.outT (KSpec.embT (KSpec.idx (a0 m c)) (KSpec.tabT (a2 m c))) (KSpec.pT (a1 m c) (KSpec.w2t (a3 m c)) (KSpec.b2c (a4 m c))) (KSpec.w2t (a3 m c))
          (KSpec.woutT (a5 m c)) (KSpec.boutc (a6 m c)) := by
  rw [show W6 m c (Proc.devRef .tc main_v8_1)
      = (Region.dat2 (Ix := HIx 1) (Name := ℕ) (U := UU) (Lvl := ℕ) (B8 (F := Ideal) c) (Region.Vb (W5 m)) c).arrAt 6 cfg2.N
    from Region.Wout2_arr (Ix := HIx 1) (Name := ℕ) (U := UU) (Lvl := ℕ) (B8 (F := Ideal)) (W5 m) c 6, Region.final_row]
  show KSpec.outT (W5 m c (Proc.devRef .tc main_v2)) (W5 m c (Proc.devRef .tc main_v5)) (W5 m c (Proc.devRef .tc main_v3))
    (W5 m c (Proc.devRef .tc main_v6)) (W5 m c (Proc.devRef .tc main_v7)) = _
  rw [W5_v2, W5_v5 m c, W5_v3, W5_v6, W5_v7]

/-- The first result is the specification's first array of the arguments. -/
theorem W7_v9 :
    W7 m c (Proc.devRef .tc main_v9) = Spec.X (a0 m c) (a1 m c) (a2 m c) (a3 m c) (a4 m c) := by
  rw [show W7 m c (Proc.devRef .tc main_v9) = KSpec.resX (W6 m c (Proc.devRef .tc main_v8_0)) from HostSteps.opsD_v9 (W6 m c),
    W6_v8_0 m c]
  exact Bridge.resX_eq (a0 m c) (a1 m c) (a2 m c) (a3 m c) (a4 m c)
/-- The second result is the specification's second array. -/
theorem W7_v10 :
    W7 m c (Proc.devRef .tc main_v10) = Spec.Out (a0 m c) (a1 m c) (a2 m c) (a3 m c) (a4 m c) (a5 m c) (a6 m c) := by
  rw [show W7 m c (Proc.devRef .tc main_v10) = KSpec.resOut (W6 m c (Proc.devRef .tc main_v8_1)) from HostSteps.opsD_v10 (W6 m c),
    W6_v8_1 m c]
  exact Bridge.resOut_eq (a0 m c) (a1 m c) (a2 m c) (a3 m c) (a4 m c) (a5 m c) (a6 m c)

end

end Cert.KernelIdeal.Launch

end
-- ==== Proof.RefTerms.lean ====
/-
  The reference program's two results written as terms of its seven argument arrays: each operation of the
  program applied to the terms of its operands, in the program's order. Stated for any float values.

  `jnp.take` along axis 0 prints as: the category column flattened; a word below zero moved up by the
  number of table rows; the words as a column of start indices; the gather of one whole table row per
  start index; and a select that keeps the gathered row where the start index lies in `0 … 99999` and puts
  the fill word elsewhere. The rest is the concatenation with the numeric features, the contraction with
  `W2`, the bias, `z ↦ z · (1 / (1 + exp (−z)))`, the contraction with `Wout` and the last bias.
-/
import proofs.«203298_g75634374082695_cont_9to1_m_1088_20_alg».proof.ReferenceIdeal

noncomputable section

namespace Cert.RefSide

open Cert.ReferenceIdeal Idealize.ShloMosaic Idealize.SL.Sem

variable {F : FTy → Type} [FloatOps F] [Cert.ReferenceIdeal.Facts]
open Cert.ReferenceIdeal.Facts₀ Cert.ReferenceIdeal.Facts

/-- The category column as a vector. -/
def flat (cat : IVec S16384x1 32) : IVec S16384 32 :=
  shapeCast S16384 cat shapeCasts_S16384x1_S16384

/-- A word below zero is moved up by the number of table rows; any other word is kept. -/
def wrapped (cat : IVec S16384x1 32) : IVec S16384 32 :=
  select (cmpi .slt (flat cat) (broadcastInDim S16384 ![] bcast_S_S16384 (constantI S_ 32 0#32)))
    (addi (flat cat) (broadcastInDim S16384 ![] bcast_S_S16384 (constantI S_ 32 100000#32)))
    (flat cat)

/-- The start indices handed to the gather: the moved words as a column. -/
def startIdx (cat : IVec S16384x1 32) : IVec S16384x1 32 :=
  broadcastInDim S16384x1 ![0] bcast_S16384_S16384x1_0 (wrapped cat)

/-- Per batch row, whether its start index lies in `0 … 99999`. -/
def inRange (cat : IVec S16384x1 32) : IVec S16384 1 :=
  Host.reduce IntOp.andi
    (andi (cmpi .sge (startIdx cat) (broadcastInDim S16384x1 ![] bcast_S_S16384x1 (constantI S_ 32 0#32)))
      (cmpi .sle (startIdx cat)
        (broadcastInDim S16384x1 ![0, 1] bcast_S1x1_S16384x1_0_1
          (broadcastInDim S1x1 ![1] bcast_S1_S1x1_1 (constantI S1 32 99999#32)))))
    (constantI S_ 1 1#1) reducesTo_S16384x1_S16384_d1 h_S_

/-- The rows taken from the table: the gathered row where the start index is in range, the fill word elsewhere. -/
def taken (cat : IVec S16384x1 32) (tab : FVec F S100000x50 .f32) : FVec F S16384x50 .f32 :=
  select (broadcastInDim S16384x50 ![0] bcast_S16384_S16384x50_0 (inRange cat))
    (Host.gather gather_S100000x50_S16384x1_S16384x50_1_0_n_n_0_1_150 tab (startIdx cat))
    (broadcastInDim S16384x50 ![] bcast_S_S16384x50 (constant S_ .f32 0x7FC00000#32))

/-- Taken rows and numeric features side by side: 50 + 128 = 178 numbers per batch row. -/
def sideBySide (a : FVec F S16384x50 .f32) (b : FVec F S16384x128 .f32) : FVec F S16384x178 .f32 :=
  concatenate S16384x178 1 [⟨S16384x50, a⟩, ⟨S16384x128, b⟩] concatenates_S16384x50_S16384x128_S16384x178_d1

/-- The pre-activation: taken rows and numeric features side by side, contracted with `W2`, plus the bias. -/
def preact (cat : IVec S16384x1 32) (num : FVec F S16384x128 .f32) (tab : FVec F S100000x50 .f32)
    (W2 : FVec F S178x64 .f32) (b2 : FVec F S64 .f32) : FVec F S16384x64 .f32 :=
  addf
    (Host.dotGeneral dot_S16384x178_S178x64_S16384x64_1_0_0_1_n_n none
      (sideBySide (taken cat tab) num) W2)
    (broadcastInDim S16384x64 ![0, 1] bcast_S1x64_S16384x64_0_1 (broadcastInDim S1x64 ![1] bcast_S64_S1x64_1 b2))

/-- The first result: `z · (1 / (1 + exp (−z)))` at the pre-activation `z`. -/
def termX (cat : IVec S16384x1 32) (num : FVec F S16384x128 .f32) (tab : FVec F S100000x50 .f32)
    (W2 : FVec F S178x64 .f32) (b2 : FVec F S64 .f32) : FVec F S16384x64 .f32 :=
  mulf (preact cat num tab W2 b2)
    (Host.divf (broadcastInDim S16384x64 ![] bcast_S_S16384x64 (constant S_ .f32 0x3F800000#32))
      (addf (broadcastInDim S16384x64 ![] bcast_S_S16384x64 (constant S_ .f32 0x3F800000#32))
        (Host.exp (Host.negf (preact cat num tab W2 b2)))))

/-- The second result: the first contracted with `Wout`, plus the last bias. -/
def termOut (cat : IVec S16384x1 32) (num : FVec F S16384x128 .f32) (tab : FVec F S100000x50 .f32)
    (W2 : FVec F S178x64 .f32) (b2 : FVec F S64 .f32) (Wout : FVec F S64x1 .f32) (bout : FVec F S1 .f32) :
    FVec F S16384x1 .f32 :=
  addf
    (Host.dotGeneral dot_S16384x64_S64x1_S16384x1_1_0_0_1_n_n none (termX cat num tab W2 b2) Wout)
    (broadcastInDim S16384x1 ![0, 1] bcast_S1x1_S16384x1_0_1 (broadcastInDim S1x1 ![1] bcast_S1_S1x1_1 bout))

/-- The first result's term at a memory's argument arrays on device `c`. -/
def resX (m : (l : Loc nD τ sig) → Buf (Elt F) l) (c : Dev nD) : FVec F S16384x64 .f32 :=
  termX (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4))

/-- The second result's term at a memory's argument arrays on device `c`. -/
def resOut (m : (l : Loc nD τ sig) → Buf (Elt F) l) (c : Dev nD) : FVec F S16384x1 .f32 :=
  termOut (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6))

end Cert.RefSide

end
-- ==== Proof.RefRun.lean ====
/-
  The reference program's run. Its @main is a straight line of forty-two host operations once the two
  outlined functions are unfolded at their calls (the flattening of the category column; the twenty-two
  operations of the table look-up with the one select of the inner function in their midst; the eighteen
  operations after it). A straight line of host operations terminates from any memory, faults nowhere, and
  leaves each buffer at the fold of the operations' results; read at the two result buffers that fold is the
  pair of terms `resX`, `resOut`, and at an argument buffer it is what the memory held.
-/
import proofs.«203298_g75634374082695_cont_9to1_m_1088_20_alg».proof.Proof.RefTerms
import proofs.«203298_g75634374082695_cont_9to1_m_1088_20_alg».proof.Proof.Gen.ReferenceIdeal
import Idealize.ShloMosaic.Lib.StableHlo.Run

noncomputable section

namespace Cert.RefSide

open Cert.ReferenceIdeal Idealize.ShloMosaic Idealize.ShloMosaic.TcCoe Idealize.SL.Sem
  Idealize.ShloMosaic.StableHlo
open Cert.ReferenceIdeal.Facts₀ Cert.ReferenceIdeal.Facts

variable {F : FTy → Type} [FloatOps F]

/-- @main's operations in order, the calls unfolded. -/
abbrev ops : List (HloOp τ sig (Elt F)) :=
  [ reshape main_arg0 main_v0 rfl shapeCasts_S16384x1_S16384,
    TRef.nullary main_call0.c (constantI S_ 32 0#32),
    TRef.unary main_call0.c main_call0.v0 (broadcastInDim S16384 ![] bcast_S_S16384),
    TRef.binary (TRef.of main_v0 : TRef sig ⟨S16384, .i32⟩) main_call0.v0 main_call0.v1 (cmpi .slt),
    TRef.nullary main_call0.c_0 (constantI S_ 32 100000#32),
    TRef.unary main_call0.c_0 main_call0.v2 (broadcastInDim S16384 ![] bcast_S_S16384),
    TRef.binary (TRef.of main_v0 : TRef sig ⟨S16384, .i32⟩) main_call0.v2 main_call0.v3 addi,
    TRef.ternary main_call0.v1 main_call0.v3 (TRef.of main_v0 : TRef sig ⟨S16384, .i32⟩) main_call0.call0.v0 select,
    TRef.unary main_call0.call0.v0 main_call0.v5 (broadcastInDim S16384x1 ![0] bcast_S16384_S16384x1_0),
    TRef.nullary main_call0.c_1 (constantI S1 32 99999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (TRef.of main_arg2 : TRef sig ⟨S100000x50, .f32⟩) main_call0.v5 main_call0.v13 (fun x i => Host.gather gather_S100000x50_S16384x1_S16384x50_1_0_n_n_0_1_150 x i),
    TRef.unary main_call0.v12 main_call0.v14 (broadcastInDim S16384x50 ![0] bcast_S16384_S16384x50_0),
    TRef.nullary main_call0.cst (constant S_ .f32 0x7FC00000#32),
    TRef.unary main_call0.cst main_call0.v15 (broadcastInDim S16384x50 ![] bcast_S_S16384x50),
    TRef.ternary main_call0.v14 main_call0.v13 main_call0.v15 main_call0.v16 select,
    binary main_v1 main_arg1 main_v2 (sideBySide : (⟨S16384x50, .f32⟩ : BufTy).Contents (Elt F) → (⟨S16384x128, .f32⟩ : BufTy).Contents (Elt F) → (⟨S16384x178, .f32⟩ : BufTy).Contents (Elt F)),
    binary main_v2 main_arg3 main_v3 ((fun l r => Host.dotGeneral dot_S16384x178_S178x64_S16384x64_1_0_0_1_n_n none l r) : (⟨S16384x178, .f32⟩ : BufTy).Contents (Elt F) → (⟨S178x64, .f32⟩ : BufTy).Contents (Elt F) → (⟨S16384x64, .f32⟩ : BufTy).Contents (Elt F)),
    unary main_arg4 main_v4 (broadcastInDim S1x64 ![1] bcast_S64_S1x64_1 : (⟨S64, .f32⟩ : BufTy).Contents (Elt F) → (⟨S1x64, .f32⟩ : BufTy).Contents (Elt F)),
    unary main_v4 main_v5 (broadcastInDim S16384x64 ![0, 1] bcast_S1x64_S16384x64_0_1 : (⟨S1x64, .f32⟩ : BufTy).Contents (Elt F) → (⟨S16384x64, .f32⟩ : BufTy).Contents (Elt F)),
    binary main_v3 main_v5 main_v6 (addf : (⟨S16384x64, .f32⟩ : BufTy).Contents (Elt F) → (⟨S16384x64, .f32⟩ : BufTy).Contents (Elt F) → (⟨S16384x64, .f32⟩ : BufTy).Contents (Elt F)),
    unary main_v6 main_v7 (Host.negf : (⟨S16384x64, .f32⟩ : BufTy).Contents (Elt F) → (⟨S16384x64, .f32⟩ : BufTy).Contents (Elt F)),
    unary main_v7 main_v8 (Host.exp : (⟨S16384x64, .f32⟩ : BufTy).Contents (Elt F) → (⟨S16384x64, .f32⟩ : BufTy).Contents (Elt F)),
    nullary main_cst (constant S_ .f32 0x3F800000#32),
    unary main_cst main_v9 (broadcastInDim S16384x64 ![] bcast_S_S16384x64 : (⟨S_, .f32⟩ : BufTy).Contents (Elt F) → (⟨S16384x64, .f32⟩ : BufTy).Contents (Elt F)),
    binary main_v9 main_v8 main_v10 (addf : (⟨S16384x64, .f32⟩ : BufTy).Contents (Elt F) → (⟨S16384x64, .f32⟩ : BufTy).Contents (Elt F) → (⟨S16384x64, .f32⟩ : BufTy).Contents (Elt F)),
    nullary main_cst_0 (constant S_ .f32 0x3F800000#32),
    unary main_cst_0 main_v11 (broadcastInDim S16384x64 ![] bcast_S_S16384x64 : (⟨S_, .f32⟩ : BufTy).Contents (Elt F) → (⟨S16384x64, .f32⟩ : BufTy).Contents (Elt F)),
    binary main_v11 main_v10 main_v12 (Host.divf : (⟨S16384x64, .f32⟩ : BufTy).Contents (Elt F) → (⟨S16384x64, .f32⟩ : BufTy).Contents (Elt F) → (⟨S16384x64, .f32⟩ : BufTy).Contents (Elt F)),
    binary main_v6 main_v12 main_v13 (mulf : (⟨S16384x64, .f32⟩ : BufTy).Contents (Elt F) → (⟨S16384x64, .f32⟩ : BufTy).Contents (Elt F) → (⟨S16384x64, .f32⟩ : BufTy).Contents (Elt F)),
    binary main_v13 main_arg5 main_v14 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg6 main_v15 (broadcastInDim S1x1 ![1] bcast_S1_S1x1_1 : (⟨S1, .f32⟩ : BufTy).Contents (Elt F) → (⟨S1x1, .f32⟩ : BufTy).Contents (Elt F)),
    unary main_v15 main_v16 (broadcastInDim S16384x1 ![0, 1] bcast_S1x1_S16384x1_0_1 : (⟨S1x1, .f32⟩ : BufTy).Contents (Elt F) → (⟨S16384x1, .f32⟩ : BufTy).Contents (Elt F)),
    binary main_v14 main_v16 main_v17 (addf : (⟨S16384x1, .f32⟩ : BufTy).Contents (Elt F) → (⟨S16384x1, .f32⟩ : BufTy).Contents (Elt F) → (⟨S16384x1, .f32⟩ : BufTy).Contents (Elt F)) ]

-- forty-two binds re-associated
set_option maxRecDepth 4096 in
/-- @main is that straight line: the two functions' definitions unfolded at their calls, both sides are one
    chain of host steps once sequencing is re-associated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., binary_bufs_sub ..⟩

/-- The run as a fold: every buffer ends at the operations' fold over the launch contents. -/
theorem run_fold (m : (l : Loc nD τ sig) → Buf (Elt F) l) (g : Dev nD → PrngReg) :
    θ_run defs (onTc (τ := τ) (main (F := F))) ⟨m, fun _ => 0, g⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m g

/-- The fold read at the first result's buffer is the first term of the argument buffers' contents. -/
theorem x_after (V : Valuation τ sig (Elt F)) :
    after ops V (main_v13 : DevRef τ sig)
      = termX (V (main_arg0 : DevRef τ sig)) (V (main_arg1 : DevRef τ sig)) (V (main_arg2 : DevRef τ sig))
          (V (main_arg3 : DevRef τ sig)) (V (main_arg4 : DevRef τ sig)) := by
  after_results_simp
  simp only [TRef.toBuf, TRef.ofBuf, cast_eq]
  rfl

/-- The fold read at the second result's buffer is the second term of the argument buffers' contents. -/
theorem out_after (V : Valuation τ sig (Elt F)) :
    after ops V (main_v17 : DevRef τ sig)
      = termOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  after_results_simp
  simp only [TRef.toBuf, TRef.ofBuf, cast_eq]
  rfl

/-- No operation writes an argument buffer. -/
theorem arg0_after (V : Valuation τ sig (Elt F)) : after ops V (main_arg0 : DevRef τ sig) = V (main_arg0 : DevRef τ sig) := by
  after_results_simp
theorem arg1_after (V : Valuation τ sig (Elt F)) : after ops V (main_arg1 : DevRef τ sig) = V (main_arg1 : DevRef τ sig) := by
  after_results_simp
theorem arg2_after (V : Valuation τ sig (Elt F)) : after ops V (main_arg2 : DevRef τ sig) = V (main_arg2 : DevRef τ sig) := by
  after_results_simp
theorem arg3_after (V : Valuation τ sig (Elt F)) : after ops V (main_arg3 : DevRef τ sig) = V (main_arg3 : DevRef τ sig) := by
  after_results_simp
theorem arg4_after (V : Valuation τ sig (Elt F)) : after ops V (main_arg4 : DevRef τ sig) = V (main_arg4 : DevRef τ sig) := by
  after_results_simp
theorem arg5_after (V : Valuation τ sig (Elt F)) : after ops V (main_arg5 : DevRef τ sig) = V (main_arg5 : DevRef τ sig) := by
  after_results_simp
theorem arg6_after (V : Valuation τ sig (Elt F)) : after ops V (main_arg6 : DevRef τ sig) = V (main_arg6 : DevRef τ sig) := by
  after_results_simp

/-- From any memory with zero counters, every weakly fair execution of the reference terminates, nothing
    faulting; the two results end at the terms `resX`, `resOut` of the launch contents of the argument arrays,
    and the argument arrays end unchanged. -/
theorem run (m : (l : Loc nD τ sig) → Buf (Elt F) l) (g : Dev nD → PrngReg) :
    θ_run (defs (F := F)) (onTc (τ := τ) (main (F := F))) ⟨m, fun _ => 0, g⟩ (fun r => ∀ c : Dev nD,
      r.2.mem ((c.tc : Thread nD τ).loc main_v13) = resX m c
      ∧ r.2.mem ((c.tc : Thread nD τ).loc main_v17) = resOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c main_v13).trans (x_after (launchContents m c)),
       (h c main_v17).trans (out_after (launchContents m c)),
       (h c main_arg0).trans (arg0_after (launchContents m c)),
       (h c main_arg1).trans (arg1_after (launchContents m c)),
       (h c main_arg2).trans (arg2_after (launchContents m c)),
       (h c main_arg3).trans (arg3_after (launchContents m c)),
       (h c main_arg4).trans (arg4_after (launchContents m c)),
       (h c main_arg5).trans (arg5_after (launchContents m c)),
       (h c main_arg6).trans (arg6_after (launchContents m c))⟩)
    (run_fold m g)

end Cert.RefSide

end
-- ==== Proof.RefTake.lean ====
/-
  The table look-up of the reference, read at an index.

  Under the hypothesis that every category word, read as a natural number, is below the number of table rows
  (100000): the word is not negative as a signed integer, so the wrap of negative words keeps it; it lies in
  `0 … 99999`, so the in-range mask is one at every batch row and the select keeps the gathered row and never
  the fill word; and the gather's start index, the word read signed and clamped to `0 … 99999`, is the word
  itself. The taken array at `(b, e)` is therefore the table at (the row the word names, `e`).
-/
import proofs.«203298_g75634374082695_cont_9to1_m_1088_20_alg».proof.Proof.RefTerms
import proofs.«203298_g75634374082695_cont_9to1_m_1088_20_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.PureOps.Reduce

noncomputable section

namespace Cert.RefSide

open Cert.ReferenceIdeal Idealize.ShloMosaic Idealize.ShloMosaic.ValueIdx

variable [Cert.ReferenceIdeal.Facts]
open Cert.ReferenceIdeal.Facts₀ Cert.ReferenceIdeal.Facts

/-! ## Words below 100000 -/

/-- Such a word has its sign bit clear: read signed it is the same number. -/
theorem toInt_of_lt (w : BitVec 32) (h : w.toNat < 100000) : w.toInt = (w.toNat : Int) := by
  unfold BitVec.toInt
  split <;> omega

theorem not_slt_zero (w : BitVec 32) (h : w.toNat < 100000) : IntOp.cmpi .slt w 0#32 = 0#1 := by
  apply eq_zero_of_ne_one
  rw [IntOp.cmpi_slt, toInt_of_lt w h]
  have e0 : (0#32 : BitVec 32).toInt = 0 := by decide
  rw [e0]
  omega

theorem sge_zero (w : BitVec 32) (h : w.toNat < 100000) : IntOp.cmpi .sge w 0#32 = 1#1 := by
  rw [IntOp.cmpi_sge, toInt_of_lt w h]
  have e0 : (0#32 : BitVec 32).toInt = 0 := by decide
  rw [e0]
  omega

theorem sle_last (w : BitVec 32) (h : w.toNat < 100000) : IntOp.cmpi .sle w 99999#32 = 1#1 := by
  rw [IntOp.cmpi_sle, toInt_of_lt w h]
  have e1 : (99999#32 : BitVec 32).toInt = 99999 := by decide
  rw [e1]
  omega

/-! ## An `and`-reduction of ones -/

theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a, show IntOp.andi 1#1 1#1 = 1#1 from by decide]
    exact foldl_andi_ones f hf l

/-- An `and`-reduction from one of an array of ones is one at every result index. -/
theorem reduce_andi_ones {s t u : Shape} {axes : List (Fin s.rank)} (x : s.Idx → BitVec 1) (hx : ∀ i, x i = 1#1)
    (init : u.Idx → BitVec 1) (hinit : ∀ k, init k = 1#1) (h : s.ReducesTo axes t) (hu : 0 < u.numel) (j : t.Idx) :
    Host.reduce IntOp.andi x init h hu j = 1#1 := by
  rw [Host.reduce_eq_foldl, hinit]
  exact foldl_andi_ones x hx _

/-! ## The index chain at an index -/

theorem flat_apply (cat : IVec S16384x1 32) (b : Fin 16384) : flat cat (ix1 b) = cat (ix2 b (0 : Fin 1)) := by
  unfold flat
  exact shapeCast_apply cat _ (ix1 b) (ix2 b (0 : Fin 1)) (by
    rw [Shape.rowMajor_val_two, Shape.rowMajor_val_one]
    show b.val * 1 + 0 = b.val
    omega)

theorem wrapped_apply (cat : IVec S16384x1 32) (b : Fin 16384) (h : (cat (ix2 b (0 : Fin 1))).toNat < 100000) :
    wrapped cat (ix1 b) = cat (ix2 b (0 : Fin 1)) := by
  unfold wrapped
  rw [select_apply]
  have hc : cmpi .slt (flat cat) (broadcastInDim S16384 ![] bcast_S_S16384 (constantI S_ 32 0#32)) (ix1 b) = 0#1 := by
    show IntOp.cmpi .slt (flat cat (ix1 b)) 0#32 = 0#1
    rw [flat_apply]
    exact not_slt_zero _ h
  rw [hc, select_zero, flat_apply]

theorem startIdx_apply (cat : IVec S16384x1 32) (b : Fin 16384) (o : Fin 1)
    (h : (cat (ix2 b (0 : Fin 1))).toNat < 100000) : startIdx cat (ix2 b o) = cat (ix2 b (0 : Fin 1)) := by
  unfold startIdx
  exact (broadcastInDim_apply _ _ (wrapped cat) (ix2 b o) (ix1 b)
    (by intro a; match a with | ⟨0, _⟩ => rfl)).trans (wrapped_apply cat b h)

theorem inRange_apply (cat : IVec S16384x1 32)
    (hcat : ∀ b : Fin 16384, (cat (ix2 b (0 : Fin 1))).toNat < 100000) (b : Fin 16384) :
    inRange cat (ix1 b) = 1#1 := by
  unfold inRange
  refine reduce_andi_ones _ ?_ _ (fun _ => rfl) _ _ _
  intro i
  obtain ⟨p, o, rfl⟩ : ∃ (p : Fin 16384) (o : Fin 1), i = ix2 p o := ⟨i 0, i 1, eq_ix2 i⟩
  show IntOp.andi (IntOp.cmpi .sge (startIdx cat (ix2 p o)) 0#32) (IntOp.cmpi .sle (startIdx cat (ix2 p o)) 99999#32) = 1#1
  rw [startIdx_apply cat p o (hcat p), sge_zero _ (hcat p), sle_last _ (hcat p)]
  decide

/-! ## The gather of table rows at an index -/

/-- Result element `(b, e)` of the gather reads the table at (the start index of row `b`, read signed and clamped
    to `0 … 99999`; `e`): axis 0 is collapsed and named by the start index map, axis 1 is the one offset axis. -/
theorem gather_rows_apply {α : Type} (tab : S100000x50.Idx → α) (idx : IVec S16384x1 32) (b : Fin 16384) (e : Fin 50)
    (r : Fin 100000) (hr : (idx (ix2 b (0 : Fin 1))).toInt.toNat = r.val) :
    Host.gather gather_S100000x50_S16384x1_S16384x50_1_0_n_n_0_1_150 tab idx (ix2 b e) = tab (ix2 r e) := by
  unfold Host.gather
  refine congrArg tab (funext fun a => Fin.ext ?_)
  match a with
  | ⟨0, _⟩ =>
    show gather_S100000x50_S16384x1_S16384x50_1_0_n_n_0_1_150.start (ix2 b e) idx 0
      + gather_S100000x50_S16384x1_S16384x50_1_0_n_n_0_1_150.batchCoord (ix2 b e) 0
      + gather_S100000x50_S16384x1_S16384x50_1_0_n_n_0_1_150.offCoord (ix2 b e) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x50_S16384x1_S16384x50_1_0_n_n_0_1_150.startIndexMap from
      List.mem_singleton.mpr rfl)]
    have hsi : gather_S100000x50_S16384x1_S16384x50_1_0_n_n_0_1_150.siIdx (ix2 b e)
        ⟨List.idxOf (0 : Fin 2) gather_S100000x50_S16384x1_S16384x50_1_0_n_n_0_1_150.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi, hr]
    show min r.val (100000 - 1) = r.val
    have := r.isLt
    omega
  | ⟨1, _⟩ =>
    show gather_S100000x50_S16384x1_S16384x50_1_0_n_n_0_1_150.start (ix2 b e) idx 1
      + gather_S100000x50_S16384x1_S16384x50_1_0_n_n_0_1_150.batchCoord (ix2 b e) 1
      + gather_S100000x50_S16384x1_S16384x50_1_0_n_n_0_1_150.offCoord (ix2 b e) 1 = e.val
    have h10 : ¬ (1 : Fin 2) ∈ [(0 : Fin 2)] := by decide
    rw [GatherDims.batchCoord_eq_zero _ _ _ List.not_mem_nil]
    unfold GatherDims.start
    rw [dif_neg (show ¬ (1 : Fin 2) ∈ gather_S100000x50_S16384x1_S16384x50_1_0_n_n_0_1_150.startIndexMap from h10)]
    simp only [Nat.add_zero, Nat.zero_add]
    unfold GatherDims.offCoord
    rw [dif_pos ((GatherDims.mem_sKept _ _).mpr ⟨h10, List.not_mem_nil⟩)]
    rfl

/-! ## The taken rows at an index -/

theorem taken_apply {F : FTy → Type} [FloatOps F] (cat : IVec S16384x1 32) (tab : FVec F S100000x50 .f32)
    (hcat : ∀ b : Fin 16384, (cat (ix2 b (0 : Fin 1))).toNat < 100000) (b : Fin 16384) (e : Fin 50) :
    taken cat tab (ix2 b e) = tab (ix2 (Cert.Spec.row cat b) e) := by
  unfold taken
  rw [select_apply]
  have hc : broadcastInDim S16384x50 ![0] bcast_S16384_S16384x50_0 (inRange cat) (ix2 b e) = 1#1 :=
    (broadcastInDim_apply _ _ (inRange cat) (ix2 b e) (ix1 b)
      (by intro a; match a with | ⟨0, _⟩ => rfl)).trans (inRange_apply cat hcat b)
  rw [hc, select_one]
  refine gather_rows_apply tab (startIdx cat) b e (Cert.Spec.row cat b) ?_
  rw [startIdx_apply cat b 0 (hcat b), toInt_of_lt _ (hcat b), Cert.Spec.row_val cat b (hcat b)]
  rfl

end Cert.RefSide

end
-- ==== Proof.RefValue.lean ====
/-
  The reference's two terms are the specification, index by index, on the extended reals.

  Read at `(b, h)`: the concatenation is the named table row followed by the numeric features; a contraction
  with one contracted axis is the sum over that axis of the products; the two biases are broadcast along the
  batch axis; and `z · (1 / (1 + exp (−z)))` is `z · logistic z` once the word of `1.0` is read as the number one.
  The table look-up needs the category words in range; nothing else needs a hypothesis.
-/
import proofs.«203298_g75634374082695_cont_9to1_m_1088_20_alg».proof.Proof.RefTake
import Idealize.ShloMosaic.PureOps.Ideal.Laws

noncomputable section

open scoped BigOperators

namespace Cert.RefSide

open Cert.ReferenceIdeal Idealize.ShloMosaic Idealize.ShloMosaic.ValueIdx Idealize.SL.Sem

variable [Cert.ReferenceIdeal.Facts]
open Cert.ReferenceIdeal.Facts₀ Cert.ReferenceIdeal.Facts

/-! ## The concatenation at an index -/

theorem sideBySide_apply {α : Type} (x : S16384x50.Idx → α) (n : S16384x128.Idx → α) (b : Fin 16384) (j : Fin 178) :
    concatenate S16384x178 1 [⟨S16384x50, x⟩, ⟨S16384x128, n⟩] concatenates_S16384x50_S16384x128_S16384x178_d1 (ix2 b j)
      = if h : j.val < 50 then x (ix2 b (⟨j.val, h⟩ : Fin 50))
        else n (ix2 b (⟨j.val - 50, by omega⟩ : Fin 128)) := by
  by_cases hj : j.val < 50
  · rw [dif_pos hj]
    exact concatenate_pair_apply_left (1 : Fin 2) x n _ (ix2 b j) rfl (ix2 b (⟨j.val, hj⟩ : Fin 50))
      (by intro c; match c with | ⟨0, _⟩ => rfl | ⟨1, _⟩ => rfl)
  · rw [dif_neg hj]
    exact concatenate_pair_apply_right (1 : Fin 2) x n _ (ix2 b j) rfl rfl (ix2 b (⟨j.val - 50, by omega⟩ : Fin 128))
      (by intro c hc; match c with | ⟨0, _⟩ => rfl | ⟨1, _⟩ => exact absurd (Fin.ext rfl) hc)
      (by show (j.val - 50) + 50 = j.val; omega)

/-! ## The two contractions at an index -/

theorem lhsA_0 (i : S16384x64.Idx) (q : dot_S16384x178_S178x64_S16384x64_1_0_0_1_n_n.contr.Idx) :
    (dot_S16384x178_S178x64_S16384x64_1_0_0_1_n_n.lhsIdx i q (0 : Fin S16384x178.rank)).val = (i 0).val := by
  unfold DotDims.lhsIdx
  rw [dif_neg (show ¬ (0 : Fin S16384x178.rank) ∈ dot_S16384x178_S178x64_S16384x64_1_0_0_1_n_n.lhsBatch from List.not_mem_nil),
    dif_pos (show (0 : Fin S16384x178.rank) ∈ dot_S16384x178_S178x64_S16384x64_1_0_0_1_n_n.lhsNonContracting from
      List.mem_singleton.mpr rfl)]
  rfl

theorem rhsA_1 (i : S16384x64.Idx) (q : dot_S16384x178_S178x64_S16384x64_1_0_0_1_n_n.contr.Idx) :
    (dot_S16384x178_S178x64_S16384x64_1_0_0_1_n_n.rhsIdx i q (1 : Fin S178x64.rank)).val = (i 1).val := by
  unfold DotDims.rhsIdx
  rw [dif_neg (show ¬ (1 : Fin S178x64.rank) ∈ dot_S16384x178_S178x64_S16384x64_1_0_0_1_n_n.rhsBatch from List.not_mem_nil),
    dif_pos (show (1 : Fin S178x64.rank) ∈ dot_S16384x178_S178x64_S16384x64_1_0_0_1_n_n.rhsNonContracting from
      List.mem_singleton.mpr rfl)]
  rfl

/-- The first contraction at `(b, h)`: the sum over the 178 positions of row `b` times column `h`. -/
theorem dotA_apply (x : FVec Ideal S16384x178 .f32) (W : FVec Ideal S178x64 .f32) (b : Fin 16384) (h : Fin 64) :
    Host.dotGeneral dot_S16384x178_S178x64_S16384x64_1_0_0_1_n_n none x W (ix2 b h)
      = ∑ j : Fin 178, x (ix2 b j) * W (ix2 j h) := by
  simp only [Host.dotGeneral]
  rw [Ideal.dotGeneral_apply, ← Equiv.sum_comp (contrEquiv1 dot_S16384x178_S178x64_S16384x64_1_0_0_1_n_n 178 rfl rfl).symm]
  refine Finset.sum_congr rfl fun k _ => ?_
  have hk := contrEquiv1_symm_val dot_S16384x178_S178x64_S16384x64_1_0_0_1_n_n 178 rfl rfl k
  have el : dot_S16384x178_S178x64_S16384x64_1_0_0_1_n_n.lhsIdx (ix2 b h)
      ((contrEquiv1 dot_S16384x178_S178x64_S16384x64_1_0_0_1_n_n 178 rfl rfl).symm k) = ix2 b k :=
    funext fun a => Fin.ext (by
      match a with
      | ⟨0, _⟩ => exact lhsA_0 _ _
      | ⟨1, _⟩ => exact (dot_S16384x178_S178x64_S16384x64_1_0_0_1_n_n.lhsIdx_val_of_single rfl _ _).trans hk)
  have er : dot_S16384x178_S178x64_S16384x64_1_0_0_1_n_n.rhsIdx (ix2 b h)
      ((contrEquiv1 dot_S16384x178_S178x64_S16384x64_1_0_0_1_n_n 178 rfl rfl).symm k) = ix2 k h :=
    funext fun a => Fin.ext (by
      match a with
      | ⟨0, _⟩ => exact (dot_S16384x178_S178x64_S16384x64_1_0_0_1_n_n.rhsIdx_val_of_single rfl _ _).trans hk
      | ⟨1, _⟩ => exact rhsA_1 _ _)
  rw [el, er]

theorem lhsB_0 (i : S16384x1.Idx) (q : dot_S16384x64_S64x1_S16384x1_1_0_0_1_n_n.contr.Idx) :
    (dot_S16384x64_S64x1_S16384x1_1_0_0_1_n_n.lhsIdx i q (0 : Fin S16384x64.rank)).val = (i 0).val := by
  unfold DotDims.lhsIdx
  rw [dif_neg (show ¬ (0 : Fin S16384x64.rank) ∈ dot_S16384x64_S64x1_S16384x1_1_0_0_1_n_n.lhsBatch from List.not_mem_nil),
    dif_pos (show (0 : Fin S16384x64.rank) ∈ dot_S16384x64_S64x1_S16384x1_1_0_0_1_n_n.lhsNonContracting from
      List.mem_singleton.mpr rfl)]
  rfl

theorem rhsB_1 (i : S16384x1.Idx) (q : dot_S16384x64_S64x1_S16384x1_1_0_0_1_n_n.contr.Idx) :
    (dot_S16384x64_S64x1_S16384x1_1_0_0_1_n_n.rhsIdx i q (1 : Fin S64x1.rank)).val = (i 1).val := by
  unfold DotDims.rhsIdx
  rw [dif_neg (show ¬ (1 : Fin S64x1.rank) ∈ dot_S16384x64_S64x1_S16384x1_1_0_0_1_n_n.rhsBatch from List.not_mem_nil),
    dif_pos (show (1 : Fin S64x1.rank) ∈ dot_S16384x64_S64x1_S16384x1_1_0_0_1_n_n.rhsNonContracting from
      List.mem_singleton.mpr rfl)]
  rfl

/-- The second contraction at `(b, o)`: the sum over the 64 positions of row `b` times column `o`. -/
theorem dotB_apply (x : FVec Ideal S16384x64 .f32) (W : FVec Ideal S64x1 .f32) (b : Fin 16384) (o : Fin 1) :
    Host.dotGeneral dot_S16384x64_S64x1_S16384x1_1_0_0_1_n_n none x W (ix2 b o)
      = ∑ h : Fin 64, x (ix2 b h) * W (ix2 h o) := by
  simp only [Host.dotGeneral]
  rw [Ideal.dotGeneral_apply, ← Equiv.sum_comp (contrEquiv1 dot_S16384x64_S64x1_S16384x1_1_0_0_1_n_n 64 rfl rfl).symm]
  refine Finset.sum_congr rfl fun k _ => ?_
  have hk := contrEquiv1_symm_val dot_S16384x64_S64x1_S16384x1_1_0_0_1_n_n 64 rfl rfl k
  have el : dot_S16384x64_S64x1_S16384x1_1_0_0_1_n_n.lhsIdx (ix2 b o)
      ((contrEquiv1 dot_S16384x64_S64x1_S16384x1_1_0_0_1_n_n 64 rfl rfl).symm k) = ix2 b k :=
    funext fun a => Fin.ext (by
      match a with
      | ⟨0, _⟩ => exact lhsB_0 _ _
      | ⟨1, _⟩ => exact (dot_S16384x64_S64x1_S16384x1_1_0_0_1_n_n.lhsIdx_val_of_single rfl _ _).trans hk)
  have er : dot_S16384x64_S64x1_S16384x1_1_0_0_1_n_n.rhsIdx (ix2 b o)
      ((contrEquiv1 dot_S16384x64_S64x1_S16384x1_1_0_0_1_n_n 64 rfl rfl).symm k) = ix2 k o :=
    funext fun a => Fin.ext (by
      match a with
      | ⟨0, _⟩ => exact (dot_S16384x64_S64x1_S16384x1_1_0_0_1_n_n.rhsIdx_val_of_single rfl _ _).trans hk
      | ⟨1, _⟩ => exact rhsB_1 _ _)
  rw [el, er]

/-! ## The two biases at an index -/

theorem biasA_apply {α : Type} (v : S64.Idx → α) (b : Fin 16384) (h : Fin 64) :
    broadcastInDim S16384x64 ![0, 1] bcast_S1x64_S16384x64_0_1 (broadcastInDim S1x64 ![1] bcast_S64_S1x64_1 v) (ix2 b h)
      = v (ix1 h) :=
  (broadcastInDim_apply _ _ _ (ix2 b h) (ix2 (0 : Fin 1) h)
    (by intro a; match a with | ⟨0, _⟩ => rfl | ⟨1, _⟩ => rfl)).trans
    (broadcastInDim_apply _ _ v (ix2 (0 : Fin 1) h) (ix1 h) (by intro a; match a with | ⟨0, _⟩ => rfl))

theorem biasB_apply {α : Type} (v : S1.Idx → α) (b : Fin 16384) (o : Fin 1) :
    broadcastInDim S16384x1 ![0, 1] bcast_S1x1_S16384x1_0_1 (broadcastInDim S1x1 ![1] bcast_S1_S1x1_1 v) (ix2 b o)
      = v (ix1 (0 : Fin 1)) :=
  (broadcastInDim_apply _ _ _ (ix2 b o) (ix2 (0 : Fin 1) (0 : Fin 1))
    (by intro a; match a with | ⟨0, _⟩ => rfl | ⟨1, _⟩ => rfl)).trans
    (broadcastInDim_apply _ _ v (ix2 (0 : Fin 1) (0 : Fin 1)) (ix1 (0 : Fin 1)) (by intro a; match a with | ⟨0, _⟩ => rfl))

/-! ## The terms at an index -/

/-- The host's exponential of the host's negation, at an index: `exp (−x)` on the extended reals. -/
theorem exp_neg_apply {s : Shape} (p : FVec Ideal s .f32) (i : s.Idx) :
    Host.exp (Host.negf p) i = Ideal.exp (-(p i)) := by
  show FloatOps.hostUnary .exp (FloatOps.hostNegf (p i)) = _
  rw [Ideal.hostUnary_exp_def, Ideal.hostNegf_def, Ideal.negf_def]

section
variable (cat : IVec S16384x1 32) (num : FVec Ideal S16384x128 .f32) (tab : FVec Ideal S100000x50 .f32)
  (W2 : FVec Ideal S178x64 .f32) (b2 : FVec Ideal S64 .f32) (Wout : FVec Ideal S64x1 .f32) (bout : FVec Ideal S1 .f32)
  (hcat : ∀ b : Fin 16384, (cat (ix2 b (0 : Fin 1))).toNat < 100000)
include hcat

theorem preact_apply (b : Fin 16384) (h : Fin 64) :
    preact cat num tab W2 b2 (ix2 b h) = Cert.Spec.z cat num tab W2 b2 b h := by
  unfold preact Cert.Spec.z sideBySide
  rw [addf_apply, dotA_apply, biasA_apply]
  refine congrArg (· + b2 (ix1 h)) (Finset.sum_congr rfl fun j _ => ?_)
  refine congrArg (· * W2 (ix2 j h)) ?_
  rw [sideBySide_apply]
  unfold Cert.Spec.xcat
  by_cases hj : j.val < 50
  · rw [dif_pos hj, dif_pos hj, taken_apply cat tab hcat]
  · rw [dif_neg hj, dif_neg hj]

theorem termX_apply (b : Fin 16384) (h : Fin 64) :
    termX cat num tab W2 b2 (ix2 b h) = Cert.Spec.xAt cat num tab W2 b2 b h := by
  have one : ∀ i : S16384x64.Idx,
      broadcastInDim S16384x64 ![] bcast_S_S16384x64 (constant (F := Ideal) S_ .f32 0x3F800000#32) i = 1 := fun i => by
    rw [broadcastInDim_scalar_apply, constant_apply, Ideal.ofBits_one_f32]
  unfold termX Cert.Spec.xAt
  rw [mulf_apply, hostDivf_apply, addf_apply, one, exp_neg_apply, preact_apply cat num tab W2 b2 hcat]
  rfl

theorem termOut_apply (b : Fin 16384) (o : Fin 1) :
    termOut cat num tab W2 b2 Wout bout (ix2 b o) = Cert.Spec.outAt cat num tab W2 b2 Wout bout b := by
  obtain rfl : o = 0 := Subsingleton.elim _ _
  unfold termOut Cert.Spec.outAt
  rw [addf_apply, dotB_apply, biasB_apply]
  refine congrArg (· + bout (ix1 (0 : Fin 1))) (Finset.sum_congr rfl fun h _ => ?_)
  rw [termX_apply cat num tab W2 b2 hcat]

end

/-! ## The run's terms are the specification -/

theorem resX_eq (m : (l : Loc nD τ sig) → Buf (Elt Ideal) l) (c : Dev nD)
    (hcat : ∀ b : Fin 16384,
      ((m ((c.tc : Thread nD τ).loc main_arg0) : IVec ⟨2, ![16384, 1]⟩ 32) (ix2 b (0 : Fin 1))).toNat < 100000) :
    resX m c = Cert.Spec.X (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) := by
  funext j
  obtain ⟨b, h, rfl⟩ : ∃ (b : Fin 16384) (h : Fin 64), j = ix2 b h := ⟨j 0, j 1, eq_ix2 j⟩
  exact termX_apply _ _ _ _ _ hcat b h

theorem resOut_eq (m : (l : Loc nD τ sig) → Buf (Elt Ideal) l) (c : Dev nD)
    (hcat : ∀ b : Fin 16384,
      ((m ((c.tc : Thread nD τ).loc main_arg0) : IVec ⟨2, ![16384, 1]⟩ 32) (ix2 b (0 : Fin 1))).toNat < 100000) :
    resOut m c = Cert.Spec.Out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  funext j
  obtain ⟨b, o, rfl⟩ : ∃ (b : Fin 16384) (o : Fin 1), j = ix2 b o := ⟨j 0, j 1, eq_ix2 j⟩
  exact termOut_apply _ _ _ _ _ _ _ hcat b o

end Cert.RefSide

end
-- ==== Proof.RefSpec.lean ====
/-
  The reference's run stated against the specification: when every category word is below the number of
  table rows, the two results end at the specification's arrays of the launch contents of the arguments,
  and the arguments end unchanged.
-/
import proofs.«203298_g75634374082695_cont_9to1_m_1088_20_alg».proof.Proof.RefRun
import proofs.«203298_g75634374082695_cont_9to1_m_1088_20_alg».proof.Proof.RefValue

noncomputable section

namespace Cert.RefSide

open Cert.ReferenceIdeal Idealize.ShloMosaic Idealize.ShloMosaic.ValueIdx Idealize.SL.Sem

theorem run_spec (m : (l : Loc nD τ sig) → Buf (Elt Ideal) l) (g : Dev nD → PrngReg)
    (hcat : ∀ (c : Dev nD) (b : Fin 16384),
      ((m ((c.tc : Thread nD τ).loc main_arg0) : IVec ⟨2, ![16384, 1]⟩ 32) (ix2 b (0 : Fin 1))).toNat < 100000) :
    θ_run (defs (F := Ideal)) (onTc (τ := τ) (main (F := Ideal))) ⟨m, fun _ => 0, g⟩ (fun r => ∀ c : Dev nD,
      r.2.mem ((c.tc : Thread nD τ).loc main_v13)
        = Cert.Spec.X (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_v17)
        = Cert.Spec.Out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
      ⟨(h c).1.trans (resX_eq m c (hcat c)), (h c).2.1.trans (resOut_eq m c (hcat c)), (h c).2.2⟩)
    (run (F := Ideal) m g)

end Cert.RefSide

end
-- ==== Proof.TileViews.lean ====
/-
  The arrays and slices one gather task touches, as the program spells them, and where they sit in the whole arrays:
  the task's row of the transposed table (one row, squeezed), the two halves of its row of the output (8192 columns
  each, squeezed), the two halves of the index vector; the scratch buffers; and the subcore's scoped storage with the
  task's three buffers and nine DMA semaphores set apart.
-/
import Idealize.ShloMosaic.Lib.SparseCore.Launch
import Idealize.ShloMosaic.Lib.SparseCore.Ops
import Idealize.ShloMosaic.Lib.Pipeline.Kit
import Idealize.ShloMosaic.Lib.Tactic
import proofs.«203298_g75634374082695_cont_9to1_m_1088_20_alg».proof.Proof.Gen.KernelIdeal
import proofs.«203298_g75634374082695_cont_9to1_m_1088_20_alg».proof.Proof.Gen.KernelIdeal.Skeleton
import proofs.«203298_g75634374082695_cont_9to1_m_1088_20_alg».proof.Proof.KSpec
import proofs.«203298_g75634374082695_cont_9to1_m_1088_20_alg».proof.Proof.TileIface

noncomputable section

namespace Cert.KernelIdeal.Tile

open Cert.KernelIdeal Cert.KernelIdeal.Gen Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

/-- The task's scratch buffers: the table row, half of the index vector, half of the gathered row. -/
abbrev rowS : Memref sig .scVector .vmem S100000 .f32 := Memref.whole cc0_scratch0
abbrev idxS : Memref sig .scVector .vmem S8192 .i32 := Memref.whole cc0_scratch1
abbrev outS : Memref sig .scVector .vmem S8192 .f32 := Memref.whole cc0_scratch2

/-- The task's thread. -/
abbrev thr (d : Dev nD) (L : grid0.Coords) : Thread nD τ := V d (cV L) (jV L)

/-! ## The slices -/

/-- One row of the transposed table at offsets `o`, squeezed to a vector; -/
abbrev tabRow (o : Fin 2 → ℕ) (inb : ∀ a, o a + S1x100000.size a ≤ S50x100000.size a) : Memref sig .scVector .hbm S100000 .f32 :=
  ((tabV : Memref sig .scVector .hbm S50x100000 .f32).slice (Rect.unit (s := S50x100000) o S1x100000.size inb) (fun _ => rfl)).squeeze S100000 squeezes_S1x100000_S100000
/-- 8192 columns of one row of the output at offsets `o`, squeezed to a vector; -/
abbrev outHalf (o : Fin 2 → ℕ) (inb : ∀ a, o a + S1x8192.size a ≤ S50x16384.size a) : Memref sig .scVector .hbm S8192 .f32 :=
  ((outV : Memref sig .scVector .hbm S50x16384 .f32).slice (Rect.unit (s := S50x16384) o S1x8192.size inb) (fun _ => rfl)).squeeze S8192 squeezes_S1x8192_S8192
/-- 8192 entries of the index vector at offset `o`. -/
abbrev idxHalf (o : Fin 1 → ℕ) (inb : ∀ a, o a + S8192.size a ≤ S16384.size a) : Memref sig .scVector .hbm S8192 .i32 :=
  (idxV : Memref sig .scVector .hbm S16384 .i32).slice (Rect.unit (s := S16384) o S8192.size inb) (fun _ => rfl)

theorem unit_eq {s : Shape} {off off' size size' : Fin s.rank → ℕ} {inb inb'} (ho : off = off') (hs : size = size') :
    Rect.unit (s := s) off size inb = Rect.unit off' size' inb' := by
  subst ho hs; rfl

/-- Row `f` of the transposed table is the unit rectangle of one row at offset `(f, 0)`. -/
theorem row1_eq (f : Fin 50) (o : Fin 2 → ℕ) (ho : o = ![f.val, 0]) (inb) :
    Rect.unit (s := S50x100000) o S1x100000.size inb = row1 f := by
  subst ho
  refine unit_eq (funext fun a => ?_) (funext fun a => ?_)
  · fin_cases a
    · exact (Nat.mul_one f.val).symm
    · exact (Nat.zero_mul _).symm
  · fin_cases a <;> rfl

/-- Row `f` of the output is its two halves: the unit rectangles of 8192 columns at offsets `(f, 0)` and `(f, 8192)`. -/
theorem row2_halves (f : Fin 50) (o0 o1 : Fin 2 → ℕ) (h0 : o0 = ![f.val, 0]) (h1 : o1 = ![f.val, 8192]) (inb0 inb1) :
    (row2 f).set = (Rect.unit (s := S50x16384) o0 S1x8192.size inb0).set ∪ (Rect.unit (s := S50x16384) o1 S1x8192.size inb1).set
      ∧ Disjoint (Rect.unit (s := S50x16384) o0 S1x8192.size inb0).set (Rect.unit (s := S50x16384) o1 S1x8192.size inb1).set := by
  subst h0 h1
  refine ⟨?_, Rect.unit_disjoint (1 : Fin 2) (Or.inl (by show (0 : ℕ) + 8192 ≤ 8192; omega))⟩
  ext i
  simp only [Finset.mem_union, Rect.mem_set_unit, Fin.forall_fin_two]
  have h1 := (i 1).isLt
  show ((Shape.partIx S50x16384 0 f.val 0 * Shape.partSize S50x16384 0 50 0 ≤ (i 0).val ∧ (i 0).val < Shape.partIx S50x16384 0 f.val 0 * Shape.partSize S50x16384 0 50 0 + Shape.partSize S50x16384 0 50 0)
      ∧ (Shape.partIx S50x16384 0 f.val 1 * Shape.partSize S50x16384 0 50 1 ≤ (i 1).val ∧ (i 1).val < Shape.partIx S50x16384 0 f.val 1 * Shape.partSize S50x16384 0 50 1 + Shape.partSize S50x16384 0 50 1))
    ↔ ((f.val ≤ (i 0).val ∧ (i 0).val < f.val + 1) ∧ (0 ≤ (i 1).val ∧ (i 1).val < 0 + 8192))
      ∨ ((f.val ≤ (i 0).val ∧ (i 0).val < f.val + 1) ∧ (8192 ≤ (i 1).val ∧ (i 1).val < 8192 + 8192))
  have e00 : Shape.partIx S50x16384 0 f.val 0 = f.val := rfl
  have e01 : Shape.partIx S50x16384 0 f.val 1 = 0 := rfl
  have s0 : Shape.partSize S50x16384 0 50 0 = 1 := rfl
  have s1 : Shape.partSize S50x16384 0 50 1 = 16384 := rfl
  rw [e00, e01, s0, s1]
  have : (i 1).val < 16384 := h1
  omega

/-- The table-row slice holds exactly row `f`'s elements. -/
theorem set_tabRow (f : Fin 50) (o : Fin 2 → ℕ) (ho : o = ![f.val, 0]) (inb) : (tabRow o inb).view.set = rowSet1 f := by
  show (((tabV : Memref sig .scVector .hbm S50x100000 .f32).view.slice (Rect.unit (s := S50x100000) o S1x100000.size inb)).reshape S100000 _).set = _
  rw [View.set_reshape]
  show ((View.whole main_v1_scv : View sig .scVector .hbm S50x100000 .f32).slice (Rect.unit (s := S50x100000) o S1x100000.size inb)).set
    = ((View.whole main_v1_scv : View sig .scVector .hbm S50x100000 .f32).slice (row1 f)).set
  rw [View.set_slice_whole, View.set_slice_whole, row1_eq f o ho inb]

/-- An output half-row slice holds exactly its rectangle's elements. -/
theorem set_outHalf (o : Fin 2 → ℕ) (inb) : (outHalf o inb).view.set = (Rect.unit (s := S50x16384) o S1x8192.size inb).set := by
  show (((outV : Memref sig .scVector .hbm S50x16384 .f32).view.slice (Rect.unit (s := S50x16384) o S1x8192.size inb)).reshape S8192 _).set = _
  rw [View.set_reshape]
  exact View.set_slice_whole _ _

/-- Row `f` of the output is the two half-row slices' elements, -/
theorem rowSet2_eq (f : Fin 50) (o0 o1 : Fin 2 → ℕ) (h0 : o0 = ![f.val, 0]) (h1 : o1 = ![f.val, 8192]) (inb0 inb1) :
    rowSet2 f = (outHalf o0 inb0).view.set ∪ (outHalf o1 inb1).view.set := by
  rw [set_outHalf, set_outHalf, ← (row2_halves f o0 o1 h0 h1 inb0 inb1).1]
  exact View.set_slice_whole _ _
/-- which are disjoint. -/
theorem outHalf_disjoint (f : Fin 50) (o0 o1 : Fin 2 → ℕ) (h0 : o0 = ![f.val, 0]) (h1 : o1 = ![f.val, 8192]) (inb0 inb1) :
    Disjoint (outHalf o0 inb0).view.set (outHalf o1 inb1).view.set := by
  rw [set_outHalf, set_outHalf]
  exact (row2_halves f o0 o1 h0 h1 inb0 inb1).2

/-- Position `y` of an output half-row slice sits at the slice's offsets plus `(0, y)`. -/
theorem emb_outHalf (o : Fin 2 → ℕ) (inb) (y : S8192.Idx) :
    (outHalf o inb).view.emb y
      = (ix2 (⟨o 0, by have := inb 0; show o 0 < 50; have : S1x8192.size 0 = 1 := rfl; have : S50x16384.size 0 = 50 := rfl; omega⟩ : Fin 50)
            (⟨o 1 + (y 0).val, by have := inb 1; have h1 : S1x8192.size 1 = 8192 := rfl; have h2 : S50x16384.size 1 = 16384 := rfl; have hy : (y 0).val < 8192 := (y 0).isLt; show o 1 + (y 0).val < 16384; omega⟩ : Fin 16384) : S50x16384.Idx) := by
  show (outV : Memref sig .scVector .hbm S50x16384 .f32).view.emb ((Rect.unit (s := S50x16384) o S1x8192.size inb).emb (Shape.reshapeEquiv _ y)) = _
  rw [Shape.reshapeEquiv_cons_one]
  funext a
  refine Fin.ext ?_
  fin_cases a
  · show o 0 + 1 * 0 = o 0; omega
  · show o 1 + 1 * (y 0).val = o 1 + (y 0).val; omega

/-- Position `z` of the table-row slice sits at the slice's offsets plus `(0, z)`. -/
theorem emb_tabRow (o : Fin 2 → ℕ) (inb) (z : S100000.Idx) :
    (tabRow o inb).view.emb z
      = (ix2 (⟨o 0, by have := inb 0; show o 0 < 50; have : S1x100000.size 0 = 1 := rfl; have : S50x100000.size 0 = 50 := rfl; omega⟩ : Fin 50)
            (⟨o 1 + (z 0).val, by have := inb 1; have h1 : S1x100000.size 1 = 100000 := rfl; have h2 : S50x100000.size 1 = 100000 := rfl; have hz : (z 0).val < 100000 := (z 0).isLt; show o 1 + (z 0).val < 100000; omega⟩ : Fin 100000) : S50x100000.Idx) := by
  show (tabV : Memref sig .scVector .hbm S50x100000 .f32).view.emb ((Rect.unit (s := S50x100000) o S1x100000.size inb).emb (Shape.reshapeEquiv _ z)) = _
  rw [Shape.reshapeEquiv_cons_one]
  funext a
  refine Fin.ext ?_
  fin_cases a
  · show o 0 + 1 * 0 = o 0; omega
  · show o 1 + 1 * (z 0).val = o 1 + (z 0).val; omega

/-- Position `y` of a half of the index vector sits at the half's offset plus `y`. -/
theorem emb_idxHalf (o : Fin 1 → ℕ) (inb) (y : S8192.Idx) :
    (idxHalf o inb).view.emb y
      = (ix1 (⟨o 0 + (y 0).val, by have := inb 0; have h1 : S8192.size 0 = 8192 := rfl; have h2 : S16384.size 0 = 16384 := rfl; have hy : (y 0).val < 8192 := (y 0).isLt; show o 0 + (y 0).val < 16384; omega⟩ : Fin 16384) : S16384.Idx) := by
  show (idxV : Memref sig .scVector .hbm S16384 .i32).view.emb ((Rect.unit (s := S16384) o S8192.size inb).emb y) = _
  refine funext fun (a : Fin 1) => Fin.ext ?_
  have ha : a = 0 := Subsingleton.elim _ _
  subst ha
  show o 0 + 1 * (y 0).val = o 0 + (y 0).val; omega

variable (d : Dev nD)

/-! ## The task's scoped storage: its three scratch buffers and nine DMA semaphores among the subcore's own -/

/-- The semaphores the task's copies complete on. -/
def semsL : List (SemLoc sig) :=
  [.dma cc0_scratch3.sem, .dma cc0_scoped0.sem, .dma cc0_scoped1.sem, .dma cc0_scoped2.sem, .dma cc0_scoped3.sem,
    .dma cc0_scoped4.sem, .dma cc0_scoped5.sem, .dma cc0_scoped6.sem, .dma cc0_scoped7.sem]

theorem semsL_nodup : (semsL).Nodup := by decide

/-- As cells of a thread. -/
def cellsL (t : Thread nD τ) : List (GSem nD τ sig) := semsL.map fun sm => (t, sm)

theorem cellsL_nodup (t : Thread nD τ) : (cellsL t).Nodup :=
  semsL_nodup.map fun _ _ h => (Prod.mk.inj h).2

theorem ownSems0_V9 (c : Fin τ.nSC) (i : Fin τ.nSub) :
    (ownSems0 (V d c i) : sProp 𝕄)
      = iprop((semVal (V d c i, SemLoc.dma cc0_scratch3.sem) 0 ∗ semVal (V d c i, SemLoc.dma cc0_scoped0.sem) 0
          ∗ semVal (V d c i, SemLoc.dma cc0_scoped1.sem) 0 ∗ semVal (V d c i, SemLoc.dma cc0_scoped2.sem) 0
          ∗ semVal (V d c i, SemLoc.dma cc0_scoped3.sem) 0 ∗ semVal (V d c i, SemLoc.dma cc0_scoped4.sem) 0
          ∗ semVal (V d c i, SemLoc.dma cc0_scoped5.sem) 0 ∗ semVal (V d c i, SemLoc.dma cc0_scoped6.sem) 0
          ∗ semVal (V d c i, SemLoc.dma cc0_scoped7.sem) 0)
          ∗ bigSep (ownCells (V d c i) \ (cellsL (V d c i)).toFinset) fun g => semVal g 0) := by
  unfold SparseCore.Cfg.ownSems0
  have hsub : (cellsL (V d c i)).toFinset ⊆ ownCells (sig := sig) (V d c i) := by
    intro g hg
    rw [List.mem_toFinset] at hg
    obtain ⟨sm, hsm, rfl⟩ := List.mem_map.mp hg
    refine mem_ownCells.mpr ⟨rfl, ?_⟩
    have : ∀ sm ∈ semsL, (sm : SemLoc sig).isScoped .scVector = true := by decide
    exact this sm hsm
  rw [SparseCore.bigSep_sdiff_split' hsub, Idealize.SL.BI.bigSep_eq_bigSepL _ (cellsL_nodup _)]
  simp only [cellsL, semsL, List.map, Idealize.SL.BI.bigSepL_cons_cons, Idealize.SL.BI.bigSepL_singleton]
  rfl

/-- The scratch buffers, as buffers of a vector subcore. -/
def refsL (c : Fin τ.nSC) (i : Fin τ.nSub) : List (DevRef τ sig) :=
  [(Proc.scVector c i).devRef cc0_scratch0, (Proc.scVector c i).devRef cc0_scratch1, (Proc.scVector c i).devRef cc0_scratch2]

theorem refsL_nodup (c : Fin τ.nSC) (i : Fin τ.nSub) : (refsL c i).Nodup := by
  have h : ([cc0_scratch0, cc0_scratch1, cc0_scratch2] : List (Ref sig .scVector)).Nodup := by decide
  exact h.map (Proc.devRef_injective (Proc.scVector c i))

theorem ownBufs_V3 (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f))
          ∗ bigSep (ownRefs (τ := τ) (.scVector c i) \ (refsL c i).toFinset) fun b => iprop(∃ f, ((d, b) : Loc nD τ sig) ↦{fullShare} f)) := by
  unfold SparseCore.Cfg.ownBufs
  have hsub : (refsL c i).toFinset ⊆ ownRefs (sig := sig) (τ := τ) (.scVector c i) := by
    intro b hb
    rw [List.mem_toFinset] at hb
    simp only [refsL, List.mem_cons, List.not_mem_nil, or_false] at hb
    rcases hb with rfl | rfl | rfl <;> exact SparseCore.Cfg.mem_ownRefs_of_owner rfl
  refine (SparseCore.bigSep_sdiff_split' hsub).trans ?_
  rw [Idealize.SL.BI.bigSep_eq_bigSepL _ (refsL_nodup c i)]
  simp only [refsL, Idealize.SL.BI.bigSepL_cons_cons, Idealize.SL.BI.bigSepL_singleton]
  rfl

end Cert.KernelIdeal.Tile

end
-- ==== Proof.TileLoop.lean ====
/-
  What one counted loop of the gather leaves in the output scratch, without the program: the eight stores of a trip
  written as a list of pieces, and the value each piece carries.

  Trip `k` stores sixteen words at each of the offsets `128 k + 16 j` (`j < 8`); the word stored at position `y` is the
  row scratch's word at the index the index scratch holds at `y`. So after trip `k` every position below `128 (k + 1)`
  holds that word, whatever the scratch held before.
-/
import Idealize.ShloMosaic.Lib.Writes
import Idealize.ShloMosaic.Lib.ValueIdx
import Mathlib.Tactic.IntervalCases
import proofs.«203298_g75634374082695_cont_9to1_m_1088_20_alg».proof.KernelIdeal

noncomputable section

namespace Cert.KernelIdeal.Tile

open Cert.KernelIdeal
open Idealize.ShloMosaic
open Idealize.ShloMosaic.ValueIdx (ix1 ix2)

variable {F : FTy → Type}

/-- Sixteen index words below the row's length are what a gather load asks of its index vector. -/
theorem chk_of {v : IVec S16 32} (h : ∀ x, (v x).toNat < 100000) :
    ∀ a x, ((![v] : Fin 1 → IVec S16 32) a x).toNat < S100000.size a := by
  intro a x
  have ha : a = 0 := Subsingleton.elim _ _
  subst ha
  exact h x

/-- The word the gather puts at position `y`: the row's word at the index held at `y` (reduced below the row's length, so
    that the function is total; an index in range is not changed). -/
def gat (rd : S100000.Idx → Elt F .f32) (ix : S8192.Idx → BitVec 32) (y : S8192.Idx) : Elt F .f32 :=
  rd (ix1 (⟨(ix y).toNat % 100000, Nat.mod_lt _ (by decide)⟩ : Fin 100000))

section
variable {sg : RefSig} {κ κ' : Kind} (rv : View sg κ .vmem S100000 .f32) (iv : View sg κ' .vmem S8192 .i32)
  (R : rv.ty.Contents (Elt F)) (I : iv.ty.Contents (Elt F))

/-- A gather load's lane `x`, the index vector loaded at an offset, is `gat` at the position a store at the same offset
    puts lane `x`. -/
theorem pay_eq (hI : ∀ y, (iv.read (Elt F) I y).toNat < 100000) (off off' : Fin 1 → ℕ) (inb inb') (e : off = off')
    (h : ∀ a x, ((![iv.readAt (Elt F) (Rect.unit (s := S8192) off S16.size inb).toLoadRect I] : Fin 1 → IVec S16 32) a x).toNat < S100000.size a)
    (x : S16.Idx) :
    loadIdx (rv.readAt (Elt F) (LoadRect.whole S100000) R) ![iv.readAt (Elt F) (Rect.unit (s := S8192) off S16.size inb).toLoadRect I] h x
      = gat (rv.read (Elt F) R) (iv.read (Elt F) I) ((Rect.unit (s := S8192) off' S16.size inb').emb x) := by
  subst e
  unfold loadIdx gat
  rw [View.readAt_apply]
  refine congrArg _ (funext fun a => Fin.ext ?_)
  have ha : a = 0 := Subsingleton.elim _ _
  subst ha
  show 0 + 1 * ((iv.read (Elt F) I ((Rect.unit (s := S8192) off S16.size inb).toLoadRect.idx x)).toNat) = _
  rw [Nat.zero_add, Nat.one_mul]
  exact (Nat.mod_eq_of_lt (hI _)).symm
end

section Trip
variable {sg : RefSig} {κ : Kind} {sp : Space} {e : EltTy} {Val : EltTy → Type} (v : View sg κ sp S8192 e)

/-- One trip's stores: if every piece is sixteen consecutive positions inside the trip's window of 128, the pieces between
    them start at every multiple of sixteen of the window, and each carries `G`, then contents that were `G` below the
    window are `G` below the next one. -/
theorem writes_trip (f : v.ty.Contents Val) (G : S8192.Idx → Val e) (k : ℕ) (L : List (View.Piece Val S8192 e))
    (hL : ∀ p ∈ L, p.1.stride 0 = 1 ∧ p.1.size 0 = 16 ∧ 128 * k ≤ p.1.off 0 ∧ p.1.off 0 + 16 ≤ 128 * (k + 1))
    (hcov : ∀ j, j < 8 → ∃ p ∈ L, p.1.off 0 = 128 * k + 16 * j)
    (hG : ∀ p ∈ L, ∀ x : p.1.shape.Idx, p.2 x = G (p.1.emb x))
    (hf : ∀ y : S8192.Idx, (y 0).val < 128 * k → v.read Val f y = G y) :
    ∀ y : S8192.Idx, (y 0).val < 128 * (k + 1) → v.read Val (v.writes Val f L) y = G y := by
  intro y hy
  by_cases hlt : (y 0).val < 128 * k
  · rw [View.read_writes_apply_of_forall_not_mem v f y L, hf y hlt]
    intro p hp hm
    obtain ⟨hs, hz, hlo, -⟩ := hL p hp
    obtain ⟨j, -, hj⟩ := (p.1.mem_set.mp hm) 0
    rw [hs] at hj
    omega
  · refine View.read_writes_apply_of_pieces v f G L hG y ?_
    obtain ⟨p, hp, hoff⟩ := hcov (((y 0).val - 128 * k) / 16) (by omega)
    obtain ⟨hs, hz, -, -⟩ := hL p hp
    refine ⟨p, hp, p.1.mem_set.mpr fun a => ?_⟩
    have ha : a = 0 := Subsingleton.elim _ _
    subst ha
    refine ⟨((y 0).val - 128 * k) % 16, ?_, ?_⟩
    · rw [hz]; exact Nat.mod_lt _ (by decide)
    · rw [hs, hoff]; omega

/-- A piece at offset `128 k + 16 j` (`j < 8`) lies inside trip `k`'s window. -/
theorem win {k j : ℕ} {o : Fin 1 → ℕ} (h : o = ![128 * k + 16 * j]) (hj : j < 8) : 128 * k ≤ o 0 ∧ o 0 + 16 ≤ 128 * (k + 1) := by
  subst h
  show 128 * k ≤ 128 * k + 16 * j ∧ 128 * k + 16 * j + 16 ≤ 128 * (k + 1)
  omega

/-- A property of each of eight listed things is a property of every member of the list. -/
theorem forall_mem_list8 {α : Type} {P : α → Prop} {a7 a6 a5 a4 a3 a2 a1 a0 : α}
    (h7 : P a7) (h6 : P a6) (h5 : P a5) (h4 : P a4) (h3 : P a3) (h2 : P a2) (h1 : P a1) (h0 : P a0) :
    ∀ p ∈ [a7, a6, a5, a4, a3, a2, a1, a0], P p := by
  simp only [List.mem_cons, List.not_mem_nil, or_false, forall_eq_or_imp, forall_eq]
  exact ⟨h7, h6, h5, h4, h3, h2, h1, h0⟩

/-- Eight listed things, the `j`-th with property `Q j`: for every `j < 8` some member has `Q j`. -/
theorem cov8 {α : Type} {Q : ℕ → α → Prop} {a7 a6 a5 a4 a3 a2 a1 a0 : α}
    (h0 : Q 0 a0) (h1 : Q 1 a1) (h2 : Q 2 a2) (h3 : Q 3 a3) (h4 : Q 4 a4) (h5 : Q 5 a5) (h6 : Q 6 a6) (h7 : Q 7 a7) :
    ∀ j, j < 8 → ∃ p ∈ [a7, a6, a5, a4, a3, a2, a1, a0], Q j p := by
  intro j hj
  interval_cases j
  · exact ⟨a0, by simp, h0⟩
  · exact ⟨a1, by simp, h1⟩
  · exact ⟨a2, by simp, h2⟩
  · exact ⟨a3, by simp, h3⟩
  · exact ⟨a4, by simp, h4⟩
  · exact ⟨a5, by simp, h5⟩
  · exact ⟨a6, by simp, h6⟩
  · exact ⟨a7, by simp, h7⟩
end Trip

end Cert.KernelIdeal.Tile

end
-- ==== Proof.TileTrips.lean ====
/-
  The four counted loops of the gather (two halves of the index vector, two passes), one trip each at a symbolic trip
  number: from the output scratch gathered below position `128 k` to gathered below `128 (k + 1)`. Each trip is run once;
  its eight stores are read off as a list of pieces and the list is handed to the lemma about one trip's stores.
-/
import proofs.«203298_g75634374082695_cont_9to1_m_1088_20_alg».proof.Proof.TileViews
import proofs.«203298_g75634374082695_cont_9to1_m_1088_20_alg».proof.Proof.TileLoop

noncomputable section

namespace Cert.KernelIdeal.Tile

open Cert.KernelIdeal Cert.KernelIdeal.Gen Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

variable [FloatOps F]
variable (d : Dev nD) (L : grid0.Coords)

/-- What a gather loop holds before trip `k`: the row scratch reading `rd`, the index scratch reading `ix`, the output
    scratch gathered below position `128 k`. -/
def linv (rd : S100000.Idx → Elt F .f32) (ix : S8192.Idx → BitVec 32) (k : ℕ) (_ : Unit) : sProp 𝕄 :=
  iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k → (outS).view.read (Elt F) f y = gat rd ix y⌝)

theorem offs_t1 (k : Fin k0_t1_loop.trips) :
    (k0_off2 k = ![128 * k.val + 16 * 0] ∧ k0_off3 k 0#32 = ![128 * k.val + 16 * 0])
    ∧ (k0_off3 k 1#32 = ![128 * k.val + 16 * 1] ∧ k0_off4 k 1#32 = ![128 * k.val + 16 * 1])
    ∧ (k0_off4 k 2#32 = ![128 * k.val + 16 * 2] ∧ k0_off5 k 2#32 = ![128 * k.val + 16 * 2])
    ∧ (k0_off5 k 3#32 = ![128 * k.val + 16 * 3] ∧ k0_off6 k 3#32 = ![128 * k.val + 16 * 3])
    ∧ (k0_off6 k 4#32 = ![128 * k.val + 16 * 4] ∧ k0_off7 k 4#32 = ![128 * k.val + 16 * 4])
    ∧ (k0_off7 k 5#32 = ![128 * k.val + 16 * 5] ∧ k0_off8 k 5#32 = ![128 * k.val + 16 * 5])
    ∧ (k0_off8 k 6#32 = ![128 * k.val + 16 * 6] ∧ k0_off9 k 6#32 = ![128 * k.val + 16 * 6])
    ∧ (k0_off9 k 7#32 = ![128 * k.val + 16 * 7] ∧ k0_off10 k = ![128 * k.val + 16 * 7]) := by
  have c : ∀ {a b : ℕ}, a = b → (![a] : Fin 1 → ℕ) = ![b] := fun h => congrArg (fun n : ℕ => (![n] : Fin 1 → ℕ)) h
  refine ⟨⟨(k0_off2_eq k).trans (c (by omega)), (k0_off3_eq k ⟨0, by decide⟩).trans (c (by simp))⟩,
    ⟨(k0_off3_eq k ⟨1, by decide⟩).trans (c (by simp)), (k0_off4_eq k ⟨0, by decide⟩).trans (c (by simp))⟩,
    ⟨(k0_off4_eq k ⟨1, by decide⟩).trans (c (by simp)), (k0_off5_eq k ⟨0, by decide⟩).trans (c (by simp))⟩,
    ⟨(k0_off5_eq k ⟨1, by decide⟩).trans (c (by simp)), (k0_off6_eq k ⟨0, by decide⟩).trans (c (by simp))⟩,
    ⟨(k0_off6_eq k ⟨1, by decide⟩).trans (c (by simp)), (k0_off7_eq k ⟨0, by decide⟩).trans (c (by simp))⟩,
    ⟨(k0_off7_eq k ⟨1, by decide⟩).trans (c (by simp)), (k0_off8_eq k ⟨0, by decide⟩).trans (c (by simp))⟩,
    ⟨(k0_off8_eq k ⟨1, by decide⟩).trans (c (by simp)), (k0_off9_eq k ⟨0, by decide⟩).trans (c (by simp))⟩,
    ⟨(k0_off9_eq k ⟨1, by decide⟩).trans (c (by simp)), (k0_off10_eq k).trans (c (by omega))⟩⟩

theorem trip_t1 (k0_h1 : k0_cond1 L = 1#1) (k : Fin k0_t1_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t1_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t1 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t1_body k0_part1
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t2 (k : Fin k0_t2_loop.trips) :
    (k0_off12 k = ![128 * k.val + 16 * 0] ∧ k0_off13 k 0#32 = ![128 * k.val + 16 * 0])
    ∧ (k0_off13 k 1#32 = ![128 * k.val + 16 * 1] ∧ k0_off14 k 1#32 = ![128 * k.val + 16 * 1])
    ∧ (k0_off14 k 2#32 = ![128 * k.val + 16 * 2] ∧ k0_off15 k 2#32 = ![128 * k.val + 16 * 2])
    ∧ (k0_off15 k 3#32 = ![128 * k.val + 16 * 3] ∧ k0_off16 k 3#32 = ![128 * k.val + 16 * 3])
    ∧ (k0_off16 k 4#32 = ![128 * k.val + 16 * 4] ∧ k0_off17 k 4#32 = ![128 * k.val + 16 * 4])
    ∧ (k0_off17 k 5#32 = ![128 * k.val + 16 * 5] ∧ k0_off18 k 5#32 = ![128 * k.val + 16 * 5])
    ∧ (k0_off18 k 6#32 = ![128 * k.val + 16 * 6] ∧ k0_off19 k 6#32 = ![128 * k.val + 16 * 6])
    ∧ (k0_off19 k 7#32 = ![128 * k.val + 16 * 7] ∧ k0_off20 k = ![128 * k.val + 16 * 7]) := by
  have c : ∀ {a b : ℕ}, a = b → (![a] : Fin 1 → ℕ) = ![b] := fun h => congrArg (fun n : ℕ => (![n] : Fin 1 → ℕ)) h
  refine ⟨⟨(k0_off12_eq k).trans (c (by omega)), (k0_off13_eq k ⟨0, by decide⟩).trans (c (by simp))⟩,
    ⟨(k0_off13_eq k ⟨1, by decide⟩).trans (c (by simp)), (k0_off14_eq k ⟨0, by decide⟩).trans (c (by simp))⟩,
    ⟨(k0_off14_eq k ⟨1, by decide⟩).trans (c (by simp)), (k0_off15_eq k ⟨0, by decide⟩).trans (c (by simp))⟩,
    ⟨(k0_off15_eq k ⟨1, by decide⟩).trans (c (by simp)), (k0_off16_eq k ⟨0, by decide⟩).trans (c (by simp))⟩,
    ⟨(k0_off16_eq k ⟨1, by decide⟩).trans (c (by simp)), (k0_off17_eq k ⟨0, by decide⟩).trans (c (by simp))⟩,
    ⟨(k0_off17_eq k ⟨1, by decide⟩).trans (c (by simp)), (k0_off18_eq k ⟨0, by decide⟩).trans (c (by simp))⟩,
    ⟨(k0_off18_eq k ⟨1, by decide⟩).trans (c (by simp)), (k0_off19_eq k ⟨0, by decide⟩).trans (c (by simp))⟩,
    ⟨(k0_off19_eq k ⟨1, by decide⟩).trans (c (by simp)), (k0_off20_eq k).trans (c (by omega))⟩⟩

theorem trip_t2 (k0_h1 : k0_cond1 L = 1#1) (c0 c1 : BitVec 32) (k : Fin k0_t2_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t2_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h1 c0 c1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t2 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t2_body k0_part2
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t3 (k : Fin k0_t3_loop.trips) :
    (k0_off23 k = ![128 * k.val + 16 * 0] ∧ k0_off24 k 0#32 = ![128 * k.val + 16 * 0])
    ∧ (k0_off24 k 1#32 = ![128 * k.val + 16 * 1] ∧ k0_off25 k 1#32 = ![128 * k.val + 16 * 1])
    ∧ (k0_off25 k 2#32 = ![128 * k.val + 16 * 2] ∧ k0_off26 k 2#32 = ![128 * k.val + 16 * 2])
    ∧ (k0_off26 k 3#32 = ![128 * k.val + 16 * 3] ∧ k0_off27 k 3#32 = ![128 * k.val + 16 * 3])
    ∧ (k0_off27 k 4#32 = ![128 * k.val + 16 * 4] ∧ k0_off28 k 4#32 = ![128 * k.val + 16 * 4])
    ∧ (k0_off28 k 5#32 = ![128 * k.val + 16 * 5] ∧ k0_off29 k 5#32 = ![128 * k.val + 16 * 5])
    ∧ (k0_off29 k 6#32 = ![128 * k.val + 16 * 6] ∧ k0_off30 k 6#32 = ![128 * k.val + 16 * 6])
    ∧ (k0_off30 k 7#32 = ![128 * k.val + 16 * 7] ∧ k0_off31 k = ![128 * k.val + 16 * 7]) := by
  have c : ∀ {a b : ℕ}, a = b → (![a] : Fin 1 → ℕ) = ![b] := fun h => congrArg (fun n : ℕ => (![n] : Fin 1 → ℕ)) h
  refine ⟨⟨(k0_off23_eq k).trans (c (by omega)), (k0_off24_eq k ⟨0, by decide⟩).trans (c (by simp))⟩,
    ⟨(k0_off24_eq k ⟨1, by decide⟩).trans (c (by simp)), (k0_off25_eq k ⟨0, by decide⟩).trans (c (by simp))⟩,
    ⟨(k0_off25_eq k ⟨1, by decide⟩).trans (c (by simp)), (k0_off26_eq k ⟨0, by decide⟩).trans (c (by simp))⟩,
    ⟨(k0_off26_eq k ⟨1, by decide⟩).trans (c (by simp)), (k0_off27_eq k ⟨0, by decide⟩).trans (c (by simp))⟩,
    ⟨(k0_off27_eq k ⟨1, by decide⟩).trans (c (by simp)), (k0_off28_eq k ⟨0, by decide⟩).trans (c (by simp))⟩,
    ⟨(k0_off28_eq k ⟨1, by decide⟩).trans (c (by simp)), (k0_off29_eq k ⟨0, by decide⟩).trans (c (by simp))⟩,
    ⟨(k0_off29_eq k ⟨1, by decide⟩).trans (c (by simp)), (k0_off30_eq k ⟨0, by decide⟩).trans (c (by simp))⟩,
    ⟨(k0_off30_eq k ⟨1, by decide⟩).trans (c (by simp)), (k0_off31_eq k).trans (c (by omega))⟩⟩

theorem trip_t3 (k0_h2 : k0_cond2 L = 1#1) (k : Fin k0_t3_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t3_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h2 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t3 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t3_body k0_part4
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t4 (k : Fin k0_t4_loop.trips) :
    (k0_off33 k = ![128 * k.val + 16 * 0] ∧ k0_off34 k 0#32 = ![128 * k.val + 16 * 0])
    ∧ (k0_off34 k 1#32 = ![128 * k.val + 16 * 1] ∧ k0_off35 k 1#32 = ![128 * k.val + 16 * 1])
    ∧ (k0_off35 k 2#32 = ![128 * k.val + 16 * 2] ∧ k0_off36 k 2#32 = ![128 * k.val + 16 * 2])
    ∧ (k0_off36 k 3#32 = ![128 * k.val + 16 * 3] ∧ k0_off37 k 3#32 = ![128 * k.val + 16 * 3])
    ∧ (k0_off37 k 4#32 = ![128 * k.val + 16 * 4] ∧ k0_off38 k 4#32 = ![128 * k.val + 16 * 4])
    ∧ (k0_off38 k 5#32 = ![128 * k.val + 16 * 5] ∧ k0_off39 k 5#32 = ![128 * k.val + 16 * 5])
    ∧ (k0_off39 k 6#32 = ![128 * k.val + 16 * 6] ∧ k0_off40 k 6#32 = ![128 * k.val + 16 * 6])
    ∧ (k0_off40 k 7#32 = ![128 * k.val + 16 * 7] ∧ k0_off41 k = ![128 * k.val + 16 * 7]) := by
  have c : ∀ {a b : ℕ}, a = b → (![a] : Fin 1 → ℕ) = ![b] := fun h => congrArg (fun n : ℕ => (![n] : Fin 1 → ℕ)) h
  refine ⟨⟨(k0_off33_eq k).trans (c (by omega)), (k0_off34_eq k ⟨0, by decide⟩).trans (c (by simp))⟩,
    ⟨(k0_off34_eq k ⟨1, by decide⟩).trans (c (by simp)), (k0_off35_eq k ⟨0, by decide⟩).trans (c (by simp))⟩,
    ⟨(k0_off35_eq k ⟨1, by decide⟩).trans (c (by simp)), (k0_off36_eq k ⟨0, by decide⟩).trans (c (by simp))⟩,
    ⟨(k0_off36_eq k ⟨1, by decide⟩).trans (c (by simp)), (k0_off37_eq k ⟨0, by decide⟩).trans (c (by simp))⟩,
    ⟨(k0_off37_eq k ⟨1, by decide⟩).trans (c (by simp)), (k0_off38_eq k ⟨0, by decide⟩).trans (c (by simp))⟩,
    ⟨(k0_off38_eq k ⟨1, by decide⟩).trans (c (by simp)), (k0_off39_eq k ⟨0, by decide⟩).trans (c (by simp))⟩,
    ⟨(k0_off39_eq k ⟨1, by decide⟩).trans (c (by simp)), (k0_off40_eq k ⟨0, by decide⟩).trans (c (by simp))⟩,
    ⟨(k0_off40_eq k ⟨1, by decide⟩).trans (c (by simp)), (k0_off41_eq k).trans (c (by omega))⟩⟩

theorem trip_t4 (k0_h2 : k0_cond2 L = 1#1) (c0 c1 : BitVec 32) (k : Fin k0_t4_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t4_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h2 c0 c1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t4 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t4_body k0_part5
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

end Cert.KernelIdeal.Tile

end
-- ==== Proof.TileValue.lean ====
/-
  What a finished half row holds: the copy of the gathered scratch into a half-row slice of the output leaves, at every
  element of the slice, the one function `gathered` of the two arrays read.
-/
import proofs.«203298_g75634374082695_cont_9to1_m_1088_20_alg».proof.Proof.TileViews
import proofs.«203298_g75634374082695_cont_9to1_m_1088_20_alg».proof.Proof.TileLoop

noncomputable section

namespace Cert.KernelIdeal.Tile

open Cert.KernelIdeal Cert.KernelIdeal.Gen Cert.KernelIdeal.Launch
open Idealize.ShloMosaic
open Idealize.ShloMosaic.ValueIdx (ix1 ix2)

variable {F : FTy → Type}
variable (V0 : (d : Dev nD) → Buf (Elt F) (v0Loc d)) (V1 : (d : Dev nD) → Buf (Elt F) (v1Loc d)) (d : Dev nD)

/-- Every index word a half of the index vector reads is in range when every word of the vector is. -/
theorem idxHalf_lt (hidx : ∀ b : Fin 16384, ((V0 d : IVec S16384 32) (ix1 b)).toNat < 100000)
    (oi : Fin 1 → ℕ) (inbi : ∀ a, oi a + S8192.size a ≤ S16384.size a) (y : S8192.Idx) :
    (((idxHalf oi inbi).view.read (Elt F) (V0 d) y : BitVec 32)).toNat < 100000 := by
  have hr : ((idxHalf oi inbi).view.read (Elt F) (V0 d) y : BitVec 32)
      = (V0 d : IVec S16384 32) ((idxHalf oi inbi).view.emb y) := rfl
  rw [hr, emb_idxHalf]
  exact hidx _

/-- The same at an element of the half row's rectangle, the element given by its coordinates: position `y` of the slice
    sits at column `8192 · hh + y` of row `f`; there the copy put the table row's entry at the index word held at that
    column, which is what the gathered array holds. -/
theorem half_val_at (f : Fin 50) (hh : Fin 2)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g : Buf (Elt F) (v2Loc d)) (i : S50x16384.Idx) (hi : i ∈ (Rect.unit (s := S50x16384) o2 S1x8192.size inb2).set) :
    View.write (Elt F) (outHalf o2 inb2).view g
        (gat ((tabRow o1 inb1).view.read (Elt F) (V1 d)) ((idxHalf oi inbi).view.read (Elt F) (V0 d))) Finset.univ i
      = gathered V0 V1 d i := by
  obtain ⟨p, q, rfl⟩ : ∃ (p : Fin 50) (q : Fin 16384), i = ix2 p q := ⟨i 0, i 1, ValueIdx.eq_ix2 i⟩
  have hm := Rect.mem_set_unit.mp hi
  subst ho1 ho2 hoi
  have h0 : f.val ≤ p.val ∧ p.val < f.val + 1 := hm 0
  have h1 : 8192 * hh.val ≤ q.val ∧ q.val < 8192 * hh.val + 8192 := hm 1
  obtain rfl : p = f := Fin.ext (by omega)
  have hq := q.isLt
  -- the slice position of column `q`
  let y : S8192.Idx := ix1 (⟨q.val - 8192 * hh.val, by omega⟩ : Fin 8192)
  have hemb : (outHalf ![p.val, 8192 * hh.val] inb2).view.emb y = ix2 p q := by
    rw [emb_outHalf]
    funext a
    refine Fin.ext ?_
    match a with
    | ⟨0, _⟩ => rfl
    | ⟨1, _⟩ => show 8192 * hh.val + (q.val - 8192 * hh.val) = q.val; omega
  have hw := View.write_emb_of_mem (v := (outHalf ![p.val, 8192 * hh.val] inb2).view) (Val := Elt F) g
    (gat ((tabRow ![p.val, 0] inb1).view.read (Elt F) (V1 d)) ((idxHalf ![8192 * hh.val] inbi).view.read (Elt F) (V0 d)))
    (Finset.mem_univ y)
  rw [hemb] at hw
  refine hw.trans ?_
  show gat ((tabRow ![p.val, 0] inb1).view.read (Elt F) (V1 d)) ((idxHalf ![8192 * hh.val] inbi).view.read (Elt F) (V0 d)) y
    = gathered V0 V1 d (ix2 p q)
  -- the index word read at position `y` is the word at column `q`
  have hword : ((idxHalf ![8192 * hh.val] inbi).view.read (Elt F) (V0 d) y : BitVec 32) = (V0 d : IVec S16384 32) (ix1 q) := by
    have hr : ((idxHalf ![8192 * hh.val] inbi).view.read (Elt F) (V0 d) y : BitVec 32)
        = (V0 d : IVec S16384 32) ((idxHalf ![8192 * hh.val] inbi).view.emb y) := rfl
    rw [hr, emb_idxHalf]
    refine congrArg (V0 d : IVec S16384 32) (funext fun a => Fin.ext ?_)
    match a with
    | ⟨0, _⟩ => show 8192 * hh.val + (q.val - 8192 * hh.val) = q.val; omega
  unfold gat
  -- the table row read at a position is the table at (row `p`, that position)
  have hrow : ∀ z : S100000.Idx, (tabRow ![p.val, 0] inb1).view.read (Elt F) (V1 d) z
      = (V1 d : (⟨2, ![50, 100000]⟩ : Shape).Idx → Elt F .f32) ((tabRow ![p.val, 0] inb1).view.emb z) := fun _ => rfl
  rw [hrow, emb_tabRow]
  unfold gathered Cert.KSpec.embT Cert.KSpec.col
  refine congrArg (V1 d : (⟨2, ![50, 100000]⟩ : Shape).Idx → Elt F .f32) (funext fun a => Fin.ext ?_)
  match a with
  | ⟨0, _⟩ => rfl
  | ⟨1, _⟩ => exact (Nat.zero_add _).trans (congrArg (fun w : BitVec 32 => w.toNat % 100000) hword)

/-- The half-row copy's contents at the slice's elements. `f` is the row, `hh` the half; the offsets are the printed ones,
    known in closed form. -/
theorem half_val (hidx : ∀ b : Fin 16384, ((V0 d : IVec S16384 32) (ix1 b)).toNat < 100000) (f : Fin 50) (hh : Fin 2)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g : Buf (Elt F) (v2Loc d)) :
    ∀ i ∈ (outHalf o2 inb2).view.set,
      View.write (Elt F) (outHalf o2 inb2).view g
          (gat ((tabRow o1 inb1).view.read (Elt F) (V1 d)) ((idxHalf oi inbi).view.read (Elt F) (V0 d))) Finset.univ i
        = gathered V0 V1 d i := by
  intro i hi
  rw [set_outHalf] at hi
  exact half_val_at V0 V1 d f hh o1 ho1 inb1 o2 ho2 inb2 oi hoi inbi g i hi

end Cert.KernelIdeal.Tile

end
-- ==== Proof.TileBody.lean ====
/-
  One vector subcore's task of the gather kernel, at a symbolic device and grid coordinate.

  The task (worker `w = 2 · subcore + core`) makes up to two passes, for rows `w` and `32 + w` (the second only when
  `32 + w < 50`). A pass copies its row of the transposed table into the row scratch — the only copy on that semaphore,
  waited for before the row scratch is read —, then for each half of the index vector copies the half into the index
  scratch, runs the counted loop that gathers the row at those indices into the output scratch (64 trips of eight
  sixteen-word chunks, each index vector checked in range from the fact that every index word is), and copies the
  output scratch to that half of its output row. Every copy but the row's completes on a semaphore of its own and is
  waited for at once. At the end each output row holds, at column `b`, the table row's word at the index `idx b`: the
  one array `gathered`; the read shares, the scratch buffers (at some contents) and the semaphores (at zero) go back.
-/
import proofs.«203298_g75634374082695_cont_9to1_m_1088_20_alg».proof.Proof.TileViews
import proofs.«203298_g75634374082695_cont_9to1_m_1088_20_alg».proof.Proof.TileLoop
import proofs.«203298_g75634374082695_cont_9to1_m_1088_20_alg».proof.Proof.TileTrips
import proofs.«203298_g75634374082695_cont_9to1_m_1088_20_alg».proof.Proof.TileValue

noncomputable section

namespace Cert.KernelIdeal.Tile

open Cert.KernelIdeal Cert.KernelIdeal.Gen Cert.KernelIdeal.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

/-- The first pass runs on every subcore; the second where the second row exists. -/
theorem cond1_all : ∀ L : grid0.Coords, k0_cond1 L = 1#1 := by decide +kernel
theorem cond2_iff : ∀ L : grid0.Coords, (k0_cond2 L = 1#1 ↔ 32 + (wid (cL L) (sL L)).val < 50) := by decide +kernel

variable [FloatOps F]
variable (V0 : (d : Dev nD) → Buf (Elt F) (v0Loc d)) (V1 : (d : Dev nD) → Buf (Elt F) (v1Loc d)) (d : Dev nD) (L : grid0.Coords)

/-! ## The arrays as the task's memrefs address them -/

theorem pts_idx (q : PosShare TreeShare) (f : Buf (Elt F) (v0Loc d)) :
    (((idxV).view.loc (thr d L) ↦{q} f : sProp 𝕄)) = (v0Loc d ↦{q} f) := rfl
theorem pts_tab (o : Fin 2 → ℕ) (inb) (S : Finset (Idx (v1Loc d))) (q : PosShare TreeShare) (f : Buf (Elt F) (v1Loc d)) :
    (((tabRow o inb).view.loc (thr d L) ↦[S]{q} f : sProp 𝕄)) = (v1Loc d ↦[S]{q} f) := rfl
theorem pts_out (o : Fin 2 → ℕ) (inb) (S : Finset (Idx (v2Loc d))) (q : PosShare TreeShare) (f : Buf (Elt F) (v2Loc d)) :
    (((outHalf o inb).view.loc (thr d L) ↦[S]{q} f : sProp 𝕄)) = (v2Loc d ↦[S]{q} f) := rfl
theorem pts_rowS (f : Buf (Elt F) ((thr d L).loc cc0_scratch0)) :
    (((rowS).view.loc (thr d L) ↦{fullShare} f : sProp 𝕄)) = ((thr d L).loc cc0_scratch0 ↦{fullShare} f) := rfl
theorem pts_idxS (f : Buf (Elt F) ((thr d L).loc cc0_scratch1)) :
    (((idxS).view.loc (thr d L) ↦{fullShare} f : sProp 𝕄)) = ((thr d L).loc cc0_scratch1 ↦{fullShare} f) := rfl
theorem pts_outS (f : Buf (Elt F) ((thr d L).loc cc0_scratch2)) :
    (((outS).view.loc (thr d L) ↦{fullShare} f : sProp 𝕄)) = ((thr d L).loc cc0_scratch2 ↦{fullShare} f) := rfl

theorem trips_t1 : k0_t1_loop.trips = 64 := by decide
theorem trips_t2 : k0_t2_loop.trips = 64 := by decide
theorem trips_t3 : k0_t3_loop.trips = 64 := by decide
theorem trips_t4 : k0_t4_loop.trips = 64 := by decide

/-- A gathered scratch copied out: the half-row slice, written whole with what the scratch reads, holds the gathered
    values. -/
theorem out_done (hidx : ∀ b : Fin 16384, ((V0 d : IVec S16384 32) (ix1 b)).toNat < 100000) (hh : Fin 2) (f : Fin 50)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g0 : Buf (Elt F) (v2Loc d)) (fS : Buf (Elt F) ((thr d L).loc cc0_scratch2))
    (hfS : ∀ y : S8192.Idx, (outS).view.read (Elt F) fS y
      = gat ((tabRow o1 inb1).view.read (Elt F) (V1 d)) ((idxHalf oi inbi).view.read (Elt F) (V0 d)) y) :
    (((outHalf o2 inb2).view.loc (thr d L) ↦[(outHalf o2 inb2).view.set]{fullShare}
        ((outHalf o2 inb2).view.writes (Elt F) g0 [⟨Rect.whole S8192, ReadAs.same.apply ((outS).view.read (Elt F) fS)⟩]) : sProp 𝕄))
      = (v2Loc d ↦[(outHalf o2 inb2).view.set]{fullShare} gathered V0 V1 d) := by
  have hX : (outS).view.read (Elt F) fS
      = gat ((tabRow o1 inb1).view.read (Elt F) (V1 d)) ((idxHalf oi inbi).view.read (Elt F) (V0 d)) := funext hfS
  show (((outHalf o2 inb2).view.loc (thr d L) ↦[(outHalf o2 inb2).view.set]{fullShare}
        ((outHalf o2 inb2).view.writes (Elt F) g0 [⟨Rect.whole S8192, (outS).view.read (Elt F) fS⟩]) : sProp 𝕄)) = _
  rw [hX, ← View.write_univ_eq_writes_whole (outHalf o2 inb2).view g0 [] _]
  exact pointsTo_congr fun i hi => half_val V0 V1 d hidx f hh o1 ho1 inb1 o2 ho2 inb2 oi hoi inbi g0 i hi

/-- A wait at index `none` recorded on top of admissible waits leaves them admissible. -/
theorem waits_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 4000000 in
/-- The task, as the launch asks it. -/
theorem tile_core : TileCore (F := F) V0 V1 := by
  unfold TileCore
  intro d L O W hO hidx
  have k0_h1 : k0_cond1 L = 1#1 := cond1_all L
  have ho1 : k0_off1 L = ![(f0 (cL L) (sL L)).val, 0] := k0_off1_eq L
  have ho11 : k0_off11 L = ![(f0 (cL L) (sL L)).val, 0] := k0_off11_eq L
  have ho21 : k0_off21 L = ![(f0 (cL L) (sL L)).val, 8192] := k0_off21_eq L
  generalize hg : gatherAt (F := F) L = prog
  unfold gatherAt at hg
  simp only [cc0__gather_body_eq_skeleton] at hg
  unfold cc0__gather_body_skel at hg
  simp only [k0_part3_eq_skeleton, k0_part6_eq_skeleton] at hg
  unfold k0_part3_skel k0_part6_skel at hg
  subst hg
  unfold tileGo tileTd rowIn rowOut idxTok
  rw [(K (F := F)).scopedBufs_V kfacts d (cV L) (jV L), SparseCore.Cfg.scopedSems0_V (Val := Elt F) d (cV L) (jV L),
    ownSems0_V9, ownBufs_V3]
  rw [rowSet2_eq (f0 (cL L) (sL L)) _ _ ho11 ho21 (k0_off11_inb L k0_h1) (k0_off21_inb L k0_h1),
    ← set_tabRow (f0 (cL L) (sL L)) _ ho1 (k0_off1_inb L k0_h1)]
  by_cases hc2 : 32 + (wid (cL L) (sL L)).val < 50
  · have k0_h2 : k0_cond2 L = 1#1 := (cond2_iff L).mpr hc2
    have hw : (wid (cL L) (sL L)).val = 2 * (L 1).val + (L 0).val := rfl
    have hf2 : 2 * (L 1).val + (L 0).val + 32 = (⟨32 + (wid (cL L) (sL L)).val, hc2⟩ : Fin 50).val := by show _ = 32 + (wid (cL L) (sL L)).val; rw [hw]; omega
    have ho22 : k0_off22 L = ![(⟨32 + (wid (cL L) (sL L)).val, hc2⟩ : Fin 50).val, 0] := (k0_off22_eq L).trans (congrArg (fun n : ℕ => (![n, 0] : Fin 2 → ℕ)) hf2)
    have ho32 : k0_off32 L = ![(⟨32 + (wid (cL L) (sL L)).val, hc2⟩ : Fin 50).val, 0] := (k0_off32_eq L).trans (congrArg (fun n : ℕ => (![n, 0] : Fin 2 → ℕ)) hf2)
    have ho42 : k0_off42 L = ![(⟨32 + (wid (cL L) (sL L)).val, hc2⟩ : Fin 50).val, 8192] := (k0_off42_eq L).trans (congrArg (fun n : ℕ => (![n, 8192] : Fin 2 → ℕ)) hf2)
    rw [dif_pos hc2]
    try rw [dif_pos hc2]
    rw [rowSet2_eq (⟨32 + (wid (cL L) (sL L)).val, hc2⟩ : Fin 50) _ _ ho32 ho42 (k0_off32_inb L k0_h2) (k0_off42_inb L k0_h2),
      ← set_tabRow (⟨32 + (wid (cL L) (sL L)).val, hc2⟩ : Fin 50) _ ho22 (k0_off22_inb L k0_h2)]
    iintro ⟨#Hlv, -, ⟨Htok, ⟨Hrow, %g, Hout⟩, ⟨Hrow2, %g2, Hout2⟩⟩, ⟨⟨⟨%fR, HR⟩, ⟨%fI, HI⟩, ⟨%fO, Hf⟩⟩, Hbufs⟩, ⟨⟨Hs3, Hc0, Hc1, Hc2, Hc3, Hc4, Hc5, Hc6, Hc7⟩, Hsems⟩, HO⟩
    ihave Hmw := ((K (F := F)).mayWaits_none (thr := thr d L) hO) $$ Hlv
    ihave Htok' := (Entails.of_eq (pts_idx (F := F) d L _ _).symm) $$ Htok
    ihave Hrow' := (Entails.of_eq (pts_tab (F := F) d L _ (k0_off1_inb L k0_h1) _ _ _).symm) $$ Hrow
    ihave Hout' := (pointsTo_union (outHalf_disjoint (f0 (cL L) (sL L)) _ _ ho11 ho21 (k0_off11_inb L k0_h1) (k0_off21_inb L k0_h1))).1 $$ Hout
    icases Hout' with ⟨Ho0, Ho1⟩
    ihave Ho0' := (Entails.of_eq (pts_out (F := F) d L _ (k0_off11_inb L k0_h1) _ _ _).symm) $$ Ho0
    ihave Ho1' := (Entails.of_eq (pts_out (F := F) d L _ (k0_off21_inb L k0_h1) _ _ _).symm) $$ Ho1
    ihave HR' := (Entails.of_eq (pts_rowS (F := F) d L _).symm) $$ HR
    ihave HI' := (Entails.of_eq (pts_idxS (F := F) d L _).symm) $$ HI
    ihave Hf' := (Entails.of_eq (pts_outS (F := F) d L _).symm) $$ Hf
    sl_exec
    rw [Prog.bind_assoc]
    sl_for (linv (F := F) d L ((tabRow (k0_off1 L) (k0_off1_inb L k0_h1)).view.read (Elt F) (V1 d))
        ((idxHalf ![0] inb_S16384_S8192_0).view.read (Elt F) (V0 d))) $$ [HR' HI' Hf']
    case region =>
      intro k _
      exact trip_t1 d L k0_h1 k _ _ (idxHalf_lt V0 d hidx _ _)
    · unfold linv
      iexists _, _, _
      isplitl [HR']; · iexact HR'
      isplitl [HI']; · iexact HI'
      isplitl [Hf']; · iexact Hf'
      ipureintro
      exact ⟨View.read_write_univ _ _, View.read_write_univ _ _, fun y hy => absurd hy (by omega)⟩
    iintro %_ Hinv
    unfold linv
    icases Hinv with ⟨%R1, %I1, %f1, HR1, HI1, Hf1, %h1⟩
    sl_exec
    sl_for (linv (F := F) d L ((tabRow (k0_off1 L) (k0_off1_inb L k0_h1)).view.read (Elt F) (V1 d))
        ((idxHalf ![8192] inb_S16384_S8192_8192).view.read (Elt F) (V0 d))) $$ [HR1 HI1 Hf1]
    case region =>
      intro k _
      exact trip_t2 d L k0_h1 _ _ k _ _ (idxHalf_lt V0 d hidx _ _)
    · unfold linv
      iexists _, _, _
      isplitl [HR1]; · iexact HR1
      isplitl [HI1]; · iexact HI1
      isplitl [Hf1]; · iexact Hf1
      ipureintro
      exact ⟨h1.1, View.read_write_univ _ _, fun y hy => absurd hy (by omega)⟩
    iintro %_ Hinv
    unfold linv
    icases Hinv with ⟨%R2, %I2, %f2, HR2, HI2, Hf2, %h2⟩
    sl_exec
    ihave Hrow2' := (Entails.of_eq (pts_tab (F := F) d L _ (k0_off22_inb L k0_h2) _ _ _).symm) $$ Hrow2
    ihave Hout2' := (pointsTo_union (outHalf_disjoint (⟨32 + (wid (cL L) (sL L)).val, hc2⟩ : Fin 50) _ _ ho32 ho42 (k0_off32_inb L k0_h2) (k0_off42_inb L k0_h2))).1 $$ Hout2
    icases Hout2' with ⟨Hp0, Hp1⟩
    ihave Hp0' := (Entails.of_eq (pts_out (F := F) d L _ (k0_off32_inb L k0_h2) _ _ _).symm) $$ Hp0
    ihave Hp1' := (Entails.of_eq (pts_out (F := F) d L _ (k0_off42_inb L k0_h2) _ _ _).symm) $$ Hp1
    sl_exec
    try rw [Prog.bind_assoc]
    sl_for (linv (F := F) d L ((tabRow (k0_off22 L) (k0_off22_inb L k0_h2)).view.read (Elt F) (V1 d))
        ((idxHalf ![0] inb_S16384_S8192_0).view.read (Elt F) (V0 d))) $$ [HR2 HI2 Hf2]
    case region =>
      intro k _
      exact trip_t3 d L k0_h2 k _ _ (idxHalf_lt V0 d hidx _ _)
    · unfold linv
      iexists _, _, _
      isplitl [HR2]; · iexact HR2
      isplitl [HI2]; · iexact HI2
      isplitl [Hf2]; · iexact Hf2
      ipureintro
      exact ⟨View.read_write_univ _ _, View.read_write_univ _ _, fun y hy => absurd hy (by omega)⟩
    iintro %_ Hinv
    unfold linv
    icases Hinv with ⟨%R3, %I3, %f3, HR3, HI3, Hf3, %h3⟩
    sl_exec
    sl_for (linv (F := F) d L ((tabRow (k0_off22 L) (k0_off22_inb L k0_h2)).view.read (Elt F) (V1 d))
        ((idxHalf ![8192] inb_S16384_S8192_8192).view.read (Elt F) (V0 d))) $$ [HR3 HI3 Hf3]
    case region =>
      intro k _
      exact trip_t4 d L k0_h2 _ _ k _ _ (idxHalf_lt V0 d hidx _ _)
    · unfold linv
      iexists _, _, _
      isplitl [HR3]; · iexact HR3
      isplitl [HI3]; · iexact HI3
      isplitl [Hf3]; · iexact Hf3
      ipureintro
      exact ⟨h3.1, View.read_write_univ _ _, fun y hy => absurd hy (by omega)⟩
    iintro %_ Hinv
    unfold linv
    icases Hinv with ⟨%R4, %I4, %f4, HR4, HI4, Hf4, %h4⟩
    sl_exec
    sl_step
    sl_unfold_run_names
    ihave Ho0g := (Entails.of_eq (out_done V0 V1 d L hidx 0 (f0 (cL L) (sL L)) _ ho1 (k0_off1_inb L k0_h1) _ ho11 (k0_off11_inb L k0_h1)
      ![0] rfl inb_S16384_S8192_0 _ f1 (fun y => h1.2.2 y (Nat.lt_of_lt_of_le (y 0).isLt (by decide))))) $$ Ho0'
    ihave Ho1g := (Entails.of_eq (out_done V0 V1 d L hidx 1 (f0 (cL L) (sL L)) _ ho1 (k0_off1_inb L k0_h1) _ ho21 (k0_off21_inb L k0_h1)
      ![8192] rfl inb_S16384_S8192_8192 _ f2 (fun y => h2.2.2 y (Nat.lt_of_lt_of_le (y 0).isLt (by decide))))) $$ Ho1'
    ihave Hog := (pointsTo_union (ℓ := v2Loc d) (q := fullShare) (f := gathered V0 V1 d) (outHalf_disjoint (f0 (cL L) (sL L)) _ _ ho11 ho21 (k0_off11_inb L k0_h1) (k0_off21_inb L k0_h1))).2 $$ [Ho0g Ho1g]
    · isplitl [Ho0g]; · iexact Ho0g
      iexact Ho1g
    ihave Hp0g := (Entails.of_eq (out_done V0 V1 d L hidx 0 (⟨32 + (wid (cL L) (sL L)).val, hc2⟩ : Fin 50) _ ho22 (k0_off22_inb L k0_h2) _ ho32 (k0_off32_inb L k0_h2)
      ![0] rfl inb_S16384_S8192_0 _ f3 (fun y => h3.2.2 y (Nat.lt_of_lt_of_le (y 0).isLt (by decide))))) $$ Hp0'
    ihave Hp1g := (Entails.of_eq (out_done V0 V1 d L hidx 1 (⟨32 + (wid (cL L) (sL L)).val, hc2⟩ : Fin 50) _ ho22 (k0_off22_inb L k0_h2) _ ho42 (k0_off42_inb L k0_h2)
      ![8192] rfl inb_S16384_S8192_8192 _ f4 (fun y => h4.2.2 y (Nat.lt_of_lt_of_le (y 0).isLt (by decide))))) $$ Hp1'
    ihave Hpg := (pointsTo_union (ℓ := v2Loc d) (q := fullShare) (f := gathered V0 V1 d) (outHalf_disjoint (⟨32 + (wid (cL L) (sL L)).val, hc2⟩ : Fin 50) _ _ ho32 ho42 (k0_off32_inb L k0_h2) (k0_off42_inb L k0_h2))).2 $$ [Hp0g Hp1g]
    · isplitl [Hp0g]; · iexact Hp0g
      iexact Hp1g
    isplitl [Htok' Hrow' Hog Hrow2' Hpg]
    · isplitl [Htok']; · iexact Htok'
      isplitl [Hrow' Hog]
      · isplitl [Hrow']; · iexact Hrow'
        iexact Hog
      isplitl [Hrow2']; · iexact Hrow2'
      iexact Hpg
    isplitl [HR4 HI4 Hf4 Hbufs]
    · isplitl [HR4 HI4 Hf4]
      · isplitl [HR4]; · iexists _; iexact HR4
        isplitl [HI4]; · iexists _; iexact HI4
        iexists _; iexact Hf4
      iexact Hbufs
    isplitl [Hs3 Hc0 Hc1 Hc2 Hc3 Hc4 Hc5 Hc6 Hc7 Hsems]
    · isplitl [Hs3 Hc0 Hc1 Hc2 Hc3 Hc4 Hc5 Hc6 Hc7]
      · isplitl [Hs3]; · iexact Hs3
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iexact Hsems
    iexists _; isplitr
    rotate_left
    · iexact HO
    · ipureintro
      repeat (first | exact fun p hp => Or.inl hp | refine waits_ok _ ?_)
  · have k0_h2 : ¬ k0_cond2 L = 1#1 := fun h => hc2 ((cond2_iff L).mp h)
    rw [dif_neg hc2]
    try rw [dif_neg hc2]
    iintro ⟨#Hlv, -, ⟨Htok, ⟨Hrow, %g, Hout⟩, HX2⟩, ⟨⟨⟨%fR, HR⟩, ⟨%fI, HI⟩, ⟨%fO, Hf⟩⟩, Hbufs⟩, ⟨⟨Hs3, Hc0, Hc1, Hc2, Hc3, Hc4, Hc5, Hc6, Hc7⟩, Hsems⟩, HO⟩
    ihave Hmw := ((K (F := F)).mayWaits_none (thr := thr d L) hO) $$ Hlv
    ihave Htok' := (Entails.of_eq (pts_idx (F := F) d L _ _).symm) $$ Htok
    ihave Hrow' := (Entails.of_eq (pts_tab (F := F) d L _ (k0_off1_inb L k0_h1) _ _ _).symm) $$ Hrow
    ihave Hout' := (pointsTo_union (outHalf_disjoint (f0 (cL L) (sL L)) _ _ ho11 ho21 (k0_off11_inb L k0_h1) (k0_off21_inb L k0_h1))).1 $$ Hout
    icases Hout' with ⟨Ho0, Ho1⟩
    ihave Ho0' := (Entails.of_eq (pts_out (F := F) d L _ (k0_off11_inb L k0_h1) _ _ _).symm) $$ Ho0
    ihave Ho1' := (Entails.of_eq (pts_out (F := F) d L _ (k0_off21_inb L k0_h1) _ _ _).symm) $$ Ho1
    ihave HR' := (Entails.of_eq (pts_rowS (F := F) d L _).symm) $$ HR
    ihave HI' := (Entails.of_eq (pts_idxS (F := F) d L _).symm) $$ HI
    ihave Hf' := (Entails.of_eq (pts_outS (F := F) d L _).symm) $$ Hf
    sl_exec
    rw [Prog.bind_assoc]
    sl_for (linv (F := F) d L ((tabRow (k0_off1 L) (k0_off1_inb L k0_h1)).view.read (Elt F) (V1 d))
        ((idxHalf ![0] inb_S16384_S8192_0).view.read (Elt F) (V0 d))) $$ [HR' HI' Hf']
    case region =>
      intro k _
      exact trip_t1 d L k0_h1 k _ _ (idxHalf_lt V0 d hidx _ _)
    · unfold linv
      iexists _, _, _
      isplitl [HR']; · iexact HR'
      isplitl [HI']; · iexact HI'
      isplitl [Hf']; · iexact Hf'
      ipureintro
      exact ⟨View.read_write_univ _ _, View.read_write_univ _ _, fun y hy => absurd hy (by omega)⟩
    iintro %_ Hinv
    unfold linv
    icases Hinv with ⟨%R1, %I1, %f1, HR1, HI1, Hf1, %h1⟩
    sl_exec
    sl_for (linv (F := F) d L ((tabRow (k0_off1 L) (k0_off1_inb L k0_h1)).view.read (Elt F) (V1 d))
        ((idxHalf ![8192] inb_S16384_S8192_8192).view.read (Elt F) (V0 d))) $$ [HR1 HI1 Hf1]
    case region =>
      intro k _
      exact trip_t2 d L k0_h1 _ _ k _ _ (idxHalf_lt V0 d hidx _ _)
    · unfold linv
      iexists _, _, _
      isplitl [HR1]; · iexact HR1
      isplitl [HI1]; · iexact HI1
      isplitl [Hf1]; · iexact Hf1
      ipureintro
      exact ⟨h1.1, View.read_write_univ _ _, fun y hy => absurd hy (by omega)⟩
    iintro %_ Hinv
    unfold linv
    icases Hinv with ⟨%R2, %I2, %f2, HR2, HI2, Hf2, %h2⟩
    sl_exec
    sl_exec
    sl_step
    sl_unfold_run_names
    ihave Ho0g := (Entails.of_eq (out_done V0 V1 d L hidx 0 (f0 (cL L) (sL L)) _ ho1 (k0_off1_inb L k0_h1) _ ho11 (k0_off11_inb L k0_h1)
      ![0] rfl inb_S16384_S8192_0 _ f1 (fun y => h1.2.2 y (Nat.lt_of_lt_of_le (y 0).isLt (by decide))))) $$ Ho0'
    ihave Ho1g := (Entails.of_eq (out_done V0 V1 d L hidx 1 (f0 (cL L) (sL L)) _ ho1 (k0_off1_inb L k0_h1) _ ho21 (k0_off21_inb L k0_h1)
      ![8192] rfl inb_S16384_S8192_8192 _ f2 (fun y => h2.2.2 y (Nat.lt_of_lt_of_le (y 0).isLt (by decide))))) $$ Ho1'
    ihave Hog := (pointsTo_union (ℓ := v2Loc d) (q := fullShare) (f := gathered V0 V1 d) (outHalf_disjoint (f0 (cL L) (sL L)) _ _ ho11 ho21 (k0_off11_inb L k0_h1) (k0_off21_inb L k0_h1))).2 $$ [Ho0g Ho1g]
    · isplitl [Ho0g]; · iexact Ho0g
      iexact Ho1g
    isplitl [Htok' Hrow' Hog HX2]
    · isplitl [Htok']; · iexact Htok'
      isplitl [Hrow' Hog]
      · isplitl [Hrow']; · iexact Hrow'
        iexact Hog
      iexact HX2
    isplitl [HR2 HI2 Hf2 Hbufs]
    · isplitl [HR2 HI2 Hf2]
      · isplitl [HR2]; · iexists _; iexact HR2
        isplitl [HI2]; · iexists _; iexact HI2
        iexists _; iexact Hf2
      iexact Hbufs
    isplitl [Hs3 Hc0 Hc1 Hc2 Hc3 Hc4 Hc5 Hc6 Hc7 Hsems]
    · isplitl [Hs3 Hc0 Hc1 Hc2 Hc3 Hc4 Hc5 Hc6 Hc7]
      · isplitl [Hs3]; · iexact Hs3
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iexact Hsems
    iexists _; isplitr
    rotate_left
    · iexact HO
    · ipureintro
      repeat (first | exact fun p hp => Or.inl hp | refine waits_ok _ ?_)

/-- The same, its hypotheses as arguments. -/
theorem tile_body (hidx : ∀ b : Fin 16384, ((V0 d : IVec S16384 32) (ix1 b)).toNat < 100000)
    (O : CellTallies nD τ sig (HIx 1)) (W : Waits sig (HIx 1)) (hO : ∀ g, O g none = 0) :
    (iprop(levAts (K (F := F)).L (K (F := F)).lev ∗ emp ∗ tileGo V0 V1 d (cL L) (sL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (gatherAt (F := F) L)
          fun _ => iprop(tileTd V0 V1 d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_core V0 V1 d L O W hO hidx

end Cert.KernelIdeal.Tile

end
-- ==== Proof.TileViewsBits.lean ====
/-
  The arrays and slices one gather task touches, as the program spells them, and where they sit in the whole arrays:
  the task's row of the transposed table (one row, squeezed), the two halves of its row of the output (8192 columns
  each, squeezed), the two halves of the index vector; the scratch buffers; and the subcore's scoped storage with the
  task's three buffers and nine DMA semaphores set apart.
-/
import Idealize.ShloMosaic.Lib.SparseCore.Launch
import Idealize.ShloMosaic.Lib.SparseCore.Ops
import Idealize.ShloMosaic.Lib.Pipeline.Kit
import Idealize.ShloMosaic.Lib.Tactic
import proofs.«203298_g75634374082695_cont_9to1_m_1088_20_alg».proof.Proof.Gen.Kernel
import proofs.«203298_g75634374082695_cont_9to1_m_1088_20_alg».proof.Proof.Gen.Kernel.Skeleton
import proofs.«203298_g75634374082695_cont_9to1_m_1088_20_alg».proof.Proof.KSpec
import proofs.«203298_g75634374082695_cont_9to1_m_1088_20_alg».proof.Proof.TileIfaceBits

noncomputable section

namespace Cert.Kernel.Tile

open Cert.Kernel Cert.Kernel.Gen Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

/-- The task's scratch buffers: the table row, half of the index vector, half of the gathered row. -/
abbrev rowS : Memref sig .scVector .vmem S100000 .f32 := Memref.whole cc0_scratch0
abbrev idxS : Memref sig .scVector .vmem S8192 .i32 := Memref.whole cc0_scratch1
abbrev outS : Memref sig .scVector .vmem S8192 .f32 := Memref.whole cc0_scratch2

/-- The task's thread. -/
abbrev thr (d : Dev nD) (L : grid0.Coords) : Thread nD τ := V d (cV L) (jV L)

/-! ## The slices -/

/-- One row of the transposed table at offsets `o`, squeezed to a vector; -/
abbrev tabRow (o : Fin 2 → ℕ) (inb : ∀ a, o a + S1x100000.size a ≤ S50x100000.size a) : Memref sig .scVector .hbm S100000 .f32 :=
  ((tabV : Memref sig .scVector .hbm S50x100000 .f32).slice (Rect.unit (s := S50x100000) o S1x100000.size inb) (fun _ => rfl)).squeeze S100000 squeezes_S1x100000_S100000
/-- 8192 columns of one row of the output at offsets `o`, squeezed to a vector; -/
abbrev outHalf (o : Fin 2 → ℕ) (inb : ∀ a, o a + S1x8192.size a ≤ S50x16384.size a) : Memref sig .scVector .hbm S8192 .f32 :=
  ((outV : Memref sig .scVector .hbm S50x16384 .f32).slice (Rect.unit (s := S50x16384) o S1x8192.size inb) (fun _ => rfl)).squeeze S8192 squeezes_S1x8192_S8192
/-- 8192 entries of the index vector at offset `o`. -/
abbrev idxHalf (o : Fin 1 → ℕ) (inb : ∀ a, o a + S8192.size a ≤ S16384.size a) : Memref sig .scVector .hbm S8192 .i32 :=
  (idxV : Memref sig .scVector .hbm S16384 .i32).slice (Rect.unit (s := S16384) o S8192.size inb) (fun _ => rfl)

theorem unit_eq {s : Shape} {off off' size size' : Fin s.rank → ℕ} {inb inb'} (ho : off = off') (hs : size = size') :
    Rect.unit (s := s) off size inb = Rect.unit off' size' inb' := by
  subst ho hs; rfl

/-- Row `f` of the transposed table is the unit rectangle of one row at offset `(f, 0)`. -/
theorem row1_eq (f : Fin 50) (o : Fin 2 → ℕ) (ho : o = ![f.val, 0]) (inb) :
    Rect.unit (s := S50x100000) o S1x100000.size inb = row1 f := by
  subst ho
  refine unit_eq (funext fun a => ?_) (funext fun a => ?_)
  · fin_cases a
    · exact (Nat.mul_one f.val).symm
    · exact (Nat.zero_mul _).symm
  · fin_cases a <;> rfl

/-- Row `f` of the output is its two halves: the unit rectangles of 8192 columns at offsets `(f, 0)` and `(f, 8192)`. -/
theorem row2_halves (f : Fin 50) (o0 o1 : Fin 2 → ℕ) (h0 : o0 = ![f.val, 0]) (h1 : o1 = ![f.val, 8192]) (inb0 inb1) :
    (row2 f).set = (Rect.unit (s := S50x16384) o0 S1x8192.size inb0).set ∪ (Rect.unit (s := S50x16384) o1 S1x8192.size inb1).set
      ∧ Disjoint (Rect.unit (s := S50x16384) o0 S1x8192.size inb0).set (Rect.unit (s := S50x16384) o1 S1x8192.size inb1).set := by
  subst h0 h1
  refine ⟨?_, Rect.unit_disjoint (1 : Fin 2) (Or.inl (by show (0 : ℕ) + 8192 ≤ 8192; omega))⟩
  ext i
  simp only [Finset.mem_union, Rect.mem_set_unit, Fin.forall_fin_two]
  have h1 := (i 1).isLt
  show ((Shape.partIx S50x16384 0 f.val 0 * Shape.partSize S50x16384 0 50 0 ≤ (i 0).val ∧ (i 0).val < Shape.partIx S50x16384 0 f.val 0 * Shape.partSize S50x16384 0 50 0 + Shape.partSize S50x16384 0 50 0)
      ∧ (Shape.partIx S50x16384 0 f.val 1 * Shape.partSize S50x16384 0 50 1 ≤ (i 1).val ∧ (i 1).val < Shape.partIx S50x16384 0 f.val 1 * Shape.partSize S50x16384 0 50 1 + Shape.partSize S50x16384 0 50 1))
    ↔ ((f.val ≤ (i 0).val ∧ (i 0).val < f.val + 1) ∧ (0 ≤ (i 1).val ∧ (i 1).val < 0 + 8192))
      ∨ ((f.val ≤ (i 0).val ∧ (i 0).val < f.val + 1) ∧ (8192 ≤ (i 1).val ∧ (i 1).val < 8192 + 8192))
  have e00 : Shape.partIx S50x16384 0 f.val 0 = f.val := rfl
  have e01 : Shape.partIx S50x16384 0 f.val 1 = 0 := rfl
  have s0 : Shape.partSize S50x16384 0 50 0 = 1 := rfl
  have s1 : Shape.partSize S50x16384 0 50 1 = 16384 := rfl
  rw [e00, e01, s0, s1]
  have : (i 1).val < 16384 := h1
  omega

/-- The table-row slice holds exactly row `f`'s elements. -/
theorem set_tabRow (f : Fin 50) (o : Fin 2 → ℕ) (ho : o = ![f.val, 0]) (inb) : (tabRow o inb).view.set = rowSet1 f := by
  show (((tabV : Memref sig .scVector .hbm S50x100000 .f32).view.slice (Rect.unit (s := S50x100000) o S1x100000.size inb)).reshape S100000 _).set = _
  rw [View.set_reshape]
  show ((View.whole main_v1_scv : View sig .scVector .hbm S50x100000 .f32).slice (Rect.unit (s := S50x100000) o S1x100000.size inb)).set
    = ((View.whole main_v1_scv : View sig .scVector .hbm S50x100000 .f32).slice (row1 f)).set
  rw [View.set_slice_whole, View.set_slice_whole, row1_eq f o ho inb]

/-- An output half-row slice holds exactly its rectangle's elements. -/
theorem set_outHalf (o : Fin 2 → ℕ) (inb) : (outHalf o inb).view.set = (Rect.unit (s := S50x16384) o S1x8192.size inb).set := by
  show (((outV : Memref sig .scVector .hbm S50x16384 .f32).view.slice (Rect.unit (s := S50x16384) o S1x8192.size inb)).reshape S8192 _).set = _
  rw [View.set_reshape]
  exact View.set_slice_whole _ _

/-- Row `f` of the output is the two half-row slices' elements, -/
theorem rowSet2_eq (f : Fin 50) (o0 o1 : Fin 2 → ℕ) (h0 : o0 = ![f.val, 0]) (h1 : o1 = ![f.val, 8192]) (inb0 inb1) :
    rowSet2 f = (outHalf o0 inb0).view.set ∪ (outHalf o1 inb1).view.set := by
  rw [set_outHalf, set_outHalf, ← (row2_halves f o0 o1 h0 h1 inb0 inb1).1]
  exact View.set_slice_whole _ _
/-- which are disjoint. -/
theorem outHalf_disjoint (f : Fin 50) (o0 o1 : Fin 2 → ℕ) (h0 : o0 = ![f.val, 0]) (h1 : o1 = ![f.val, 8192]) (inb0 inb1) :
    Disjoint (outHalf o0 inb0).view.set (outHalf o1 inb1).view.set := by
  rw [set_outHalf, set_outHalf]
  exact (row2_halves f o0 o1 h0 h1 inb0 inb1).2

/-- Position `y` of an output half-row slice sits at the slice's offsets plus `(0, y)`. -/
theorem emb_outHalf (o : Fin 2 → ℕ) (inb) (y : S8192.Idx) :
    (outHalf o inb).view.emb y
      = (ix2 (⟨o 0, by have := inb 0; show o 0 < 50; have : S1x8192.size 0 = 1 := rfl; have : S50x16384.size 0 = 50 := rfl; omega⟩ : Fin 50)
            (⟨o 1 + (y 0).val, by have := inb 1; have h1 : S1x8192.size 1 = 8192 := rfl; have h2 : S50x16384.size 1 = 16384 := rfl; have hy : (y 0).val < 8192 := (y 0).isLt; show o 1 + (y 0).val < 16384; omega⟩ : Fin 16384) : S50x16384.Idx) := by
  show (outV : Memref sig .scVector .hbm S50x16384 .f32).view.emb ((Rect.unit (s := S50x16384) o S1x8192.size inb).emb (Shape.reshapeEquiv _ y)) = _
  rw [Shape.reshapeEquiv_cons_one]
  funext a
  refine Fin.ext ?_
  fin_cases a
  · show o 0 + 1 * 0 = o 0; omega
  · show o 1 + 1 * (y 0).val = o 1 + (y 0).val; omega

/-- Position `z` of the table-row slice sits at the slice's offsets plus `(0, z)`. -/
theorem emb_tabRow (o : Fin 2 → ℕ) (inb) (z : S100000.Idx) :
    (tabRow o inb).view.emb z
      = (ix2 (⟨o 0, by have := inb 0; show o 0 < 50; have : S1x100000.size 0 = 1 := rfl; have : S50x100000.size 0 = 50 := rfl; omega⟩ : Fin 50)
            (⟨o 1 + (z 0).val, by have := inb 1; have h1 : S1x100000.size 1 = 100000 := rfl; have h2 : S50x100000.size 1 = 100000 := rfl; have hz : (z 0).val < 100000 := (z 0).isLt; show o 1 + (z 0).val < 100000; omega⟩ : Fin 100000) : S50x100000.Idx) := by
  show (tabV : Memref sig .scVector .hbm S50x100000 .f32).view.emb ((Rect.unit (s := S50x100000) o S1x100000.size inb).emb (Shape.reshapeEquiv _ z)) = _
  rw [Shape.reshapeEquiv_cons_one]
  funext a
  refine Fin.ext ?_
  fin_cases a
  · show o 0 + 1 * 0 = o 0; omega
  · show o 1 + 1 * (z 0).val = o 1 + (z 0).val; omega

/-- Position `y` of a half of the index vector sits at the half's offset plus `y`. -/
theorem emb_idxHalf (o : Fin 1 → ℕ) (inb) (y : S8192.Idx) :
    (idxHalf o inb).view.emb y
      = (ix1 (⟨o 0 + (y 0).val, by have := inb 0; have h1 : S8192.size 0 = 8192 := rfl; have h2 : S16384.size 0 = 16384 := rfl; have hy : (y 0).val < 8192 := (y 0).isLt; show o 0 + (y 0).val < 16384; omega⟩ : Fin 16384) : S16384.Idx) := by
  show (idxV : Memref sig .scVector .hbm S16384 .i32).view.emb ((Rect.unit (s := S16384) o S8192.size inb).emb y) = _
  refine funext fun (a : Fin 1) => Fin.ext ?_
  have ha : a = 0 := Subsingleton.elim _ _
  subst ha
  show o 0 + 1 * (y 0).val = o 0 + (y 0).val; omega

variable (d : Dev nD)

/-! ## The task's scoped storage: its three scratch buffers and nine DMA semaphores among the subcore's own -/

/-- The semaphores the task's copies complete on. -/
def semsL : List (SemLoc sig) :=
  [.dma cc0_scratch3.sem, .dma cc0_scoped0.sem, .dma cc0_scoped1.sem, .dma cc0_scoped2.sem, .dma cc0_scoped3.sem,
    .dma cc0_scoped4.sem, .dma cc0_scoped5.sem, .dma cc0_scoped6.sem, .dma cc0_scoped7.sem]

theorem semsL_nodup : (semsL).Nodup := by decide

/-- As cells of a thread. -/
def cellsL (t : Thread nD τ) : List (GSem nD τ sig) := semsL.map fun sm => (t, sm)

theorem cellsL_nodup (t : Thread nD τ) : (cellsL t).Nodup :=
  semsL_nodup.map fun _ _ h => (Prod.mk.inj h).2

theorem ownSems0_V9 (c : Fin τ.nSC) (i : Fin τ.nSub) :
    (ownSems0 (V d c i) : sProp 𝕄)
      = iprop((semVal (V d c i, SemLoc.dma cc0_scratch3.sem) 0 ∗ semVal (V d c i, SemLoc.dma cc0_scoped0.sem) 0
          ∗ semVal (V d c i, SemLoc.dma cc0_scoped1.sem) 0 ∗ semVal (V d c i, SemLoc.dma cc0_scoped2.sem) 0
          ∗ semVal (V d c i, SemLoc.dma cc0_scoped3.sem) 0 ∗ semVal (V d c i, SemLoc.dma cc0_scoped4.sem) 0
          ∗ semVal (V d c i, SemLoc.dma cc0_scoped5.sem) 0 ∗ semVal (V d c i, SemLoc.dma cc0_scoped6.sem) 0
          ∗ semVal (V d c i, SemLoc.dma cc0_scoped7.sem) 0)
          ∗ bigSep (ownCells (V d c i) \ (cellsL (V d c i)).toFinset) fun g => semVal g 0) := by
  unfold SparseCore.Cfg.ownSems0
  have hsub : (cellsL (V d c i)).toFinset ⊆ ownCells (sig := sig) (V d c i) := by
    intro g hg
    rw [List.mem_toFinset] at hg
    obtain ⟨sm, hsm, rfl⟩ := List.mem_map.mp hg
    refine mem_ownCells.mpr ⟨rfl, ?_⟩
    have : ∀ sm ∈ semsL, (sm : SemLoc sig).isScoped .scVector = true := by decide
    exact this sm hsm
  rw [SparseCore.bigSep_sdiff_split' hsub, Idealize.SL.BI.bigSep_eq_bigSepL _ (cellsL_nodup _)]
  simp only [cellsL, semsL, List.map, Idealize.SL.BI.bigSepL_cons_cons, Idealize.SL.BI.bigSepL_singleton]
  rfl

/-- The scratch buffers, as buffers of a vector subcore. -/
def refsL (c : Fin τ.nSC) (i : Fin τ.nSub) : List (DevRef τ sig) :=
  [(Proc.scVector c i).devRef cc0_scratch0, (Proc.scVector c i).devRef cc0_scratch1, (Proc.scVector c i).devRef cc0_scratch2]

theorem refsL_nodup (c : Fin τ.nSC) (i : Fin τ.nSub) : (refsL c i).Nodup := by
  have h : ([cc0_scratch0, cc0_scratch1, cc0_scratch2] : List (Ref sig .scVector)).Nodup := by decide
  exact h.map (Proc.devRef_injective (Proc.scVector c i))

theorem ownBufs_V3 (c : Fin τ.nSC) (i : Fin τ.nSub) :
    (ownBufs (V d c i) : sProp 𝕄)
      = iprop(((∃ f, (V d c i).loc cc0_scratch0 ↦{fullShare} f) ∗ (∃ f, (V d c i).loc cc0_scratch1 ↦{fullShare} f)
          ∗ (∃ f, (V d c i).loc cc0_scratch2 ↦{fullShare} f))
          ∗ bigSep (ownRefs (τ := τ) (.scVector c i) \ (refsL c i).toFinset) fun b => iprop(∃ f, ((d, b) : Loc nD τ sig) ↦{fullShare} f)) := by
  unfold SparseCore.Cfg.ownBufs
  have hsub : (refsL c i).toFinset ⊆ ownRefs (sig := sig) (τ := τ) (.scVector c i) := by
    intro b hb
    rw [List.mem_toFinset] at hb
    simp only [refsL, List.mem_cons, List.not_mem_nil, or_false] at hb
    rcases hb with rfl | rfl | rfl <;> exact SparseCore.Cfg.mem_ownRefs_of_owner rfl
  refine (SparseCore.bigSep_sdiff_split' hsub).trans ?_
  rw [Idealize.SL.BI.bigSep_eq_bigSepL _ (refsL_nodup c i)]
  simp only [refsL, Idealize.SL.BI.bigSepL_cons_cons, Idealize.SL.BI.bigSepL_singleton]
  rfl

end Cert.Kernel.Tile

end
-- ==== Proof.TileLoopBits.lean ====
/-
  What one counted loop of the gather leaves in the output scratch, without the program: the eight stores of a trip
  written as a list of pieces, and the value each piece carries.

  Trip `k` stores sixteen words at each of the offsets `128 k + 16 j` (`j < 8`); the word stored at position `y` is the
  row scratch's word at the index the index scratch holds at `y`. So after trip `k` every position below `128 (k + 1)`
  holds that word, whatever the scratch held before.
-/
import Idealize.ShloMosaic.Lib.Writes
import Idealize.ShloMosaic.Lib.ValueIdx
import Mathlib.Tactic.IntervalCases
import proofs.«203298_g75634374082695_cont_9to1_m_1088_20_alg».proof.Kernel

noncomputable section

namespace Cert.Kernel.Tile

open Cert.Kernel
open Idealize.ShloMosaic
open Idealize.ShloMosaic.ValueIdx (ix1 ix2)

variable {F : FTy → Type}

/-- Sixteen index words below the row's length are what a gather load asks of its index vector. -/
theorem chk_of {v : IVec S16 32} (h : ∀ x, (v x).toNat < 100000) :
    ∀ a x, ((![v] : Fin 1 → IVec S16 32) a x).toNat < S100000.size a := by
  intro a x
  have ha : a = 0 := Subsingleton.elim _ _
  subst ha
  exact h x

/-- The word the gather puts at position `y`: the row's word at the index held at `y` (reduced below the row's length, so
    that the function is total; an index in range is not changed). -/
def gat (rd : S100000.Idx → Elt F .f32) (ix : S8192.Idx → BitVec 32) (y : S8192.Idx) : Elt F .f32 :=
  rd (ix1 (⟨(ix y).toNat % 100000, Nat.mod_lt _ (by decide)⟩ : Fin 100000))

section
variable {sg : RefSig} {κ κ' : Kind} (rv : View sg κ .vmem S100000 .f32) (iv : View sg κ' .vmem S8192 .i32)
  (R : rv.ty.Contents (Elt F)) (I : iv.ty.Contents (Elt F))

/-- A gather load's lane `x`, the index vector loaded at an offset, is `gat` at the position a store at the same offset
    puts lane `x`. -/
theorem pay_eq (hI : ∀ y, (iv.read (Elt F) I y).toNat < 100000) (off off' : Fin 1 → ℕ) (inb inb') (e : off = off')
    (h : ∀ a x, ((![iv.readAt (Elt F) (Rect.unit (s := S8192) off S16.size inb).toLoadRect I] : Fin 1 → IVec S16 32) a x).toNat < S100000.size a)
    (x : S16.Idx) :
    loadIdx (rv.readAt (Elt F) (LoadRect.whole S100000) R) ![iv.readAt (Elt F) (Rect.unit (s := S8192) off S16.size inb).toLoadRect I] h x
      = gat (rv.read (Elt F) R) (iv.read (Elt F) I) ((Rect.unit (s := S8192) off' S16.size inb').emb x) := by
  subst e
  unfold loadIdx gat
  rw [View.readAt_apply]
  refine congrArg _ (funext fun a => Fin.ext ?_)
  have ha : a = 0 := Subsingleton.elim _ _
  subst ha
  show 0 + 1 * ((iv.read (Elt F) I ((Rect.unit (s := S8192) off S16.size inb).toLoadRect.idx x)).toNat) = _
  rw [Nat.zero_add, Nat.one_mul]
  exact (Nat.mod_eq_of_lt (hI _)).symm
end

section Trip
variable {sg : RefSig} {κ : Kind} {sp : Space} {e : EltTy} {Val : EltTy → Type} (v : View sg κ sp S8192 e)

/-- One trip's stores: if every piece is sixteen consecutive positions inside the trip's window of 128, the pieces between
    them start at every multiple of sixteen of the window, and each carries `G`, then contents that were `G` below the
    window are `G` below the next one. -/
theorem writes_trip (f : v.ty.Contents Val) (G : S8192.Idx → Val e) (k : ℕ) (L : List (View.Piece Val S8192 e))
    (hL : ∀ p ∈ L, p.1.stride 0 = 1 ∧ p.1.size 0 = 16 ∧ 128 * k ≤ p.1.off 0 ∧ p.1.off 0 + 16 ≤ 128 * (k + 1))
    (hcov : ∀ j, j < 8 → ∃ p ∈ L, p.1.off 0 = 128 * k + 16 * j)
    (hG : ∀ p ∈ L, ∀ x : p.1.shape.Idx, p.2 x = G (p.1.emb x))
    (hf : ∀ y : S8192.Idx, (y 0).val < 128 * k → v.read Val f y = G y) :
    ∀ y : S8192.Idx, (y 0).val < 128 * (k + 1) → v.read Val (v.writes Val f L) y = G y := by
  intro y hy
  by_cases hlt : (y 0).val < 128 * k
  · rw [View.read_writes_apply_of_forall_not_mem v f y L, hf y hlt]
    intro p hp hm
    obtain ⟨hs, hz, hlo, -⟩ := hL p hp
    obtain ⟨j, -, hj⟩ := (p.1.mem_set.mp hm) 0
    rw [hs] at hj
    omega
  · refine View.read_writes_apply_of_pieces v f G L hG y ?_
    obtain ⟨p, hp, hoff⟩ := hcov (((y 0).val - 128 * k) / 16) (by omega)
    obtain ⟨hs, hz, -, -⟩ := hL p hp
    refine ⟨p, hp, p.1.mem_set.mpr fun a => ?_⟩
    have ha : a = 0 := Subsingleton.elim _ _
    subst ha
    refine ⟨((y 0).val - 128 * k) % 16, ?_, ?_⟩
    · rw [hz]; exact Nat.mod_lt _ (by decide)
    · rw [hs, hoff]; omega

/-- A piece at offset `128 k + 16 j` (`j < 8`) lies inside trip `k`'s window. -/
theorem win {k j : ℕ} {o : Fin 1 → ℕ} (h : o = ![128 * k + 16 * j]) (hj : j < 8) : 128 * k ≤ o 0 ∧ o 0 + 16 ≤ 128 * (k + 1) := by
  subst h
  show 128 * k ≤ 128 * k + 16 * j ∧ 128 * k + 16 * j + 16 ≤ 128 * (k + 1)
  omega

/-- A property of each of eight listed things is a property of every member of the list. -/
theorem forall_mem_list8 {α : Type} {P : α → Prop} {a7 a6 a5 a4 a3 a2 a1 a0 : α}
    (h7 : P a7) (h6 : P a6) (h5 : P a5) (h4 : P a4) (h3 : P a3) (h2 : P a2) (h1 : P a1) (h0 : P a0) :
    ∀ p ∈ [a7, a6, a5, a4, a3, a2, a1, a0], P p := by
  simp only [List.mem_cons, List.not_mem_nil, or_false, forall_eq_or_imp, forall_eq]
  exact ⟨h7, h6, h5, h4, h3, h2, h1, h0⟩

/-- Eight listed things, the `j`-th with property `Q j`: for every `j < 8` some member has `Q j`. -/
theorem cov8 {α : Type} {Q : ℕ → α → Prop} {a7 a6 a5 a4 a3 a2 a1 a0 : α}
    (h0 : Q 0 a0) (h1 : Q 1 a1) (h2 : Q 2 a2) (h3 : Q 3 a3) (h4 : Q 4 a4) (h5 : Q 5 a5) (h6 : Q 6 a6) (h7 : Q 7 a7) :
    ∀ j, j < 8 → ∃ p ∈ [a7, a6, a5, a4, a3, a2, a1, a0], Q j p := by
  intro j hj
  interval_cases j
  · exact ⟨a0, by simp, h0⟩
  · exact ⟨a1, by simp, h1⟩
  · exact ⟨a2, by simp, h2⟩
  · exact ⟨a3, by simp, h3⟩
  · exact ⟨a4, by simp, h4⟩
  · exact ⟨a5, by simp, h5⟩
  · exact ⟨a6, by simp, h6⟩
  · exact ⟨a7, by simp, h7⟩
end Trip

end Cert.Kernel.Tile

end
-- ==== Proof.TileTripsBits.lean ====
/-
  The four counted loops of the gather (two halves of the index vector, two passes), one trip each at a symbolic trip
  number: from the output scratch gathered below position `128 k` to gathered below `128 (k + 1)`. Each trip is run once;
  its eight stores are read off as a list of pieces and the list is handed to the lemma about one trip's stores.
-/
import proofs.«203298_g75634374082695_cont_9to1_m_1088_20_alg».proof.Proof.TileViewsBits
import proofs.«203298_g75634374082695_cont_9to1_m_1088_20_alg».proof.Proof.TileLoopBits

noncomputable section

namespace Cert.Kernel.Tile

open Cert.Kernel Cert.Kernel.Gen Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

variable [FloatOps F]
variable (d : Dev nD) (L : grid0.Coords)

/-- What a gather loop holds before trip `k`: the row scratch reading `rd`, the index scratch reading `ix`, the output
    scratch gathered below position `128 k`. -/
def linv (rd : S100000.Idx → Elt F .f32) (ix : S8192.Idx → BitVec 32) (k : ℕ) (_ : Unit) : sProp 𝕄 :=
  iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k → (outS).view.read (Elt F) f y = gat rd ix y⌝)

theorem offs_t1 (k : Fin k0_t1_loop.trips) :
    (k0_off2 k = ![128 * k.val + 16 * 0] ∧ k0_off3 k 0#32 = ![128 * k.val + 16 * 0])
    ∧ (k0_off3 k 1#32 = ![128 * k.val + 16 * 1] ∧ k0_off4 k 1#32 = ![128 * k.val + 16 * 1])
    ∧ (k0_off4 k 2#32 = ![128 * k.val + 16 * 2] ∧ k0_off5 k 2#32 = ![128 * k.val + 16 * 2])
    ∧ (k0_off5 k 3#32 = ![128 * k.val + 16 * 3] ∧ k0_off6 k 3#32 = ![128 * k.val + 16 * 3])
    ∧ (k0_off6 k 4#32 = ![128 * k.val + 16 * 4] ∧ k0_off7 k 4#32 = ![128 * k.val + 16 * 4])
    ∧ (k0_off7 k 5#32 = ![128 * k.val + 16 * 5] ∧ k0_off8 k 5#32 = ![128 * k.val + 16 * 5])
    ∧ (k0_off8 k 6#32 = ![128 * k.val + 16 * 6] ∧ k0_off9 k 6#32 = ![128 * k.val + 16 * 6])
    ∧ (k0_off9 k 7#32 = ![128 * k.val + 16 * 7] ∧ k0_off10 k = ![128 * k.val + 16 * 7]) := by
  have c : ∀ {a b : ℕ}, a = b → (![a] : Fin 1 → ℕ) = ![b] := fun h => congrArg (fun n : ℕ => (![n] : Fin 1 → ℕ)) h
  refine ⟨⟨(k0_off2_eq k).trans (c (by omega)), (k0_off3_eq k ⟨0, by decide⟩).trans (c (by simp))⟩,
    ⟨(k0_off3_eq k ⟨1, by decide⟩).trans (c (by simp)), (k0_off4_eq k ⟨0, by decide⟩).trans (c (by simp))⟩,
    ⟨(k0_off4_eq k ⟨1, by decide⟩).trans (c (by simp)), (k0_off5_eq k ⟨0, by decide⟩).trans (c (by simp))⟩,
    ⟨(k0_off5_eq k ⟨1, by decide⟩).trans (c (by simp)), (k0_off6_eq k ⟨0, by decide⟩).trans (c (by simp))⟩,
    ⟨(k0_off6_eq k ⟨1, by decide⟩).trans (c (by simp)), (k0_off7_eq k ⟨0, by decide⟩).trans (c (by simp))⟩,
    ⟨(k0_off7_eq k ⟨1, by decide⟩).trans (c (by simp)), (k0_off8_eq k ⟨0, by decide⟩).trans (c (by simp))⟩,
    ⟨(k0_off8_eq k ⟨1, by decide⟩).trans (c (by simp)), (k0_off9_eq k ⟨0, by decide⟩).trans (c (by simp))⟩,
    ⟨(k0_off9_eq k ⟨1, by decide⟩).trans (c (by simp)), (k0_off10_eq k).trans (c (by omega))⟩⟩

theorem trip_t1 (k0_h1 : k0_cond1 L = 1#1) (k : Fin k0_t1_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t1_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t1 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t1_body k0_part1
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t2 (k : Fin k0_t2_loop.trips) :
    (k0_off12 k = ![128 * k.val + 16 * 0] ∧ k0_off13 k 0#32 = ![128 * k.val + 16 * 0])
    ∧ (k0_off13 k 1#32 = ![128 * k.val + 16 * 1] ∧ k0_off14 k 1#32 = ![128 * k.val + 16 * 1])
    ∧ (k0_off14 k 2#32 = ![128 * k.val + 16 * 2] ∧ k0_off15 k 2#32 = ![128 * k.val + 16 * 2])
    ∧ (k0_off15 k 3#32 = ![128 * k.val + 16 * 3] ∧ k0_off16 k 3#32 = ![128 * k.val + 16 * 3])
    ∧ (k0_off16 k 4#32 = ![128 * k.val + 16 * 4] ∧ k0_off17 k 4#32 = ![128 * k.val + 16 * 4])
    ∧ (k0_off17 k 5#32 = ![128 * k.val + 16 * 5] ∧ k0_off18 k 5#32 = ![128 * k.val + 16 * 5])
    ∧ (k0_off18 k 6#32 = ![128 * k.val + 16 * 6] ∧ k0_off19 k 6#32 = ![128 * k.val + 16 * 6])
    ∧ (k0_off19 k 7#32 = ![128 * k.val + 16 * 7] ∧ k0_off20 k = ![128 * k.val + 16 * 7]) := by
  have c : ∀ {a b : ℕ}, a = b → (![a] : Fin 1 → ℕ) = ![b] := fun h => congrArg (fun n : ℕ => (![n] : Fin 1 → ℕ)) h
  refine ⟨⟨(k0_off12_eq k).trans (c (by omega)), (k0_off13_eq k ⟨0, by decide⟩).trans (c (by simp))⟩,
    ⟨(k0_off13_eq k ⟨1, by decide⟩).trans (c (by simp)), (k0_off14_eq k ⟨0, by decide⟩).trans (c (by simp))⟩,
    ⟨(k0_off14_eq k ⟨1, by decide⟩).trans (c (by simp)), (k0_off15_eq k ⟨0, by decide⟩).trans (c (by simp))⟩,
    ⟨(k0_off15_eq k ⟨1, by decide⟩).trans (c (by simp)), (k0_off16_eq k ⟨0, by decide⟩).trans (c (by simp))⟩,
    ⟨(k0_off16_eq k ⟨1, by decide⟩).trans (c (by simp)), (k0_off17_eq k ⟨0, by decide⟩).trans (c (by simp))⟩,
    ⟨(k0_off17_eq k ⟨1, by decide⟩).trans (c (by simp)), (k0_off18_eq k ⟨0, by decide⟩).trans (c (by simp))⟩,
    ⟨(k0_off18_eq k ⟨1, by decide⟩).trans (c (by simp)), (k0_off19_eq k ⟨0, by decide⟩).trans (c (by simp))⟩,
    ⟨(k0_off19_eq k ⟨1, by decide⟩).trans (c (by simp)), (k0_off20_eq k).trans (c (by omega))⟩⟩

theorem trip_t2 (k0_h1 : k0_cond1 L = 1#1) (c0 c1 : BitVec 32) (k : Fin k0_t2_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t2_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h1 c0 c1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t2 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t2_body k0_part2
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t3 (k : Fin k0_t3_loop.trips) :
    (k0_off23 k = ![128 * k.val + 16 * 0] ∧ k0_off24 k 0#32 = ![128 * k.val + 16 * 0])
    ∧ (k0_off24 k 1#32 = ![128 * k.val + 16 * 1] ∧ k0_off25 k 1#32 = ![128 * k.val + 16 * 1])
    ∧ (k0_off25 k 2#32 = ![128 * k.val + 16 * 2] ∧ k0_off26 k 2#32 = ![128 * k.val + 16 * 2])
    ∧ (k0_off26 k 3#32 = ![128 * k.val + 16 * 3] ∧ k0_off27 k 3#32 = ![128 * k.val + 16 * 3])
    ∧ (k0_off27 k 4#32 = ![128 * k.val + 16 * 4] ∧ k0_off28 k 4#32 = ![128 * k.val + 16 * 4])
    ∧ (k0_off28 k 5#32 = ![128 * k.val + 16 * 5] ∧ k0_off29 k 5#32 = ![128 * k.val + 16 * 5])
    ∧ (k0_off29 k 6#32 = ![128 * k.val + 16 * 6] ∧ k0_off30 k 6#32 = ![128 * k.val + 16 * 6])
    ∧ (k0_off30 k 7#32 = ![128 * k.val + 16 * 7] ∧ k0_off31 k = ![128 * k.val + 16 * 7]) := by
  have c : ∀ {a b : ℕ}, a = b → (![a] : Fin 1 → ℕ) = ![b] := fun h => congrArg (fun n : ℕ => (![n] : Fin 1 → ℕ)) h
  refine ⟨⟨(k0_off23_eq k).trans (c (by omega)), (k0_off24_eq k ⟨0, by decide⟩).trans (c (by simp))⟩,
    ⟨(k0_off24_eq k ⟨1, by decide⟩).trans (c (by simp)), (k0_off25_eq k ⟨0, by decide⟩).trans (c (by simp))⟩,
    ⟨(k0_off25_eq k ⟨1, by decide⟩).trans (c (by simp)), (k0_off26_eq k ⟨0, by decide⟩).trans (c (by simp))⟩,
    ⟨(k0_off26_eq k ⟨1, by decide⟩).trans (c (by simp)), (k0_off27_eq k ⟨0, by decide⟩).trans (c (by simp))⟩,
    ⟨(k0_off27_eq k ⟨1, by decide⟩).trans (c (by simp)), (k0_off28_eq k ⟨0, by decide⟩).trans (c (by simp))⟩,
    ⟨(k0_off28_eq k ⟨1, by decide⟩).trans (c (by simp)), (k0_off29_eq k ⟨0, by decide⟩).trans (c (by simp))⟩,
    ⟨(k0_off29_eq k ⟨1, by decide⟩).trans (c (by simp)), (k0_off30_eq k ⟨0, by decide⟩).trans (c (by simp))⟩,
    ⟨(k0_off30_eq k ⟨1, by decide⟩).trans (c (by simp)), (k0_off31_eq k).trans (c (by omega))⟩⟩

theorem trip_t3 (k0_h2 : k0_cond2 L = 1#1) (k : Fin k0_t3_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t3_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h2 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t3 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t3_body k0_part4
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

theorem offs_t4 (k : Fin k0_t4_loop.trips) :
    (k0_off33 k = ![128 * k.val + 16 * 0] ∧ k0_off34 k 0#32 = ![128 * k.val + 16 * 0])
    ∧ (k0_off34 k 1#32 = ![128 * k.val + 16 * 1] ∧ k0_off35 k 1#32 = ![128 * k.val + 16 * 1])
    ∧ (k0_off35 k 2#32 = ![128 * k.val + 16 * 2] ∧ k0_off36 k 2#32 = ![128 * k.val + 16 * 2])
    ∧ (k0_off36 k 3#32 = ![128 * k.val + 16 * 3] ∧ k0_off37 k 3#32 = ![128 * k.val + 16 * 3])
    ∧ (k0_off37 k 4#32 = ![128 * k.val + 16 * 4] ∧ k0_off38 k 4#32 = ![128 * k.val + 16 * 4])
    ∧ (k0_off38 k 5#32 = ![128 * k.val + 16 * 5] ∧ k0_off39 k 5#32 = ![128 * k.val + 16 * 5])
    ∧ (k0_off39 k 6#32 = ![128 * k.val + 16 * 6] ∧ k0_off40 k 6#32 = ![128 * k.val + 16 * 6])
    ∧ (k0_off40 k 7#32 = ![128 * k.val + 16 * 7] ∧ k0_off41 k = ![128 * k.val + 16 * 7]) := by
  have c : ∀ {a b : ℕ}, a = b → (![a] : Fin 1 → ℕ) = ![b] := fun h => congrArg (fun n : ℕ => (![n] : Fin 1 → ℕ)) h
  refine ⟨⟨(k0_off33_eq k).trans (c (by omega)), (k0_off34_eq k ⟨0, by decide⟩).trans (c (by simp))⟩,
    ⟨(k0_off34_eq k ⟨1, by decide⟩).trans (c (by simp)), (k0_off35_eq k ⟨0, by decide⟩).trans (c (by simp))⟩,
    ⟨(k0_off35_eq k ⟨1, by decide⟩).trans (c (by simp)), (k0_off36_eq k ⟨0, by decide⟩).trans (c (by simp))⟩,
    ⟨(k0_off36_eq k ⟨1, by decide⟩).trans (c (by simp)), (k0_off37_eq k ⟨0, by decide⟩).trans (c (by simp))⟩,
    ⟨(k0_off37_eq k ⟨1, by decide⟩).trans (c (by simp)), (k0_off38_eq k ⟨0, by decide⟩).trans (c (by simp))⟩,
    ⟨(k0_off38_eq k ⟨1, by decide⟩).trans (c (by simp)), (k0_off39_eq k ⟨0, by decide⟩).trans (c (by simp))⟩,
    ⟨(k0_off39_eq k ⟨1, by decide⟩).trans (c (by simp)), (k0_off40_eq k ⟨0, by decide⟩).trans (c (by simp))⟩,
    ⟨(k0_off40_eq k ⟨1, by decide⟩).trans (c (by simp)), (k0_off41_eq k).trans (c (by omega))⟩⟩

theorem trip_t4 (k0_h2 : k0_cond2 L = 1#1) (c0 c1 : BitVec 32) (k : Fin k0_t4_loop.trips)
    (rd : S100000.Idx → Elt F .f32) (ix : S8192.Idx → BitVec 32) (hix : ∀ y, (ix y).toNat < 100000) :
    (linv d L rd ix k.val () : sProp 𝕄)
      ⊢ wp frame (wpE (defs₀ (F := F)) 𝒱₀ (thr d L) none) Set.univ
          (k0_t4_body (F := F) L idxV (Memref.isWhole_whole _) tabV (Memref.isWhole_whole _) outV (Memref.isWhole_whole _)
            rowS (Memref.isWhole_whole _) idxS (Memref.isWhole_whole _) outS (Memref.isWhole_whole _)
            cc0_scratch3 cc0_scoped0 cc0_scoped1 cc0_scoped2 cc0_scoped3 cc0_scoped4 cc0_scoped5 cc0_scoped6 cc0_scoped7 k0_h2 c0 c1 k ())
          (linv d L rd ix (k.val + 1)) := by
  obtain ⟨⟨e0, e0'⟩, ⟨e1, e1'⟩, ⟨e2, e2'⟩, ⟨e3, e3'⟩, ⟨e4, e4'⟩, ⟨e5, e5'⟩, ⟨e6, e6'⟩, ⟨e7, e7'⟩⟩ := offs_t4 k
  unfold linv
  generalize hP : (iprop(∃ (R' : Buf (Elt F) ((thr d L).loc cc0_scratch0)) (I' : Buf (Elt F) ((thr d L).loc cc0_scratch1))
      (f : Buf (Elt F) ((thr d L).loc cc0_scratch2)),
    ((rowS).view.loc (thr d L) ↦{fullShare} R') ∗ ((idxS).view.loc (thr d L) ↦{fullShare} I')
      ∗ ((outS).view.loc (thr d L) ↦{fullShare} f)
      ∗ ⌜(rowS).view.read (Elt F) R' = rd ∧ (idxS).view.read (Elt F) I' = ix
          ∧ ∀ y : S8192.Idx, (y 0).val < 128 * k.val → (outS).view.read (Elt F) f y = gat rd ix y⌝) : sProp 𝕄) = P
  unfold k0_t4_body k0_part5
  simp only [SparseCore.vectorLoadIdx]
  subst hP
  iintro ⟨%R', %I', %f, HR, HI, Hf, %h⟩
  obtain ⟨rfl, rfl, hf⟩ := h
  have hI : ∀ y, ((idxS).view.read (Elt F) I' y).toNat < 100000 := hix
  sl_exec (disch := exact fun _ => chk_of (fun x => hI _))
  sl_step
  iexists R', I', _
  isplitl [HR]; · iexact HR
  isplitl [HI]; · iexact HI
  isplitl [Hf]; · iexact Hf
  ipureintro
  refine ⟨rfl, rfl, ?_⟩
  refine writes_trip (outS).view f _ k.val _ ?hL ?hcov ?hG hf
  case hL =>
    exact forall_mem_list8 ⟨rfl, rfl, win e7' (by decide)⟩ ⟨rfl, rfl, win e6' (by decide)⟩ ⟨rfl, rfl, win e5' (by decide)⟩
      ⟨rfl, rfl, win e4' (by decide)⟩ ⟨rfl, rfl, win e3' (by decide)⟩ ⟨rfl, rfl, win e2' (by decide)⟩
      ⟨rfl, rfl, win e1' (by decide)⟩ ⟨rfl, rfl, win e0' (by decide)⟩
  case hcov =>
    exact cov8 (Q := fun j (p : View.Piece (Elt F) S8192 .f32) => p.1.off 0 = 128 * k.val + 16 * j) (congrFun e0' 0) (congrFun e1' 0) (congrFun e2' 0) (congrFun e3' 0)
      (congrFun e4' 0) (congrFun e5' 0) (congrFun e6' 0) (congrFun e7' 0)
  case hG =>
    exact forall_mem_list8
      (fun x => by dsimp only; exact pay_eq (rowS).view (idxS).view R' I' hI _ _ _ _ (e7.trans e7'.symm) _ x)
      (fun x => by dsimp only; exact pay_eq (rowS).view (idxS).view R' I' hI _ _ _ _ (e6.trans e6'.symm) _ x)
      (fun x => by dsimp only; exact pay_eq (rowS).view (idxS).view R' I' hI _ _ _ _ (e5.trans e5'.symm) _ x)
      (fun x => by dsimp only; exact pay_eq (rowS).view (idxS).view R' I' hI _ _ _ _ (e4.trans e4'.symm) _ x)
      (fun x => by dsimp only; exact pay_eq (rowS).view (idxS).view R' I' hI _ _ _ _ (e3.trans e3'.symm) _ x)
      (fun x => by dsimp only; exact pay_eq (rowS).view (idxS).view R' I' hI _ _ _ _ (e2.trans e2'.symm) _ x)
      (fun x => by dsimp only; exact pay_eq (rowS).view (idxS).view R' I' hI _ _ _ _ (e1.trans e1'.symm) _ x)
      (fun x => by dsimp only; exact pay_eq (rowS).view (idxS).view R' I' hI _ _ _ _ (e0.trans e0'.symm) _ x)

end Cert.Kernel.Tile

end
-- ==== Proof.TileValueBits.lean ====
/-
  What a finished half row holds: the copy of the gathered scratch into a half-row slice of the output leaves, at every
  element of the slice, the one function `gathered` of the two arrays read.
-/
import proofs.«203298_g75634374082695_cont_9to1_m_1088_20_alg».proof.Proof.TileViewsBits
import proofs.«203298_g75634374082695_cont_9to1_m_1088_20_alg».proof.Proof.TileLoopBits

noncomputable section

namespace Cert.Kernel.Tile

open Cert.Kernel Cert.Kernel.Gen Cert.Kernel.Launch
open Idealize.ShloMosaic
open Idealize.ShloMosaic.ValueIdx (ix1 ix2)

variable {F : FTy → Type}
variable (V0 : (d : Dev nD) → Buf (Elt F) (v0Loc d)) (V1 : (d : Dev nD) → Buf (Elt F) (v1Loc d)) (d : Dev nD)

/-- Every index word a half of the index vector reads is in range when every word of the vector is. -/
theorem idxHalf_lt (hidx : ∀ b : Fin 16384, ((V0 d : IVec S16384 32) (ix1 b)).toNat < 100000)
    (oi : Fin 1 → ℕ) (inbi : ∀ a, oi a + S8192.size a ≤ S16384.size a) (y : S8192.Idx) :
    (((idxHalf oi inbi).view.read (Elt F) (V0 d) y : BitVec 32)).toNat < 100000 := by
  have hr : ((idxHalf oi inbi).view.read (Elt F) (V0 d) y : BitVec 32)
      = (V0 d : IVec S16384 32) ((idxHalf oi inbi).view.emb y) := rfl
  rw [hr, emb_idxHalf]
  exact hidx _

/-- The same at an element of the half row's rectangle, the element given by its coordinates: position `y` of the slice
    sits at column `8192 · hh + y` of row `f`; there the copy put the table row's entry at the index word held at that
    column, which is what the gathered array holds. -/
theorem half_val_at (f : Fin 50) (hh : Fin 2)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g : Buf (Elt F) (v2Loc d)) (i : S50x16384.Idx) (hi : i ∈ (Rect.unit (s := S50x16384) o2 S1x8192.size inb2).set) :
    View.write (Elt F) (outHalf o2 inb2).view g
        (gat ((tabRow o1 inb1).view.read (Elt F) (V1 d)) ((idxHalf oi inbi).view.read (Elt F) (V0 d))) Finset.univ i
      = gathered V0 V1 d i := by
  obtain ⟨p, q, rfl⟩ : ∃ (p : Fin 50) (q : Fin 16384), i = ix2 p q := ⟨i 0, i 1, ValueIdx.eq_ix2 i⟩
  have hm := Rect.mem_set_unit.mp hi
  subst ho1 ho2 hoi
  have h0 : f.val ≤ p.val ∧ p.val < f.val + 1 := hm 0
  have h1 : 8192 * hh.val ≤ q.val ∧ q.val < 8192 * hh.val + 8192 := hm 1
  obtain rfl : p = f := Fin.ext (by omega)
  have hq := q.isLt
  -- the slice position of column `q`
  let y : S8192.Idx := ix1 (⟨q.val - 8192 * hh.val, by omega⟩ : Fin 8192)
  have hemb : (outHalf ![p.val, 8192 * hh.val] inb2).view.emb y = ix2 p q := by
    rw [emb_outHalf]
    funext a
    refine Fin.ext ?_
    match a with
    | ⟨0, _⟩ => rfl
    | ⟨1, _⟩ => show 8192 * hh.val + (q.val - 8192 * hh.val) = q.val; omega
  have hw := View.write_emb_of_mem (v := (outHalf ![p.val, 8192 * hh.val] inb2).view) (Val := Elt F) g
    (gat ((tabRow ![p.val, 0] inb1).view.read (Elt F) (V1 d)) ((idxHalf ![8192 * hh.val] inbi).view.read (Elt F) (V0 d)))
    (Finset.mem_univ y)
  rw [hemb] at hw
  refine hw.trans ?_
  show gat ((tabRow ![p.val, 0] inb1).view.read (Elt F) (V1 d)) ((idxHalf ![8192 * hh.val] inbi).view.read (Elt F) (V0 d)) y
    = gathered V0 V1 d (ix2 p q)
  -- the index word read at position `y` is the word at column `q`
  have hword : ((idxHalf ![8192 * hh.val] inbi).view.read (Elt F) (V0 d) y : BitVec 32) = (V0 d : IVec S16384 32) (ix1 q) := by
    have hr : ((idxHalf ![8192 * hh.val] inbi).view.read (Elt F) (V0 d) y : BitVec 32)
        = (V0 d : IVec S16384 32) ((idxHalf ![8192 * hh.val] inbi).view.emb y) := rfl
    rw [hr, emb_idxHalf]
    refine congrArg (V0 d : IVec S16384 32) (funext fun a => Fin.ext ?_)
    match a with
    | ⟨0, _⟩ => show 8192 * hh.val + (q.val - 8192 * hh.val) = q.val; omega
  unfold gat
  -- the table row read at a position is the table at (row `p`, that position)
  have hrow : ∀ z : S100000.Idx, (tabRow ![p.val, 0] inb1).view.read (Elt F) (V1 d) z
      = (V1 d : (⟨2, ![50, 100000]⟩ : Shape).Idx → Elt F .f32) ((tabRow ![p.val, 0] inb1).view.emb z) := fun _ => rfl
  rw [hrow, emb_tabRow]
  unfold gathered Cert.KSpec.embT Cert.KSpec.col
  refine congrArg (V1 d : (⟨2, ![50, 100000]⟩ : Shape).Idx → Elt F .f32) (funext fun a => Fin.ext ?_)
  match a with
  | ⟨0, _⟩ => rfl
  | ⟨1, _⟩ => exact (Nat.zero_add _).trans (congrArg (fun w : BitVec 32 => w.toNat % 100000) hword)

/-- The half-row copy's contents at the slice's elements. `f` is the row, `hh` the half; the offsets are the printed ones,
    known in closed form. -/
theorem half_val (hidx : ∀ b : Fin 16384, ((V0 d : IVec S16384 32) (ix1 b)).toNat < 100000) (f : Fin 50) (hh : Fin 2)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g : Buf (Elt F) (v2Loc d)) :
    ∀ i ∈ (outHalf o2 inb2).view.set,
      View.write (Elt F) (outHalf o2 inb2).view g
          (gat ((tabRow o1 inb1).view.read (Elt F) (V1 d)) ((idxHalf oi inbi).view.read (Elt F) (V0 d))) Finset.univ i
        = gathered V0 V1 d i := by
  intro i hi
  rw [set_outHalf] at hi
  exact half_val_at V0 V1 d f hh o1 ho1 inb1 o2 ho2 inb2 oi hoi inbi g i hi

end Cert.Kernel.Tile

end
-- ==== Proof.TileBodyBits.lean ====
/-
  One vector subcore's task of the gather kernel, at a symbolic device and grid coordinate.

  The task (worker `w = 2 · subcore + core`) makes up to two passes, for rows `w` and `32 + w` (the second only when
  `32 + w < 50`). A pass copies its row of the transposed table into the row scratch — the only copy on that semaphore,
  waited for before the row scratch is read —, then for each half of the index vector copies the half into the index
  scratch, runs the counted loop that gathers the row at those indices into the output scratch (64 trips of eight
  sixteen-word chunks, each index vector checked in range from the fact that every index word is), and copies the
  output scratch to that half of its output row. Every copy but the row's completes on a semaphore of its own and is
  waited for at once. At the end each output row holds, at column `b`, the table row's word at the index `idx b`: the
  one array `gathered`; the read shares, the scratch buffers (at some contents) and the semaphores (at zero) go back.
-/
import proofs.«203298_g75634374082695_cont_9to1_m_1088_20_alg».proof.Proof.TileViewsBits
import proofs.«203298_g75634374082695_cont_9to1_m_1088_20_alg».proof.Proof.TileLoopBits
import proofs.«203298_g75634374082695_cont_9to1_m_1088_20_alg».proof.Proof.TileTripsBits
import proofs.«203298_g75634374082695_cont_9to1_m_1088_20_alg».proof.Proof.TileValueBits

noncomputable section

namespace Cert.Kernel.Tile

open Cert.Kernel Cert.Kernel.Gen Cert.Kernel.Launch

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok shareDrop)
open Idealize.ShloMosaic.ValueIdx (ix1 ix2)

variable {F : FTy → Type}

local notation "𝕄" => MT nD τ sig (HIx 1) (Elt F) ℕ UU ℕ

/-- The first pass runs on every subcore; the second where the second row exists. -/
theorem cond1_all : ∀ L : grid0.Coords, k0_cond1 L = 1#1 := by decide +kernel
theorem cond2_iff : ∀ L : grid0.Coords, (k0_cond2 L = 1#1 ↔ 32 + (wid (cL L) (sL L)).val < 50) := by decide +kernel

variable [FloatOps F]
variable (V0 : (d : Dev nD) → Buf (Elt F) (v0Loc d)) (V1 : (d : Dev nD) → Buf (Elt F) (v1Loc d)) (d : Dev nD) (L : grid0.Coords)

/-! ## The arrays as the task's memrefs address them -/

theorem pts_idx (q : PosShare TreeShare) (f : Buf (Elt F) (v0Loc d)) :
    (((idxV).view.loc (thr d L) ↦{q} f : sProp 𝕄)) = (v0Loc d ↦{q} f) := rfl
theorem pts_tab (o : Fin 2 → ℕ) (inb) (S : Finset (Idx (v1Loc d))) (q : PosShare TreeShare) (f : Buf (Elt F) (v1Loc d)) :
    (((tabRow o inb).view.loc (thr d L) ↦[S]{q} f : sProp 𝕄)) = (v1Loc d ↦[S]{q} f) := rfl
theorem pts_out (o : Fin 2 → ℕ) (inb) (S : Finset (Idx (v2Loc d))) (q : PosShare TreeShare) (f : Buf (Elt F) (v2Loc d)) :
    (((outHalf o inb).view.loc (thr d L) ↦[S]{q} f : sProp 𝕄)) = (v2Loc d ↦[S]{q} f) := rfl
theorem pts_rowS (f : Buf (Elt F) ((thr d L).loc cc0_scratch0)) :
    (((rowS).view.loc (thr d L) ↦{fullShare} f : sProp 𝕄)) = ((thr d L).loc cc0_scratch0 ↦{fullShare} f) := rfl
theorem pts_idxS (f : Buf (Elt F) ((thr d L).loc cc0_scratch1)) :
    (((idxS).view.loc (thr d L) ↦{fullShare} f : sProp 𝕄)) = ((thr d L).loc cc0_scratch1 ↦{fullShare} f) := rfl
theorem pts_outS (f : Buf (Elt F) ((thr d L).loc cc0_scratch2)) :
    (((outS).view.loc (thr d L) ↦{fullShare} f : sProp 𝕄)) = ((thr d L).loc cc0_scratch2 ↦{fullShare} f) := rfl

theorem trips_t1 : k0_t1_loop.trips = 64 := by decide
theorem trips_t2 : k0_t2_loop.trips = 64 := by decide
theorem trips_t3 : k0_t3_loop.trips = 64 := by decide
theorem trips_t4 : k0_t4_loop.trips = 64 := by decide

/-- A gathered scratch copied out: the half-row slice, written whole with what the scratch reads, holds the gathered
    values. -/
theorem out_done (hidx : ∀ b : Fin 16384, ((V0 d : IVec S16384 32) (ix1 b)).toNat < 100000) (hh : Fin 2) (f : Fin 50)
    (o1 : Fin 2 → ℕ) (ho1 : o1 = ![f.val, 0]) (inb1 : ∀ a, o1 a + S1x100000.size a ≤ S50x100000.size a)
    (o2 : Fin 2 → ℕ) (ho2 : o2 = ![f.val, 8192 * hh.val]) (inb2 : ∀ a, o2 a + S1x8192.size a ≤ S50x16384.size a)
    (oi : Fin 1 → ℕ) (hoi : oi = ![8192 * hh.val]) (inbi : ∀ a, oi a + S8192.size a ≤ S16384.size a)
    (g0 : Buf (Elt F) (v2Loc d)) (fS : Buf (Elt F) ((thr d L).loc cc0_scratch2))
    (hfS : ∀ y : S8192.Idx, (outS).view.read (Elt F) fS y
      = gat ((tabRow o1 inb1).view.read (Elt F) (V1 d)) ((idxHalf oi inbi).view.read (Elt F) (V0 d)) y) :
    (((outHalf o2 inb2).view.loc (thr d L) ↦[(outHalf o2 inb2).view.set]{fullShare}
        ((outHalf o2 inb2).view.writes (Elt F) g0 [⟨Rect.whole S8192, ReadAs.same.apply ((outS).view.read (Elt F) fS)⟩]) : sProp 𝕄))
      = (v2Loc d ↦[(outHalf o2 inb2).view.set]{fullShare} gathered V0 V1 d) := by
  have hX : (outS).view.read (Elt F) fS
      = gat ((tabRow o1 inb1).view.read (Elt F) (V1 d)) ((idxHalf oi inbi).view.read (Elt F) (V0 d)) := funext hfS
  show (((outHalf o2 inb2).view.loc (thr d L) ↦[(outHalf o2 inb2).view.set]{fullShare}
        ((outHalf o2 inb2).view.writes (Elt F) g0 [⟨Rect.whole S8192, (outS).view.read (Elt F) fS⟩]) : sProp 𝕄)) = _
  rw [hX, ← View.write_univ_eq_writes_whole (outHalf o2 inb2).view g0 [] _]
  exact pointsTo_congr fun i hi => half_val V0 V1 d hidx f hh o1 ho1 inb1 o2 ho2 inb2 oi hoi inbi g0 i hi

/-- A wait at index `none` recorded on top of admissible waits leaves them admissible. -/
theorem waits_ok {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

set_option maxHeartbeats 4000000 in
/-- The task, as the launch asks it. -/
theorem tile_core : TileCore (F := F) V0 V1 := by
  unfold TileCore
  intro d L O W hO hidx
  have k0_h1 : k0_cond1 L = 1#1 := cond1_all L
  have ho1 : k0_off1 L = ![(f0 (cL L) (sL L)).val, 0] := k0_off1_eq L
  have ho11 : k0_off11 L = ![(f0 (cL L) (sL L)).val, 0] := k0_off11_eq L
  have ho21 : k0_off21 L = ![(f0 (cL L) (sL L)).val, 8192] := k0_off21_eq L
  generalize hg : gatherAt (F := F) L = prog
  unfold gatherAt at hg
  simp only [cc0__gather_body_eq_skeleton] at hg
  unfold cc0__gather_body_skel at hg
  simp only [k0_part3_eq_skeleton, k0_part6_eq_skeleton] at hg
  unfold k0_part3_skel k0_part6_skel at hg
  subst hg
  unfold tileGo tileTd rowIn rowOut idxTok
  rw [(K (F := F)).scopedBufs_V kfacts d (cV L) (jV L), SparseCore.Cfg.scopedSems0_V (Val := Elt F) d (cV L) (jV L),
    ownSems0_V9, ownBufs_V3]
  rw [rowSet2_eq (f0 (cL L) (sL L)) _ _ ho11 ho21 (k0_off11_inb L k0_h1) (k0_off21_inb L k0_h1),
    ← set_tabRow (f0 (cL L) (sL L)) _ ho1 (k0_off1_inb L k0_h1)]
  by_cases hc2 : 32 + (wid (cL L) (sL L)).val < 50
  · have k0_h2 : k0_cond2 L = 1#1 := (cond2_iff L).mpr hc2
    have hw : (wid (cL L) (sL L)).val = 2 * (L 1).val + (L 0).val := rfl
    have hf2 : 2 * (L 1).val + (L 0).val + 32 = (⟨32 + (wid (cL L) (sL L)).val, hc2⟩ : Fin 50).val := by show _ = 32 + (wid (cL L) (sL L)).val; rw [hw]; omega
    have ho22 : k0_off22 L = ![(⟨32 + (wid (cL L) (sL L)).val, hc2⟩ : Fin 50).val, 0] := (k0_off22_eq L).trans (congrArg (fun n : ℕ => (![n, 0] : Fin 2 → ℕ)) hf2)
    have ho32 : k0_off32 L = ![(⟨32 + (wid (cL L) (sL L)).val, hc2⟩ : Fin 50).val, 0] := (k0_off32_eq L).trans (congrArg (fun n : ℕ => (![n, 0] : Fin 2 → ℕ)) hf2)
    have ho42 : k0_off42 L = ![(⟨32 + (wid (cL L) (sL L)).val, hc2⟩ : Fin 50).val, 8192] := (k0_off42_eq L).trans (congrArg (fun n : ℕ => (![n, 8192] : Fin 2 → ℕ)) hf2)
    rw [dif_pos hc2]
    try rw [dif_pos hc2]
    rw [rowSet2_eq (⟨32 + (wid (cL L) (sL L)).val, hc2⟩ : Fin 50) _ _ ho32 ho42 (k0_off32_inb L k0_h2) (k0_off42_inb L k0_h2),
      ← set_tabRow (⟨32 + (wid (cL L) (sL L)).val, hc2⟩ : Fin 50) _ ho22 (k0_off22_inb L k0_h2)]
    iintro ⟨#Hlv, -, ⟨Htok, ⟨Hrow, %g, Hout⟩, ⟨Hrow2, %g2, Hout2⟩⟩, ⟨⟨⟨%fR, HR⟩, ⟨%fI, HI⟩, ⟨%fO, Hf⟩⟩, Hbufs⟩, ⟨⟨Hs3, Hc0, Hc1, Hc2, Hc3, Hc4, Hc5, Hc6, Hc7⟩, Hsems⟩, HO⟩
    ihave Hmw := ((K (F := F)).mayWaits_none (thr := thr d L) hO) $$ Hlv
    ihave Htok' := (Entails.of_eq (pts_idx (F := F) d L _ _).symm) $$ Htok
    ihave Hrow' := (Entails.of_eq (pts_tab (F := F) d L _ (k0_off1_inb L k0_h1) _ _ _).symm) $$ Hrow
    ihave Hout' := (pointsTo_union (outHalf_disjoint (f0 (cL L) (sL L)) _ _ ho11 ho21 (k0_off11_inb L k0_h1) (k0_off21_inb L k0_h1))).1 $$ Hout
    icases Hout' with ⟨Ho0, Ho1⟩
    ihave Ho0' := (Entails.of_eq (pts_out (F := F) d L _ (k0_off11_inb L k0_h1) _ _ _).symm) $$ Ho0
    ihave Ho1' := (Entails.of_eq (pts_out (F := F) d L _ (k0_off21_inb L k0_h1) _ _ _).symm) $$ Ho1
    ihave HR' := (Entails.of_eq (pts_rowS (F := F) d L _).symm) $$ HR
    ihave HI' := (Entails.of_eq (pts_idxS (F := F) d L _).symm) $$ HI
    ihave Hf' := (Entails.of_eq (pts_outS (F := F) d L _).symm) $$ Hf
    sl_exec
    rw [Prog.bind_assoc]
    sl_for (linv (F := F) d L ((tabRow (k0_off1 L) (k0_off1_inb L k0_h1)).view.read (Elt F) (V1 d))
        ((idxHalf ![0] inb_S16384_S8192_0).view.read (Elt F) (V0 d))) $$ [HR' HI' Hf']
    case region =>
      intro k _
      exact trip_t1 d L k0_h1 k _ _ (idxHalf_lt V0 d hidx _ _)
    · unfold linv
      iexists _, _, _
      isplitl [HR']; · iexact HR'
      isplitl [HI']; · iexact HI'
      isplitl [Hf']; · iexact Hf'
      ipureintro
      exact ⟨View.read_write_univ _ _, View.read_write_univ _ _, fun y hy => absurd hy (by omega)⟩
    iintro %_ Hinv
    unfold linv
    icases Hinv with ⟨%R1, %I1, %f1, HR1, HI1, Hf1, %h1⟩
    sl_exec
    sl_for (linv (F := F) d L ((tabRow (k0_off1 L) (k0_off1_inb L k0_h1)).view.read (Elt F) (V1 d))
        ((idxHalf ![8192] inb_S16384_S8192_8192).view.read (Elt F) (V0 d))) $$ [HR1 HI1 Hf1]
    case region =>
      intro k _
      exact trip_t2 d L k0_h1 _ _ k _ _ (idxHalf_lt V0 d hidx _ _)
    · unfold linv
      iexists _, _, _
      isplitl [HR1]; · iexact HR1
      isplitl [HI1]; · iexact HI1
      isplitl [Hf1]; · iexact Hf1
      ipureintro
      exact ⟨h1.1, View.read_write_univ _ _, fun y hy => absurd hy (by omega)⟩
    iintro %_ Hinv
    unfold linv
    icases Hinv with ⟨%R2, %I2, %f2, HR2, HI2, Hf2, %h2⟩
    sl_exec
    ihave Hrow2' := (Entails.of_eq (pts_tab (F := F) d L _ (k0_off22_inb L k0_h2) _ _ _).symm) $$ Hrow2
    ihave Hout2' := (pointsTo_union (outHalf_disjoint (⟨32 + (wid (cL L) (sL L)).val, hc2⟩ : Fin 50) _ _ ho32 ho42 (k0_off32_inb L k0_h2) (k0_off42_inb L k0_h2))).1 $$ Hout2
    icases Hout2' with ⟨Hp0, Hp1⟩
    ihave Hp0' := (Entails.of_eq (pts_out (F := F) d L _ (k0_off32_inb L k0_h2) _ _ _).symm) $$ Hp0
    ihave Hp1' := (Entails.of_eq (pts_out (F := F) d L _ (k0_off42_inb L k0_h2) _ _ _).symm) $$ Hp1
    sl_exec
    try rw [Prog.bind_assoc]
    sl_for (linv (F := F) d L ((tabRow (k0_off22 L) (k0_off22_inb L k0_h2)).view.read (Elt F) (V1 d))
        ((idxHalf ![0] inb_S16384_S8192_0).view.read (Elt F) (V0 d))) $$ [HR2 HI2 Hf2]
    case region =>
      intro k _
      exact trip_t3 d L k0_h2 k _ _ (idxHalf_lt V0 d hidx _ _)
    · unfold linv
      iexists _, _, _
      isplitl [HR2]; · iexact HR2
      isplitl [HI2]; · iexact HI2
      isplitl [Hf2]; · iexact Hf2
      ipureintro
      exact ⟨View.read_write_univ _ _, View.read_write_univ _ _, fun y hy => absurd hy (by omega)⟩
    iintro %_ Hinv
    unfold linv
    icases Hinv with ⟨%R3, %I3, %f3, HR3, HI3, Hf3, %h3⟩
    sl_exec
    sl_for (linv (F := F) d L ((tabRow (k0_off22 L) (k0_off22_inb L k0_h2)).view.read (Elt F) (V1 d))
        ((idxHalf ![8192] inb_S16384_S8192_8192).view.read (Elt F) (V0 d))) $$ [HR3 HI3 Hf3]
    case region =>
      intro k _
      exact trip_t4 d L k0_h2 _ _ k _ _ (idxHalf_lt V0 d hidx _ _)
    · unfold linv
      iexists _, _, _
      isplitl [HR3]; · iexact HR3
      isplitl [HI3]; · iexact HI3
      isplitl [Hf3]; · iexact Hf3
      ipureintro
      exact ⟨h3.1, View.read_write_univ _ _, fun y hy => absurd hy (by omega)⟩
    iintro %_ Hinv
    unfold linv
    icases Hinv with ⟨%R4, %I4, %f4, HR4, HI4, Hf4, %h4⟩
    sl_exec
    sl_step
    sl_unfold_run_names
    ihave Ho0g := (Entails.of_eq (out_done V0 V1 d L hidx 0 (f0 (cL L) (sL L)) _ ho1 (k0_off1_inb L k0_h1) _ ho11 (k0_off11_inb L k0_h1)
      ![0] rfl inb_S16384_S8192_0 _ f1 (fun y => h1.2.2 y (Nat.lt_of_lt_of_le (y 0).isLt (by decide))))) $$ Ho0'
    ihave Ho1g := (Entails.of_eq (out_done V0 V1 d L hidx 1 (f0 (cL L) (sL L)) _ ho1 (k0_off1_inb L k0_h1) _ ho21 (k0_off21_inb L k0_h1)
      ![8192] rfl inb_S16384_S8192_8192 _ f2 (fun y => h2.2.2 y (Nat.lt_of_lt_of_le (y 0).isLt (by decide))))) $$ Ho1'
    ihave Hog := (pointsTo_union (ℓ := v2Loc d) (q := fullShare) (f := gathered V0 V1 d) (outHalf_disjoint (f0 (cL L) (sL L)) _ _ ho11 ho21 (k0_off11_inb L k0_h1) (k0_off21_inb L k0_h1))).2 $$ [Ho0g Ho1g]
    · isplitl [Ho0g]; · iexact Ho0g
      iexact Ho1g
    ihave Hp0g := (Entails.of_eq (out_done V0 V1 d L hidx 0 (⟨32 + (wid (cL L) (sL L)).val, hc2⟩ : Fin 50) _ ho22 (k0_off22_inb L k0_h2) _ ho32 (k0_off32_inb L k0_h2)
      ![0] rfl inb_S16384_S8192_0 _ f3 (fun y => h3.2.2 y (Nat.lt_of_lt_of_le (y 0).isLt (by decide))))) $$ Hp0'
    ihave Hp1g := (Entails.of_eq (out_done V0 V1 d L hidx 1 (⟨32 + (wid (cL L) (sL L)).val, hc2⟩ : Fin 50) _ ho22 (k0_off22_inb L k0_h2) _ ho42 (k0_off42_inb L k0_h2)
      ![8192] rfl inb_S16384_S8192_8192 _ f4 (fun y => h4.2.2 y (Nat.lt_of_lt_of_le (y 0).isLt (by decide))))) $$ Hp1'
    ihave Hpg := (pointsTo_union (ℓ := v2Loc d) (q := fullShare) (f := gathered V0 V1 d) (outHalf_disjoint (⟨32 + (wid (cL L) (sL L)).val, hc2⟩ : Fin 50) _ _ ho32 ho42 (k0_off32_inb L k0_h2) (k0_off42_inb L k0_h2))).2 $$ [Hp0g Hp1g]
    · isplitl [Hp0g]; · iexact Hp0g
      iexact Hp1g
    isplitl [Htok' Hrow' Hog Hrow2' Hpg]
    · isplitl [Htok']; · iexact Htok'
      isplitl [Hrow' Hog]
      · isplitl [Hrow']; · iexact Hrow'
        iexact Hog
      isplitl [Hrow2']; · iexact Hrow2'
      iexact Hpg
    isplitl [HR4 HI4 Hf4 Hbufs]
    · isplitl [HR4 HI4 Hf4]
      · isplitl [HR4]; · iexists _; iexact HR4
        isplitl [HI4]; · iexists _; iexact HI4
        iexists _; iexact Hf4
      iexact Hbufs
    isplitl [Hs3 Hc0 Hc1 Hc2 Hc3 Hc4 Hc5 Hc6 Hc7 Hsems]
    · isplitl [Hs3 Hc0 Hc1 Hc2 Hc3 Hc4 Hc5 Hc6 Hc7]
      · isplitl [Hs3]; · iexact Hs3
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iexact Hsems
    iexists _; isplitr
    rotate_left
    · iexact HO
    · ipureintro
      repeat (first | exact fun p hp => Or.inl hp | refine waits_ok _ ?_)
  · have k0_h2 : ¬ k0_cond2 L = 1#1 := fun h => hc2 ((cond2_iff L).mp h)
    rw [dif_neg hc2]
    try rw [dif_neg hc2]
    iintro ⟨#Hlv, -, ⟨Htok, ⟨Hrow, %g, Hout⟩, HX2⟩, ⟨⟨⟨%fR, HR⟩, ⟨%fI, HI⟩, ⟨%fO, Hf⟩⟩, Hbufs⟩, ⟨⟨Hs3, Hc0, Hc1, Hc2, Hc3, Hc4, Hc5, Hc6, Hc7⟩, Hsems⟩, HO⟩
    ihave Hmw := ((K (F := F)).mayWaits_none (thr := thr d L) hO) $$ Hlv
    ihave Htok' := (Entails.of_eq (pts_idx (F := F) d L _ _).symm) $$ Htok
    ihave Hrow' := (Entails.of_eq (pts_tab (F := F) d L _ (k0_off1_inb L k0_h1) _ _ _).symm) $$ Hrow
    ihave Hout' := (pointsTo_union (outHalf_disjoint (f0 (cL L) (sL L)) _ _ ho11 ho21 (k0_off11_inb L k0_h1) (k0_off21_inb L k0_h1))).1 $$ Hout
    icases Hout' with ⟨Ho0, Ho1⟩
    ihave Ho0' := (Entails.of_eq (pts_out (F := F) d L _ (k0_off11_inb L k0_h1) _ _ _).symm) $$ Ho0
    ihave Ho1' := (Entails.of_eq (pts_out (F := F) d L _ (k0_off21_inb L k0_h1) _ _ _).symm) $$ Ho1
    ihave HR' := (Entails.of_eq (pts_rowS (F := F) d L _).symm) $$ HR
    ihave HI' := (Entails.of_eq (pts_idxS (F := F) d L _).symm) $$ HI
    ihave Hf' := (Entails.of_eq (pts_outS (F := F) d L _).symm) $$ Hf
    sl_exec
    rw [Prog.bind_assoc]
    sl_for (linv (F := F) d L ((tabRow (k0_off1 L) (k0_off1_inb L k0_h1)).view.read (Elt F) (V1 d))
        ((idxHalf ![0] inb_S16384_S8192_0).view.read (Elt F) (V0 d))) $$ [HR' HI' Hf']
    case region =>
      intro k _
      exact trip_t1 d L k0_h1 k _ _ (idxHalf_lt V0 d hidx _ _)
    · unfold linv
      iexists _, _, _
      isplitl [HR']; · iexact HR'
      isplitl [HI']; · iexact HI'
      isplitl [Hf']; · iexact Hf'
      ipureintro
      exact ⟨View.read_write_univ _ _, View.read_write_univ _ _, fun y hy => absurd hy (by omega)⟩
    iintro %_ Hinv
    unfold linv
    icases Hinv with ⟨%R1, %I1, %f1, HR1, HI1, Hf1, %h1⟩
    sl_exec
    sl_for (linv (F := F) d L ((tabRow (k0_off1 L) (k0_off1_inb L k0_h1)).view.read (Elt F) (V1 d))
        ((idxHalf ![8192] inb_S16384_S8192_8192).view.read (Elt F) (V0 d))) $$ [HR1 HI1 Hf1]
    case region =>
      intro k _
      exact trip_t2 d L k0_h1 _ _ k _ _ (idxHalf_lt V0 d hidx _ _)
    · unfold linv
      iexists _, _, _
      isplitl [HR1]; · iexact HR1
      isplitl [HI1]; · iexact HI1
      isplitl [Hf1]; · iexact Hf1
      ipureintro
      exact ⟨h1.1, View.read_write_univ _ _, fun y hy => absurd hy (by omega)⟩
    iintro %_ Hinv
    unfold linv
    icases Hinv with ⟨%R2, %I2, %f2, HR2, HI2, Hf2, %h2⟩
    sl_exec
    sl_exec
    sl_step
    sl_unfold_run_names
    ihave Ho0g := (Entails.of_eq (out_done V0 V1 d L hidx 0 (f0 (cL L) (sL L)) _ ho1 (k0_off1_inb L k0_h1) _ ho11 (k0_off11_inb L k0_h1)
      ![0] rfl inb_S16384_S8192_0 _ f1 (fun y => h1.2.2 y (Nat.lt_of_lt_of_le (y 0).isLt (by decide))))) $$ Ho0'
    ihave Ho1g := (Entails.of_eq (out_done V0 V1 d L hidx 1 (f0 (cL L) (sL L)) _ ho1 (k0_off1_inb L k0_h1) _ ho21 (k0_off21_inb L k0_h1)
      ![8192] rfl inb_S16384_S8192_8192 _ f2 (fun y => h2.2.2 y (Nat.lt_of_lt_of_le (y 0).isLt (by decide))))) $$ Ho1'
    ihave Hog := (pointsTo_union (ℓ := v2Loc d) (q := fullShare) (f := gathered V0 V1 d) (outHalf_disjoint (f0 (cL L) (sL L)) _ _ ho11 ho21 (k0_off11_inb L k0_h1) (k0_off21_inb L k0_h1))).2 $$ [Ho0g Ho1g]
    · isplitl [Ho0g]; · iexact Ho0g
      iexact Ho1g
    isplitl [Htok' Hrow' Hog HX2]
    · isplitl [Htok']; · iexact Htok'
      isplitl [Hrow' Hog]
      · isplitl [Hrow']; · iexact Hrow'
        iexact Hog
      iexact HX2
    isplitl [HR2 HI2 Hf2 Hbufs]
    · isplitl [HR2 HI2 Hf2]
      · isplitl [HR2]; · iexists _; iexact HR2
        isplitl [HI2]; · iexists _; iexact HI2
        iexists _; iexact Hf2
      iexact Hbufs
    isplitl [Hs3 Hc0 Hc1 Hc2 Hc3 Hc4 Hc5 Hc6 Hc7 Hsems]
    · isplitl [Hs3 Hc0 Hc1 Hc2 Hc3 Hc4 Hc5 Hc6 Hc7]
      · isplitl [Hs3]; · iexact Hs3
        isplitl [Hc0]; · iexact Hc0
        isplitl [Hc1]; · iexact Hc1
        isplitl [Hc2]; · iexact Hc2
        isplitl [Hc3]; · iexact Hc3
        isplitl [Hc4]; · iexact Hc4
        isplitl [Hc5]; · iexact Hc5
        isplitl [Hc6]; · iexact Hc6
        iexact Hc7
      iexact Hsems
    iexists _; isplitr
    rotate_left
    · iexact HO
    · ipureintro
      repeat (first | exact fun p hp => Or.inl hp | refine waits_ok _ ?_)

/-- The same, its hypotheses as arguments. -/
theorem tile_body (hidx : ∀ b : Fin 16384, ((V0 d : IVec S16384 32) (ix1 b)).toNat < 100000)
    (O : CellTallies nD τ sig (HIx 1)) (W : Waits sig (HIx 1)) (hO : ∀ g, O g none = 0) :
    (iprop(levAts (K (F := F)).L (K (F := F)).lev ∗ emp ∗ tileGo V0 V1 d (cL L) (sL L)
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ (gatherAt (F := F) L)
          fun _ => iprop(tileTd V0 V1 d (cL L) (sL L) ∗ scopedBufs (V d (cV L) (jV L)) ∗ scopedSems0 (V d (cV L) (jV L))
            ∗ ∃ W', ⌜∀ p ∈ W', p ∈ W ∨ p.2 = none⌝ ∗ owes (V d (cV L) (jV L)) O W') :=
  tile_core V0 V1 d L O W hO hidx

end Cert.Kernel.Tile

end
-- ==== Proof.lean ====
/-
  The five claims.

  Both programs compute, for a batch row, the table row its category word names followed by its numeric features,
  contracted with the weights, plus the bias; then `z ↦ z · logistic z`; then a contraction with the output weights plus
  the output bias. The kernel-side program gathers the table rows on the SparseCores (thirty-two workers, each copying
  one or two rows of the transposed table into its scratch and reading it at the indices), computes the numeric part
  and the table part of the pre-activation in two pipelined calls on transposed arrays, and transposes back; the
  reference takes the rows, concatenates, and contracts once. On the extended reals the two groupings of the sums
  agree (only commutativity and associativity are used), and the one-operation logistic is the reference's
  `1 / (1 + exp (−z))` by definition. The precondition is used once: every category word names a table row, so no
  worker's indexed load is out of range and the reference's out-of-range fill is never selected.

  The frames: the kernel-side program's run is the SparseCore launch theorem applied to one worker's task, the split of
  the three arrays among the workers, and the TensorCore's program, whose stretch after the gather call runs as a list
  of host steps and two pipeline regions; the reference's run is its host operations one after another. The
  idealization rewrote nothing, so the preservation claim has no conjunct.
-/
import proofs.«203298_g75634374082695_cont_9to1_m_1088_20_alg».proof.Defs
import proofs.«203298_g75634374082695_cont_9to1_m_1088_20_alg».proof.Proof.Frames
import proofs.«203298_g75634374082695_cont_9to1_m_1088_20_alg».proof.Proof.FramesBits
import proofs.«203298_g75634374082695_cont_9to1_m_1088_20_alg».proof.Proof.ValueChain
import proofs.«203298_g75634374082695_cont_9to1_m_1088_20_alg».proof.Proof.RefSpec
import proofs.«203298_g75634374082695_cont_9to1_m_1088_20_alg».proof.Proof.TileBody
import proofs.«203298_g75634374082695_cont_9to1_m_1088_20_alg».proof.Proof.TileBodyBits
import proofs.«203298_g75634374082695_cont_9to1_m_1088_20_alg».proof.Proof.Gen.Kernel
import proofs.«203298_g75634374082695_cont_9to1_m_1088_20_alg».proof.Proof.Gen.KernelIdeal
import proofs.«203298_g75634374082695_cont_9to1_m_1088_20_alg».proof.Proof.Gen.ReferenceIdeal
import proofs.«203298_g75634374082695_cont_9to1_m_1088_20_alg».proof.Proof.Gen.Pre_input_domain

noncomputable section

namespace Cert.Proof

open Idealize.ShloMosaic Idealize.SL.Sem

/-- One worker's task, at each instance. -/
theorem core_ideal (m : (ℓ : Loc Cert.KernelIdeal.nD Cert.KernelIdeal.τ Cert.KernelIdeal.sig) → Buf (Elt Ideal) ℓ) :
    Cert.KernelIdeal.Launch.TileCore (F := Ideal) (Cert.KernelIdeal.Launch.V0 m) (Cert.KernelIdeal.Launch.V1 m) :=
  Cert.KernelIdeal.Tile.tile_core (Cert.KernelIdeal.Launch.V0 m) (Cert.KernelIdeal.Launch.V1 m)
theorem core_bits (m : (ℓ : Loc Cert.Kernel.nD Cert.Kernel.τ Cert.Kernel.sig) → Buf (Elt Bits) ℓ) :
    Cert.Kernel.Launch.TileCore (F := Bits) (Cert.Kernel.Launch.V0 m) (Cert.Kernel.Launch.V1 m) :=
  Cert.Kernel.Tile.tile_core (Cert.Kernel.Launch.V0 m) (Cert.Kernel.Launch.V1 m)

theorem frame_k : Cert.frame_Kernel (hKernel := Cert.Kernel.Gen.facts) (hPre_input_domain := Cert.Pre_input_domain.Gen.facts) :=
  fun m g hpre => (θ_run (Cert.Kernel.defs (F := Bits)) _ _).mono (fun _ h c => (h c).2.2)
    (Cert.Kernel.Launch.frame_run (F := Bits) m g hpre (core_bits m))

theorem frame_ki : Cert.frame_KernelIdeal (hKernelIdeal := Cert.KernelIdeal.Gen.facts) (hPre_input_domain := Cert.Pre_input_domain.Gen.facts) :=
  fun m g hpre => (θ_run (Cert.KernelIdeal.defs (F := Ideal)) _ _).mono (fun _ h c => (h c).2.2)
    (Cert.KernelIdeal.Launch.frame_run (F := Ideal) m g hpre (core_ideal m))

theorem frame_ri : Cert.frame_ReferenceIdeal (hReferenceIdeal := Cert.ReferenceIdeal.Gen.facts) (hPre_input_domain := Cert.Pre_input_domain.Gen.facts) :=
  fun m g _ => (θ_run (Cert.ReferenceIdeal.defs (F := Ideal)) _ _).mono (fun _ h c => (h c).2.2) (Cert.RefSide.run (F := Ideal) m g)

theorem preserves : Cert.preserves_Kernel_KernelIdeal := trivial

theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.X (Cert.KernelIdeal.Launch.a0 m c) (Cert.KernelIdeal.Launch.a1 m c) (Cert.KernelIdeal.Launch.a2 m c)
      (Cert.KernelIdeal.Launch.a3 m c) (Cert.KernelIdeal.Launch.a4 m c),
    fun c => Cert.Spec.Out (Cert.KernelIdeal.Launch.a0 m c) (Cert.KernelIdeal.Launch.a1 m c) (Cert.KernelIdeal.Launch.a2 m c)
      (Cert.KernelIdeal.Launch.a3 m c) (Cert.KernelIdeal.Launch.a4 m c) (Cert.KernelIdeal.Launch.a5 m c) (Cert.KernelIdeal.Launch.a6 m c), ?_, ?_⟩
  · refine (θ_run (Cert.KernelIdeal.defs (F := Ideal)) _ _).mono (fun r h c => ?_)
      (Cert.KernelIdeal.Launch.frame_run (F := Ideal) m g hpre (core_ideal m))
    obtain ⟨h9, h10, hargs⟩ := h c
    exact ⟨h9.trans (Cert.KernelIdeal.Launch.W7_v9 m c), h10.trans (Cert.KernelIdeal.Launch.W7_v10 m c), hargs⟩
  · have hcat' : ∀ (c : Dev Cert.ReferenceIdeal.nD) (b : Fin 16384),
        ((m' ((c.tc : Thread Cert.ReferenceIdeal.nD Cert.ReferenceIdeal.τ).loc Cert.ReferenceIdeal.main_arg0) : IVec ⟨2, ![16384, 1]⟩ 32)
          (ValueIdx.ix2 b (0 : Fin 1))).toNat < 100000 := by
      intro c b
      rw [(hagree c).1]
      exact Cert.KernelIdeal.Launch.cat_lt_of_pre m hpre c b
    refine (θ_run (Cert.ReferenceIdeal.defs (F := Ideal)) _ _).mono (fun r h c => ?_) (Cert.RefSide.run_spec m' g' hcat')
    obtain ⟨hx, ho, hargs⟩ := h c
    obtain ⟨e0, e1, e2, e3, e4, e5, e6⟩ := hagree c
    refine ⟨?_, ?_, hargs⟩
    · rw [hx, e0, e1, e2, e3, e4]
    · rw [ho, e0, e1, e2, e3, e4, e5, e6]

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
